-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x128x128x128 : Shape := ⟨5, ![4, 8, 128, 128, 128]⟩
abbrev S4x512x512x3 : Shape := ⟨4, ![4, 512, 512, 3]⟩
abbrev S_ : Shape := ⟨0, ![]⟩

class Facts : Prop where
  bcast_S_S4x8x128x128x128 : S_.BroadcastsInDim S4x8x128x128x128 (![] : Fin 0 → Fin S4x8x128x128x128.rank)
  reducesTo_S4x8x128x128x128_S_d0_1_2_3_4 : S4x8x128x128x128.ReducesTo [0, 1, 2, 3, 4] S_
  h_S_ : 0 < S_.numel
  bcast_S_S4x512x512x3 : S_.BroadcastsInDim S4x512x512x3 (![] : Fin 0 → Fin S4x512x512x3.rank)
  reducesTo_S4x512x512x3_S_d0_1_2_3 : S4x512x512x3.ReducesTo [0, 1, 2, 3] S_

variable [Facts]

def fn {F : FTy → Type} [FloatOps F] (main_arg0 : FVec F S4x8x128x128x128 .f32) (main_arg1 : FVec F S4x512x512x3 .f32) : IVec S_ 1 :=
  let main_v0 : FVec F S4x8x128x128x128 .f32 := Host.absf main_arg0
  let main_cst : FVec F S_ .f32 := constant S_ .f32 0x7F800000#32
  let main_v1 : FVec F S4x8x128x128x128 .f32 := broadcastInDim S4x8x128x128x128 ![] bcast_S_S4x8x128x128x128 main_cst
  let main_v2 : IVec S4x8x128x128x128 1 := cmpf .olt main_v0 main_v1
  let main_c : IVec S_ 1 := constantI S_ 1 1#1
  let main_v3 : IVec S_ 1 := (fun x v => Host.reduce IntOp.andi x v reducesTo_S4x8x128x128x128_S_d0_1_2_3_4 h_S_) main_v2 main_c
  let main_v4 : FVec F S4x512x512x3 .f32 := Host.absf main_arg1
  let main_cst_0 : FVec F S_ .f32 := constant S_ .f32 0x7F800000#32
  let main_v5 : FVec F S4x512x512x3 .f32 := broadcastInDim S4x512x512x3 ![] bcast_S_S4x512x512x3 main_cst_0
  let main_v6 : IVec S4x512x512x3 1 := cmpf .olt main_v4 main_v5
  let main_c_1 : IVec S_ 1 := constantI S_ 1 1#1
  let main_v7 : IVec S_ 1 := (fun x v => Host.reduce IntOp.andi x v reducesTo_S4x512x512x3_S_d0_1_2_3 h_S_) main_v6 main_c_1
  let main_v8 : IVec S_ 1 := andi main_v3 main_v7
  main_v8
-- ==== Kernel.lean ====
abbrev S4x8x128x128x128 : Shape := ⟨5, ![4, 8, 128, 128, 128]⟩
abbrev S4x512x512x3 : Shape := ⟨4, ![4, 512, 512, 3]⟩
abbrev S3 : Shape := ⟨1, ![3]⟩
abbrev S_ : Shape := ⟨0, ![]⟩
abbrev S1x1x1x3 : Shape := ⟨4, ![1, 1, 1, 3]⟩
abbrev S4x512x512x1 : Shape := ⟨4, ![4, 512, 512, 1]⟩
abbrev S4x512x512 : Shape := ⟨3, ![4, 512, 512]⟩
abbrev S4x8x2097152 : Shape := ⟨3, ![4, 8, 2097152]⟩
abbrev S4x2097152x8 : Shape := ⟨3, ![4, 2097152, 8]⟩
abbrev S4x262144x1 : Shape := ⟨3, ![4, 262144, 1]⟩
abbrev S4x262144x8 : Shape := ⟨3, ![4, 262144, 8]⟩
abbrev S4x262144x8x1 : Shape := ⟨4, ![4, 262144, 8, 1]⟩
abbrev S1 : Shape := ⟨1, ![1]⟩
abbrev S1x1x1x1 : Shape := ⟨4, ![1, 1, 1, 1]⟩
abbrev S4x512x512x8 : Shape := ⟨4, ![4, 512, 512, 8]⟩
abbrev S4x8x512x512 : Shape := ⟨4, ![4, 8, 512, 512]⟩
abbrev S1x8x64x512 : Shape := ⟨4, ![1, 8, 64, 512]⟩
abbrev S1x64x512 : Shape := ⟨3, ![1, 64, 512]⟩
abbrev S64x512 : Shape := ⟨2, ![64, 512]⟩
abbrev S8x64x512 : Shape := ⟨3, ![8, 64, 512]⟩

abbrev nBuf : Space → Nat
  | .hbm => 370
  | .vmem => 24
  | .smem => 0
  | _ => 0

abbrev hbmTy0_0 (i : Nat) : BufTy := match i % 128 with
  | 0 => ⟨S4x8x128x128x128, .f32⟩
  | 1 => ⟨S4x512x512x3, .f32⟩
  | 2 => ⟨S3, .f32⟩
  | 3 => ⟨S_, .f32⟩
  | 4 => ⟨S_, .f32⟩
  | 5 => ⟨S_, .f32⟩
  | 6 => ⟨S4x512x512x3, .f32⟩
  | 7 => ⟨S4x512x512x3, .f32⟩
  | 8 => ⟨S_, .f32⟩
  | 9 => ⟨S4x512x512x3, .f32⟩
  | 10 => ⟨S4x512x512x3, .f32⟩
  | 11 => ⟨S_, .f32⟩
  | 12 => ⟨S4x512x512x3, .f32⟩
  | 13 => ⟨S4x512x512x3, .f32⟩
  | 14 => ⟨S_, .f32⟩
  | 15 => ⟨S4x512x512x3, .f32⟩
  | 16 => ⟨S4x512x512x3, .f32⟩
  | 17 => ⟨S1x1x1x3, .f32⟩
  | 18 => ⟨S4x512x512x3, .f32⟩
  | 19 => ⟨S4x512x512x3, .f32⟩
  | 20 => ⟨S4x512x512x1, .f32⟩
  | 21 => ⟨S4x512x512, .f32⟩
  | 22 => ⟨S4x512x512x1, .f32⟩
  | 23 => ⟨S4x512x512, .f32⟩
  | 24 => ⟨S4x512x512x1, .f32⟩
  | 25 => ⟨S4x512x512, .f32⟩
  | 26 => ⟨S4x512x512, .f32⟩
  | 27 => ⟨S4x512x512, .f32⟩
  | 28 => ⟨S4x512x512, .f32⟩
  | 29 => ⟨S4x512x512, .f32⟩
  | 30 => ⟨S4x512x512, .f32⟩
  | 31 => ⟨S4x512x512, .f32⟩
  | 32 => ⟨S_, .i32⟩
  | 33 => ⟨S_, .i32⟩
  | 34 => ⟨S_, .f32⟩
  | 35 => ⟨S4x512x512, .f32⟩
  | 36 => ⟨S4x512x512, .f32⟩
  | 37 => ⟨S_, .f32⟩
  | 38 => ⟨S4x512x512, .f32⟩
  | 39 => ⟨S4x512x512, .f32⟩
  | 40 => ⟨S4x512x512, .i32⟩
  | 41 => ⟨S_, .f32⟩
  | 42 => ⟨S4x512x512, .f32⟩
  | 43 => ⟨S4x512x512, .f32⟩
  | 44 => ⟨S_, .i32⟩
  | 45 => ⟨S_, .i32⟩
  | 46 => ⟨S_, .f32⟩
  | 47 => ⟨S4x512x512, .f32⟩
  | 48 => ⟨S4x512x512, .f32⟩
  | 49 => ⟨S_, .f32⟩
  | 50 => ⟨S4x512x512, .f32⟩
  | 51 => ⟨S4x512x512, .f32⟩
  | 52 => ⟨S4x512x512, .i32⟩
  | 53 => ⟨S_, .i32⟩
  | 54 => ⟨S_, .i32⟩
  | 55 => ⟨S_, .f32⟩
  | 56 => ⟨S4x512x512, .f32⟩
  | 57 => ⟨S4x512x512, .f32⟩
  | 58 => ⟨S_, .f32⟩
  | 59 => ⟨S4x512x512, .f32⟩
  | 60 => ⟨S4x512x512, .f32⟩
  | 61 => ⟨S4x512x512, .i32⟩
  | 62 => ⟨S_, .f32⟩
  | 63 => ⟨S4x512x512, .f32⟩
  | 64 => ⟨S4x512x512, .f32⟩
  | 65 => ⟨S_, .i32⟩
  | 66 => ⟨S_, .i32⟩
  | 67 => ⟨S_, .f32⟩
  | 68 => ⟨S4x512x512, .f32⟩
  | 69 => ⟨S4x512x512, .f32⟩
  | 70 => ⟨S_, .f32⟩
  | 71 => ⟨S4x512x512, .f32⟩
  | 72 => ⟨S4x512x512, .f32⟩
  | 73 => ⟨S4x512x512, .i32⟩
  | 74 => ⟨S_, .i32⟩
  | 75 => ⟨S_, .i32⟩
  | 76 => ⟨S_, .f32⟩
  | 77 => ⟨S4x512x512, .f32⟩
  | 78 => ⟨S4x512x512, .f32⟩
  | 79 => ⟨S_, .f32⟩
  | 80 => ⟨S4x512x512, .f32⟩
  | 81 => ⟨S4x512x512, .f32⟩
  | 82 => ⟨S4x512x512, .i32⟩
  | 83 => ⟨S_, .f32⟩
  | 84 => ⟨S4x512x512, .f32⟩
  | 85 => ⟨S4x512x512, .f32⟩
  | 86 => ⟨S_, .i32⟩
  | 87 => ⟨S_, .i32⟩
  | 88 => ⟨S_, .f32⟩
  | 89 => ⟨S4x512x512, .f32⟩
  | 90 => ⟨S4x512x512, .f32⟩
  | 91 => ⟨S_, .f32⟩
  | 92 => ⟨S4x512x512, .f32⟩
  | 93 => ⟨S4x512x512, .f32⟩
  | 94 => ⟨S4x512x512, .i32⟩
  | 95 => ⟨S4x8x2097152, .f32⟩
  | 96 => ⟨S4x2097152x8, .f32⟩
  | 97 => ⟨S_, .i32⟩
  | 98 => ⟨S4x512x512, .i32⟩
  | 99 => ⟨S4x512x512, .i32⟩
  | 100 => ⟨S4x512x512, .i32⟩
  | 101 => ⟨S_, .i32⟩
  | 102 => ⟨S4x512x512, .i32⟩
  | 103 => ⟨S4x512x512, .i32⟩
  | 104 => ⟨S4x512x512, .i32⟩
  | 105 => ⟨S4x262144x1, .i32⟩
  | 106 => ⟨S4x262144x8, .i32⟩
  | 107 => ⟨S_, .i32⟩
  | 108 => ⟨S4x262144x8, .i32⟩
  | 109 => ⟨S4x262144x8, .i1⟩
  | 110 => ⟨S_, .i32⟩
  | 111 => ⟨S4x262144x8, .i32⟩
  | 112 => ⟨S4x262144x8, .i32⟩
  | 113 => ⟨S4x262144x8, .i32⟩
  | 114 => ⟨S4x262144x8x1, .i32⟩
  | 115 => ⟨S1, .i32⟩
  | 116 => ⟨S_, .i32⟩
  | 117 => ⟨S4x262144x8x1, .i32⟩
  | 118 => ⟨S4x262144x8x1, .i1⟩
  | 119 => ⟨S1x1x1x1, .i32⟩
  | 120 => ⟨S4x262144x8x1, .i32⟩
  | 121 => ⟨S4x262144x8x1, .i1⟩
  | 122 => ⟨S4x262144x8x1, .i1⟩
  | 123 => ⟨S_, .i1⟩
  | 124 => ⟨S4x262144x8, .i1⟩
  | 125 => ⟨S4x262144x8, .f32⟩
  | 126 => ⟨S_, .f32⟩
  | 127 => ⟨S4x262144x8, .f32⟩
  | _ => ⟨S4x8x128x128x128, .f32⟩

abbrev hbmTy0_1 (i : Nat) : BufTy := match i % 128 with
  | 0 => ⟨S4x262144x8, .f32⟩
  | 1 => ⟨S4x512x512x8, .f32⟩
  | 2 => ⟨S4x8x512x512, .f32⟩
  | 3 => ⟨S_, .i32⟩
  | 4 => ⟨S4x512x512, .i32⟩
  | 5 => ⟨S4x512x512, .i32⟩
  | 6 => ⟨S4x512x512, .i32⟩
  | 7 => ⟨S_, .i32⟩
  | 8 => ⟨S4x512x512, .i32⟩
  | 9 => ⟨S4x512x512, .i32⟩
  | 10 => ⟨S4x512x512, .i32⟩
  | 11 => ⟨S4x262144x1, .i32⟩
  | 12 => ⟨S4x262144x8, .i32⟩
  | 13 => ⟨S_, .i32⟩
  | 14 => ⟨S4x262144x8, .i32⟩
  | 15 => ⟨S4x262144x8, .i1⟩
  | 16 => ⟨S_, .i32⟩
  | 17 => ⟨S4x262144x8, .i32⟩
  | 18 => ⟨S4x262144x8, .i32⟩
  | 19 => ⟨S4x262144x8, .i32⟩
  | 20 => ⟨S4x262144x8x1, .i32⟩
  | 21 => ⟨S1, .i32⟩
  | 22 => ⟨S_, .i32⟩
  | 23 => ⟨S4x262144x8x1, .i32⟩
  | 24 => ⟨S4x262144x8x1, .i1⟩
  | 25 => ⟨S1x1x1x1, .i32⟩
  | 26 => ⟨S4x262144x8x1, .i32⟩
  | 27 => ⟨S4x262144x8x1, .i1⟩
  | 28 => ⟨S4x262144x8x1, .i1⟩
  | 29 => ⟨S_, .i1⟩
  | 30 => ⟨S4x262144x8, .i1⟩
  | 31 => ⟨S4x262144x8, .f32⟩
  | 32 => ⟨S_, .f32⟩
  | 33 => ⟨S4x262144x8, .f32⟩
  | 34 => ⟨S4x262144x8, .f32⟩
  | 35 => ⟨S4x512x512x8, .f32⟩
  | 36 => ⟨S4x8x512x512, .f32⟩
  | 37 => ⟨S_, .i32⟩
  | 38 => ⟨S4x512x512, .i32⟩
  | 39 => ⟨S4x512x512, .i32⟩
  | 40 => ⟨S4x512x512, .i32⟩
  | 41 => ⟨S_, .i32⟩
  | 42 => ⟨S4x512x512, .i32⟩
  | 43 => ⟨S4x512x512, .i32⟩
  | 44 => ⟨S4x512x512, .i32⟩
  | 45 => ⟨S4x262144x1, .i32⟩
  | 46 => ⟨S4x262144x8, .i32⟩
  | 47 => ⟨S_, .i32⟩
  | 48 => ⟨S4x262144x8, .i32⟩
  | 49 => ⟨S4x262144x8, .i1⟩
  | 50 => ⟨S_, .i32⟩
  | 51 => ⟨S4x262144x8, .i32⟩
  | 52 => ⟨S4x262144x8, .i32⟩
  | 53 => ⟨S4x262144x8, .i32⟩
  | 54 => ⟨S4x262144x8x1, .i32⟩
  | 55 => ⟨S1, .i32⟩
  | 56 => ⟨S_, .i32⟩
  | 57 => ⟨S4x262144x8x1, .i32⟩
  | 58 => ⟨S4x262144x8x1, .i1⟩
  | 59 => ⟨S1x1x1x1, .i32⟩
  | 60 => ⟨S4x262144x8x1, .i32⟩
  | 61 => ⟨S4x262144x8x1, .i1⟩
  | 62 => ⟨S4x262144x8x1, .i1⟩
  | 63 => ⟨S_, .i1⟩
  | 64 => ⟨S4x262144x8, .i1⟩
  | 65 => ⟨S4x262144x8, .f32⟩
  | 66 => ⟨S_, .f32⟩
  | 67 => ⟨S4x262144x8, .f32⟩
  | 68 => ⟨S4x262144x8, .f32⟩
  | 69 => ⟨S4x512x512x8, .f32⟩
  | 70 => ⟨S4x8x512x512, .f32⟩
  | 71 => ⟨S_, .i32⟩
  | 72 => ⟨S4x512x512, .i32⟩
  | 73 => ⟨S4x512x512, .i32⟩
  | 74 => ⟨S4x512x512, .i32⟩
  | 75 => ⟨S_, .i32⟩
  | 76 => ⟨S4x512x512, .i32⟩
  | 77 => ⟨S4x512x512, .i32⟩
  | 78 => ⟨S4x512x512, .i32⟩
  | 79 => ⟨S4x262144x1, .i32⟩
  | 80 => ⟨S4x262144x8, .i32⟩
  | 81 => ⟨S_, .i32⟩
  | 82 => ⟨S4x262144x8, .i32⟩
  | 83 => ⟨S4x262144x8, .i1⟩
  | 84 => ⟨S_, .i32⟩
  | 85 => ⟨S4x262144x8, .i32⟩
  | 86 => ⟨S4x262144x8, .i32⟩
  | 87 => ⟨S4x262144x8, .i32⟩
  | 88 => ⟨S4x262144x8x1, .i32⟩
  | 89 => ⟨S1, .i32⟩
  | 90 => ⟨S_, .i32⟩
  | 91 => ⟨S4x262144x8x1, .i32⟩
  | 92 => ⟨S4x262144x8x1, .i1⟩
  | 93 => ⟨S1x1x1x1, .i32⟩
  | 94 => ⟨S4x262144x8x1, .i32⟩
  | 95 => ⟨S4x262144x8x1, .i1⟩
  | 96 => ⟨S4x262144x8x1, .i1⟩
  | 97 => ⟨S_, .i1⟩
  | 98 => ⟨S4x262144x8, .i1⟩
  | 99 => ⟨S4x262144x8, .f32⟩
  | 100 => ⟨S_, .f32⟩
  | 101 => ⟨S4x262144x8, .f32⟩
  | 102 => ⟨S4x262144x8, .f32⟩
  | 103 => ⟨S4x512x512x8, .f32⟩
  | 104 => ⟨S4x8x512x512, .f32⟩
  | 105 => ⟨S_, .i32⟩
  | 106 => ⟨S4x512x512, .i32⟩
  | 107 => ⟨S4x512x512, .i32⟩
  | 108 => ⟨S4x512x512, .i32⟩
  | 109 => ⟨S_, .i32⟩
  | 110 => ⟨S4x512x512, .i32⟩
  | 111 => ⟨S4x512x512, .i32⟩
  | 112 => ⟨S4x512x512, .i32⟩
  | 113 => ⟨S4x262144x1, .i32⟩
  | 114 => ⟨S4x262144x8, .i32⟩
  | 115 => ⟨S_, .i32⟩
  | 116 => ⟨S4x262144x8, .i32⟩
  | 117 => ⟨S4x262144x8, .i1⟩
  | 118 => ⟨S_, .i32⟩
  | 119 => ⟨S4x262144x8, .i32⟩
  | 120 => ⟨S4x262144x8, .i32⟩
  | 121 => ⟨S4x262144x8, .i32⟩
  | 122 => ⟨S4x262144x8x1, .i32⟩
  | 123 => ⟨S1, .i32⟩
  | 124 => ⟨S_, .i32⟩
  | 125 => ⟨S4x262144x8x1, .i32⟩
  | 126 => ⟨S4x262144x8x1, .i1⟩
  | 127 => ⟨S1x1x1x1, .i32⟩
  | _ => ⟨S4x8x128x128x128, .f32⟩

abbrev hbmTy0_2 (i : Nat) : BufTy := match i % 128 with
  | 0 => ⟨S4x262144x8x1, .i32⟩
  | 1 => ⟨S4x262144x8x1, .i1⟩
  | 2 => ⟨S4x262144x8x1, .i1⟩
  | 3 => ⟨S_, .i1⟩
  | 4 => ⟨S4x262144x8, .i1⟩
  | 5 => ⟨S4x262144x8, .f32⟩
  | 6 => ⟨S_, .f32⟩
  | 7 => ⟨S4x262144x8, .f32⟩
  | 8 => ⟨S4x262144x8, .f32⟩
  | 9 => ⟨S4x512x512x8, .f32⟩
  | 10 => ⟨S4x8x512x512, .f32⟩
  | 11 => ⟨S_, .i32⟩
  | 12 => ⟨S4x512x512, .i32⟩
  | 13 => ⟨S4x512x512, .i32⟩
  | 14 => ⟨S4x512x512, .i32⟩
  | 15 => ⟨S_, .i32⟩
  | 16 => ⟨S4x512x512, .i32⟩
  | 17 => ⟨S4x512x512, .i32⟩
  | 18 => ⟨S4x512x512, .i32⟩
  | 19 => ⟨S4x262144x1, .i32⟩
  | 20 => ⟨S4x262144x8, .i32⟩
  | 21 => ⟨S_, .i32⟩
  | 22 => ⟨S4x262144x8, .i32⟩
  | 23 => ⟨S4x262144x8, .i1⟩
  | 24 => ⟨S_, .i32⟩
  | 25 => ⟨S4x262144x8, .i32⟩
  | 26 => ⟨S4x262144x8, .i32⟩
  | 27 => ⟨S4x262144x8, .i32⟩
  | 28 => ⟨S4x262144x8x1, .i32⟩
  | 29 => ⟨S1, .i32⟩
  | 30 => ⟨S_, .i32⟩
  | 31 => ⟨S4x262144x8x1, .i32⟩
  | 32 => ⟨S4x262144x8x1, .i1⟩
  | 33 => ⟨S1x1x1x1, .i32⟩
  | 34 => ⟨S4x262144x8x1, .i32⟩
  | 35 => ⟨S4x262144x8x1, .i1⟩
  | 36 => ⟨S4x262144x8x1, .i1⟩
  | 37 => ⟨S_, .i1⟩
  | 38 => ⟨S4x262144x8, .i1⟩
  | 39 => ⟨S4x262144x8, .f32⟩
  | 40 => ⟨S_, .f32⟩
  | 41 => ⟨S4x262144x8, .f32⟩
  | 42 => ⟨S4x262144x8, .f32⟩
  | 43 => ⟨S4x512x512x8, .f32⟩
  | 44 => ⟨S4x8x512x512, .f32⟩
  | 45 => ⟨S_, .i32⟩
  | 46 => ⟨S4x512x512, .i32⟩
  | 47 => ⟨S4x512x512, .i32⟩
  | 48 => ⟨S4x512x512, .i32⟩
  | 49 => ⟨S_, .i32⟩
  | 50 => ⟨S4x512x512, .i32⟩
  | 51 => ⟨S4x512x512, .i32⟩
  | 52 => ⟨S4x512x512, .i32⟩
  | 53 => ⟨S4x262144x1, .i32⟩
  | 54 => ⟨S4x262144x8, .i32⟩
  | 55 => ⟨S_, .i32⟩
  | 56 => ⟨S4x262144x8, .i32⟩
  | 57 => ⟨S4x262144x8, .i1⟩
  | 58 => ⟨S_, .i32⟩
  | 59 => ⟨S4x262144x8, .i32⟩
  | 60 => ⟨S4x262144x8, .i32⟩
  | 61 => ⟨S4x262144x8, .i32⟩
  | 62 => ⟨S4x262144x8x1, .i32⟩
  | 63 => ⟨S1, .i32⟩
  | 64 => ⟨S_, .i32⟩
  | 65 => ⟨S4x262144x8x1, .i32⟩
  | 66 => ⟨S4x262144x8x1, .i1⟩
  | 67 => ⟨S1x1x1x1, .i32⟩
  | 68 => ⟨S4x262144x8x1, .i32⟩
  | 69 => ⟨S4x262144x8x1, .i1⟩
  | 70 => ⟨S4x262144x8x1, .i1⟩
  | 71 => ⟨S_, .i1⟩
  | 72 => ⟨S4x262144x8, .i1⟩
  | 73 => ⟨S4x262144x8, .f32⟩
  | 74 => ⟨S_, .f32⟩
  | 75 => ⟨S4x262144x8, .f32⟩
  | 76 => ⟨S4x262144x8, .f32⟩
  | 77 => ⟨S4x512x512x8, .f32⟩
  | 78 => ⟨S4x8x512x512, .f32⟩
  | 79 => ⟨S_, .i32⟩
  | 80 => ⟨S4x512x512, .i32⟩
  | 81 => ⟨S4x512x512, .i32⟩
  | 82 => ⟨S4x512x512, .i32⟩
  | 83 => ⟨S_, .i32⟩
  | 84 => ⟨S4x512x512, .i32⟩
  | 85 => ⟨S4x512x512, .i32⟩
  | 86 => ⟨S4x512x512, .i32⟩
  | 87 => ⟨S4x262144x1, .i32⟩
  | 88 => ⟨S4x262144x8, .i32⟩
  | 89 => ⟨S_, .i32⟩
  | 90 => ⟨S4x262144x8, .i32⟩
  | 91 => ⟨S4x262144x8, .i1⟩
  | 92 => ⟨S_, .i32⟩
  | 93 => ⟨S4x262144x8, .i32⟩
  | 94 => ⟨S4x262144x8, .i32⟩
  | 95 => ⟨S4x262144x8, .i32⟩
  | 96 => ⟨S4x262144x8x1, .i32⟩
  | 97 => ⟨S1, .i32⟩
  | 98 => ⟨S_, .i32⟩
  | 99 => ⟨S4x262144x8x1, .i32⟩
  | 100 => ⟨S4x262144x8x1, .i1⟩
  | 101 => ⟨S1x1x1x1, .i32⟩
  | 102 => ⟨S4x262144x8x1, .i32⟩
  | 103 => ⟨S4x262144x8x1, .i1⟩
  | 104 => ⟨S4x262144x8x1, .i1⟩
  | 105 => ⟨S_, .i1⟩
  | 106 => ⟨S4x262144x8, .i1⟩
  | 107 => ⟨S4x262144x8, .f32⟩
  | 108 => ⟨S_, .f32⟩
  | 109 => ⟨S4x262144x8, .f32⟩
  | 110 => ⟨S4x262144x8, .f32⟩
  | 111 => ⟨S4x512x512x8, .f32⟩
  | 112 => ⟨S4x8x512x512, .f32⟩
  | 113 => ⟨S4x8x512x512, .f32⟩
  | _ => ⟨S4x8x128x128x128, .f32⟩

abbrev hbmTy (i : Nat) : BufTy := match i / 128 with
  | 0 => hbmTy0_0 i
  | 1 => hbmTy0_1 i
  | 2 => hbmTy0_2 i
  | _ => ⟨S4x8x128x128x128, .f32⟩

abbrev bufTy : (tb : Table) → Fin (tcTables nBuf tb) → BufTy
  | .hbm, ⟨i, _⟩ => hbmTy i
  | .local _ .vmem, ⟨0, _⟩ => ⟨S1x8x64x512, .f32⟩
  | .local _ .vmem, ⟨1, _⟩ => ⟨S1x8x64x512, .f32⟩
  | .local _ .vmem, ⟨2, _⟩ => ⟨S1x8x64x512, .f32⟩
  | .local _ .vmem, ⟨3, _⟩ => ⟨S1x8x64x512, .f32⟩
  | .local _ .vmem, ⟨4, _⟩ => ⟨S1x8x64x512, .f32⟩
  | .local _ .vmem, ⟨5, _⟩ => ⟨S1x8x64x512, .f32⟩
  | .local _ .vmem, ⟨6, _⟩ => ⟨S1x8x64x512, .f32⟩
  | .local _ .vmem, ⟨7, _⟩ => ⟨S1x8x64x512, .f32⟩
  | .local _ .vmem, ⟨8, _⟩ => ⟨S1x8x64x512, .f32⟩
  | .local _ .vmem, ⟨9, _⟩ => ⟨S1x8x64x512, .f32⟩
  | .local _ .vmem, ⟨10, _⟩ => ⟨S1x8x64x512, .f32⟩
  | .local _ .vmem, ⟨11, _⟩ => ⟨S1x8x64x512, .f32⟩
  | .local _ .vmem, ⟨12, _⟩ => ⟨S1x8x64x512, .f32⟩
  | .local _ .vmem, ⟨13, _⟩ => ⟨S1x8x64x512, .f32⟩
  | .local _ .vmem, ⟨14, _⟩ => ⟨S1x8x64x512, .f32⟩
  | .local _ .vmem, ⟨15, _⟩ => ⟨S1x8x64x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1x64x512, .f32⟩
  | .local _ .vmem, ⟨20, _⟩ => ⟨S1x64x512, .f32⟩
  | .local _ .vmem, ⟨21, _⟩ => ⟨S1x64x512, .f32⟩
  | .local _ .vmem, ⟨22, _⟩ => ⟨S1x8x64x512, .f32⟩
  | .local _ .vmem, ⟨23, _⟩ => ⟨S1x8x64x512, .f32⟩
  | _, _ => ⟨S4x8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_2 : Ref sig .tc := ⟨.hbm, 11, rfl⟩
abbrev main_v1 : Ref sig .tc := ⟨.hbm, 12, rfl⟩
abbrev main_v2 : Ref sig .tc := ⟨.hbm, 13, rfl⟩
abbrev main_cst_3 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_c_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v24 : Ref sig .tc := ⟨.hbm, 51, rfl⟩
abbrev main_v25 : Ref sig .tc := ⟨.hbm, 52, rfl⟩
abbrev main_c_8 : Ref sig .tc := ⟨.hbm, 53, rfl⟩
abbrev main_c_9 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v26 : Ref sig .tc := ⟨.hbm, 60, rfl⟩
abbrev main_v27 : Ref sig .tc := ⟨.hbm, 61, rfl⟩
abbrev main_cst_10 : Ref sig .tc := ⟨.hbm, 62, rfl⟩
abbrev main_v28 : Ref sig .tc := ⟨.hbm, 63, rfl⟩
abbrev main_v29 : Ref sig .tc := ⟨.hbm, 64, rfl⟩
abbrev main_c_11 : Ref sig .tc := ⟨.hbm, 65, rfl⟩
abbrev main_c_12 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v30 : Ref sig .tc := ⟨.hbm, 72, rfl⟩
abbrev main_v31 : Ref sig .tc := ⟨.hbm, 73, rfl⟩
abbrev main_c_13 : Ref sig .tc := ⟨.hbm, 74, rfl⟩
abbrev main_c_14 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_v32 : Ref sig .tc := ⟨.hbm, 81, rfl⟩
abbrev main_v33 : Ref sig .tc := ⟨.hbm, 82, rfl⟩
abbrev main_cst_15 : Ref sig .tc := ⟨.hbm, 83, rfl⟩
abbrev main_v34 : Ref sig .tc := ⟨.hbm, 84, rfl⟩
abbrev main_v35 : Ref sig .tc := ⟨.hbm, 85, rfl⟩
abbrev main_c_16 : Ref sig .tc := ⟨.hbm, 86, rfl⟩
abbrev main_c_17 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_c_18 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_c_19 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_call7_c : Ref sig .tc := ⟨.hbm, 107, rfl⟩
abbrev main_call7_v0 : Ref sig .tc := ⟨.hbm, 108, rfl⟩
abbrev main_call7_v1 : Ref sig .tc := ⟨.hbm, 109, rfl⟩
abbrev main_call7_c_0 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_v5 : Ref sig .tc := ⟨.hbm, 114, rfl⟩
abbrev main_call7_c_1 : Ref sig .tc := ⟨.hbm, 115, rfl⟩
abbrev main_call7_c_2 : Ref sig .tc := ⟨.hbm, 116, rfl⟩
abbrev main_call7_v6 : Ref sig .tc := ⟨.hbm, 117, rfl⟩
abbrev main_call7_v7 : Ref sig .tc := ⟨.hbm, 118, rfl⟩
abbrev main_call7_v8 : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_c_3 : Ref sig .tc := ⟨.hbm, 123, rfl⟩
abbrev main_call7_v12 : Ref sig .tc := ⟨.hbm, 124, rfl⟩
abbrev main_call7_v13 : Ref sig .tc := ⟨.hbm, 125, rfl⟩
abbrev main_call7_cst : Ref sig .tc := ⟨.hbm, 126, rfl⟩
abbrev main_call7_v14 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_c_20 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_c_21 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_call8_c : Ref sig .tc := ⟨.hbm, 141, rfl⟩
abbrev main_call8_v0 : Ref sig .tc := ⟨.hbm, 142, rfl⟩
abbrev main_call8_v1 : Ref sig .tc := ⟨.hbm, 143, rfl⟩
abbrev main_call8_c_0 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_call8_v5 : Ref sig .tc := ⟨.hbm, 148, rfl⟩
abbrev main_call8_c_1 : Ref sig .tc := ⟨.hbm, 149, rfl⟩
abbrev main_call8_c_2 : Ref sig .tc := ⟨.hbm, 150, rfl⟩
abbrev main_call8_v6 : Ref sig .tc := ⟨.hbm, 151, rfl⟩
abbrev main_call8_v7 : Ref sig .tc := ⟨.hbm, 152, rfl⟩
abbrev main_call8_v8 : Ref sig .tc := ⟨.hbm, 153, rfl⟩
abbrev main_call8_v9 : Ref sig .tc := ⟨.hbm, 154, rfl⟩
abbrev main_call8_v10 : Ref sig .tc := ⟨.hbm, 155, rfl⟩
abbrev main_call8_v11 : Ref sig .tc := ⟨.hbm, 156, rfl⟩
abbrev main_call8_c_3 : Ref sig .tc := ⟨.hbm, 157, rfl⟩
abbrev main_call8_v12 : Ref sig .tc := ⟨.hbm, 158, rfl⟩
abbrev main_call8_v13 : Ref sig .tc := ⟨.hbm, 159, rfl⟩
abbrev main_call8_cst : Ref sig .tc := ⟨.hbm, 160, rfl⟩
abbrev main_call8_v14 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_c_22 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_c_23 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_call9_c : Ref sig .tc := ⟨.hbm, 175, rfl⟩
abbrev main_call9_v0 : Ref sig .tc := ⟨.hbm, 176, rfl⟩
abbrev main_call9_v1 : Ref sig .tc := ⟨.hbm, 177, rfl⟩
abbrev main_call9_c_0 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_c_1 : Ref sig .tc := ⟨.hbm, 183, rfl⟩
abbrev main_call9_c_2 : Ref sig .tc := ⟨.hbm, 184, rfl⟩
abbrev main_call9_v6 : Ref sig .tc := ⟨.hbm, 185, rfl⟩
abbrev main_call9_v7 : Ref sig .tc := ⟨.hbm, 186, rfl⟩
abbrev main_call9_v8 : Ref sig .tc := ⟨.hbm, 187, rfl⟩
abbrev main_call9_v9 : Ref sig .tc := ⟨.hbm, 188, rfl⟩
abbrev main_call9_v10 : Ref sig .tc := ⟨.hbm, 189, rfl⟩
abbrev main_call9_v11 : Ref sig .tc := ⟨.hbm, 190, rfl⟩
abbrev main_call9_c_3 : Ref sig .tc := ⟨.hbm, 191, rfl⟩
abbrev main_call9_v12 : Ref sig .tc := ⟨.hbm, 192, rfl⟩
abbrev main_call9_v13 : Ref sig .tc := ⟨.hbm, 193, rfl⟩
abbrev main_call9_cst : Ref sig .tc := ⟨.hbm, 194, rfl⟩
abbrev main_call9_v14 : Ref sig .tc := ⟨.hbm, 195, rfl⟩
abbrev main_v70 : Ref sig .tc := ⟨.hbm, 196, rfl⟩
abbrev main_v71 : Ref sig .tc := ⟨.hbm, 197, rfl⟩
abbrev main_v72 : Ref sig .tc := ⟨.hbm, 198, rfl⟩
abbrev main_c_24 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_c_25 : Ref sig .tc := ⟨.hbm, 203, rfl⟩
abbrev main_v76 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_call10_c : Ref sig .tc := ⟨.hbm, 209, rfl⟩
abbrev main_call10_v0 : Ref sig .tc := ⟨.hbm, 210, rfl⟩
abbrev main_call10_v1 : Ref sig .tc := ⟨.hbm, 211, rfl⟩
abbrev main_call10_c_0 : Ref sig .tc := ⟨.hbm, 212, rfl⟩
abbrev main_call10_v2 : Ref sig .tc := ⟨.hbm, 213, rfl⟩
abbrev main_call10_v3 : Ref sig .tc := ⟨.hbm, 214, rfl⟩
abbrev main_call10_v4 : Ref sig .tc := ⟨.hbm, 215, rfl⟩
abbrev main_call10_v5 : Ref sig .tc := ⟨.hbm, 216, rfl⟩
abbrev main_call10_c_1 : Ref sig .tc := ⟨.hbm, 217, rfl⟩
abbrev main_call10_c_2 : Ref sig .tc := ⟨.hbm, 218, rfl⟩
abbrev main_call10_v6 : Ref sig .tc := ⟨.hbm, 219, rfl⟩
abbrev main_call10_v7 : Ref sig .tc := ⟨.hbm, 220, rfl⟩
abbrev main_call10_v8 : Ref sig .tc := ⟨.hbm, 221, rfl⟩
abbrev main_call10_v9 : Ref sig .tc := ⟨.hbm, 222, rfl⟩
abbrev main_call10_v10 : Ref sig .tc := ⟨.hbm, 223, rfl⟩
abbrev main_call10_v11 : Ref sig .tc := ⟨.hbm, 224, rfl⟩
abbrev main_call10_c_3 : Ref sig .tc := ⟨.hbm, 225, rfl⟩
abbrev main_call10_v12 : Ref sig .tc := ⟨.hbm, 226, rfl⟩
abbrev main_call10_v13 : Ref sig .tc := ⟨.hbm, 227, rfl⟩
abbrev main_call10_cst : Ref sig .tc := ⟨.hbm, 228, rfl⟩
abbrev main_call10_v14 : Ref sig .tc := ⟨.hbm, 229, rfl⟩
abbrev main_v81 : Ref sig .tc := ⟨.hbm, 230, rfl⟩
abbrev main_v82 : Ref sig .tc := ⟨.hbm, 231, rfl⟩
abbrev main_v83 : Ref sig .tc := ⟨.hbm, 232, rfl⟩
abbrev main_c_26 : Ref sig .tc := ⟨.hbm, 233, rfl⟩
abbrev main_v84 : Ref sig .tc := ⟨.hbm, 234, rfl⟩
abbrev main_v85 : Ref sig .tc := ⟨.hbm, 235, rfl⟩
abbrev main_v86 : Ref sig .tc := ⟨.hbm, 236, rfl⟩
abbrev main_c_27 : Ref sig .tc := ⟨.hbm, 237, rfl⟩
abbrev main_v87 : Ref sig .tc := ⟨.hbm, 238, rfl⟩
abbrev main_v88 : Ref sig .tc := ⟨.hbm, 239, rfl⟩
abbrev main_v89 : Ref sig .tc := ⟨.hbm, 240, rfl⟩
abbrev main_v90 : Ref sig .tc := ⟨.hbm, 241, rfl⟩
abbrev main_v91 : Ref sig .tc := ⟨.hbm, 242, rfl⟩
abbrev main_call11_c : Ref sig .tc := ⟨.hbm, 243, rfl⟩
abbrev main_call11_v0 : Ref sig .tc := ⟨.hbm, 244, rfl⟩
abbrev main_call11_v1 : Ref sig .tc := ⟨.hbm, 245, rfl⟩
abbrev main_call11_c_0 : Ref sig .tc := ⟨.hbm, 246, rfl⟩
abbrev main_call11_v2 : Ref sig .tc := ⟨.hbm, 247, rfl⟩
abbrev main_call11_v3 : Ref sig .tc := ⟨.hbm, 248, rfl⟩
abbrev main_call11_v4 : Ref sig .tc := ⟨.hbm, 249, rfl⟩
abbrev main_call11_v5 : Ref sig .tc := ⟨.hbm, 250, rfl⟩
abbrev main_call11_c_1 : Ref sig .tc := ⟨.hbm, 251, rfl⟩
abbrev main_call11_c_2 : Ref sig .tc := ⟨.hbm, 252, rfl⟩
abbrev main_call11_v6 : Ref sig .tc := ⟨.hbm, 253, rfl⟩
abbrev main_call11_v7 : Ref sig .tc := ⟨.hbm, 254, rfl⟩
abbrev main_call11_v8 : Ref sig .tc := ⟨.hbm, 255, rfl⟩
abbrev main_call11_v9 : Ref sig .tc := ⟨.hbm, 256, rfl⟩
abbrev main_call11_v10 : Ref sig .tc := ⟨.hbm, 257, rfl⟩
abbrev main_call11_v11 : Ref sig .tc := ⟨.hbm, 258, rfl⟩
abbrev main_call11_c_3 : Ref sig .tc := ⟨.hbm, 259, rfl⟩
abbrev main_call11_v12 : Ref sig .tc := ⟨.hbm, 260, rfl⟩
abbrev main_call11_v13 : Ref sig .tc := ⟨.hbm, 261, rfl⟩
abbrev main_call11_cst : Ref sig .tc := ⟨.hbm, 262, rfl⟩
abbrev main_call11_v14 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_c_28 : Ref sig .tc := ⟨.hbm, 267, rfl⟩
abbrev main_v95 : Ref sig .tc := ⟨.hbm, 268, rfl⟩
abbrev main_v96 : Ref sig .tc := ⟨.hbm, 269, rfl⟩
abbrev main_v97 : Ref sig .tc := ⟨.hbm, 270, rfl⟩
abbrev main_c_29 : Ref sig .tc := ⟨.hbm, 271, rfl⟩
abbrev main_v98 : Ref sig .tc := ⟨.hbm, 272, rfl⟩
abbrev main_v99 : Ref sig .tc := ⟨.hbm, 273, rfl⟩
abbrev main_v100 : Ref sig .tc := ⟨.hbm, 274, rfl⟩
abbrev main_v101 : Ref sig .tc := ⟨.hbm, 275, rfl⟩
abbrev main_v102 : Ref sig .tc := ⟨.hbm, 276, rfl⟩
abbrev main_call12_c : Ref sig .tc := ⟨.hbm, 277, rfl⟩
abbrev main_call12_v0 : Ref sig .tc := ⟨.hbm, 278, rfl⟩
abbrev main_call12_v1 : Ref sig .tc := ⟨.hbm, 279, rfl⟩
abbrev main_call12_c_0 : Ref sig .tc := ⟨.hbm, 280, rfl⟩
abbrev main_call12_v2 : Ref sig .tc := ⟨.hbm, 281, rfl⟩
abbrev main_call12_v3 : Ref sig .tc := ⟨.hbm, 282, rfl⟩
abbrev main_call12_v4 : Ref sig .tc := ⟨.hbm, 283, rfl⟩
abbrev main_call12_v5 : Ref sig .tc := ⟨.hbm, 284, rfl⟩
abbrev main_call12_c_1 : Ref sig .tc := ⟨.hbm, 285, rfl⟩
abbrev main_call12_c_2 : Ref sig .tc := ⟨.hbm, 286, rfl⟩
abbrev main_call12_v6 : Ref sig .tc := ⟨.hbm, 287, rfl⟩
abbrev main_call12_v7 : Ref sig .tc := ⟨.hbm, 288, rfl⟩
abbrev main_call12_v8 : Ref sig .tc := ⟨.hbm, 289, rfl⟩
abbrev main_call12_v9 : Ref sig .tc := ⟨.hbm, 290, rfl⟩
abbrev main_call12_v10 : Ref sig .tc := ⟨.hbm, 291, rfl⟩
abbrev main_call12_v11 : Ref sig .tc := ⟨.hbm, 292, rfl⟩
abbrev main_call12_c_3 : Ref sig .tc := ⟨.hbm, 293, rfl⟩
abbrev main_call12_v12 : Ref sig .tc := ⟨.hbm, 294, rfl⟩
abbrev main_call12_v13 : Ref sig .tc := ⟨.hbm, 295, rfl⟩
abbrev main_call12_cst : Ref sig .tc := ⟨.hbm, 296, rfl⟩
abbrev main_call12_v14 : Ref sig .tc := ⟨.hbm, 297, rfl⟩
abbrev main_v103 : Ref sig .tc := ⟨.hbm, 298, rfl⟩
abbrev main_v104 : Ref sig .tc := ⟨.hbm, 299, rfl⟩
abbrev main_v105 : Ref sig .tc := ⟨.hbm, 300, rfl⟩
abbrev main_c_30 : Ref sig .tc := ⟨.hbm, 301, rfl⟩
abbrev main_v106 : Ref sig .tc := ⟨.hbm, 302, rfl⟩
abbrev main_v107 : Ref sig .tc := ⟨.hbm, 303, rfl⟩
abbrev main_v108 : Ref sig .tc := ⟨.hbm, 304, rfl⟩
abbrev main_c_31 : Ref sig .tc := ⟨.hbm, 305, rfl⟩
abbrev main_v109 : Ref sig .tc := ⟨.hbm, 306, rfl⟩
abbrev main_v110 : Ref sig .tc := ⟨.hbm, 307, rfl⟩
abbrev main_v111 : Ref sig .tc := ⟨.hbm, 308, rfl⟩
abbrev main_v112 : Ref sig .tc := ⟨.hbm, 309, rfl⟩
abbrev main_v113 : Ref sig .tc := ⟨.hbm, 310, rfl⟩
abbrev main_call13_c : Ref sig .tc := ⟨.hbm, 311, rfl⟩
abbrev main_call13_v0 : Ref sig .tc := ⟨.hbm, 312, rfl⟩
abbrev main_call13_v1 : Ref sig .tc := ⟨.hbm, 313, rfl⟩
abbrev main_call13_c_0 : Ref sig .tc := ⟨.hbm, 314, rfl⟩
abbrev main_call13_v2 : Ref sig .tc := ⟨.hbm, 315, rfl⟩
abbrev main_call13_v3 : Ref sig .tc := ⟨.hbm, 316, rfl⟩
abbrev main_call13_v4 : Ref sig .tc := ⟨.hbm, 317, rfl⟩
abbrev main_call13_v5 : Ref sig .tc := ⟨.hbm, 318, rfl⟩
abbrev main_call13_c_1 : Ref sig .tc := ⟨.hbm, 319, rfl⟩
abbrev main_call13_c_2 : Ref sig .tc := ⟨.hbm, 320, rfl⟩
abbrev main_call13_v6 : Ref sig .tc := ⟨.hbm, 321, rfl⟩
abbrev main_call13_v7 : Ref sig .tc := ⟨.hbm, 322, rfl⟩
abbrev main_call13_v8 : Ref sig .tc := ⟨.hbm, 323, rfl⟩
abbrev main_call13_v9 : Ref sig .tc := ⟨.hbm, 324, rfl⟩
abbrev main_call13_v10 : Ref sig .tc := ⟨.hbm, 325, rfl⟩
abbrev main_call13_v11 : Ref sig .tc := ⟨.hbm, 326, rfl⟩
abbrev main_call13_c_3 : Ref sig .tc := ⟨.hbm, 327, rfl⟩
abbrev main_call13_v12 : Ref sig .tc := ⟨.hbm, 328, rfl⟩
abbrev main_call13_v13 : Ref sig .tc := ⟨.hbm, 329, rfl⟩
abbrev main_call13_cst : Ref sig .tc := ⟨.hbm, 330, rfl⟩
abbrev main_call13_v14 : Ref sig .tc := ⟨.hbm, 331, rfl⟩
abbrev main_v114 : Ref sig .tc := ⟨.hbm, 332, rfl⟩
abbrev main_v115 : Ref sig .tc := ⟨.hbm, 333, rfl⟩
abbrev main_v116 : Ref sig .tc := ⟨.hbm, 334, rfl⟩
abbrev main_c_32 : Ref sig .tc := ⟨.hbm, 335, rfl⟩
abbrev main_v117 : Ref sig .tc := ⟨.hbm, 336, rfl⟩
abbrev main_v118 : Ref sig .tc := ⟨.hbm, 337, rfl⟩
abbrev main_v119 : Ref sig .tc := ⟨.hbm, 338, rfl⟩
abbrev main_c_33 : Ref sig .tc := ⟨.hbm, 339, rfl⟩
abbrev main_v120 : Ref sig .tc := ⟨.hbm, 340, rfl⟩
abbrev main_v121 : Ref sig .tc := ⟨.hbm, 341, rfl⟩
abbrev main_v122 : Ref sig .tc := ⟨.hbm, 342, rfl⟩
abbrev main_v123 : Ref sig .tc := ⟨.hbm, 343, rfl⟩
abbrev main_v124 : Ref sig .tc := ⟨.hbm, 344, rfl⟩
abbrev main_call14_c : Ref sig .tc := ⟨.hbm, 345, rfl⟩
abbrev main_call14_v0 : Ref sig .tc := ⟨.hbm, 346, rfl⟩
abbrev main_call14_v1 : Ref sig .tc := ⟨.hbm, 347, rfl⟩
abbrev main_call14_c_0 : Ref sig .tc := ⟨.hbm, 348, rfl⟩
abbrev main_call14_v2 : Ref sig .tc := ⟨.hbm, 349, rfl⟩
abbrev main_call14_v3 : Ref sig .tc := ⟨.hbm, 350, rfl⟩
abbrev main_call14_v4 : Ref sig .tc := ⟨.hbm, 351, rfl⟩
abbrev main_call14_v5 : Ref sig .tc := ⟨.hbm, 352, rfl⟩
abbrev main_call14_c_1 : Ref sig .tc := ⟨.hbm, 353, rfl⟩
abbrev main_call14_c_2 : Ref sig .tc := ⟨.hbm, 354, rfl⟩
abbrev main_call14_v6 : Ref sig .tc := ⟨.hbm, 355, rfl⟩
abbrev main_call14_v7 : Ref sig .tc := ⟨.hbm, 356, rfl⟩
abbrev main_call14_v8 : Ref sig .tc := ⟨.hbm, 357, rfl⟩
abbrev main_call14_v9 : Ref sig .tc := ⟨.hbm, 358, rfl⟩
abbrev main_call14_v10 : Ref sig .tc := ⟨.hbm, 359, rfl⟩
abbrev main_call14_v11 : Ref sig .tc := ⟨.hbm, 360, rfl⟩
abbrev main_call14_c_3 : Ref sig .tc := ⟨.hbm, 361, rfl⟩
abbrev main_call14_v12 : Ref sig .tc := ⟨.hbm, 362, rfl⟩
abbrev main_call14_v13 : Ref sig .tc := ⟨.hbm, 363, rfl⟩
abbrev main_call14_cst : Ref sig .tc := ⟨.hbm, 364, rfl⟩
abbrev main_call14_v14 : Ref sig .tc := ⟨.hbm, 365, rfl⟩
abbrev main_v125 : Ref sig .tc := ⟨.hbm, 366, rfl⟩
abbrev main_v126 : Ref sig .tc := ⟨.hbm, 367, rfl⟩
abbrev main_v127 : Ref sig .tc := ⟨.hbm, 368, rfl⟩
abbrev main_v128 : Ref sig .tc := ⟨.hbm, 369, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bcast_S_S4x512x512x3 : S_.BroadcastsInDim S4x512x512x3 (![] : Fin 0 → Fin S4x512x512x3.rank)
  bcast_S3_S1x1x1x3_3 : S3.BroadcastsInDim S1x1x1x3 (![3] : Fin 1 → Fin S1x1x1x3.rank)
  bcast_S1x1x1x3_S4x512x512x3_0_1_2_3 : S1x1x1x3.BroadcastsInDim S4x512x512x3 (![0, 1, 2, 3] : Fin 4 → Fin S4x512x512x3.rank)
  slices_S4x512x512x3_S4x512x512x1_0_0_0_0 : S4x512x512x3.Slices ![0, 0, 0, 0] S4x512x512x1
  shapeCasts_S4x512x512x1_S4x512x512 : S4x512x512x1.ShapeCasts S4x512x512
  slices_S4x512x512x3_S4x512x512x1_0_0_0_1 : S4x512x512x3.Slices ![0, 0, 0, 1] S4x512x512x1
  slices_S4x512x512x3_S4x512x512x1_0_0_0_2 : S4x512x512x3.Slices ![0, 0, 0, 2] S4x512x512x1
  bcast_S_S4x512x512 : S_.BroadcastsInDim S4x512x512 (![] : Fin 0 → Fin S4x512x512.rank)
  shapeCasts_S4x8x128x128x128_S4x8x2097152 : S4x8x128x128x128.ShapeCasts S4x8x2097152
  transposes_S4x8x2097152_S4x2097152x8_0_2_1 : S4x8x2097152.Transposes [0, 2, 1] S4x2097152x8
  shapeCasts_S4x512x512_S4x262144x1 : S4x512x512.ShapeCasts S4x262144x1
  bcast_S4x262144x1_S4x262144x8_0_1_2 : S4x262144x1.BroadcastsInDim S4x262144x8 (![0, 1, 2] : Fin 3 → Fin S4x262144x8.rank)
  bcast_S_S4x262144x8 : S_.BroadcastsInDim S4x262144x8 (![] : Fin 0 → Fin S4x262144x8.rank)
  shapeCasts_S4x262144x8_S4x262144x8x1 : S4x262144x8.ShapeCasts S4x262144x8x1
  bcast_S_S4x262144x8x1 : S_.BroadcastsInDim S4x262144x8x1 (![] : Fin 0 → Fin S4x262144x8x1.rank)
  bcast_S1_S1x1x1x1_3 : S1.BroadcastsInDim S1x1x1x1 (![3] : Fin 1 → Fin S1x1x1x1.rank)
  bcast_S1x1x1x1_S4x262144x8x1_0_1_2_3 : S1x1x1x1.BroadcastsInDim S4x262144x8x1 (![0, 1, 2, 3] : Fin 4 → Fin S4x262144x8x1.rank)
  reducesTo_S4x262144x8x1_S4x262144x8_d3 : S4x262144x8x1.ReducesTo [3] S4x262144x8
  h_S_ : 0 < S_.numel
  shapeCasts_S4x262144x8_S4x512x512x8 : S4x262144x8.ShapeCasts S4x512x512x8
  transposes_S4x512x512x8_S4x8x512x512_0_3_1_2 : S4x512x512x8.Transposes [0, 3, 1, 2] S4x8x512x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x8x64x512_S1x8x64x512_0_0_0_0 : ∀ a, (![0, 0, 0, 0] : Fin 4 → Nat) a + S1x8x64x512.size a ≤ S1x8x64x512.size a
  h_S1x8x64x512 : 0 < S1x8x64x512.numel
  shapeCasts_S1x8x64x512_S8x64x512 : S1x8x64x512.ShapeCasts S8x64x512
  shapeCasts_S64x512_S1x64x512 : S64x512.ShapeCasts S1x64x512
  broadcasts_S1x64x512_S8x64x512 : S1x64x512.Broadcasts S8x64x512
  shapeCasts_S8x64x512_S1x8x64x512 : S8x64x512.ShapeCasts S1x8x64x512
  gather_S4x2097152x8_S4x262144x8x1_S4x262144x8_n_1_02_02_1_3_111_wf : GatherDims.WF S4x2097152x8 S4x262144x8x1 S4x262144x8 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x512.size a ≤ S4x8x512x512.size a
  hwx0_0 : ∀ i : grid0.Coords, EltTy.bits .f32 = 32 ∨ (Rect.block (s := S4x8x512x512) S1x8x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x64x512.size a ≤ S4x8x512x512.size a
  hwx0_1 : ∀ i : grid0.Coords, EltTy.bits .f32 = 32 ∨ (Rect.block (s := S4x8x512x512) S1x8x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x512.size a ≤ S4x8x512x512.size a
  hwx0_2 : ∀ i : grid0.Coords, EltTy.bits .f32 = 32 ∨ (Rect.block (s := S4x8x512x512) S1x8x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x512.size a ≤ S4x8x512x512.size a
  hwx0_3 : ∀ i : grid0.Coords, EltTy.bits .f32 = 32 ∨ (Rect.block (s := S4x8x512x512) S1x8x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x64x512.size a ≤ S4x8x512x512.size a
  hwx0_4 : ∀ i : grid0.Coords, EltTy.bits .f32 = 32 ∨ (Rect.block (s := S4x8x512x512) S1x8x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x64x512.size a ≤ S4x8x512x512.size a
  hwx0_5 : ∀ i : grid0.Coords, EltTy.bits .f32 = 32 ∨ (Rect.block (s := S4x8x512x512) S1x8x64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x64x512.size a ≤ S4x8x512x512.size a
  hwx0_6 : ∀ i : grid0.Coords, EltTy.bits .f32 = 32 ∨ (Rect.block (s := S4x8x512x512) S1x8x64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x64x512.size a ≤ S4x8x512x512.size a
  hwx0_7 : ∀ i : grid0.Coords, EltTy.bits .f32 = 32 ∨ (Rect.block (s := S4x8x512x512) S1x8x64x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x512.size a ≤ S4x512x512.size a
  hwx0_8 : ∀ i : grid0.Coords, EltTy.bits .f32 = 32 ∨ (Rect.block (s := S4x512x512) S1x64x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x512.size a ≤ S4x512x512.size a
  hwx0_9 : ∀ i : grid0.Coords, EltTy.bits .f32 = 32 ∨ (Rect.block (s := S4x512x512) S1x64x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x512.size a ≤ S4x512x512.size a
  hwx0_10 : ∀ i : grid0.Coords, EltTy.bits .f32 = 32 ∨ (Rect.block (s := S4x512x512) S1x64x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x64x512.size a ≤ S4x8x512x512.size a
  hwx0_11 : ∀ i : grid0.Coords, EltTy.bits .f32 = 32 ∨ (Rect.block (s := S4x8x512x512) S1x8x64x512.size (cc0_transform_11 i) (hinb0_11 i)).WholeWords (EltTy.packing .f32)

variable [Facts₀]

def gather_S4x2097152x8_S4x262144x8x1_S4x262144x8_n_1_02_02_1_3_111 : GatherDims S4x2097152x8 S4x262144x8x1 S4x262144x8 where
  offsetDims := []
  collapsedSliceDims := [1]
  operandBatchingDims := [0, 2]
  startIndicesBatchingDims := [0, 2]
  startIndexMap := [1]
  indexVectorDim := 3
  sliceSizes := ![1, 1, 1]
  wf := gather_S4x2097152x8_S4x262144x8x1_S4x262144x8_n_1_02_02_1_3_111_wf

abbrev win0_0 : Pipeline.Window sig grid0 :=
  Pipeline.Window.ofSpec (Memref.whole main_v50) S1x8x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S1x8x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S1x8x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v83) S1x8x64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v94) S1x8x64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v105) S1x8x64x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v116) S1x8x64x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v127) S1x8x64x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x64x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x64x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x64x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v128) S1x8x64x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x8x128x128x128 : Shape := ⟨5, ![4, 8, 128, 128, 128]⟩
abbrev S4x512x512x3 : Shape := ⟨4, ![4, 512, 512, 3]⟩
abbrev S3 : Shape := ⟨1, ![3]⟩
abbrev S_ : Shape := ⟨0, ![]⟩
abbrev S1x1x1x3 : Shape := ⟨4, ![1, 1, 1, 3]⟩
abbrev S4x512x512x1 : Shape := ⟨4, ![4, 512, 512, 1]⟩
abbrev S4x512x512 : Shape := ⟨3, ![4, 512, 512]⟩
abbrev S4x1x512x512 : Shape := ⟨4, ![4, 1, 512, 512]⟩
abbrev S4x8x2097152 : Shape := ⟨3, ![4, 8, 2097152]⟩
abbrev S4x1x262144 : Shape := ⟨3, ![4, 1, 262144]⟩
abbrev S4x8x262144 : Shape := ⟨3, ![4, 8, 262144]⟩
abbrev S4x8x262144x1 : Shape := ⟨4, ![4, 8, 262144, 1]⟩
abbrev S1 : Shape := ⟨1, ![1]⟩
abbrev S1x1x1x1 : Shape := ⟨4, ![1, 1, 1, 1]⟩
abbrev S4x8x512x512 : Shape := ⟨4, ![4, 8, 512, 512]⟩

abbrev nBuf : Space → Nat
  | .hbm => 438
  | .vmem => 0
  | .smem => 0
  | _ => 0

abbrev hbmTy0_0 (i : Nat) : BufTy := match i % 128 with
  | 0 => ⟨S4x8x128x128x128, .f32⟩
  | 1 => ⟨S4x512x512x3, .f32⟩
  | 2 => ⟨S3, .f32⟩
  | 3 => ⟨S_, .f32⟩
  | 4 => ⟨S_, .f32⟩
  | 5 => ⟨S_, .f32⟩
  | 6 => ⟨S4x512x512x3, .f32⟩
  | 7 => ⟨S4x512x512x3, .f32⟩
  | 8 => ⟨S_, .f32⟩
  | 9 => ⟨S4x512x512x3, .f32⟩
  | 10 => ⟨S4x512x512x3, .f32⟩
  | 11 => ⟨S_, .f32⟩
  | 12 => ⟨S4x512x512x3, .f32⟩
  | 13 => ⟨S4x512x512x3, .f32⟩
  | 14 => ⟨S_, .f32⟩
  | 15 => ⟨S4x512x512x3, .f32⟩
  | 16 => ⟨S4x512x512x3, .f32⟩
  | 17 => ⟨S1x1x1x3, .f32⟩
  | 18 => ⟨S4x512x512x3, .f32⟩
  | 19 => ⟨S4x512x512x3, .f32⟩
  | 20 => ⟨S4x512x512x1, .f32⟩
  | 21 => ⟨S4x512x512, .f32⟩
  | 22 => ⟨S4x512x512x1, .f32⟩
  | 23 => ⟨S4x512x512, .f32⟩
  | 24 => ⟨S4x512x512x1, .f32⟩
  | 25 => ⟨S4x512x512, .f32⟩
  | 26 => ⟨S4x512x512, .f32⟩
  | 27 => ⟨S4x512x512, .f32⟩
  | 28 => ⟨S4x512x512, .f32⟩
  | 29 => ⟨S4x512x512, .f32⟩
  | 30 => ⟨S4x1x512x512, .f32⟩
  | 31 => ⟨S4x512x512, .f32⟩
  | 32 => ⟨S4x1x512x512, .f32⟩
  | 33 => ⟨S4x512x512, .f32⟩
  | 34 => ⟨S4x1x512x512, .f32⟩
  | 35 => ⟨S_, .i32⟩
  | 36 => ⟨S_, .i32⟩
  | 37 => ⟨S_, .f32⟩
  | 38 => ⟨S4x512x512, .f32⟩
  | 39 => ⟨S4x512x512, .f32⟩
  | 40 => ⟨S_, .f32⟩
  | 41 => ⟨S4x512x512, .f32⟩
  | 42 => ⟨S4x512x512, .f32⟩
  | 43 => ⟨S4x512x512, .i32⟩
  | 44 => ⟨S_, .f32⟩
  | 45 => ⟨S4x512x512, .f32⟩
  | 46 => ⟨S4x512x512, .f32⟩
  | 47 => ⟨S_, .i32⟩
  | 48 => ⟨S_, .i32⟩
  | 49 => ⟨S_, .f32⟩
  | 50 => ⟨S4x512x512, .f32⟩
  | 51 => ⟨S4x512x512, .f32⟩
  | 52 => ⟨S_, .f32⟩
  | 53 => ⟨S4x512x512, .f32⟩
  | 54 => ⟨S4x512x512, .f32⟩
  | 55 => ⟨S4x512x512, .i32⟩
  | 56 => ⟨S_, .i32⟩
  | 57 => ⟨S_, .i32⟩
  | 58 => ⟨S_, .f32⟩
  | 59 => ⟨S4x512x512, .f32⟩
  | 60 => ⟨S4x512x512, .f32⟩
  | 61 => ⟨S_, .f32⟩
  | 62 => ⟨S4x512x512, .f32⟩
  | 63 => ⟨S4x512x512, .f32⟩
  | 64 => ⟨S4x512x512, .i32⟩
  | 65 => ⟨S_, .f32⟩
  | 66 => ⟨S4x512x512, .f32⟩
  | 67 => ⟨S4x512x512, .f32⟩
  | 68 => ⟨S_, .i32⟩
  | 69 => ⟨S_, .i32⟩
  | 70 => ⟨S_, .f32⟩
  | 71 => ⟨S4x512x512, .f32⟩
  | 72 => ⟨S4x512x512, .f32⟩
  | 73 => ⟨S_, .f32⟩
  | 74 => ⟨S4x512x512, .f32⟩
  | 75 => ⟨S4x512x512, .f32⟩
  | 76 => ⟨S4x512x512, .i32⟩
  | 77 => ⟨S_, .i32⟩
  | 78 => ⟨S_, .i32⟩
  | 79 => ⟨S_, .f32⟩
  | 80 => ⟨S4x512x512, .f32⟩
  | 81 => ⟨S4x512x512, .f32⟩
  | 82 => ⟨S_, .f32⟩
  | 83 => ⟨S4x512x512, .f32⟩
  | 84 => ⟨S4x512x512, .f32⟩
  | 85 => ⟨S4x512x512, .i32⟩
  | 86 => ⟨S_, .f32⟩
  | 87 => ⟨S4x512x512, .f32⟩
  | 88 => ⟨S4x512x512, .f32⟩
  | 89 => ⟨S_, .i32⟩
  | 90 => ⟨S_, .i32⟩
  | 91 => ⟨S_, .f32⟩
  | 92 => ⟨S4x512x512, .f32⟩
  | 93 => ⟨S4x512x512, .f32⟩
  | 94 => ⟨S_, .f32⟩
  | 95 => ⟨S4x512x512, .f32⟩
  | 96 => ⟨S4x512x512, .f32⟩
  | 97 => ⟨S4x512x512, .i32⟩
  | 98 => ⟨S4x8x2097152, .f32⟩
  | 99 => ⟨S_, .i32⟩
  | 100 => ⟨S4x512x512, .i32⟩
  | 101 => ⟨S4x512x512, .i32⟩
  | 102 => ⟨S4x512x512, .i32⟩
  | 103 => ⟨S_, .i32⟩
  | 104 => ⟨S4x512x512, .i32⟩
  | 105 => ⟨S4x512x512, .i32⟩
  | 106 => ⟨S4x512x512, .i32⟩
  | 107 => ⟨S4x1x262144, .i32⟩
  | 108 => ⟨S4x8x262144, .i32⟩
  | 109 => ⟨S_, .i32⟩
  | 110 => ⟨S4x8x262144, .i32⟩
  | 111 => ⟨S4x8x262144, .i1⟩
  | 112 => ⟨S_, .i32⟩
  | 113 => ⟨S4x8x262144, .i32⟩
  | 114 => ⟨S4x8x262144, .i32⟩
  | 115 => ⟨S4x8x262144, .i32⟩
  | 116 => ⟨S4x8x262144x1, .i32⟩
  | 117 => ⟨S1, .i32⟩
  | 118 => ⟨S_, .i32⟩
  | 119 => ⟨S4x8x262144x1, .i32⟩
  | 120 => ⟨S4x8x262144x1, .i1⟩
  | 121 => ⟨S1x1x1x1, .i32⟩
  | 122 => ⟨S4x8x262144x1, .i32⟩
  | 123 => ⟨S4x8x262144x1, .i1⟩
  | 124 => ⟨S4x8x262144x1, .i1⟩
  | 125 => ⟨S_, .i1⟩
  | 126 => ⟨S4x8x262144, .i1⟩
  | 127 => ⟨S4x8x262144, .f32⟩
  | _ => ⟨S4x8x128x128x128, .f32⟩

abbrev hbmTy0_1 (i : Nat) : BufTy := match i % 128 with
  | 0 => ⟨S_, .f32⟩
  | 1 => ⟨S4x8x262144, .f32⟩
  | 2 => ⟨S4x8x262144, .f32⟩
  | 3 => ⟨S4x8x512x512, .f32⟩
  | 4 => ⟨S_, .i32⟩
  | 5 => ⟨S4x512x512, .i32⟩
  | 6 => ⟨S4x512x512, .i32⟩
  | 7 => ⟨S4x512x512, .i32⟩
  | 8 => ⟨S_, .i32⟩
  | 9 => ⟨S4x512x512, .i32⟩
  | 10 => ⟨S4x512x512, .i32⟩
  | 11 => ⟨S4x512x512, .i32⟩
  | 12 => ⟨S4x1x262144, .i32⟩
  | 13 => ⟨S4x8x262144, .i32⟩
  | 14 => ⟨S_, .i32⟩
  | 15 => ⟨S4x8x262144, .i32⟩
  | 16 => ⟨S4x8x262144, .i1⟩
  | 17 => ⟨S_, .i32⟩
  | 18 => ⟨S4x8x262144, .i32⟩
  | 19 => ⟨S4x8x262144, .i32⟩
  | 20 => ⟨S4x8x262144, .i32⟩
  | 21 => ⟨S4x8x262144x1, .i32⟩
  | 22 => ⟨S1, .i32⟩
  | 23 => ⟨S_, .i32⟩
  | 24 => ⟨S4x8x262144x1, .i32⟩
  | 25 => ⟨S4x8x262144x1, .i1⟩
  | 26 => ⟨S1x1x1x1, .i32⟩
  | 27 => ⟨S4x8x262144x1, .i32⟩
  | 28 => ⟨S4x8x262144x1, .i1⟩
  | 29 => ⟨S4x8x262144x1, .i1⟩
  | 30 => ⟨S_, .i1⟩
  | 31 => ⟨S4x8x262144, .i1⟩
  | 32 => ⟨S4x8x262144, .f32⟩
  | 33 => ⟨S_, .f32⟩
  | 34 => ⟨S4x8x262144, .f32⟩
  | 35 => ⟨S4x8x262144, .f32⟩
  | 36 => ⟨S4x8x512x512, .f32⟩
  | 37 => ⟨S_, .i32⟩
  | 38 => ⟨S4x512x512, .i32⟩
  | 39 => ⟨S4x512x512, .i32⟩
  | 40 => ⟨S4x512x512, .i32⟩
  | 41 => ⟨S_, .i32⟩
  | 42 => ⟨S4x512x512, .i32⟩
  | 43 => ⟨S4x512x512, .i32⟩
  | 44 => ⟨S4x512x512, .i32⟩
  | 45 => ⟨S4x1x262144, .i32⟩
  | 46 => ⟨S4x8x262144, .i32⟩
  | 47 => ⟨S_, .i32⟩
  | 48 => ⟨S4x8x262144, .i32⟩
  | 49 => ⟨S4x8x262144, .i1⟩
  | 50 => ⟨S_, .i32⟩
  | 51 => ⟨S4x8x262144, .i32⟩
  | 52 => ⟨S4x8x262144, .i32⟩
  | 53 => ⟨S4x8x262144, .i32⟩
  | 54 => ⟨S4x8x262144x1, .i32⟩
  | 55 => ⟨S1, .i32⟩
  | 56 => ⟨S_, .i32⟩
  | 57 => ⟨S4x8x262144x1, .i32⟩
  | 58 => ⟨S4x8x262144x1, .i1⟩
  | 59 => ⟨S1x1x1x1, .i32⟩
  | 60 => ⟨S4x8x262144x1, .i32⟩
  | 61 => ⟨S4x8x262144x1, .i1⟩
  | 62 => ⟨S4x8x262144x1, .i1⟩
  | 63 => ⟨S_, .i1⟩
  | 64 => ⟨S4x8x262144, .i1⟩
  | 65 => ⟨S4x8x262144, .f32⟩
  | 66 => ⟨S_, .f32⟩
  | 67 => ⟨S4x8x262144, .f32⟩
  | 68 => ⟨S4x8x262144, .f32⟩
  | 69 => ⟨S4x8x512x512, .f32⟩
  | 70 => ⟨S_, .i32⟩
  | 71 => ⟨S4x512x512, .i32⟩
  | 72 => ⟨S4x512x512, .i32⟩
  | 73 => ⟨S4x512x512, .i32⟩
  | 74 => ⟨S_, .i32⟩
  | 75 => ⟨S4x512x512, .i32⟩
  | 76 => ⟨S4x512x512, .i32⟩
  | 77 => ⟨S4x512x512, .i32⟩
  | 78 => ⟨S4x1x262144, .i32⟩
  | 79 => ⟨S4x8x262144, .i32⟩
  | 80 => ⟨S_, .i32⟩
  | 81 => ⟨S4x8x262144, .i32⟩
  | 82 => ⟨S4x8x262144, .i1⟩
  | 83 => ⟨S_, .i32⟩
  | 84 => ⟨S4x8x262144, .i32⟩
  | 85 => ⟨S4x8x262144, .i32⟩
  | 86 => ⟨S4x8x262144, .i32⟩
  | 87 => ⟨S4x8x262144x1, .i32⟩
  | 88 => ⟨S1, .i32⟩
  | 89 => ⟨S_, .i32⟩
  | 90 => ⟨S4x8x262144x1, .i32⟩
  | 91 => ⟨S4x8x262144x1, .i1⟩
  | 92 => ⟨S1x1x1x1, .i32⟩
  | 93 => ⟨S4x8x262144x1, .i32⟩
  | 94 => ⟨S4x8x262144x1, .i1⟩
  | 95 => ⟨S4x8x262144x1, .i1⟩
  | 96 => ⟨S_, .i1⟩
  | 97 => ⟨S4x8x262144, .i1⟩
  | 98 => ⟨S4x8x262144, .f32⟩
  | 99 => ⟨S_, .f32⟩
  | 100 => ⟨S4x8x262144, .f32⟩
  | 101 => ⟨S4x8x262144, .f32⟩
  | 102 => ⟨S4x8x512x512, .f32⟩
  | 103 => ⟨S_, .i32⟩
  | 104 => ⟨S4x512x512, .i32⟩
  | 105 => ⟨S4x512x512, .i32⟩
  | 106 => ⟨S4x512x512, .i32⟩
  | 107 => ⟨S_, .i32⟩
  | 108 => ⟨S4x512x512, .i32⟩
  | 109 => ⟨S4x512x512, .i32⟩
  | 110 => ⟨S4x512x512, .i32⟩
  | 111 => ⟨S4x1x262144, .i32⟩
  | 112 => ⟨S4x8x262144, .i32⟩
  | 113 => ⟨S_, .i32⟩
  | 114 => ⟨S4x8x262144, .i32⟩
  | 115 => ⟨S4x8x262144, .i1⟩
  | 116 => ⟨S_, .i32⟩
  | 117 => ⟨S4x8x262144, .i32⟩
  | 118 => ⟨S4x8x262144, .i32⟩
  | 119 => ⟨S4x8x262144, .i32⟩
  | 120 => ⟨S4x8x262144x1, .i32⟩
  | 121 => ⟨S1, .i32⟩
  | 122 => ⟨S_, .i32⟩
  | 123 => ⟨S4x8x262144x1, .i32⟩
  | 124 => ⟨S4x8x262144x1, .i1⟩
  | 125 => ⟨S1x1x1x1, .i32⟩
  | 126 => ⟨S4x8x262144x1, .i32⟩
  | 127 => ⟨S4x8x262144x1, .i1⟩
  | _ => ⟨S4x8x128x128x128, .f32⟩

abbrev hbmTy0_2 (i : Nat) : BufTy := match i % 128 with
  | 0 => ⟨S4x8x262144x1, .i1⟩
  | 1 => ⟨S_, .i1⟩
  | 2 => ⟨S4x8x262144, .i1⟩
  | 3 => ⟨S4x8x262144, .f32⟩
  | 4 => ⟨S_, .f32⟩
  | 5 => ⟨S4x8x262144, .f32⟩
  | 6 => ⟨S4x8x262144, .f32⟩
  | 7 => ⟨S4x8x512x512, .f32⟩
  | 8 => ⟨S_, .i32⟩
  | 9 => ⟨S4x512x512, .i32⟩
  | 10 => ⟨S4x512x512, .i32⟩
  | 11 => ⟨S4x512x512, .i32⟩
  | 12 => ⟨S_, .i32⟩
  | 13 => ⟨S4x512x512, .i32⟩
  | 14 => ⟨S4x512x512, .i32⟩
  | 15 => ⟨S4x512x512, .i32⟩
  | 16 => ⟨S4x1x262144, .i32⟩
  | 17 => ⟨S4x8x262144, .i32⟩
  | 18 => ⟨S_, .i32⟩
  | 19 => ⟨S4x8x262144, .i32⟩
  | 20 => ⟨S4x8x262144, .i1⟩
  | 21 => ⟨S_, .i32⟩
  | 22 => ⟨S4x8x262144, .i32⟩
  | 23 => ⟨S4x8x262144, .i32⟩
  | 24 => ⟨S4x8x262144, .i32⟩
  | 25 => ⟨S4x8x262144x1, .i32⟩
  | 26 => ⟨S1, .i32⟩
  | 27 => ⟨S_, .i32⟩
  | 28 => ⟨S4x8x262144x1, .i32⟩
  | 29 => ⟨S4x8x262144x1, .i1⟩
  | 30 => ⟨S1x1x1x1, .i32⟩
  | 31 => ⟨S4x8x262144x1, .i32⟩
  | 32 => ⟨S4x8x262144x1, .i1⟩
  | 33 => ⟨S4x8x262144x1, .i1⟩
  | 34 => ⟨S_, .i1⟩
  | 35 => ⟨S4x8x262144, .i1⟩
  | 36 => ⟨S4x8x262144, .f32⟩
  | 37 => ⟨S_, .f32⟩
  | 38 => ⟨S4x8x262144, .f32⟩
  | 39 => ⟨S4x8x262144, .f32⟩
  | 40 => ⟨S4x8x512x512, .f32⟩
  | 41 => ⟨S_, .i32⟩
  | 42 => ⟨S4x512x512, .i32⟩
  | 43 => ⟨S4x512x512, .i32⟩
  | 44 => ⟨S4x512x512, .i32⟩
  | 45 => ⟨S_, .i32⟩
  | 46 => ⟨S4x512x512, .i32⟩
  | 47 => ⟨S4x512x512, .i32⟩
  | 48 => ⟨S4x512x512, .i32⟩
  | 49 => ⟨S4x1x262144, .i32⟩
  | 50 => ⟨S4x8x262144, .i32⟩
  | 51 => ⟨S_, .i32⟩
  | 52 => ⟨S4x8x262144, .i32⟩
  | 53 => ⟨S4x8x262144, .i1⟩
  | 54 => ⟨S_, .i32⟩
  | 55 => ⟨S4x8x262144, .i32⟩
  | 56 => ⟨S4x8x262144, .i32⟩
  | 57 => ⟨S4x8x262144, .i32⟩
  | 58 => ⟨S4x8x262144x1, .i32⟩
  | 59 => ⟨S1, .i32⟩
  | 60 => ⟨S_, .i32⟩
  | 61 => ⟨S4x8x262144x1, .i32⟩
  | 62 => ⟨S4x8x262144x1, .i1⟩
  | 63 => ⟨S1x1x1x1, .i32⟩
  | 64 => ⟨S4x8x262144x1, .i32⟩
  | 65 => ⟨S4x8x262144x1, .i1⟩
  | 66 => ⟨S4x8x262144x1, .i1⟩
  | 67 => ⟨S_, .i1⟩
  | 68 => ⟨S4x8x262144, .i1⟩
  | 69 => ⟨S4x8x262144, .f32⟩
  | 70 => ⟨S_, .f32⟩
  | 71 => ⟨S4x8x262144, .f32⟩
  | 72 => ⟨S4x8x262144, .f32⟩
  | 73 => ⟨S4x8x512x512, .f32⟩
  | 74 => ⟨S_, .i32⟩
  | 75 => ⟨S4x512x512, .i32⟩
  | 76 => ⟨S4x512x512, .i32⟩
  | 77 => ⟨S4x512x512, .i32⟩
  | 78 => ⟨S_, .i32⟩
  | 79 => ⟨S4x512x512, .i32⟩
  | 80 => ⟨S4x512x512, .i32⟩
  | 81 => ⟨S4x512x512, .i32⟩
  | 82 => ⟨S4x1x262144, .i32⟩
  | 83 => ⟨S4x8x262144, .i32⟩
  | 84 => ⟨S_, .i32⟩
  | 85 => ⟨S4x8x262144, .i32⟩
  | 86 => ⟨S4x8x262144, .i1⟩
  | 87 => ⟨S_, .i32⟩
  | 88 => ⟨S4x8x262144, .i32⟩
  | 89 => ⟨S4x8x262144, .i32⟩
  | 90 => ⟨S4x8x262144, .i32⟩
  | 91 => ⟨S4x8x262144x1, .i32⟩
  | 92 => ⟨S1, .i32⟩
  | 93 => ⟨S_, .i32⟩
  | 94 => ⟨S4x8x262144x1, .i32⟩
  | 95 => ⟨S4x8x262144x1, .i1⟩
  | 96 => ⟨S1x1x1x1, .i32⟩
  | 97 => ⟨S4x8x262144x1, .i32⟩
  | 98 => ⟨S4x8x262144x1, .i1⟩
  | 99 => ⟨S4x8x262144x1, .i1⟩
  | 100 => ⟨S_, .i1⟩
  | 101 => ⟨S4x8x262144, .i1⟩
  | 102 => ⟨S4x8x262144, .f32⟩
  | 103 => ⟨S_, .f32⟩
  | 104 => ⟨S4x8x262144, .f32⟩
  | 105 => ⟨S4x8x262144, .f32⟩
  | 106 => ⟨S4x8x512x512, .f32⟩
  | 107 => ⟨S_, .f32⟩
  | 108 => ⟨S4x1x512x512, .f32⟩
  | 109 => ⟨S4x1x512x512, .f32⟩
  | 110 => ⟨S_, .f32⟩
  | 111 => ⟨S4x1x512x512, .f32⟩
  | 112 => ⟨S4x1x512x512, .f32⟩
  | 113 => ⟨S4x1x512x512, .f32⟩
  | 114 => ⟨S_, .f32⟩
  | 115 => ⟨S4x1x512x512, .f32⟩
  | 116 => ⟨S4x1x512x512, .f32⟩
  | 117 => ⟨S4x1x512x512, .f32⟩
  | 118 => ⟨S4x8x512x512, .f32⟩
  | 119 => ⟨S4x8x512x512, .f32⟩
  | 120 => ⟨S_, .f32⟩
  | 121 => ⟨S4x1x512x512, .f32⟩
  | 122 => ⟨S4x1x512x512, .f32⟩
  | 123 => ⟨S_, .f32⟩
  | 124 => ⟨S4x1x512x512, .f32⟩
  | 125 => ⟨S4x1x512x512, .f32⟩
  | 126 => ⟨S4x1x512x512, .f32⟩
  | 127 => ⟨S4x1x512x512, .f32⟩
  | _ => ⟨S4x8x128x128x128, .f32⟩

abbrev hbmTy0_3 (i : Nat) : BufTy := match i % 128 with
  | 0 => ⟨S4x8x512x512, .f32⟩
  | 1 => ⟨S4x8x512x512, .f32⟩
  | 2 => ⟨S4x8x512x512, .f32⟩
  | 3 => ⟨S_, .f32⟩
  | 4 => ⟨S4x1x512x512, .f32⟩
  | 5 => ⟨S4x1x512x512, .f32⟩
  | 6 => ⟨S4x1x512x512, .f32⟩
  | 7 => ⟨S_, .f32⟩
  | 8 => ⟨S4x1x512x512, .f32⟩
  | 9 => ⟨S4x1x512x512, .f32⟩
  | 10 => ⟨S4x1x512x512, .f32⟩
  | 11 => ⟨S4x8x512x512, .f32⟩
  | 12 => ⟨S4x8x512x512, .f32⟩
  | 13 => ⟨S4x8x512x512, .f32⟩
  | 14 => ⟨S_, .f32⟩
  | 15 => ⟨S4x1x512x512, .f32⟩
  | 16 => ⟨S4x1x512x512, .f32⟩
  | 17 => ⟨S4x1x512x512, .f32⟩
  | 18 => ⟨S4x1x512x512, .f32⟩
  | 19 => ⟨S4x8x512x512, .f32⟩
  | 20 => ⟨S4x8x512x512, .f32⟩
  | 21 => ⟨S4x8x512x512, .f32⟩
  | 22 => ⟨S_, .f32⟩
  | 23 => ⟨S4x1x512x512, .f32⟩
  | 24 => ⟨S4x1x512x512, .f32⟩
  | 25 => ⟨S4x1x512x512, .f32⟩
  | 26 => ⟨S_, .f32⟩
  | 27 => ⟨S4x1x512x512, .f32⟩
  | 28 => ⟨S4x1x512x512, .f32⟩
  | 29 => ⟨S4x1x512x512, .f32⟩
  | 30 => ⟨S4x8x512x512, .f32⟩
  | 31 => ⟨S4x8x512x512, .f32⟩
  | 32 => ⟨S4x8x512x512, .f32⟩
  | 33 => ⟨S_, .f32⟩
  | 34 => ⟨S4x1x512x512, .f32⟩
  | 35 => ⟨S4x1x512x512, .f32⟩
  | 36 => ⟨S4x1x512x512, .f32⟩
  | 37 => ⟨S4x1x512x512, .f32⟩
  | 38 => ⟨S4x8x512x512, .f32⟩
  | 39 => ⟨S4x8x512x512, .f32⟩
  | 40 => ⟨S4x8x512x512, .f32⟩
  | 41 => ⟨S4x1x512x512, .f32⟩
  | 42 => ⟨S_, .f32⟩
  | 43 => ⟨S4x1x512x512, .f32⟩
  | 44 => ⟨S4x1x512x512, .f32⟩
  | 45 => ⟨S4x1x512x512, .f32⟩
  | 46 => ⟨S4x8x512x512, .f32⟩
  | 47 => ⟨S4x8x512x512, .f32⟩
  | 48 => ⟨S4x8x512x512, .f32⟩
  | 49 => ⟨S4x1x512x512, .f32⟩
  | 50 => ⟨S4x1x512x512, .f32⟩
  | 51 => ⟨S4x8x512x512, .f32⟩
  | 52 => ⟨S4x8x512x512, .f32⟩
  | 53 => ⟨S4x8x512x512, .f32⟩
  | _ => ⟨S4x8x128x128x128, .f32⟩

abbrev hbmTy (i : Nat) : BufTy := match i / 128 with
  | 0 => hbmTy0_0 i
  | 1 => hbmTy0_1 i
  | 2 => hbmTy0_2 i
  | 3 => hbmTy0_3 i
  | _ => ⟨S4x8x128x128x128, .f32⟩

abbrev bufTy : (tb : Table) → Fin (tcTables nBuf tb) → BufTy
  | .hbm, ⟨i, _⟩ => hbmTy i
  | _, _ => ⟨S4x8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_2 : Ref sig .tc := ⟨.hbm, 11, rfl⟩
abbrev main_v1 : Ref sig .tc := ⟨.hbm, 12, rfl⟩
abbrev main_v2 : Ref sig .tc := ⟨.hbm, 13, rfl⟩
abbrev main_cst_3 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_c_7 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_c_9 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v29 : Ref sig .tc := ⟨.hbm, 63, rfl⟩
abbrev main_v30 : Ref sig .tc := ⟨.hbm, 64, rfl⟩
abbrev main_cst_10 : Ref sig .tc := ⟨.hbm, 65, rfl⟩
abbrev main_v31 : Ref sig .tc := ⟨.hbm, 66, rfl⟩
abbrev main_v32 : Ref sig .tc := ⟨.hbm, 67, rfl⟩
abbrev main_c_11 : Ref sig .tc := ⟨.hbm, 68, rfl⟩
abbrev main_c_12 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v33 : Ref sig .tc := ⟨.hbm, 75, rfl⟩
abbrev main_v34 : Ref sig .tc := ⟨.hbm, 76, rfl⟩
abbrev main_c_13 : Ref sig .tc := ⟨.hbm, 77, rfl⟩
abbrev main_c_14 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_v35 : Ref sig .tc := ⟨.hbm, 84, rfl⟩
abbrev main_v36 : Ref sig .tc := ⟨.hbm, 85, rfl⟩
abbrev main_cst_15 : Ref sig .tc := ⟨.hbm, 86, rfl⟩
abbrev main_v37 : Ref sig .tc := ⟨.hbm, 87, rfl⟩
abbrev main_v38 : Ref sig .tc := ⟨.hbm, 88, rfl⟩
abbrev main_c_16 : Ref sig .tc := ⟨.hbm, 89, rfl⟩
abbrev main_c_17 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_c_18 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_19 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_call7_c : Ref sig .tc := ⟨.hbm, 109, rfl⟩
abbrev main_call7_v0 : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_v5 : Ref sig .tc := ⟨.hbm, 116, rfl⟩
abbrev main_call7_c_1 : Ref sig .tc := ⟨.hbm, 117, rfl⟩
abbrev main_call7_c_2 : Ref sig .tc := ⟨.hbm, 118, rfl⟩
abbrev main_call7_v6 : Ref sig .tc := ⟨.hbm, 119, rfl⟩
abbrev main_call7_v7 : Ref sig .tc := ⟨.hbm, 120, rfl⟩
abbrev main_call7_v8 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_c_3 : Ref sig .tc := ⟨.hbm, 125, rfl⟩
abbrev main_call7_v12 : Ref sig .tc := ⟨.hbm, 126, rfl⟩
abbrev main_call7_v13 : Ref sig .tc := ⟨.hbm, 127, rfl⟩
abbrev main_call7_cst : Ref sig .tc := ⟨.hbm, 128, rfl⟩
abbrev main_call7_v14 : Ref sig .tc := ⟨.hbm, 129, rfl⟩
abbrev main_v50 : Ref sig .tc := ⟨.hbm, 130, rfl⟩
abbrev main_v51 : Ref sig .tc := ⟨.hbm, 131, rfl⟩
abbrev main_c_20 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_c_21 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_call8_c : Ref sig .tc := ⟨.hbm, 142, rfl⟩
abbrev main_call8_v0 : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_v5 : Ref sig .tc := ⟨.hbm, 149, rfl⟩
abbrev main_call8_c_1 : Ref sig .tc := ⟨.hbm, 150, rfl⟩
abbrev main_call8_c_2 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_c_3 : Ref sig .tc := ⟨.hbm, 158, rfl⟩
abbrev main_call8_v12 : Ref sig .tc := ⟨.hbm, 159, rfl⟩
abbrev main_call8_v13 : Ref sig .tc := ⟨.hbm, 160, rfl⟩
abbrev main_call8_cst : Ref sig .tc := ⟨.hbm, 161, rfl⟩
abbrev main_call8_v14 : Ref sig .tc := ⟨.hbm, 162, rfl⟩
abbrev main_v60 : Ref sig .tc := ⟨.hbm, 163, rfl⟩
abbrev main_v61 : Ref sig .tc := ⟨.hbm, 164, rfl⟩
abbrev main_c_22 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_c_23 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_call9_c : Ref sig .tc := ⟨.hbm, 175, rfl⟩
abbrev main_call9_v0 : Ref sig .tc := ⟨.hbm, 176, rfl⟩
abbrev main_call9_v1 : Ref sig .tc := ⟨.hbm, 177, rfl⟩
abbrev main_call9_c_0 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_c_1 : Ref sig .tc := ⟨.hbm, 183, rfl⟩
abbrev main_call9_c_2 : Ref sig .tc := ⟨.hbm, 184, rfl⟩
abbrev main_call9_v6 : Ref sig .tc := ⟨.hbm, 185, rfl⟩
abbrev main_call9_v7 : Ref sig .tc := ⟨.hbm, 186, rfl⟩
abbrev main_call9_v8 : Ref sig .tc := ⟨.hbm, 187, rfl⟩
abbrev main_call9_v9 : Ref sig .tc := ⟨.hbm, 188, rfl⟩
abbrev main_call9_v10 : Ref sig .tc := ⟨.hbm, 189, rfl⟩
abbrev main_call9_v11 : Ref sig .tc := ⟨.hbm, 190, rfl⟩
abbrev main_call9_c_3 : Ref sig .tc := ⟨.hbm, 191, rfl⟩
abbrev main_call9_v12 : Ref sig .tc := ⟨.hbm, 192, rfl⟩
abbrev main_call9_v13 : Ref sig .tc := ⟨.hbm, 193, rfl⟩
abbrev main_call9_cst : Ref sig .tc := ⟨.hbm, 194, rfl⟩
abbrev main_call9_v14 : Ref sig .tc := ⟨.hbm, 195, rfl⟩
abbrev main_v70 : Ref sig .tc := ⟨.hbm, 196, rfl⟩
abbrev main_v71 : Ref sig .tc := ⟨.hbm, 197, rfl⟩
abbrev main_c_24 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_c_25 : Ref sig .tc := ⟨.hbm, 202, rfl⟩
abbrev main_v75 : Ref sig .tc := ⟨.hbm, 203, rfl⟩
abbrev main_v76 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_call10_c : Ref sig .tc := ⟨.hbm, 208, rfl⟩
abbrev main_call10_v0 : Ref sig .tc := ⟨.hbm, 209, rfl⟩
abbrev main_call10_v1 : Ref sig .tc := ⟨.hbm, 210, rfl⟩
abbrev main_call10_c_0 : Ref sig .tc := ⟨.hbm, 211, rfl⟩
abbrev main_call10_v2 : Ref sig .tc := ⟨.hbm, 212, rfl⟩
abbrev main_call10_v3 : Ref sig .tc := ⟨.hbm, 213, rfl⟩
abbrev main_call10_v4 : Ref sig .tc := ⟨.hbm, 214, rfl⟩
abbrev main_call10_v5 : Ref sig .tc := ⟨.hbm, 215, rfl⟩
abbrev main_call10_c_1 : Ref sig .tc := ⟨.hbm, 216, rfl⟩
abbrev main_call10_c_2 : Ref sig .tc := ⟨.hbm, 217, rfl⟩
abbrev main_call10_v6 : Ref sig .tc := ⟨.hbm, 218, rfl⟩
abbrev main_call10_v7 : Ref sig .tc := ⟨.hbm, 219, rfl⟩
abbrev main_call10_v8 : Ref sig .tc := ⟨.hbm, 220, rfl⟩
abbrev main_call10_v9 : Ref sig .tc := ⟨.hbm, 221, rfl⟩
abbrev main_call10_v10 : Ref sig .tc := ⟨.hbm, 222, rfl⟩
abbrev main_call10_v11 : Ref sig .tc := ⟨.hbm, 223, rfl⟩
abbrev main_call10_c_3 : Ref sig .tc := ⟨.hbm, 224, rfl⟩
abbrev main_call10_v12 : Ref sig .tc := ⟨.hbm, 225, rfl⟩
abbrev main_call10_v13 : Ref sig .tc := ⟨.hbm, 226, rfl⟩
abbrev main_call10_cst : Ref sig .tc := ⟨.hbm, 227, rfl⟩
abbrev main_call10_v14 : Ref sig .tc := ⟨.hbm, 228, rfl⟩
abbrev main_v80 : Ref sig .tc := ⟨.hbm, 229, rfl⟩
abbrev main_v81 : Ref sig .tc := ⟨.hbm, 230, rfl⟩
abbrev main_c_26 : Ref sig .tc := ⟨.hbm, 231, rfl⟩
abbrev main_v82 : Ref sig .tc := ⟨.hbm, 232, rfl⟩
abbrev main_v83 : Ref sig .tc := ⟨.hbm, 233, rfl⟩
abbrev main_v84 : Ref sig .tc := ⟨.hbm, 234, rfl⟩
abbrev main_c_27 : Ref sig .tc := ⟨.hbm, 235, rfl⟩
abbrev main_v85 : Ref sig .tc := ⟨.hbm, 236, rfl⟩
abbrev main_v86 : Ref sig .tc := ⟨.hbm, 237, rfl⟩
abbrev main_v87 : Ref sig .tc := ⟨.hbm, 238, rfl⟩
abbrev main_v88 : Ref sig .tc := ⟨.hbm, 239, rfl⟩
abbrev main_v89 : Ref sig .tc := ⟨.hbm, 240, rfl⟩
abbrev main_call11_c : Ref sig .tc := ⟨.hbm, 241, rfl⟩
abbrev main_call11_v0 : Ref sig .tc := ⟨.hbm, 242, rfl⟩
abbrev main_call11_v1 : Ref sig .tc := ⟨.hbm, 243, rfl⟩
abbrev main_call11_c_0 : Ref sig .tc := ⟨.hbm, 244, rfl⟩
abbrev main_call11_v2 : Ref sig .tc := ⟨.hbm, 245, rfl⟩
abbrev main_call11_v3 : Ref sig .tc := ⟨.hbm, 246, rfl⟩
abbrev main_call11_v4 : Ref sig .tc := ⟨.hbm, 247, rfl⟩
abbrev main_call11_v5 : Ref sig .tc := ⟨.hbm, 248, rfl⟩
abbrev main_call11_c_1 : Ref sig .tc := ⟨.hbm, 249, rfl⟩
abbrev main_call11_c_2 : Ref sig .tc := ⟨.hbm, 250, rfl⟩
abbrev main_call11_v6 : Ref sig .tc := ⟨.hbm, 251, rfl⟩
abbrev main_call11_v7 : Ref sig .tc := ⟨.hbm, 252, rfl⟩
abbrev main_call11_v8 : Ref sig .tc := ⟨.hbm, 253, rfl⟩
abbrev main_call11_v9 : Ref sig .tc := ⟨.hbm, 254, rfl⟩
abbrev main_call11_v10 : Ref sig .tc := ⟨.hbm, 255, rfl⟩
abbrev main_call11_v11 : Ref sig .tc := ⟨.hbm, 256, rfl⟩
abbrev main_call11_c_3 : Ref sig .tc := ⟨.hbm, 257, rfl⟩
abbrev main_call11_v12 : Ref sig .tc := ⟨.hbm, 258, rfl⟩
abbrev main_call11_v13 : Ref sig .tc := ⟨.hbm, 259, rfl⟩
abbrev main_call11_cst : Ref sig .tc := ⟨.hbm, 260, rfl⟩
abbrev main_call11_v14 : Ref sig .tc := ⟨.hbm, 261, rfl⟩
abbrev main_v90 : Ref sig .tc := ⟨.hbm, 262, rfl⟩
abbrev main_v91 : Ref sig .tc := ⟨.hbm, 263, rfl⟩
abbrev main_c_28 : Ref sig .tc := ⟨.hbm, 264, rfl⟩
abbrev main_v92 : Ref sig .tc := ⟨.hbm, 265, rfl⟩
abbrev main_v93 : Ref sig .tc := ⟨.hbm, 266, rfl⟩
abbrev main_v94 : Ref sig .tc := ⟨.hbm, 267, rfl⟩
abbrev main_c_29 : Ref sig .tc := ⟨.hbm, 268, rfl⟩
abbrev main_v95 : Ref sig .tc := ⟨.hbm, 269, rfl⟩
abbrev main_v96 : Ref sig .tc := ⟨.hbm, 270, rfl⟩
abbrev main_v97 : Ref sig .tc := ⟨.hbm, 271, rfl⟩
abbrev main_v98 : Ref sig .tc := ⟨.hbm, 272, rfl⟩
abbrev main_v99 : Ref sig .tc := ⟨.hbm, 273, rfl⟩
abbrev main_call12_c : Ref sig .tc := ⟨.hbm, 274, rfl⟩
abbrev main_call12_v0 : Ref sig .tc := ⟨.hbm, 275, rfl⟩
abbrev main_call12_v1 : Ref sig .tc := ⟨.hbm, 276, rfl⟩
abbrev main_call12_c_0 : Ref sig .tc := ⟨.hbm, 277, rfl⟩
abbrev main_call12_v2 : Ref sig .tc := ⟨.hbm, 278, rfl⟩
abbrev main_call12_v3 : Ref sig .tc := ⟨.hbm, 279, rfl⟩
abbrev main_call12_v4 : Ref sig .tc := ⟨.hbm, 280, rfl⟩
abbrev main_call12_v5 : Ref sig .tc := ⟨.hbm, 281, rfl⟩
abbrev main_call12_c_1 : Ref sig .tc := ⟨.hbm, 282, rfl⟩
abbrev main_call12_c_2 : Ref sig .tc := ⟨.hbm, 283, rfl⟩
abbrev main_call12_v6 : Ref sig .tc := ⟨.hbm, 284, rfl⟩
abbrev main_call12_v7 : Ref sig .tc := ⟨.hbm, 285, rfl⟩
abbrev main_call12_v8 : Ref sig .tc := ⟨.hbm, 286, rfl⟩
abbrev main_call12_v9 : Ref sig .tc := ⟨.hbm, 287, rfl⟩
abbrev main_call12_v10 : Ref sig .tc := ⟨.hbm, 288, rfl⟩
abbrev main_call12_v11 : Ref sig .tc := ⟨.hbm, 289, rfl⟩
abbrev main_call12_c_3 : Ref sig .tc := ⟨.hbm, 290, rfl⟩
abbrev main_call12_v12 : Ref sig .tc := ⟨.hbm, 291, rfl⟩
abbrev main_call12_v13 : Ref sig .tc := ⟨.hbm, 292, rfl⟩
abbrev main_call12_cst : Ref sig .tc := ⟨.hbm, 293, rfl⟩
abbrev main_call12_v14 : Ref sig .tc := ⟨.hbm, 294, rfl⟩
abbrev main_v100 : Ref sig .tc := ⟨.hbm, 295, rfl⟩
abbrev main_v101 : Ref sig .tc := ⟨.hbm, 296, rfl⟩
abbrev main_c_30 : Ref sig .tc := ⟨.hbm, 297, rfl⟩
abbrev main_v102 : Ref sig .tc := ⟨.hbm, 298, rfl⟩
abbrev main_v103 : Ref sig .tc := ⟨.hbm, 299, rfl⟩
abbrev main_v104 : Ref sig .tc := ⟨.hbm, 300, rfl⟩
abbrev main_c_31 : Ref sig .tc := ⟨.hbm, 301, rfl⟩
abbrev main_v105 : Ref sig .tc := ⟨.hbm, 302, rfl⟩
abbrev main_v106 : Ref sig .tc := ⟨.hbm, 303, rfl⟩
abbrev main_v107 : Ref sig .tc := ⟨.hbm, 304, rfl⟩
abbrev main_v108 : Ref sig .tc := ⟨.hbm, 305, rfl⟩
abbrev main_v109 : Ref sig .tc := ⟨.hbm, 306, rfl⟩
abbrev main_call13_c : Ref sig .tc := ⟨.hbm, 307, rfl⟩
abbrev main_call13_v0 : Ref sig .tc := ⟨.hbm, 308, rfl⟩
abbrev main_call13_v1 : Ref sig .tc := ⟨.hbm, 309, rfl⟩
abbrev main_call13_c_0 : Ref sig .tc := ⟨.hbm, 310, rfl⟩
abbrev main_call13_v2 : Ref sig .tc := ⟨.hbm, 311, rfl⟩
abbrev main_call13_v3 : Ref sig .tc := ⟨.hbm, 312, rfl⟩
abbrev main_call13_v4 : Ref sig .tc := ⟨.hbm, 313, rfl⟩
abbrev main_call13_v5 : Ref sig .tc := ⟨.hbm, 314, rfl⟩
abbrev main_call13_c_1 : Ref sig .tc := ⟨.hbm, 315, rfl⟩
abbrev main_call13_c_2 : Ref sig .tc := ⟨.hbm, 316, rfl⟩
abbrev main_call13_v6 : Ref sig .tc := ⟨.hbm, 317, rfl⟩
abbrev main_call13_v7 : Ref sig .tc := ⟨.hbm, 318, rfl⟩
abbrev main_call13_v8 : Ref sig .tc := ⟨.hbm, 319, rfl⟩
abbrev main_call13_v9 : Ref sig .tc := ⟨.hbm, 320, rfl⟩
abbrev main_call13_v10 : Ref sig .tc := ⟨.hbm, 321, rfl⟩
abbrev main_call13_v11 : Ref sig .tc := ⟨.hbm, 322, rfl⟩
abbrev main_call13_c_3 : Ref sig .tc := ⟨.hbm, 323, rfl⟩
abbrev main_call13_v12 : Ref sig .tc := ⟨.hbm, 324, rfl⟩
abbrev main_call13_v13 : Ref sig .tc := ⟨.hbm, 325, rfl⟩
abbrev main_call13_cst : Ref sig .tc := ⟨.hbm, 326, rfl⟩
abbrev main_call13_v14 : Ref sig .tc := ⟨.hbm, 327, rfl⟩
abbrev main_v110 : Ref sig .tc := ⟨.hbm, 328, rfl⟩
abbrev main_v111 : Ref sig .tc := ⟨.hbm, 329, rfl⟩
abbrev main_c_32 : Ref sig .tc := ⟨.hbm, 330, rfl⟩
abbrev main_v112 : Ref sig .tc := ⟨.hbm, 331, rfl⟩
abbrev main_v113 : Ref sig .tc := ⟨.hbm, 332, rfl⟩
abbrev main_v114 : Ref sig .tc := ⟨.hbm, 333, rfl⟩
abbrev main_c_33 : Ref sig .tc := ⟨.hbm, 334, rfl⟩
abbrev main_v115 : Ref sig .tc := ⟨.hbm, 335, rfl⟩
abbrev main_v116 : Ref sig .tc := ⟨.hbm, 336, rfl⟩
abbrev main_v117 : Ref sig .tc := ⟨.hbm, 337, rfl⟩
abbrev main_v118 : Ref sig .tc := ⟨.hbm, 338, rfl⟩
abbrev main_v119 : Ref sig .tc := ⟨.hbm, 339, rfl⟩
abbrev main_call14_c : Ref sig .tc := ⟨.hbm, 340, rfl⟩
abbrev main_call14_v0 : Ref sig .tc := ⟨.hbm, 341, rfl⟩
abbrev main_call14_v1 : Ref sig .tc := ⟨.hbm, 342, rfl⟩
abbrev main_call14_c_0 : Ref sig .tc := ⟨.hbm, 343, rfl⟩
abbrev main_call14_v2 : Ref sig .tc := ⟨.hbm, 344, rfl⟩
abbrev main_call14_v3 : Ref sig .tc := ⟨.hbm, 345, rfl⟩
abbrev main_call14_v4 : Ref sig .tc := ⟨.hbm, 346, rfl⟩
abbrev main_call14_v5 : Ref sig .tc := ⟨.hbm, 347, rfl⟩
abbrev main_call14_c_1 : Ref sig .tc := ⟨.hbm, 348, rfl⟩
abbrev main_call14_c_2 : Ref sig .tc := ⟨.hbm, 349, rfl⟩
abbrev main_call14_v6 : Ref sig .tc := ⟨.hbm, 350, rfl⟩
abbrev main_call14_v7 : Ref sig .tc := ⟨.hbm, 351, rfl⟩
abbrev main_call14_v8 : Ref sig .tc := ⟨.hbm, 352, rfl⟩
abbrev main_call14_v9 : Ref sig .tc := ⟨.hbm, 353, rfl⟩
abbrev main_call14_v10 : Ref sig .tc := ⟨.hbm, 354, rfl⟩
abbrev main_call14_v11 : Ref sig .tc := ⟨.hbm, 355, rfl⟩
abbrev main_call14_c_3 : Ref sig .tc := ⟨.hbm, 356, rfl⟩
abbrev main_call14_v12 : Ref sig .tc := ⟨.hbm, 357, rfl⟩
abbrev main_call14_v13 : Ref sig .tc := ⟨.hbm, 358, rfl⟩
abbrev main_call14_cst : Ref sig .tc := ⟨.hbm, 359, rfl⟩
abbrev main_call14_v14 : Ref sig .tc := ⟨.hbm, 360, rfl⟩
abbrev main_v120 : Ref sig .tc := ⟨.hbm, 361, rfl⟩
abbrev main_v121 : Ref sig .tc := ⟨.hbm, 362, rfl⟩
abbrev main_cst_34 : Ref sig .tc := ⟨.hbm, 363, rfl⟩
abbrev main_v122 : Ref sig .tc := ⟨.hbm, 364, rfl⟩
abbrev main_v123 : Ref sig .tc := ⟨.hbm, 365, rfl⟩
abbrev main_cst_35 : Ref sig .tc := ⟨.hbm, 366, rfl⟩
abbrev main_v124 : Ref sig .tc := ⟨.hbm, 367, rfl⟩
abbrev main_v125 : Ref sig .tc := ⟨.hbm, 368, rfl⟩
abbrev main_v126 : Ref sig .tc := ⟨.hbm, 369, rfl⟩
abbrev main_cst_36 : Ref sig .tc := ⟨.hbm, 370, rfl⟩
abbrev main_v127 : Ref sig .tc := ⟨.hbm, 371, rfl⟩
abbrev main_v128 : Ref sig .tc := ⟨.hbm, 372, rfl⟩
abbrev main_v129 : Ref sig .tc := ⟨.hbm, 373, rfl⟩
abbrev main_v130 : Ref sig .tc := ⟨.hbm, 374, rfl⟩
abbrev main_v131 : Ref sig .tc := ⟨.hbm, 375, rfl⟩
abbrev main_cst_37 : Ref sig .tc := ⟨.hbm, 376, rfl⟩
abbrev main_v132 : Ref sig .tc := ⟨.hbm, 377, rfl⟩
abbrev main_v133 : Ref sig .tc := ⟨.hbm, 378, rfl⟩
abbrev main_cst_38 : Ref sig .tc := ⟨.hbm, 379, rfl⟩
abbrev main_v134 : Ref sig .tc := ⟨.hbm, 380, rfl⟩
abbrev main_v135 : Ref sig .tc := ⟨.hbm, 381, rfl⟩
abbrev main_v136 : Ref sig .tc := ⟨.hbm, 382, rfl⟩
abbrev main_v137 : Ref sig .tc := ⟨.hbm, 383, rfl⟩
abbrev main_v138 : Ref sig .tc := ⟨.hbm, 384, rfl⟩
abbrev main_v139 : Ref sig .tc := ⟨.hbm, 385, rfl⟩
abbrev main_v140 : Ref sig .tc := ⟨.hbm, 386, rfl⟩
abbrev main_cst_39 : Ref sig .tc := ⟨.hbm, 387, rfl⟩
abbrev main_v141 : Ref sig .tc := ⟨.hbm, 388, rfl⟩
abbrev main_v142 : Ref sig .tc := ⟨.hbm, 389, rfl⟩
abbrev main_v143 : Ref sig .tc := ⟨.hbm, 390, rfl⟩
abbrev main_cst_40 : Ref sig .tc := ⟨.hbm, 391, rfl⟩
abbrev main_v144 : Ref sig .tc := ⟨.hbm, 392, rfl⟩
abbrev main_v145 : Ref sig .tc := ⟨.hbm, 393, rfl⟩
abbrev main_v146 : Ref sig .tc := ⟨.hbm, 394, rfl⟩
abbrev main_v147 : Ref sig .tc := ⟨.hbm, 395, rfl⟩
abbrev main_v148 : Ref sig .tc := ⟨.hbm, 396, rfl⟩
abbrev main_v149 : Ref sig .tc := ⟨.hbm, 397, rfl⟩
abbrev main_cst_41 : Ref sig .tc := ⟨.hbm, 398, rfl⟩
abbrev main_v150 : Ref sig .tc := ⟨.hbm, 399, rfl⟩
abbrev main_v151 : Ref sig .tc := ⟨.hbm, 400, rfl⟩
abbrev main_v152 : Ref sig .tc := ⟨.hbm, 401, rfl⟩
abbrev main_v153 : Ref sig .tc := ⟨.hbm, 402, rfl⟩
abbrev main_v154 : Ref sig .tc := ⟨.hbm, 403, rfl⟩
abbrev main_v155 : Ref sig .tc := ⟨.hbm, 404, rfl⟩
abbrev main_v156 : Ref sig .tc := ⟨.hbm, 405, rfl⟩
abbrev main_cst_42 : Ref sig .tc := ⟨.hbm, 406, rfl⟩
abbrev main_v157 : Ref sig .tc := ⟨.hbm, 407, rfl⟩
abbrev main_v158 : Ref sig .tc := ⟨.hbm, 408, rfl⟩
abbrev main_v159 : Ref sig .tc := ⟨.hbm, 409, rfl⟩
abbrev main_cst_43 : Ref sig .tc := ⟨.hbm, 410, rfl⟩
abbrev main_v160 : Ref sig .tc := ⟨.hbm, 411, rfl⟩
abbrev main_v161 : Ref sig .tc := ⟨.hbm, 412, rfl⟩
abbrev main_v162 : Ref sig .tc := ⟨.hbm, 413, rfl⟩
abbrev main_v163 : Ref sig .tc := ⟨.hbm, 414, rfl⟩
abbrev main_v164 : Ref sig .tc := ⟨.hbm, 415, rfl⟩
abbrev main_v165 : Ref sig .tc := ⟨.hbm, 416, rfl⟩
abbrev main_cst_44 : Ref sig .tc := ⟨.hbm, 417, rfl⟩
abbrev main_v166 : Ref sig .tc := ⟨.hbm, 418, rfl⟩
abbrev main_v167 : Ref sig .tc := ⟨.hbm, 419, rfl⟩
abbrev main_v168 : Ref sig .tc := ⟨.hbm, 420, rfl⟩
abbrev main_v169 : Ref sig .tc := ⟨.hbm, 421, rfl⟩
abbrev main_v170 : Ref sig .tc := ⟨.hbm, 422, rfl⟩
abbrev main_v171 : Ref sig .tc := ⟨.hbm, 423, rfl⟩
abbrev main_v172 : Ref sig .tc := ⟨.hbm, 424, rfl⟩
abbrev main_v173 : Ref sig .tc := ⟨.hbm, 425, rfl⟩
abbrev main_cst_45 : Ref sig .tc := ⟨.hbm, 426, rfl⟩
abbrev main_v174 : Ref sig .tc := ⟨.hbm, 427, rfl⟩
abbrev main_v175 : Ref sig .tc := ⟨.hbm, 428, rfl⟩
abbrev main_v176 : Ref sig .tc := ⟨.hbm, 429, rfl⟩
abbrev main_v177 : Ref sig .tc := ⟨.hbm, 430, rfl⟩
abbrev main_v178 : Ref sig .tc := ⟨.hbm, 431, rfl⟩
abbrev main_v179 : Ref sig .tc := ⟨.hbm, 432, rfl⟩
abbrev main_v180 : Ref sig .tc := ⟨.hbm, 433, rfl⟩
abbrev main_v181 : Ref sig .tc := ⟨.hbm, 434, rfl⟩
abbrev main_v182 : Ref sig .tc := ⟨.hbm, 435, rfl⟩
abbrev main_v183 : Ref sig .tc := ⟨.hbm, 436, rfl⟩
abbrev main_v184 : Ref sig .tc := ⟨.hbm, 437, rfl⟩

abbrev nD : Nat := 1
abbrev τ : Topo := Topo.v7x

variable {F : FTy → Type} [FloatOps F]

class Facts₀ : Prop where
  bcast_S_S4x512x512x3 : S_.BroadcastsInDim S4x512x512x3 (![] : Fin 0 → Fin S4x512x512x3.rank)
  bcast_S3_S1x1x1x3_3 : S3.BroadcastsInDim S1x1x1x3 (![3] : Fin 1 → Fin S1x1x1x3.rank)
  bcast_S1x1x1x3_S4x512x512x3_0_1_2_3 : S1x1x1x3.BroadcastsInDim S4x512x512x3 (![0, 1, 2, 3] : Fin 4 → Fin S4x512x512x3.rank)
  slices_S4x512x512x3_S4x512x512x1_0_0_0_0 : S4x512x512x3.Slices ![0, 0, 0, 0] S4x512x512x1
  shapeCasts_S4x512x512x1_S4x512x512 : S4x512x512x1.ShapeCasts S4x512x512
  slices_S4x512x512x3_S4x512x512x1_0_0_0_1 : S4x512x512x3.Slices ![0, 0, 0, 1] S4x512x512x1
  slices_S4x512x512x3_S4x512x512x1_0_0_0_2 : S4x512x512x3.Slices ![0, 0, 0, 2] S4x512x512x1
  bcast_S4x512x512_S4x1x512x512_0_2_3 : S4x512x512.BroadcastsInDim S4x1x512x512 (![0, 2, 3] : Fin 3 → Fin S4x1x512x512.rank)
  bcast_S_S4x512x512 : S_.BroadcastsInDim S4x512x512 (![] : Fin 0 → Fin S4x512x512.rank)
  shapeCasts_S4x8x128x128x128_S4x8x2097152 : S4x8x128x128x128.ShapeCasts S4x8x2097152
  shapeCasts_S4x512x512_S4x1x262144 : S4x512x512.ShapeCasts S4x1x262144
  bcast_S4x1x262144_S4x8x262144_0_1_2 : S4x1x262144.BroadcastsInDim S4x8x262144 (![0, 1, 2] : Fin 3 → Fin S4x8x262144.rank)
  bcast_S_S4x8x262144 : S_.BroadcastsInDim S4x8x262144 (![] : Fin 0 → Fin S4x8x262144.rank)
  shapeCasts_S4x8x262144_S4x8x262144x1 : S4x8x262144.ShapeCasts S4x8x262144x1
  bcast_S_S4x8x262144x1 : S_.BroadcastsInDim S4x8x262144x1 (![] : Fin 0 → Fin S4x8x262144x1.rank)
  bcast_S1_S1x1x1x1_3 : S1.BroadcastsInDim S1x1x1x1 (![3] : Fin 1 → Fin S1x1x1x1.rank)
  bcast_S1x1x1x1_S4x8x262144x1_0_1_2_3 : S1x1x1x1.BroadcastsInDim S4x8x262144x1 (![0, 1, 2, 3] : Fin 4 → Fin S4x8x262144x1.rank)
  reducesTo_S4x8x262144x1_S4x8x262144_d3 : S4x8x262144x1.ReducesTo [3] S4x8x262144
  h_S_ : 0 < S_.numel
  shapeCasts_S4x8x262144_S4x8x512x512 : S4x8x262144.ShapeCasts S4x8x512x512
  bcast_S_S4x1x512x512 : S_.BroadcastsInDim S4x1x512x512 (![] : Fin 0 → Fin S4x1x512x512.rank)
  bcast_S4x1x512x512_S4x8x512x512_0_1_2_3 : S4x1x512x512.BroadcastsInDim S4x8x512x512 (![0, 1, 2, 3] : Fin 4 → Fin S4x8x512x512.rank)
  gather_S4x8x2097152_S4x8x262144x1_S4x8x262144_n_2_01_01_2_3_111_wf : GatherDims.WF S4x8x2097152 S4x8x262144x1 S4x8x262144 [] [2] [0, 1] [2] [0, 1] 3 ![1, 1, 1]

variable [Facts₀]

def gather_S4x8x2097152_S4x8x262144x1_S4x8x262144_n_2_01_01_2_3_111 : GatherDims S4x8x2097152 S4x8x262144x1 S4x8x262144 where
  offsetDims := []
  collapsedSliceDims := [2]
  operandBatchingDims := [0, 1]
  startIndicesBatchingDims := [0, 1]
  startIndexMap := [2]
  indexVectorDim := 3
  sliceSizes := ![1, 1, 1]
  wf := gather_S4x8x2097152_S4x8x262144x1_S4x8x262144_n_2_01_01_2_3_111_wf

class Facts : Prop extends Facts₀ where

variable [Facts]
-- ==== Proof.Blend.lean ====
/-
  The trilinear blend. One output entry is the sum, taken left to right, of the eight corner values each times
  its weight; a weight is the product of one factor per axis, the fractional offset `u`, `v`, `w` on the far side of
  that axis and `1 - u`, `1 - v`, `1 - w` on the near side. The array form reads the corner arrays at an output index
  `(b, f, h, w)` and the three offset maps at `(b, h, w)`: the offsets do not depend on the feature `f`.
-/
import Idealize.ShloMosaic.PureOps.Ideal
import Idealize.ShloMosaic.Lib.ValueIdx

noncomputable section

namespace Cert.Trilinear

open Idealize.ShloMosaic Idealize.ShloMosaic.ValueIdx

variable {F : FTy → Type} [FloatOps F]

/-- The float one. -/
abbrev one32 : F .f32 := FloatOps.ofBits .f32 0x3F800000#32

/-- The result array's shape `[4, 8, 512, 512]` and the offset maps' shape `[4, 512, 512]`. -/
abbrev Sout : Shape := ⟨4, ![4, 8, 512, 512]⟩
abbrev Smap : Shape := ⟨3, ![4, 512, 512]⟩

/-- Corner times weight, summed left to right over the eight corners `000, 001, 010, 011, 100, 101, 110, 111`
    (the digits: far side along `u`, along `v`, along `w`). -/
def blend (c0 c1 c2 c3 c4 c5 c6 c7 u v w : F .f32) : F .f32 :=
  FloatOps.addf (FloatOps.addf (FloatOps.addf (FloatOps.addf (FloatOps.addf (FloatOps.addf (FloatOps.addf
    (FloatOps.mulf c0 (FloatOps.mulf (FloatOps.mulf (FloatOps.subf one32 u) (FloatOps.subf one32 v)) (FloatOps.subf one32 w)))
    (FloatOps.mulf c1 (FloatOps.mulf (FloatOps.mulf (FloatOps.subf one32 u) (FloatOps.subf one32 v)) w)))
    (FloatOps.mulf c2 (FloatOps.mulf (FloatOps.mulf (FloatOps.subf one32 u) v) (FloatOps.subf one32 w))))
    (FloatOps.mulf c3 (FloatOps.mulf (FloatOps.mulf (FloatOps.subf one32 u) v) w)))
    (FloatOps.mulf c4 (FloatOps.mulf (FloatOps.mulf u (FloatOps.subf one32 v)) (FloatOps.subf one32 w))))
    (FloatOps.mulf c5 (FloatOps.mulf (FloatOps.mulf u (FloatOps.subf one32 v)) w)))
    (FloatOps.mulf c6 (FloatOps.mulf (FloatOps.mulf u v) (FloatOps.subf one32 w))))
    (FloatOps.mulf c7 (FloatOps.mulf (FloatOps.mulf u v) w))

/-- The offset-map index `(b, h, w)` under an output index `(b, f, h, w)`. -/
def drop3 (i : Sout.Idx) : Smap.Idx := ix3 (i 0) (i 2) (i 3)

/-- The blend of eight corner arrays by three offset maps, index by index. -/
def blendArr (A0 A1 A2 A3 A4 A5 A6 A7 : Sout.Idx → F .f32) (U V W : Smap.Idx → F .f32) : Sout.Idx → F .f32 :=
  fun i => blend (A0 i) (A1 i) (A2 i) (A3 i) (A4 i) (A5 i) (A6 i) (A7 i) (U (drop3 i)) (V (drop3 i)) (W (drop3 i))

end Cert.Trilinear

end
-- ==== Proof.KernelArray.lean ====
/-
  From blocks to the array. The grid is 4 × 8: point `(b, h)` works on batch entry `b` and on the 64 rows
  `64 h … 64 h + 63`. It reads block `(b, 0, h, 0)` — all 8 features, those 64 rows, all 512 columns — of each of the eight
  corner arrays `[4, 8, 512, 512]`, block `(b, h, 0)` of each of the three offset maps `[4, 512, 512]`, and writes block
  `(b, 0, h, 0)` of the result. Inside a block the entry at `(0, f, r, w)` is the blend of the corner blocks there and
  of the offset blocks at `(0, r, w)` (`block_blend`). An input block sits in its array where the result's block sits
  in the result, the feature axis dropped for the maps (`emb_corner0` … `emb_w`), so what a point writes back is its
  block of ONE whole-array function, the blend of the arrays index by index (`flushed_family` for any family of arrays,
  `flushed_eq` for the arrays as the region finds them). The 32 blocks cover the
  result — row `r` of batch entry `b` lies in the block of point `(b, r / 64)` (`cover`) — so after the run the result
  array is that function (`final11`, `run`).
-/
import proofs.«158492_j59906203845136_2_alg».proof.Proof.Gen.KernelIdeal.Value
import proofs.«158492_j59906203845136_2_alg».proof.Proof.Blend
import Idealize.ShloMosaic.Lib.Pipeline.Value
import Idealize.ShloMosaic.Lib.ValueIdx

noncomputable section

namespace Cert.KernelIdeal.Arr

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Inside one block -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A block index `(0, f, r, w)` read coordinate by coordinate is itself: its batch coordinate is below 1. -/
theorem same_idx (y : S1x8x64x512.Idx) : ix11_0 y = y := by
  have hy0 : (y 0).val < 1 := (y 0).isLt
  funext a; apply Fin.ext
  match a with
  | ⟨0, _⟩ => show 0 = (y 0).val; omega
  | ⟨1, _⟩ => rfl
  | ⟨2, _⟩ => rfl
  | ⟨3, _⟩ => rfl

/-- What the body leaves in the result's block, entry by entry: at `y = (0, f, r, w)` the blend of the eight corner
    blocks at `y` and of the three offset blocks at `(0, r, w)`. -/
theorem block_blend (x0 x1 x2 x3 x4 x5 x6 x7 : Vec F S1x8x64x512 .f32) (x8 x9 x10 : Vec F S1x64x512 .f32) (y : S1x8x64x512.Idx) :
    out0_11 x0 x1 x2 x3 x4 x5 x6 x7 x8 x9 x10 y
      = Cert.Trilinear.blend (x0 y) (x1 y) (x2 y) (x3 y) (x4 y) (x5 y) (x6 y) (x7 y) (x8 (ix11_1 y)) (x9 (ix11_1 y)) (x10 (ix11_1 y)) := by
  unfold out0_11
  rw [Value.canon11_eq]
  simp only [View.ld_unit_zero (S := S1x8x64x512) zeros4, View.ld_unit_zero (S := S1x64x512) zeros3]
  show Cert.Trilinear.blend (x0 (ix11_0 y)) (x1 (ix11_0 y)) (x2 (ix11_0 y)) (x3 (ix11_0 y)) (x4 (ix11_0 y)) (x5 (ix11_0 y)) (x6 (ix11_0 y)) (x7 (ix11_0 y)) (x8 (ix11_1 y)) (x9 (ix11_1 y)) (x10 (ix11_1 y)) = _
  rw [same_idx]

/-! ## Where the blocks sit

The block index maps, decided over the 32 points: each corner array's block index is the result's, each offset map's is
the result's without the feature axis. -/

theorem corner_idx0 : ∀ t : Fin cfg0.N, win0_0.index t (0 : Fin 4) = win0_11.index t (0 : Fin 4) ∧ win0_0.index t (1 : Fin 4) = win0_11.index t (1 : Fin 4) ∧ win0_0.index t (2 : Fin 4) = win0_11.index t (2 : Fin 4) ∧ win0_0.index t (3 : Fin 4) = win0_11.index t (3 : Fin 4) :=
  (by decide +kernel : ∀ t : Fin grid0.N, _)
theorem corner_idx1 : ∀ t : Fin cfg0.N, win0_1.index t (0 : Fin 4) = win0_11.index t (0 : Fin 4) ∧ win0_1.index t (1 : Fin 4) = win0_11.index t (1 : Fin 4) ∧ win0_1.index t (2 : Fin 4) = win0_11.index t (2 : Fin 4) ∧ win0_1.index t (3 : Fin 4) = win0_11.index t (3 : Fin 4) :=
  (by decide +kernel : ∀ t : Fin grid0.N, _)
theorem corner_idx2 : ∀ t : Fin cfg0.N, win0_2.index t (0 : Fin 4) = win0_11.index t (0 : Fin 4) ∧ win0_2.index t (1 : Fin 4) = win0_11.index t (1 : Fin 4) ∧ win0_2.index t (2 : Fin 4) = win0_11.index t (2 : Fin 4) ∧ win0_2.index t (3 : Fin 4) = win0_11.index t (3 : Fin 4) :=
  (by decide +kernel : ∀ t : Fin grid0.N, _)
theorem corner_idx3 : ∀ t : Fin cfg0.N, win0_3.index t (0 : Fin 4) = win0_11.index t (0 : Fin 4) ∧ win0_3.index t (1 : Fin 4) = win0_11.index t (1 : Fin 4) ∧ win0_3.index t (2 : Fin 4) = win0_11.index t (2 : Fin 4) ∧ win0_3.index t (3 : Fin 4) = win0_11.index t (3 : Fin 4) :=
  (by decide +kernel : ∀ t : Fin grid0.N, _)
theorem corner_idx4 : ∀ t : Fin cfg0.N, win0_4.index t (0 : Fin 4) = win0_11.index t (0 : Fin 4) ∧ win0_4.index t (1 : Fin 4) = win0_11.index t (1 : Fin 4) ∧ win0_4.index t (2 : Fin 4) = win0_11.index t (2 : Fin 4) ∧ win0_4.index t (3 : Fin 4) = win0_11.index t (3 : Fin 4) :=
  (by decide +kernel : ∀ t : Fin grid0.N, _)
theorem corner_idx5 : ∀ t : Fin cfg0.N, win0_5.index t (0 : Fin 4) = win0_11.index t (0 : Fin 4) ∧ win0_5.index t (1 : Fin 4) = win0_11.index t (1 : Fin 4) ∧ win0_5.index t (2 : Fin 4) = win0_11.index t (2 : Fin 4) ∧ win0_5.index t (3 : Fin 4) = win0_11.index t (3 : Fin 4) :=
  (by decide +kernel : ∀ t : Fin grid0.N, _)
theorem corner_idx6 : ∀ t : Fin cfg0.N, win0_6.index t (0 : Fin 4) = win0_11.index t (0 : Fin 4) ∧ win0_6.index t (1 : Fin 4) = win0_11.index t (1 : Fin 4) ∧ win0_6.index t (2 : Fin 4) = win0_11.index t (2 : Fin 4) ∧ win0_6.index t (3 : Fin 4) = win0_11.index t (3 : Fin 4) :=
  (by decide +kernel : ∀ t : Fin grid0.N, _)
theorem corner_idx7 : ∀ t : Fin cfg0.N, win0_7.index t (0 : Fin 4) = win0_11.index t (0 : Fin 4) ∧ win0_7.index t (1 : Fin 4) = win0_11.index t (1 : Fin 4) ∧ win0_7.index t (2 : Fin 4) = win0_11.index t (2 : Fin 4) ∧ win0_7.index t (3 : Fin 4) = win0_11.index t (3 : Fin 4) :=
  (by decide +kernel : ∀ t : Fin grid0.N, _)
theorem map_idx8 : ∀ t : Fin cfg0.N, win0_8.index t (0 : Fin 3) = win0_11.index t (0 : Fin 4) ∧ win0_8.index t (1 : Fin 3) = win0_11.index t (2 : Fin 4) ∧ win0_8.index t (2 : Fin 3) = win0_11.index t (3 : Fin 4) :=
  (by decide +kernel : ∀ t : Fin grid0.N, _)
theorem map_idx9 : ∀ t : Fin cfg0.N, win0_9.index t (0 : Fin 3) = win0_11.index t (0 : Fin 4) ∧ win0_9.index t (1 : Fin 3) = win0_11.index t (2 : Fin 4) ∧ win0_9.index t (2 : Fin 3) = win0_11.index t (3 : Fin 4) :=
  (by decide +kernel : ∀ t : Fin grid0.N, _)
theorem map_idx10 : ∀ t : Fin cfg0.N, win0_10.index t (0 : Fin 3) = win0_11.index t (0 : Fin 4) ∧ win0_10.index t (1 : Fin 3) = win0_11.index t (2 : Fin 4) ∧ win0_10.index t (2 : Fin 3) = win0_11.index t (3 : Fin 4) :=
  (by decide +kernel : ∀ t : Fin grid0.N, _)

/-- Every block `(b, 0, h, 0)` of the result is some point's. -/
theorem idx_onto : ∀ (b : Fin 4) (h : Fin 8), ∃ t : Fin cfg0.N, win0_11.index t = ![b.val, 0, h.val, 0] :=
  (by decide +kernel : ∀ (b : Fin 4) (h : Fin 8), ∃ t : Fin grid0.N, win0_11.index t = ![b.val, 0, h.val, 0])

/-- Corner array 0's block at a point sits where the result's block does. -/
theorem emb_corner0 (t : Fin cfg0.N) (y : S1x8x64x512.Idx) :
    ((cfg0.win 0).blk t).view.emb y = ((cfg0.win 11).blk t).view.emb y := by
  obtain ⟨e0, e1, e2, e3⟩ := corner_idx0 t
  funext a; apply Fin.ext
  match a with
  | ⟨0, _⟩ => show win0_0.index t (0 : Fin 4) * 1 + 1 * (y 0).val = win0_11.index t (0 : Fin 4) * 1 + 1 * (y 0).val; omega
  | ⟨1, _⟩ => show win0_0.index t (1 : Fin 4) * 8 + 1 * (y 1).val = win0_11.index t (1 : Fin 4) * 8 + 1 * (y 1).val; omega
  | ⟨2, _⟩ => show win0_0.index t (2 : Fin 4) * 64 + 1 * (y 2).val = win0_11.index t (2 : Fin 4) * 64 + 1 * (y 2).val; omega
  | ⟨3, _⟩ => show win0_0.index t (3 : Fin 4) * 512 + 1 * (y 3).val = win0_11.index t (3 : Fin 4) * 512 + 1 * (y 3).val; omega

/-- Corner array 1's block at a point sits where the result's block does. -/
theorem emb_corner1 (t : Fin cfg0.N) (y : S1x8x64x512.Idx) :
    ((cfg0.win 1).blk t).view.emb y = ((cfg0.win 11).blk t).view.emb y := by
  obtain ⟨e0, e1, e2, e3⟩ := corner_idx1 t
  funext a; apply Fin.ext
  match a with
  | ⟨0, _⟩ => show win0_1.index t (0 : Fin 4) * 1 + 1 * (y 0).val = win0_11.index t (0 : Fin 4) * 1 + 1 * (y 0).val; omega
  | ⟨1, _⟩ => show win0_1.index t (1 : Fin 4) * 8 + 1 * (y 1).val = win0_11.index t (1 : Fin 4) * 8 + 1 * (y 1).val; omega
  | ⟨2, _⟩ => show win0_1.index t (2 : Fin 4) * 64 + 1 * (y 2).val = win0_11.index t (2 : Fin 4) * 64 + 1 * (y 2).val; omega
  | ⟨3, _⟩ => show win0_1.index t (3 : Fin 4) * 512 + 1 * (y 3).val = win0_11.index t (3 : Fin 4) * 512 + 1 * (y 3).val; omega

/-- Corner array 2's block at a point sits where the result's block does. -/
theorem emb_corner2 (t : Fin cfg0.N) (y : S1x8x64x512.Idx) :
    ((cfg0.win 2).blk t).view.emb y = ((cfg0.win 11).blk t).view.emb y := by
  obtain ⟨e0, e1, e2, e3⟩ := corner_idx2 t
  funext a; apply Fin.ext
  match a with
  | ⟨0, _⟩ => show win0_2.index t (0 : Fin 4) * 1 + 1 * (y 0).val = win0_11.index t (0 : Fin 4) * 1 + 1 * (y 0).val; omega
  | ⟨1, _⟩ => show win0_2.index t (1 : Fin 4) * 8 + 1 * (y 1).val = win0_11.index t (1 : Fin 4) * 8 + 1 * (y 1).val; omega
  | ⟨2, _⟩ => show win0_2.index t (2 : Fin 4) * 64 + 1 * (y 2).val = win0_11.index t (2 : Fin 4) * 64 + 1 * (y 2).val; omega
  | ⟨3, _⟩ => show win0_2.index t (3 : Fin 4) * 512 + 1 * (y 3).val = win0_11.index t (3 : Fin 4) * 512 + 1 * (y 3).val; omega

/-- Corner array 3's block at a point sits where the result's block does. -/
theorem emb_corner3 (t : Fin cfg0.N) (y : S1x8x64x512.Idx) :
    ((cfg0.win 3).blk t).view.emb y = ((cfg0.win 11).blk t).view.emb y := by
  obtain ⟨e0, e1, e2, e3⟩ := corner_idx3 t
  funext a; apply Fin.ext
  match a with
  | ⟨0, _⟩ => show win0_3.index t (0 : Fin 4) * 1 + 1 * (y 0).val = win0_11.index t (0 : Fin 4) * 1 + 1 * (y 0).val; omega
  | ⟨1, _⟩ => show win0_3.index t (1 : Fin 4) * 8 + 1 * (y 1).val = win0_11.index t (1 : Fin 4) * 8 + 1 * (y 1).val; omega
  | ⟨2, _⟩ => show win0_3.index t (2 : Fin 4) * 64 + 1 * (y 2).val = win0_11.index t (2 : Fin 4) * 64 + 1 * (y 2).val; omega
  | ⟨3, _⟩ => show win0_3.index t (3 : Fin 4) * 512 + 1 * (y 3).val = win0_11.index t (3 : Fin 4) * 512 + 1 * (y 3).val; omega

/-- Corner array 4's block at a point sits where the result's block does. -/
theorem emb_corner4 (t : Fin cfg0.N) (y : S1x8x64x512.Idx) :
    ((cfg0.win 4).blk t).view.emb y = ((cfg0.win 11).blk t).view.emb y := by
  obtain ⟨e0, e1, e2, e3⟩ := corner_idx4 t
  funext a; apply Fin.ext
  match a with
  | ⟨0, _⟩ => show win0_4.index t (0 : Fin 4) * 1 + 1 * (y 0).val = win0_11.index t (0 : Fin 4) * 1 + 1 * (y 0).val; omega
  | ⟨1, _⟩ => show win0_4.index t (1 : Fin 4) * 8 + 1 * (y 1).val = win0_11.index t (1 : Fin 4) * 8 + 1 * (y 1).val; omega
  | ⟨2, _⟩ => show win0_4.index t (2 : Fin 4) * 64 + 1 * (y 2).val = win0_11.index t (2 : Fin 4) * 64 + 1 * (y 2).val; omega
  | ⟨3, _⟩ => show win0_4.index t (3 : Fin 4) * 512 + 1 * (y 3).val = win0_11.index t (3 : Fin 4) * 512 + 1 * (y 3).val; omega

/-- Corner array 5's block at a point sits where the result's block does. -/
theorem emb_corner5 (t : Fin cfg0.N) (y : S1x8x64x512.Idx) :
    ((cfg0.win 5).blk t).view.emb y = ((cfg0.win 11).blk t).view.emb y := by
  obtain ⟨e0, e1, e2, e3⟩ := corner_idx5 t
  funext a; apply Fin.ext
  match a with
  | ⟨0, _⟩ => show win0_5.index t (0 : Fin 4) * 1 + 1 * (y 0).val = win0_11.index t (0 : Fin 4) * 1 + 1 * (y 0).val; omega
  | ⟨1, _⟩ => show win0_5.index t (1 : Fin 4) * 8 + 1 * (y 1).val = win0_11.index t (1 : Fin 4) * 8 + 1 * (y 1).val; omega
  | ⟨2, _⟩ => show win0_5.index t (2 : Fin 4) * 64 + 1 * (y 2).val = win0_11.index t (2 : Fin 4) * 64 + 1 * (y 2).val; omega
  | ⟨3, _⟩ => show win0_5.index t (3 : Fin 4) * 512 + 1 * (y 3).val = win0_11.index t (3 : Fin 4) * 512 + 1 * (y 3).val; omega

/-- Corner array 6's block at a point sits where the result's block does. -/
theorem emb_corner6 (t : Fin cfg0.N) (y : S1x8x64x512.Idx) :
    ((cfg0.win 6).blk t).view.emb y = ((cfg0.win 11).blk t).view.emb y := by
  obtain ⟨e0, e1, e2, e3⟩ := corner_idx6 t
  funext a; apply Fin.ext
  match a with
  | ⟨0, _⟩ => show win0_6.index t (0 : Fin 4) * 1 + 1 * (y 0).val = win0_11.index t (0 : Fin 4) * 1 + 1 * (y 0).val; omega
  | ⟨1, _⟩ => show win0_6.index t (1 : Fin 4) * 8 + 1 * (y 1).val = win0_11.index t (1 : Fin 4) * 8 + 1 * (y 1).val; omega
  | ⟨2, _⟩ => show win0_6.index t (2 : Fin 4) * 64 + 1 * (y 2).val = win0_11.index t (2 : Fin 4) * 64 + 1 * (y 2).val; omega
  | ⟨3, _⟩ => show win0_6.index t (3 : Fin 4) * 512 + 1 * (y 3).val = win0_11.index t (3 : Fin 4) * 512 + 1 * (y 3).val; omega

/-- Corner array 7's block at a point sits where the result's block does. -/
theorem emb_corner7 (t : Fin cfg0.N) (y : S1x8x64x512.Idx) :
    ((cfg0.win 7).blk t).view.emb y = ((cfg0.win 11).blk t).view.emb y := by
  obtain ⟨e0, e1, e2, e3⟩ := corner_idx7 t
  funext a; apply Fin.ext
  match a with
  | ⟨0, _⟩ => show win0_7.index t (0 : Fin 4) * 1 + 1 * (y 0).val = win0_11.index t (0 : Fin 4) * 1 + 1 * (y 0).val; omega
  | ⟨1, _⟩ => show win0_7.index t (1 : Fin 4) * 8 + 1 * (y 1).val = win0_11.index t (1 : Fin 4) * 8 + 1 * (y 1).val; omega
  | ⟨2, _⟩ => show win0_7.index t (2 : Fin 4) * 64 + 1 * (y 2).val = win0_11.index t (2 : Fin 4) * 64 + 1 * (y 2).val; omega
  | ⟨3, _⟩ => show win0_7.index t (3 : Fin 4) * 512 + 1 * (y 3).val = win0_11.index t (3 : Fin 4) * 512 + 1 * (y 3).val; omega

/-- Offset map `u`'s block at a point sits under the result's block: same batch entry, same rows, same columns. -/
theorem emb_u (t : Fin cfg0.N) (y : S1x8x64x512.Idx) :
    ((cfg0.win 8).blk t).view.emb (ix11_1 y) = Cert.Trilinear.drop3 (((cfg0.win 11).blk t).view.emb y) := by
  obtain ⟨e0, e1, e2⟩ := map_idx8 t
  have hy0 : (y 0).val < 1 := (y 0).isLt
  funext a; apply Fin.ext
  match a with
  | ⟨0, _⟩ => show win0_8.index t (0 : Fin 3) * 1 + 1 * 0 = win0_11.index t (0 : Fin 4) * 1 + 1 * (y 0).val; omega
  | ⟨1, _⟩ => show win0_8.index t (1 : Fin 3) * 64 + 1 * (y 2).val = win0_11.index t (2 : Fin 4) * 64 + 1 * (y 2).val; omega
  | ⟨2, _⟩ => show win0_8.index t (2 : Fin 3) * 512 + 1 * (y 3).val = win0_11.index t (3 : Fin 4) * 512 + 1 * (y 3).val; omega

/-- Offset map `v`'s block at a point sits under the result's block: same batch entry, same rows, same columns. -/
theorem emb_v (t : Fin cfg0.N) (y : S1x8x64x512.Idx) :
    ((cfg0.win 9).blk t).view.emb (ix11_1 y) = Cert.Trilinear.drop3 (((cfg0.win 11).blk t).view.emb y) := by
  obtain ⟨e0, e1, e2⟩ := map_idx9 t
  have hy0 : (y 0).val < 1 := (y 0).isLt
  funext a; apply Fin.ext
  match a with
  | ⟨0, _⟩ => show win0_9.index t (0 : Fin 3) * 1 + 1 * 0 = win0_11.index t (0 : Fin 4) * 1 + 1 * (y 0).val; omega
  | ⟨1, _⟩ => show win0_9.index t (1 : Fin 3) * 64 + 1 * (y 2).val = win0_11.index t (2 : Fin 4) * 64 + 1 * (y 2).val; omega
  | ⟨2, _⟩ => show win0_9.index t (2 : Fin 3) * 512 + 1 * (y 3).val = win0_11.index t (3 : Fin 4) * 512 + 1 * (y 3).val; omega

/-- Offset map `w`'s block at a point sits under the result's block: same batch entry, same rows, same columns. -/
theorem emb_w (t : Fin cfg0.N) (y : S1x8x64x512.Idx) :
    ((cfg0.win 10).blk t).view.emb (ix11_1 y) = Cert.Trilinear.drop3 (((cfg0.win 11).blk t).view.emb y) := by
  obtain ⟨e0, e1, e2⟩ := map_idx10 t
  have hy0 : (y 0).val < 1 := (y 0).isLt
  funext a; apply Fin.ext
  match a with
  | ⟨0, _⟩ => show win0_10.index t (0 : Fin 3) * 1 + 1 * 0 = win0_11.index t (0 : Fin 4) * 1 + 1 * (y 0).val; omega
  | ⟨1, _⟩ => show win0_10.index t (1 : Fin 3) * 64 + 1 * (y 2).val = win0_11.index t (2 : Fin 4) * 64 + 1 * (y 2).val; omega
  | ⟨2, _⟩ => show win0_10.index t (2 : Fin 3) * 512 + 1 * (y 3).val = win0_11.index t (3 : Fin 4) * 512 + 1 * (y 3).val; omega

/-! ## What a point writes back, the cover, the array after the run

The arrays as the region finds them enter only as a family `W` of arrays, one per buffer: what follows about one point
is stated for an arbitrary family and instantiated once. -/

/-- The blend of equal operands. -/
theorem blend_congr {a0 a1 a2 a3 a4 a5 a6 a7 u v w b0 b1 b2 b3 b4 b5 b6 b7 u' v' w' : F .f32}
    (h0 : a0 = b0) (h1 : a1 = b1) (h2 : a2 = b2) (h3 : a3 = b3) (h4 : a4 = b4) (h5 : a5 = b5) (h6 : a6 = b6) (h7 : a7 = b7) (hu : u = u') (hv : v = v') (hw : w = w') :
    Cert.Trilinear.blend a0 a1 a2 a3 a4 a5 a6 a7 u v w = Cert.Trilinear.blend b0 b1 b2 b3 b4 b5 b6 b7 u' v' w' := by
  subst h0 h1 h2 h3 h4 h5 h6 h7 hu hv hw; rfl

/-- Corner array 0's block, read at a block index, is the array read at the result's index over it. -/
theorem read_corner0 (c : Dev nD) (W : (b : Ref sig .tc) → Buf (Elt F) ((c : Thread nD τ).loc b)) (t : Fin cfg0.N) (y : S1x8x64x512.Idx) :
    ((((cfg0.win 0).blk t).view.read (Elt F) (W (Pipeline.arrRef spec0 0))) : Vec F S1x8x64x512 .f32) y
      = (W main_v50 : S4x8x512x512.Idx → F .f32) (((cfg0.win 11).blk t).view.emb y) :=
  (rfl : _ = (W main_v50 : S4x8x512x512.Idx → F .f32) (((cfg0.win 0).blk t).view.emb y)).trans
    (congrArg (W main_v50 : S4x8x512x512.Idx → F .f32) (emb_corner0 t y))

/-- Corner array 1's block, read at a block index, is the array read at the result's index over it. -/
theorem read_corner1 (c : Dev nD) (W : (b : Ref sig .tc) → Buf (Elt F) ((c : Thread nD τ).loc b)) (t : Fin cfg0.N) (y : S1x8x64x512.Idx) :
    ((((cfg0.win 1).blk t).view.read (Elt F) (W (Pipeline.arrRef spec0 1))) : Vec F S1x8x64x512 .f32) y
      = (W main_v61 : S4x8x512x512.Idx → F .f32) (((cfg0.win 11).blk t).view.emb y) :=
  (rfl : _ = (W main_v61 : S4x8x512x512.Idx → F .f32) (((cfg0.win 1).blk t).view.emb y)).trans
    (congrArg (W main_v61 : S4x8x512x512.Idx → F .f32) (emb_corner1 t y))

/-- Corner array 2's block, read at a block index, is the array read at the result's index over it. -/
theorem read_corner2 (c : Dev nD) (W : (b : Ref sig .tc) → Buf (Elt F) ((c : Thread nD τ).loc b)) (t : Fin cfg0.N) (y : S1x8x64x512.Idx) :
    ((((cfg0.win 2).blk t).view.read (Elt F) (W (Pipeline.arrRef spec0 2))) : Vec F S1x8x64x512 .f32) y
      = (W main_v72 : S4x8x512x512.Idx → F .f32) (((cfg0.win 11).blk t).view.emb y) :=
  (rfl : _ = (W main_v72 : S4x8x512x512.Idx → F .f32) (((cfg0.win 2).blk t).view.emb y)).trans
    (congrArg (W main_v72 : S4x8x512x512.Idx → F .f32) (emb_corner2 t y))

/-- Corner array 3's block, read at a block index, is the array read at the result's index over it. -/
theorem read_corner3 (c : Dev nD) (W : (b : Ref sig .tc) → Buf (Elt F) ((c : Thread nD τ).loc b)) (t : Fin cfg0.N) (y : S1x8x64x512.Idx) :
    ((((cfg0.win 3).blk t).view.read (Elt F) (W (Pipeline.arrRef spec0 3))) : Vec F S1x8x64x512 .f32) y
      = (W main_v83 : S4x8x512x512.Idx → F .f32) (((cfg0.win 11).blk t).view.emb y) :=
  (rfl : _ = (W main_v83 : S4x8x512x512.Idx → F .f32) (((cfg0.win 3).blk t).view.emb y)).trans
    (congrArg (W main_v83 : S4x8x512x512.Idx → F .f32) (emb_corner3 t y))

/-- Corner array 4's block, read at a block index, is the array read at the result's index over it. -/
theorem read_corner4 (c : Dev nD) (W : (b : Ref sig .tc) → Buf (Elt F) ((c : Thread nD τ).loc b)) (t : Fin cfg0.N) (y : S1x8x64x512.Idx) :
    ((((cfg0.win 4).blk t).view.read (Elt F) (W (Pipeline.arrRef spec0 4))) : Vec F S1x8x64x512 .f32) y
      = (W main_v94 : S4x8x512x512.Idx → F .f32) (((cfg0.win 11).blk t).view.emb y) :=
  (rfl : _ = (W main_v94 : S4x8x512x512.Idx → F .f32) (((cfg0.win 4).blk t).view.emb y)).trans
    (congrArg (W main_v94 : S4x8x512x512.Idx → F .f32) (emb_corner4 t y))

/-- Corner array 5's block, read at a block index, is the array read at the result's index over it. -/
theorem read_corner5 (c : Dev nD) (W : (b : Ref sig .tc) → Buf (Elt F) ((c : Thread nD τ).loc b)) (t : Fin cfg0.N) (y : S1x8x64x512.Idx) :
    ((((cfg0.win 5).blk t).view.read (Elt F) (W (Pipeline.arrRef spec0 5))) : Vec F S1x8x64x512 .f32) y
      = (W main_v105 : S4x8x512x512.Idx → F .f32) (((cfg0.win 11).blk t).view.emb y) :=
  (rfl : _ = (W main_v105 : S4x8x512x512.Idx → F .f32) (((cfg0.win 5).blk t).view.emb y)).trans
    (congrArg (W main_v105 : S4x8x512x512.Idx → F .f32) (emb_corner5 t y))

/-- Corner array 6's block, read at a block index, is the array read at the result's index over it. -/
theorem read_corner6 (c : Dev nD) (W : (b : Ref sig .tc) → Buf (Elt F) ((c : Thread nD τ).loc b)) (t : Fin cfg0.N) (y : S1x8x64x512.Idx) :
    ((((cfg0.win 6).blk t).view.read (Elt F) (W (Pipeline.arrRef spec0 6))) : Vec F S1x8x64x512 .f32) y
      = (W main_v116 : S4x8x512x512.Idx → F .f32) (((cfg0.win 11).blk t).view.emb y) :=
  (rfl : _ = (W main_v116 : S4x8x512x512.Idx → F .f32) (((cfg0.win 6).blk t).view.emb y)).trans
    (congrArg (W main_v116 : S4x8x512x512.Idx → F .f32) (emb_corner6 t y))

/-- Corner array 7's block, read at a block index, is the array read at the result's index over it. -/
theorem read_corner7 (c : Dev nD) (W : (b : Ref sig .tc) → Buf (Elt F) ((c : Thread nD τ).loc b)) (t : Fin cfg0.N) (y : S1x8x64x512.Idx) :
    ((((cfg0.win 7).blk t).view.read (Elt F) (W (Pipeline.arrRef spec0 7))) : Vec F S1x8x64x512 .f32) y
      = (W main_v127 : S4x8x512x512.Idx → F .f32) (((cfg0.win 11).blk t).view.emb y) :=
  (rfl : _ = (W main_v127 : S4x8x512x512.Idx → F .f32) (((cfg0.win 7).blk t).view.emb y)).trans
    (congrArg (W main_v127 : S4x8x512x512.Idx → F .f32) (emb_corner7 t y))

/-- Offset map `u`'s block, read under a block index, is the map read under the result's index over it. -/
theorem read_u (c : Dev nD) (W : (b : Ref sig .tc) → Buf (Elt F) ((c : Thread nD τ).loc b)) (t : Fin cfg0.N) (y : S1x8x64x512.Idx) :
    ((((cfg0.win 8).blk t).view.read (Elt F) (W (Pipeline.arrRef spec0 8))) : Vec F S1x64x512 .f32) (ix11_1 y)
      = (W main_v17 : S4x512x512.Idx → F .f32) (Cert.Trilinear.drop3 (((cfg0.win 11).blk t).view.emb y)) :=
  (rfl : _ = (W main_v17 : S4x512x512.Idx → F .f32) (((cfg0.win 8).blk t).view.emb (ix11_1 y))).trans
    (congrArg (W main_v17 : S4x512x512.Idx → F .f32) (emb_u t y))

/-- Offset map `v`'s block, read under a block index, is the map read under the result's index over it. -/
theorem read_v (c : Dev nD) (W : (b : Ref sig .tc) → Buf (Elt F) ((c : Thread nD τ).loc b)) (t : Fin cfg0.N) (y : S1x8x64x512.Idx) :
    ((((cfg0.win 9).blk t).view.read (Elt F) (W (Pipeline.arrRef spec0 9))) : Vec F S1x64x512 .f32) (ix11_1 y)
      = (W main_v18 : S4x512x512.Idx → F .f32) (Cert.Trilinear.drop3 (((cfg0.win 11).blk t).view.emb y)) :=
  (rfl : _ = (W main_v18 : S4x512x512.Idx → F .f32) (((cfg0.win 9).blk t).view.emb (ix11_1 y))).trans
    (congrArg (W main_v18 : S4x512x512.Idx → F .f32) (emb_v t y))

/-- Offset map `w`'s block, read under a block index, is the map read under the result's index over it. -/
theorem read_w (c : Dev nD) (W : (b : Ref sig .tc) → Buf (Elt F) ((c : Thread nD τ).loc b)) (t : Fin cfg0.N) (y : S1x8x64x512.Idx) :
    ((((cfg0.win 10).blk t).view.read (Elt F) (W (Pipeline.arrRef spec0 10))) : Vec F S1x64x512 .f32) (ix11_1 y)
      = (W main_v19 : S4x512x512.Idx → F .f32) (Cert.Trilinear.drop3 (((cfg0.win 11).blk t).view.emb y)) :=
  (rfl : _ = (W main_v19 : S4x512x512.Idx → F .f32) (((cfg0.win 10).blk t).view.emb (ix11_1 y))).trans
    (congrArg (W main_v19 : S4x512x512.Idx → F .f32) (emb_w t y))

/-- What the body makes of the eleven blocks at point `t` is block `t` of the blend of the eleven arrays. -/
theorem flushed_family (c : Dev nD) (W : (b : Ref sig .tc) → Buf (Elt F) ((c : Thread nD τ).loc b)) (t : Fin cfg0.N) :
    (cfg0.win 11).cut (grid0.coords t) (out0_11 (((cfg0.win 0).blk t).view.read (Elt F) (W (Pipeline.arrRef spec0 0))) (((cfg0.win 1).blk t).view.read (Elt F) (W (Pipeline.arrRef spec0 1))) (((cfg0.win 2).blk t).view.read (Elt F) (W (Pipeline.arrRef spec0 2))) (((cfg0.win 3).blk t).view.read (Elt F) (W (Pipeline.arrRef spec0 3))) (((cfg0.win 4).blk t).view.read (Elt F) (W (Pipeline.arrRef spec0 4))) (((cfg0.win 5).blk t).view.read (Elt F) (W (Pipeline.arrRef spec0 5))) (((cfg0.win 6).blk t).view.read (Elt F) (W (Pipeline.arrRef spec0 6))) (((cfg0.win 7).blk t).view.read (Elt F) (W (Pipeline.arrRef spec0 7))) (((cfg0.win 8).blk t).view.read (Elt F) (W (Pipeline.arrRef spec0 8))) (((cfg0.win 9).blk t).view.read (Elt F) (W (Pipeline.arrRef spec0 9))) (((cfg0.win 10).blk t).view.read (Elt F) (W (Pipeline.arrRef spec0 10))))
      = ((cfg0.win 11).blk t).view.read (Elt F) (Cert.Trilinear.blendArr (F := F) (W main_v50) (W main_v61) (W main_v72) (W main_v83) (W main_v94) (W main_v105) (W main_v116) (W main_v127) (W main_v17) (W main_v18) (W main_v19)) := by
  funext y
  show out0_11 (((cfg0.win 0).blk t).view.read (Elt F) (W (Pipeline.arrRef spec0 0))) (((cfg0.win 1).blk t).view.read (Elt F) (W (Pipeline.arrRef spec0 1))) (((cfg0.win 2).blk t).view.read (Elt F) (W (Pipeline.arrRef spec0 2))) (((cfg0.win 3).blk t).view.read (Elt F) (W (Pipeline.arrRef spec0 3))) (((cfg0.win 4).blk t).view.read (Elt F) (W (Pipeline.arrRef spec0 4))) (((cfg0.win 5).blk t).view.read (Elt F) (W (Pipeline.arrRef spec0 5))) (((cfg0.win 6).blk t).view.read (Elt F) (W (Pipeline.arrRef spec0 6))) (((cfg0.win 7).blk t).view.read (Elt F) (W (Pipeline.arrRef spec0 7))) (((cfg0.win 8).blk t).view.read (Elt F) (W (Pipeline.arrRef spec0 8))) (((cfg0.win 9).blk t).view.read (Elt F) (W (Pipeline.arrRef spec0 9))) (((cfg0.win 10).blk t).view.read (Elt F) (W (Pipeline.arrRef spec0 10))) y
      = Cert.Trilinear.blendArr (F := F) (W main_v50) (W main_v61) (W main_v72) (W main_v83) (W main_v94) (W main_v105) (W main_v116) (W main_v127) (W main_v17) (W main_v18) (W main_v19) (((cfg0.win 11).blk t).view.emb y)
  refine (block_blend _ _ _ _ _ _ _ _ _ _ _ y).trans ?_
  exact blend_congr (read_corner0 c W t y) (read_corner1 c W t y) (read_corner2 c W t y) (read_corner3 c W t y) (read_corner4 c W t y) (read_corner5 c W t y) (read_corner6 c W t y) (read_corner7 c W t y) (read_u c W t y) (read_v c W t y) (read_w c W t y)

/-- WHAT POINT `t` WRITES BACK is block `t` of the blend of the eleven arrays as the region finds them. -/
theorem flushed_eq (c : Dev nD) (t : Fin cfg0.N) :
    (dats m 0 c).flushed 11 t = ((cfg0.win 11).blk t).view.read (Elt F) (Cert.Trilinear.blendArr (F := F) (V m c main_v50) (V m c main_v61) (V m c main_v72) (V m c main_v83) (V m c main_v94) (V m c main_v105) (V m c main_v116) (V m c main_v127) (V m c main_v17) (V m c main_v18) (V m c main_v19)) := by
  rw [Value.flushed11]
  exact flushed_family c (V m c) t

/-- An index of the result is in point `t`'s block iff each coordinate is in the block's range on its axis. -/
theorem mem_blk (t : Fin cfg0.N) (i : S4x8x512x512.Idx) :
    i ∈ ((cfg0.win 11).blk t).view.set ↔ ∀ a : Fin 4, win0_11.index t a * S1x8x64x512.size a ≤ (i a).val ∧ (i a).val < win0_11.index t a * S1x8x64x512.size a + S1x8x64x512.size a := by
  show i ∈ ((View.whole main_v128).slice (win0_11.rect t)).set ↔ _
  rw [View.set_slice_whole, Rect.mem_set_unit]
  exact Iff.rfl

/-- THE BLOCKS COVER THE RESULT: entry `(b, f, r, w)` lies in the block of the point whose block index is `(b, 0, r / 64, 0)`. -/
theorem cover (i : S4x8x512x512.Idx) : ∃ t : Fin cfg0.N, (cfg0.win 11).flush t = true ∧ i ∈ ((cfg0.win 11).blk t).view.set := by
  have hi0 : (i 0).val < 4 := (i 0).isLt
  have hi1 : (i 1).val < 8 := (i 1).isLt
  have hi2 : (i 2).val < 512 := (i 2).isLt
  have hi3 : (i 3).val < 512 := (i 3).isLt
  obtain ⟨t, ht⟩ := idx_onto ⟨(i 0).val, hi0⟩ ⟨(i 2).val / 64, by omega⟩
  have q0 : win0_11.index t (0 : Fin 4) = (i 0).val := congrFun ht 0
  have q1 : win0_11.index t (1 : Fin 4) = 0 := congrFun ht 1
  have q2 : win0_11.index t (2 : Fin 4) = (i 2).val / 64 := congrFun ht 2
  have q3 : win0_11.index t (3 : Fin 4) = 0 := congrFun ht 3
  refine ⟨t, flush0_11 t, ?_⟩
  rw [mem_blk]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 8 ≤ (i 1).val ∧ (i 1).val < win0_11.index t (1 : Fin 4) * 8 + 8; omega
  | ⟨2, _⟩ => show win0_11.index t (2 : Fin 4) * 64 ≤ (i 2).val ∧ (i 2).val < win0_11.index t (2 : Fin 4) * 64 + 64; omega
  | ⟨3, _⟩ => show win0_11.index t (3 : Fin 4) * 512 ≤ (i 3).val ∧ (i 3).val < win0_11.index t (3 : Fin 4) * 512 + 512; omega

/-- THE RESULT ARRAY after the run: the blend of the eight corner arrays by the three offset maps, index by index. -/
theorem final11 (c : Dev nD) : (dats m 0 c).arrAt 11 cfg0.N = Cert.Trilinear.blendArr (F := F) (V m c main_v50) (V m c main_v61) (V m c main_v72) (V m c main_v83) (V m c main_v94) (V m c main_v105) (V m c main_v116) (V m c main_v127) (V m c main_v17) (V m c main_v18) (V m c main_v19) :=
  (dats m 0 c).arrAt_eq_of_cover 11 (Cert.Trilinear.blendArr (F := F) (V m c main_v50) (V m c main_v61) (V m c main_v72) (V m c main_v83) (V m c main_v94) (V m c main_v105) (V m c main_v116) (V m c main_v127) (V m c main_v17) (V m c main_v18) (V m c main_v19)) (fun t _ => flushed_eq m c t) cover

/-- The run, read: the result array at the blend, the two arguments unchanged. -/
theorem run : θ_run defs (onTc (τ := τ) (main (F := F))) ⟨m, fun _ => 0, ρ⟩ fun r => ∀ c : Dev nD,
      r.2.mem ((c : Thread nD τ).loc main_v128) = Cert.Trilinear.blendArr (F := F) (V m c main_v50) (V m c main_v61) (V m c main_v72) (V m c main_v83) (V m c main_v94) (V m c main_v105) (V m c main_v116) (V m c main_v127) (V m c main_v17) (V m c main_v18) (V m c main_v19)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final11 m c), (h c).2⟩) (Value.run_blocks m ρ)

end Cert.KernelIdeal.Arr

end
-- ==== Proof.KernelHostOps.lean ====
/-
  The host operations the kernel program runs before its region, with every operation's function stated at its buffers'
  own types.

  The program's calls of `clip` and `take_along_axis` are printed over references that carry the type of the tensor value
  they hold; each operation's function is then transported to its buffers' types along an equation that is the identity at
  a literal reference. Here are the same operations with each function stated at its buffers' own types, so that no
  transport is left in what the buffers hold: each called function's list equals the printed one by unfolding, and the
  buffers' contents when the region is entered are the fold of the one list `opsFree` over the launched memory.
-/
import proofs.«158492_j59906203845136_2_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

section Calls

-- a reduction over an axis is compared by its arguments, never by unfolding its fold over the whole index space
attribute [local irreducible] Host.reduce

/-- The 6 operations of the clamp (record main_call0), each stated at its buffers' own types. -/
abbrev callOps1 : List (HloOp τ sig (Elt F)) :=
  [ StableHlo.unary main_cst_0 main_call0_v0 (id : (⟨S_, .f32⟩ : BufTy).Contents (Elt F) → (⟨S_, .f32⟩ : BufTy).Contents (Elt F)),
    StableHlo.unary main_call0_v0 main_call0_v1 (broadcastInDim S4x512x512x3 ![] bcast_S_S4x512x512x3 : (⟨S_, .f32⟩ : BufTy).Contents (Elt F) → (⟨S4x512x512x3, .f32⟩ : BufTy).Contents (Elt F)),
    StableHlo.binary main_call0_v1 main_arg1 main_call0_v2 (maximumf : (⟨S4x512x512x3, .f32⟩ : BufTy).Contents (Elt F) → (⟨S4x512x512x3, .f32⟩ : BufTy).Contents (Elt F) → (⟨S4x512x512x3, .f32⟩ : BufTy).Contents (Elt F)),
    StableHlo.unary main_cst_1 main_call0_v3 (id : (⟨S_, .f32⟩ : BufTy).Contents (Elt F) → (⟨S_, .f32⟩ : BufTy).Contents (Elt F)),
    StableHlo.unary main_call0_v3 main_call0_v4 (broadcastInDim S4x512x512x3 ![] bcast_S_S4x512x512x3 : (⟨S_, .f32⟩ : BufTy).Contents (Elt F) → (⟨S4x512x512x3, .f32⟩ : BufTy).Contents (Elt F)),
    StableHlo.binary main_call0_v4 main_call0_v2 main_v0 (minimumf : (⟨S4x512x512x3, .f32⟩ : BufTy).Contents (Elt F) → (⟨S4x512x512x3, .f32⟩ : BufTy).Contents (Elt F) → (⟨S4x512x512x3, .f32⟩ : BufTy).Contents (Elt F)) ]
theorem hostOps0_1_eq : (hostOps0_1 : List (HloOp τ sig (Elt F))) = callOps1 := rfl

/-- The 6 operations of the clamp (record main_call1), each stated at its buffers' own types. -/
abbrev callOps3 : List (HloOp τ sig (Elt F)) :=
  [ StableHlo.unary main_c main_call1_v0 (sitofp .f32 : (⟨S_, .i32⟩ : BufTy).Contents (Elt F) → (⟨S_, .f32⟩ : BufTy).Contents (Elt F)),
    StableHlo.unary main_call1_v0 main_call1_v1 (broadcastInDim S4x512x512 ![] bcast_S_S4x512x512 : (⟨S_, .f32⟩ : BufTy).Contents (Elt F) → (⟨S4x512x512, .f32⟩ : BufTy).Contents (Elt F)),
    StableHlo.binary main_call1_v1 main_v14 main_call1_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_4 main_call1_v3 (sitofp .f32 : (⟨S_, .i32⟩ : BufTy).Contents (Elt F) → (⟨S_, .f32⟩ : BufTy).Contents (Elt F)),
    StableHlo.unary main_call1_v3 main_call1_v4 (broadcastInDim S4x512x512 ![] bcast_S_S4x512x512 : (⟨S_, .f32⟩ : BufTy).Contents (Elt F) → (⟨S4x512x512, .f32⟩ : BufTy).Contents (Elt F)),
    StableHlo.binary main_call1_v4 main_call1_v2 main_v20 (minimumf : (⟨S4x512x512, .f32⟩ : BufTy).Contents (Elt F) → (⟨S4x512x512, .f32⟩ : BufTy).Contents (Elt F) → (⟨S4x512x512, .f32⟩ : BufTy).Contents (Elt F)) ]
theorem hostOps0_3_eq : (hostOps0_3 : List (HloOp τ sig (Elt F))) = callOps3 := rfl

/-- The 6 operations of the clamp (record main_call2), each stated at its buffers' own types. -/
abbrev callOps5 : List (HloOp τ sig (Elt F)) :=
  [ StableHlo.unary main_c_6 main_call2_v0 (sitofp .f32 : (⟨S_, .i32⟩ : BufTy).Contents (Elt F) → (⟨S_, .f32⟩ : BufTy).Contents (Elt F)),
    StableHlo.unary main_call2_v0 main_call2_v1 (broadcastInDim S4x512x512 ![] bcast_S_S4x512x512 : (⟨S_, .f32⟩ : BufTy).Contents (Elt F) → (⟨S4x512x512, .f32⟩ : BufTy).Contents (Elt F)),
    StableHlo.binary main_call2_v1 main_v23 main_call2_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_7 main_call2_v3 (sitofp .f32 : (⟨S_, .i32⟩ : BufTy).Contents (Elt F) → (⟨S_, .f32⟩ : BufTy).Contents (Elt F)),
    StableHlo.unary main_call2_v3 main_call2_v4 (broadcastInDim S4x512x512 ![] bcast_S_S4x512x512 : (⟨S_, .f32⟩ : BufTy).Contents (Elt F) → (⟨S4x512x512, .f32⟩ : BufTy).Contents (Elt F)),
    StableHlo.binary main_call2_v4 main_call2_v2 main_v24 (minimumf : (⟨S4x512x512, .f32⟩ : BufTy).Contents (Elt F) → (⟨S4x512x512, .f32⟩ : BufTy).Contents (Elt F) → (⟨S4x512x512, .f32⟩ : BufTy).Contents (Elt F)) ]
theorem hostOps0_5_eq : (hostOps0_5 : List (HloOp τ sig (Elt F))) = callOps5 := rfl

/-- The 6 operations of the clamp (record main_call3), each stated at its buffers' own types. -/
abbrev callOps7 : List (HloOp τ sig (Elt F)) :=
  [ StableHlo.unary main_c_8 main_call3_v0 (sitofp .f32 : (⟨S_, .i32⟩ : BufTy).Contents (Elt F) → (⟨S_, .f32⟩ : BufTy).Contents (Elt F)),
    StableHlo.unary main_call3_v0 main_call3_v1 (broadcastInDim S4x512x512 ![] bcast_S_S4x512x512 : (⟨S_, .f32⟩ : BufTy).Contents (Elt F) → (⟨S4x512x512, .f32⟩ : BufTy).Contents (Elt F)),
    StableHlo.binary main_call3_v1 main_v15 main_call3_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_9 main_call3_v3 (sitofp .f32 : (⟨S_, .i32⟩ : BufTy).Contents (Elt F) → (⟨S_, .f32⟩ : BufTy).Contents (Elt F)),
    StableHlo.unary main_call3_v3 main_call3_v4 (broadcastInDim S4x512x512 ![] bcast_S_S4x512x512 : (⟨S_, .f32⟩ : BufTy).Contents (Elt F) → (⟨S4x512x512, .f32⟩ : BufTy).Contents (Elt F)),
    StableHlo.binary main_call3_v4 main_call3_v2 main_v26 (minimumf : (⟨S4x512x512, .f32⟩ : BufTy).Contents (Elt F) → (⟨S4x512x512, .f32⟩ : BufTy).Contents (Elt F) → (⟨S4x512x512, .f32⟩ : BufTy).Contents (Elt F)) ]
theorem hostOps0_7_eq : (hostOps0_7 : List (HloOp τ sig (Elt F))) = callOps7 := rfl

/-- The 6 operations of the clamp (record main_call4), each stated at its buffers' own types. -/
abbrev callOps9 : List (HloOp τ sig (Elt F)) :=
  [ StableHlo.unary main_c_11 main_call4_v0 (sitofp .f32 : (⟨S_, .i32⟩ : BufTy).Contents (Elt F) → (⟨S_, .f32⟩ : BufTy).Contents (Elt F)),
    StableHlo.unary main_call4_v0 main_call4_v1 (broadcastInDim S4x512x512 ![] bcast_S_S4x512x512 : (⟨S_, .f32⟩ : BufTy).Contents (Elt F) → (⟨S4x512x512, .f32⟩ : BufTy).Contents (Elt F)),
    StableHlo.binary main_call4_v1 main_v29 main_call4_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_12 main_call4_v3 (sitofp .f32 : (⟨S_, .i32⟩ : BufTy).Contents (Elt F) → (⟨S_, .f32⟩ : BufTy).Contents (Elt F)),
    StableHlo.unary main_call4_v3 main_call4_v4 (broadcastInDim S4x512x512 ![] bcast_S_S4x512x512 : (⟨S_, .f32⟩ : BufTy).Contents (Elt F) → (⟨S4x512x512, .f32⟩ : BufTy).Contents (Elt F)),
    StableHlo.binary main_call4_v4 main_call4_v2 main_v30 (minimumf : (⟨S4x512x512, .f32⟩ : BufTy).Contents (Elt F) → (⟨S4x512x512, .f32⟩ : BufTy).Contents (Elt F) → (⟨S4x512x512, .f32⟩ : BufTy).Contents (Elt F)) ]
theorem hostOps0_9_eq : (hostOps0_9 : List (HloOp τ sig (Elt F))) = callOps9 := rfl

/-- The 6 operations of the clamp (record main_call5), each stated at its buffers' own types. -/
abbrev callOps11 : List (HloOp τ sig (Elt F)) :=
  [ StableHlo.unary main_c_13 main_call5_v0 (sitofp .f32 : (⟨S_, .i32⟩ : BufTy).Contents (Elt F) → (⟨S_, .f32⟩ : BufTy).Contents (Elt F)),
    StableHlo.unary main_call5_v0 main_call5_v1 (broadcastInDim S4x512x512 ![] bcast_S_S4x512x512 : (⟨S_, .f32⟩ : BufTy).Contents (Elt F) → (⟨S4x512x512, .f32⟩ : BufTy).Contents (Elt F)),
    StableHlo.binary main_call5_v1 main_v16 main_call5_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_14 main_call5_v3 (sitofp .f32 : (⟨S_, .i32⟩ : BufTy).Contents (Elt F) → (⟨S_, .f32⟩ : BufTy).Contents (Elt F)),
    StableHlo.unary main_call5_v3 main_call5_v4 (broadcastInDim S4x512x512 ![] bcast_S_S4x512x512 : (⟨S_, .f32⟩ : BufTy).Contents (Elt F) → (⟨S4x512x512, .f32⟩ : BufTy).Contents (Elt F)),
    StableHlo.binary main_call5_v4 main_call5_v2 main_v32 (minimumf : (⟨S4x512x512, .f32⟩ : BufTy).Contents (Elt F) → (⟨S4x512x512, .f32⟩ : BufTy).Contents (Elt F) → (⟨S4x512x512, .f32⟩ : BufTy).Contents (Elt F)) ]
theorem hostOps0_11_eq : (hostOps0_11 : List (HloOp τ sig (Elt F))) = callOps11 := rfl

/-- The 6 operations of the clamp (record main_call6), each stated at its buffers' own types. -/
abbrev callOps13 : List (HloOp τ sig (Elt F)) :=
  [ StableHlo.unary main_c_16 main_call6_v0 (sitofp .f32 : (⟨S_, .i32⟩ : BufTy).Contents (Elt F) → (⟨S_, .f32⟩ : BufTy).Contents (Elt F)),
    StableHlo.unary main_call6_v0 main_call6_v1 (broadcastInDim S4x512x512 ![] bcast_S_S4x512x512 : (⟨S_, .f32⟩ : BufTy).Contents (Elt F) → (⟨S4x512x512, .f32⟩ : BufTy).Contents (Elt F)),
    StableHlo.binary main_call6_v1 main_v35 main_call6_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_17 main_call6_v3 (sitofp .f32 : (⟨S_, .i32⟩ : BufTy).Contents (Elt F) → (⟨S_, .f32⟩ : BufTy).Contents (Elt F)),
    StableHlo.unary main_call6_v3 main_call6_v4 (broadcastInDim S4x512x512 ![] bcast_S_S4x512x512 : (⟨S_, .f32⟩ : BufTy).Contents (Elt F) → (⟨S4x512x512, .f32⟩ : BufTy).Contents (Elt F)),
    StableHlo.binary main_call6_v4 main_call6_v2 main_v36 (minimumf : (⟨S4x512x512, .f32⟩ : BufTy).Contents (Elt F) → (⟨S4x512x512, .f32⟩ : BufTy).Contents (Elt F) → (⟨S4x512x512, .f32⟩ : BufTy).Contents (Elt F)) ]
theorem hostOps0_13_eq : (hostOps0_13 : List (HloOp τ sig (Elt F))) = callOps13 := rfl

/-- The 22 operations of the gather along flat voxel numbers (record main_call7), each stated at its buffers' own types. -/
abbrev callOps15 : List (HloOp τ sig (Elt F)) :=
  [ StableHlo.nullary main_call7_c ((constantI S_ 32 0#32) : (⟨S_, .i32⟩ : BufTy).Contents (Elt F)),
    StableHlo.unary main_call7_c main_call7_v0 (broadcastInDim S4x262144x8 ![] bcast_S_S4x262144x8 : (⟨S_, .i32⟩ : BufTy).Contents (Elt F) → (⟨S4x262144x8, .i32⟩ : BufTy).Contents (Elt F)),
    StableHlo.binary main_v47 main_call7_v0 main_call7_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call7_c_0 ((constantI S_ 32 2097152#32) : (⟨S_, .i32⟩ : BufTy).Contents (Elt F)),
    StableHlo.unary main_call7_c_0 main_call7_v2 (broadcastInDim S4x262144x8 ![] bcast_S_S4x262144x8 : (⟨S_, .i32⟩ : BufTy).Contents (Elt F) → (⟨S4x262144x8, .i32⟩ : BufTy).Contents (Elt F)),
    StableHlo.binary main_v47 main_call7_v2 main_call7_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call7_v1 main_call7_v3 main_v47 main_call7_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call7_v4 main_call7_v5 rfl shapeCasts_S4x262144x8_S4x262144x8x1,
    StableHlo.nullary main_call7_c_1 ((constantI S1 32 2097151#32) : (⟨S1, .i32⟩ : BufTy).Contents (Elt F)),
    StableHlo.nullary main_call7_c_2 ((constantI S_ 32 0#32) : (⟨S_, .i32⟩ : BufTy).Contents (Elt F)),
    StableHlo.unary main_call7_c_2 main_call7_v6 (broadcastInDim S4x262144x8x1 ![] bcast_S_S4x262144x8x1 : (⟨S_, .i32⟩ : BufTy).Contents (Elt F) → (⟨S4x262144x8x1, .i32⟩ : BufTy).Contents (Elt F)),
    StableHlo.binary main_call7_v5 main_call7_v6 main_call7_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call7_c_1 main_call7_v8 (broadcastInDim S1x1x1x1 ![3] bcast_S1_S1x1x1x1_3 : (⟨S1, .i32⟩ : BufTy).Contents (Elt F) → (⟨S1x1x1x1, .i32⟩ : BufTy).Contents (Elt F)),
    StableHlo.unary main_call7_v8 main_call7_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call7_v5 main_call7_v9 main_call7_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call7_v7 main_call7_v10 main_call7_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call7_c_3 ((constantI S_ 1 1#1) : (⟨S_, .i1⟩ : BufTy).Contents (Elt F)),
    StableHlo.binary main_call7_v11 main_call7_c_3 main_call7_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call7_v5 main_call7_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call7_cst ((constant S_ .f32 0x7FC00000#32) : (⟨S_, .f32⟩ : BufTy).Contents (Elt F)),
    StableHlo.unary main_call7_cst main_call7_v14 (broadcastInDim S4x262144x8 ![] bcast_S_S4x262144x8 : (⟨S_, .f32⟩ : BufTy).Contents (Elt F) → (⟨S4x262144x8, .f32⟩ : BufTy).Contents (Elt F)),
    StableHlo.ternary main_call7_v12 main_call7_v13 main_call7_v14 main_v48 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_15_eq : (hostOps0_15 : List (HloOp τ sig (Elt F))) = callOps15 := rfl

/-- The 22 operations of the gather along flat voxel numbers (record main_call8), each stated at its buffers' own types. -/
abbrev callOps17 : List (HloOp τ sig (Elt F)) :=
  [ StableHlo.nullary main_call8_c ((constantI S_ 32 0#32) : (⟨S_, .i32⟩ : BufTy).Contents (Elt F)),
    StableHlo.unary main_call8_c main_call8_v0 (broadcastInDim S4x262144x8 ![] bcast_S_S4x262144x8 : (⟨S_, .i32⟩ : BufTy).Contents (Elt F) → (⟨S4x262144x8, .i32⟩ : BufTy).Contents (Elt F)),
    StableHlo.binary main_v58 main_call8_v0 main_call8_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call8_c_0 ((constantI S_ 32 2097152#32) : (⟨S_, .i32⟩ : BufTy).Contents (Elt F)),
    StableHlo.unary main_call8_c_0 main_call8_v2 (broadcastInDim S4x262144x8 ![] bcast_S_S4x262144x8 : (⟨S_, .i32⟩ : BufTy).Contents (Elt F) → (⟨S4x262144x8, .i32⟩ : BufTy).Contents (Elt F)),
    StableHlo.binary main_v58 main_call8_v2 main_call8_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call8_v1 main_call8_v3 main_v58 main_call8_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call8_v4 main_call8_v5 rfl shapeCasts_S4x262144x8_S4x262144x8x1,
    StableHlo.nullary main_call8_c_1 ((constantI S1 32 2097151#32) : (⟨S1, .i32⟩ : BufTy).Contents (Elt F)),
    StableHlo.nullary main_call8_c_2 ((constantI S_ 32 0#32) : (⟨S_, .i32⟩ : BufTy).Contents (Elt F)),
    StableHlo.unary main_call8_c_2 main_call8_v6 (broadcastInDim S4x262144x8x1 ![] bcast_S_S4x262144x8x1 : (⟨S_, .i32⟩ : BufTy).Contents (Elt F) → (⟨S4x262144x8x1, .i32⟩ : BufTy).Contents (Elt F)),
    StableHlo.binary main_call8_v5 main_call8_v6 main_call8_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call8_c_1 main_call8_v8 (broadcastInDim S1x1x1x1 ![3] bcast_S1_S1x1x1x1_3 : (⟨S1, .i32⟩ : BufTy).Contents (Elt F) → (⟨S1x1x1x1, .i32⟩ : BufTy).Contents (Elt F)),
    StableHlo.unary main_call8_v8 main_call8_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call8_v5 main_call8_v9 main_call8_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call8_v7 main_call8_v10 main_call8_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call8_c_3 ((constantI S_ 1 1#1) : (⟨S_, .i1⟩ : BufTy).Contents (Elt F)),
    StableHlo.binary main_call8_v11 main_call8_c_3 main_call8_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call8_v5 main_call8_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call8_cst ((constant S_ .f32 0x7FC00000#32) : (⟨S_, .f32⟩ : BufTy).Contents (Elt F)),
    StableHlo.unary main_call8_cst main_call8_v14 (broadcastInDim S4x262144x8 ![] bcast_S_S4x262144x8 : (⟨S_, .f32⟩ : BufTy).Contents (Elt F) → (⟨S4x262144x8, .f32⟩ : BufTy).Contents (Elt F)),
    StableHlo.ternary main_call8_v12 main_call8_v13 main_call8_v14 main_v59 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_17_eq : (hostOps0_17 : List (HloOp τ sig (Elt F))) = callOps17 := rfl

/-- The 22 operations of the gather along flat voxel numbers (record main_call9), each stated at its buffers' own types. -/
abbrev callOps19 : List (HloOp τ sig (Elt F)) :=
  [ StableHlo.nullary main_call9_c ((constantI S_ 32 0#32) : (⟨S_, .i32⟩ : BufTy).Contents (Elt F)),
    StableHlo.unary main_call9_c main_call9_v0 (broadcastInDim S4x262144x8 ![] bcast_S_S4x262144x8 : (⟨S_, .i32⟩ : BufTy).Contents (Elt F) → (⟨S4x262144x8, .i32⟩ : BufTy).Contents (Elt F)),
    StableHlo.binary main_v69 main_call9_v0 main_call9_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call9_c_0 ((constantI S_ 32 2097152#32) : (⟨S_, .i32⟩ : BufTy).Contents (Elt F)),
    StableHlo.unary main_call9_c_0 main_call9_v2 (broadcastInDim S4x262144x8 ![] bcast_S_S4x262144x8 : (⟨S_, .i32⟩ : BufTy).Contents (Elt F) → (⟨S4x262144x8, .i32⟩ : BufTy).Contents (Elt F)),
    StableHlo.binary main_v69 main_call9_v2 main_call9_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call9_v1 main_call9_v3 main_v69 main_call9_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call9_v4 main_call9_v5 rfl shapeCasts_S4x262144x8_S4x262144x8x1,
    StableHlo.nullary main_call9_c_1 ((constantI S1 32 2097151#32) : (⟨S1, .i32⟩ : BufTy).Contents (Elt F)),
    StableHlo.nullary main_call9_c_2 ((constantI S_ 32 0#32) : (⟨S_, .i32⟩ : BufTy).Contents (Elt F)),
    StableHlo.unary main_call9_c_2 main_call9_v6 (broadcastInDim S4x262144x8x1 ![] bcast_S_S4x262144x8x1 : (⟨S_, .i32⟩ : BufTy).Contents (Elt F) → (⟨S4x262144x8x1, .i32⟩ : BufTy).Contents (Elt F)),
    StableHlo.binary main_call9_v5 main_call9_v6 main_call9_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call9_c_1 main_call9_v8 (broadcastInDim S1x1x1x1 ![3] bcast_S1_S1x1x1x1_3 : (⟨S1, .i32⟩ : BufTy).Contents (Elt F) → (⟨S1x1x1x1, .i32⟩ : BufTy).Contents (Elt F)),
    StableHlo.unary main_call9_v8 main_call9_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call9_v5 main_call9_v9 main_call9_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call9_v7 main_call9_v10 main_call9_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call9_c_3 ((constantI S_ 1 1#1) : (⟨S_, .i1⟩ : BufTy).Contents (Elt F)),
    StableHlo.binary main_call9_v11 main_call9_c_3 main_call9_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call9_v5 main_call9_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call9_cst ((constant S_ .f32 0x7FC00000#32) : (⟨S_, .f32⟩ : BufTy).Contents (Elt F)),
    StableHlo.unary main_call9_cst main_call9_v14 (broadcastInDim S4x262144x8 ![] bcast_S_S4x262144x8 : (⟨S_, .f32⟩ : BufTy).Contents (Elt F) → (⟨S4x262144x8, .f32⟩ : BufTy).Contents (Elt F)),
    StableHlo.ternary main_call9_v12 main_call9_v13 main_call9_v14 main_v70 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_19_eq : (hostOps0_19 : List (HloOp τ sig (Elt F))) = callOps19 := rfl

/-- The 22 operations of the gather along flat voxel numbers (record main_call10), each stated at its buffers' own types. -/
abbrev callOps21 : List (HloOp τ sig (Elt F)) :=
  [ StableHlo.nullary main_call10_c ((constantI S_ 32 0#32) : (⟨S_, .i32⟩ : BufTy).Contents (Elt F)),
    StableHlo.unary main_call10_c main_call10_v0 (broadcastInDim S4x262144x8 ![] bcast_S_S4x262144x8 : (⟨S_, .i32⟩ : BufTy).Contents (Elt F) → (⟨S4x262144x8, .i32⟩ : BufTy).Contents (Elt F)),
    StableHlo.binary main_v80 main_call10_v0 main_call10_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call10_c_0 ((constantI S_ 32 2097152#32) : (⟨S_, .i32⟩ : BufTy).Contents (Elt F)),
    StableHlo.unary main_call10_c_0 main_call10_v2 (broadcastInDim S4x262144x8 ![] bcast_S_S4x262144x8 : (⟨S_, .i32⟩ : BufTy).Contents (Elt F) → (⟨S4x262144x8, .i32⟩ : BufTy).Contents (Elt F)),
    StableHlo.binary main_v80 main_call10_v2 main_call10_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call10_v1 main_call10_v3 main_v80 main_call10_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call10_v4 main_call10_v5 rfl shapeCasts_S4x262144x8_S4x262144x8x1,
    StableHlo.nullary main_call10_c_1 ((constantI S1 32 2097151#32) : (⟨S1, .i32⟩ : BufTy).Contents (Elt F)),
    StableHlo.nullary main_call10_c_2 ((constantI S_ 32 0#32) : (⟨S_, .i32⟩ : BufTy).Contents (Elt F)),
    StableHlo.unary main_call10_c_2 main_call10_v6 (broadcastInDim S4x262144x8x1 ![] bcast_S_S4x262144x8x1 : (⟨S_, .i32⟩ : BufTy).Contents (Elt F) → (⟨S4x262144x8x1, .i32⟩ : BufTy).Contents (Elt F)),
    StableHlo.binary main_call10_v5 main_call10_v6 main_call10_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call10_c_1 main_call10_v8 (broadcastInDim S1x1x1x1 ![3] bcast_S1_S1x1x1x1_3 : (⟨S1, .i32⟩ : BufTy).Contents (Elt F) → (⟨S1x1x1x1, .i32⟩ : BufTy).Contents (Elt F)),
    StableHlo.unary main_call10_v8 main_call10_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call10_v5 main_call10_v9 main_call10_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call10_v7 main_call10_v10 main_call10_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call10_c_3 ((constantI S_ 1 1#1) : (⟨S_, .i1⟩ : BufTy).Contents (Elt F)),
    StableHlo.binary main_call10_v11 main_call10_c_3 main_call10_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call10_v5 main_call10_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call10_cst ((constant S_ .f32 0x7FC00000#32) : (⟨S_, .f32⟩ : BufTy).Contents (Elt F)),
    StableHlo.unary main_call10_cst main_call10_v14 (broadcastInDim S4x262144x8 ![] bcast_S_S4x262144x8 : (⟨S_, .f32⟩ : BufTy).Contents (Elt F) → (⟨S4x262144x8, .f32⟩ : BufTy).Contents (Elt F)),
    StableHlo.ternary main_call10_v12 main_call10_v13 main_call10_v14 main_v81 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_21_eq : (hostOps0_21 : List (HloOp τ sig (Elt F))) = callOps21 := rfl

/-- The 22 operations of the gather along flat voxel numbers (record main_call11), each stated at its buffers' own types. -/
abbrev callOps23 : List (HloOp τ sig (Elt F)) :=
  [ StableHlo.nullary main_call11_c ((constantI S_ 32 0#32) : (⟨S_, .i32⟩ : BufTy).Contents (Elt F)),
    StableHlo.unary main_call11_c main_call11_v0 (broadcastInDim S4x262144x8 ![] bcast_S_S4x262144x8 : (⟨S_, .i32⟩ : BufTy).Contents (Elt F) → (⟨S4x262144x8, .i32⟩ : BufTy).Contents (Elt F)),
    StableHlo.binary main_v91 main_call11_v0 main_call11_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call11_c_0 ((constantI S_ 32 2097152#32) : (⟨S_, .i32⟩ : BufTy).Contents (Elt F)),
    StableHlo.unary main_call11_c_0 main_call11_v2 (broadcastInDim S4x262144x8 ![] bcast_S_S4x262144x8 : (⟨S_, .i32⟩ : BufTy).Contents (Elt F) → (⟨S4x262144x8, .i32⟩ : BufTy).Contents (Elt F)),
    StableHlo.binary main_v91 main_call11_v2 main_call11_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call11_v1 main_call11_v3 main_v91 main_call11_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call11_v4 main_call11_v5 rfl shapeCasts_S4x262144x8_S4x262144x8x1,
    StableHlo.nullary main_call11_c_1 ((constantI S1 32 2097151#32) : (⟨S1, .i32⟩ : BufTy).Contents (Elt F)),
    StableHlo.nullary main_call11_c_2 ((constantI S_ 32 0#32) : (⟨S_, .i32⟩ : BufTy).Contents (Elt F)),
    StableHlo.unary main_call11_c_2 main_call11_v6 (broadcastInDim S4x262144x8x1 ![] bcast_S_S4x262144x8x1 : (⟨S_, .i32⟩ : BufTy).Contents (Elt F) → (⟨S4x262144x8x1, .i32⟩ : BufTy).Contents (Elt F)),
    StableHlo.binary main_call11_v5 main_call11_v6 main_call11_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call11_c_1 main_call11_v8 (broadcastInDim S1x1x1x1 ![3] bcast_S1_S1x1x1x1_3 : (⟨S1, .i32⟩ : BufTy).Contents (Elt F) → (⟨S1x1x1x1, .i32⟩ : BufTy).Contents (Elt F)),
    StableHlo.unary main_call11_v8 main_call11_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call11_v5 main_call11_v9 main_call11_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call11_v7 main_call11_v10 main_call11_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call11_c_3 ((constantI S_ 1 1#1) : (⟨S_, .i1⟩ : BufTy).Contents (Elt F)),
    StableHlo.binary main_call11_v11 main_call11_c_3 main_call11_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call11_v5 main_call11_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call11_cst ((constant S_ .f32 0x7FC00000#32) : (⟨S_, .f32⟩ : BufTy).Contents (Elt F)),
    StableHlo.unary main_call11_cst main_call11_v14 (broadcastInDim S4x262144x8 ![] bcast_S_S4x262144x8 : (⟨S_, .f32⟩ : BufTy).Contents (Elt F) → (⟨S4x262144x8, .f32⟩ : BufTy).Contents (Elt F)),
    StableHlo.ternary main_call11_v12 main_call11_v13 main_call11_v14 main_v92 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_23_eq : (hostOps0_23 : List (HloOp τ sig (Elt F))) = callOps23 := rfl

/-- The 22 operations of the gather along flat voxel numbers (record main_call12), each stated at its buffers' own types. -/
abbrev callOps25 : List (HloOp τ sig (Elt F)) :=
  [ StableHlo.nullary main_call12_c ((constantI S_ 32 0#32) : (⟨S_, .i32⟩ : BufTy).Contents (Elt F)),
    StableHlo.unary main_call12_c main_call12_v0 (broadcastInDim S4x262144x8 ![] bcast_S_S4x262144x8 : (⟨S_, .i32⟩ : BufTy).Contents (Elt F) → (⟨S4x262144x8, .i32⟩ : BufTy).Contents (Elt F)),
    StableHlo.binary main_v102 main_call12_v0 main_call12_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call12_c_0 ((constantI S_ 32 2097152#32) : (⟨S_, .i32⟩ : BufTy).Contents (Elt F)),
    StableHlo.unary main_call12_c_0 main_call12_v2 (broadcastInDim S4x262144x8 ![] bcast_S_S4x262144x8 : (⟨S_, .i32⟩ : BufTy).Contents (Elt F) → (⟨S4x262144x8, .i32⟩ : BufTy).Contents (Elt F)),
    StableHlo.binary main_v102 main_call12_v2 main_call12_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call12_v1 main_call12_v3 main_v102 main_call12_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call12_v4 main_call12_v5 rfl shapeCasts_S4x262144x8_S4x262144x8x1,
    StableHlo.nullary main_call12_c_1 ((constantI S1 32 2097151#32) : (⟨S1, .i32⟩ : BufTy).Contents (Elt F)),
    StableHlo.nullary main_call12_c_2 ((constantI S_ 32 0#32) : (⟨S_, .i32⟩ : BufTy).Contents (Elt F)),
    StableHlo.unary main_call12_c_2 main_call12_v6 (broadcastInDim S4x262144x8x1 ![] bcast_S_S4x262144x8x1 : (⟨S_, .i32⟩ : BufTy).Contents (Elt F) → (⟨S4x262144x8x1, .i32⟩ : BufTy).Contents (Elt F)),
    StableHlo.binary main_call12_v5 main_call12_v6 main_call12_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call12_c_1 main_call12_v8 (broadcastInDim S1x1x1x1 ![3] bcast_S1_S1x1x1x1_3 : (⟨S1, .i32⟩ : BufTy).Contents (Elt F) → (⟨S1x1x1x1, .i32⟩ : BufTy).Contents (Elt F)),
    StableHlo.unary main_call12_v8 main_call12_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call12_v5 main_call12_v9 main_call12_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call12_v7 main_call12_v10 main_call12_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call12_c_3 ((constantI S_ 1 1#1) : (⟨S_, .i1⟩ : BufTy).Contents (Elt F)),
    StableHlo.binary main_call12_v11 main_call12_c_3 main_call12_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call12_v5 main_call12_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call12_cst ((constant S_ .f32 0x7FC00000#32) : (⟨S_, .f32⟩ : BufTy).Contents (Elt F)),
    StableHlo.unary main_call12_cst main_call12_v14 (broadcastInDim S4x262144x8 ![] bcast_S_S4x262144x8 : (⟨S_, .f32⟩ : BufTy).Contents (Elt F) → (⟨S4x262144x8, .f32⟩ : BufTy).Contents (Elt F)),
    StableHlo.ternary main_call12_v12 main_call12_v13 main_call12_v14 main_v103 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_25_eq : (hostOps0_25 : List (HloOp τ sig (Elt F))) = callOps25 := rfl

/-- The 22 operations of the gather along flat voxel numbers (record main_call13), each stated at its buffers' own types. -/
abbrev callOps27 : List (HloOp τ sig (Elt F)) :=
  [ StableHlo.nullary main_call13_c ((constantI S_ 32 0#32) : (⟨S_, .i32⟩ : BufTy).Contents (Elt F)),
    StableHlo.unary main_call13_c main_call13_v0 (broadcastInDim S4x262144x8 ![] bcast_S_S4x262144x8 : (⟨S_, .i32⟩ : BufTy).Contents (Elt F) → (⟨S4x262144x8, .i32⟩ : BufTy).Contents (Elt F)),
    StableHlo.binary main_v113 main_call13_v0 main_call13_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call13_c_0 ((constantI S_ 32 2097152#32) : (⟨S_, .i32⟩ : BufTy).Contents (Elt F)),
    StableHlo.unary main_call13_c_0 main_call13_v2 (broadcastInDim S4x262144x8 ![] bcast_S_S4x262144x8 : (⟨S_, .i32⟩ : BufTy).Contents (Elt F) → (⟨S4x262144x8, .i32⟩ : BufTy).Contents (Elt F)),
    StableHlo.binary main_v113 main_call13_v2 main_call13_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call13_v1 main_call13_v3 main_v113 main_call13_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call13_v4 main_call13_v5 rfl shapeCasts_S4x262144x8_S4x262144x8x1,
    StableHlo.nullary main_call13_c_1 ((constantI S1 32 2097151#32) : (⟨S1, .i32⟩ : BufTy).Contents (Elt F)),
    StableHlo.nullary main_call13_c_2 ((constantI S_ 32 0#32) : (⟨S_, .i32⟩ : BufTy).Contents (Elt F)),
    StableHlo.unary main_call13_c_2 main_call13_v6 (broadcastInDim S4x262144x8x1 ![] bcast_S_S4x262144x8x1 : (⟨S_, .i32⟩ : BufTy).Contents (Elt F) → (⟨S4x262144x8x1, .i32⟩ : BufTy).Contents (Elt F)),
    StableHlo.binary main_call13_v5 main_call13_v6 main_call13_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call13_c_1 main_call13_v8 (broadcastInDim S1x1x1x1 ![3] bcast_S1_S1x1x1x1_3 : (⟨S1, .i32⟩ : BufTy).Contents (Elt F) → (⟨S1x1x1x1, .i32⟩ : BufTy).Contents (Elt F)),
    StableHlo.unary main_call13_v8 main_call13_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call13_v5 main_call13_v9 main_call13_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call13_v7 main_call13_v10 main_call13_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call13_c_3 ((constantI S_ 1 1#1) : (⟨S_, .i1⟩ : BufTy).Contents (Elt F)),
    StableHlo.binary main_call13_v11 main_call13_c_3 main_call13_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call13_v5 main_call13_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call13_cst ((constant S_ .f32 0x7FC00000#32) : (⟨S_, .f32⟩ : BufTy).Contents (Elt F)),
    StableHlo.unary main_call13_cst main_call13_v14 (broadcastInDim S4x262144x8 ![] bcast_S_S4x262144x8 : (⟨S_, .f32⟩ : BufTy).Contents (Elt F) → (⟨S4x262144x8, .f32⟩ : BufTy).Contents (Elt F)),
    StableHlo.ternary main_call13_v12 main_call13_v13 main_call13_v14 main_v114 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_27_eq : (hostOps0_27 : List (HloOp τ sig (Elt F))) = callOps27 := rfl

/-- The 22 operations of the gather along flat voxel numbers (record main_call14), each stated at its buffers' own types. -/
abbrev callOps29 : List (HloOp τ sig (Elt F)) :=
  [ StableHlo.nullary main_call14_c ((constantI S_ 32 0#32) : (⟨S_, .i32⟩ : BufTy).Contents (Elt F)),
    StableHlo.unary main_call14_c main_call14_v0 (broadcastInDim S4x262144x8 ![] bcast_S_S4x262144x8 : (⟨S_, .i32⟩ : BufTy).Contents (Elt F) → (⟨S4x262144x8, .i32⟩ : BufTy).Contents (Elt F)),
    StableHlo.binary main_v124 main_call14_v0 main_call14_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call14_c_0 ((constantI S_ 32 2097152#32) : (⟨S_, .i32⟩ : BufTy).Contents (Elt F)),
    StableHlo.unary main_call14_c_0 main_call14_v2 (broadcastInDim S4x262144x8 ![] bcast_S_S4x262144x8 : (⟨S_, .i32⟩ : BufTy).Contents (Elt F) → (⟨S4x262144x8, .i32⟩ : BufTy).Contents (Elt F)),
    StableHlo.binary main_v124 main_call14_v2 main_call14_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call14_v1 main_call14_v3 main_v124 main_call14_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call14_v4 main_call14_v5 rfl shapeCasts_S4x262144x8_S4x262144x8x1,
    StableHlo.nullary main_call14_c_1 ((constantI S1 32 2097151#32) : (⟨S1, .i32⟩ : BufTy).Contents (Elt F)),
    StableHlo.nullary main_call14_c_2 ((constantI S_ 32 0#32) : (⟨S_, .i32⟩ : BufTy).Contents (Elt F)),
    StableHlo.unary main_call14_c_2 main_call14_v6 (broadcastInDim S4x262144x8x1 ![] bcast_S_S4x262144x8x1 : (⟨S_, .i32⟩ : BufTy).Contents (Elt F) → (⟨S4x262144x8x1, .i32⟩ : BufTy).Contents (Elt F)),
    StableHlo.binary main_call14_v5 main_call14_v6 main_call14_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call14_c_1 main_call14_v8 (broadcastInDim S1x1x1x1 ![3] bcast_S1_S1x1x1x1_3 : (⟨S1, .i32⟩ : BufTy).Contents (Elt F) → (⟨S1x1x1x1, .i32⟩ : BufTy).Contents (Elt F)),
    StableHlo.unary main_call14_v8 main_call14_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call14_v5 main_call14_v9 main_call14_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call14_v7 main_call14_v10 main_call14_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call14_c_3 ((constantI S_ 1 1#1) : (⟨S_, .i1⟩ : BufTy).Contents (Elt F)),
    StableHlo.binary main_call14_v11 main_call14_c_3 main_call14_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call14_v5 main_call14_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call14_cst ((constant S_ .f32 0x7FC00000#32) : (⟨S_, .f32⟩ : BufTy).Contents (Elt F)),
    StableHlo.unary main_call14_cst main_call14_v14 (broadcastInDim S4x262144x8 ![] bcast_S_S4x262144x8 : (⟨S_, .f32⟩ : BufTy).Contents (Elt F) → (⟨S4x262144x8, .f32⟩ : BufTy).Contents (Elt F)),
    StableHlo.ternary main_call14_v12 main_call14_v13 main_call14_v14 main_v125 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)) ]
theorem hostOps0_29_eq : (hostOps0_29 : List (HloOp τ sig (Elt F))) = callOps29 := rfl

end Calls

set_option maxHeartbeats 8000000 in
set_option maxRecDepth 16384 in
/-- All 367 host operations before the region, in program order, the called functions' among them. -/
abbrev opsFree : List (HloOp τ sig (Elt F)) :=
  [ StableHlo.nullary main_cst (constant S3 .f32 0x42FE0000#32),
    StableHlo.nullary main_cst_0 (constant S_ .f32 0xBF800000#32),
    StableHlo.nullary main_cst_1 (constant S_ .f32 0x3F800000#32),
    StableHlo.unary main_cst_0 main_call0_v0 (id : (⟨S_, .f32⟩ : BufTy).Contents (Elt F) → (⟨S_, .f32⟩ : BufTy).Contents (Elt F)),
    StableHlo.unary main_call0_v0 main_call0_v1 (broadcastInDim S4x512x512x3 ![] bcast_S_S4x512x512x3 : (⟨S_, .f32⟩ : BufTy).Contents (Elt F) → (⟨S4x512x512x3, .f32⟩ : BufTy).Contents (Elt F)),
    StableHlo.binary main_call0_v1 main_arg1 main_call0_v2 (maximumf : (⟨S4x512x512x3, .f32⟩ : BufTy).Contents (Elt F) → (⟨S4x512x512x3, .f32⟩ : BufTy).Contents (Elt F) → (⟨S4x512x512x3, .f32⟩ : BufTy).Contents (Elt F)),
    StableHlo.unary main_cst_1 main_call0_v3 (id : (⟨S_, .f32⟩ : BufTy).Contents (Elt F) → (⟨S_, .f32⟩ : BufTy).Contents (Elt F)),
    StableHlo.unary main_call0_v3 main_call0_v4 (broadcastInDim S4x512x512x3 ![] bcast_S_S4x512x512x3 : (⟨S_, .f32⟩ : BufTy).Contents (Elt F) → (⟨S4x512x512x3, .f32⟩ : BufTy).Contents (Elt F)),
    StableHlo.binary main_call0_v4 main_call0_v2 main_v0 (minimumf : (⟨S4x512x512x3, .f32⟩ : BufTy).Contents (Elt F) → (⟨S4x512x512x3, .f32⟩ : BufTy).Contents (Elt F) → (⟨S4x512x512x3, .f32⟩ : BufTy).Contents (Elt F)),
    StableHlo.nullary main_cst_2 (constant S_ .f32 0x3F800000#32),
    StableHlo.unary main_cst_2 main_v1 (broadcastInDim S4x512x512x3 ![] bcast_S_S4x512x512x3 : (⟨S_, .f32⟩ : BufTy).Contents (Elt F) → (⟨S4x512x512x3, .f32⟩ : BufTy).Contents (Elt F)),
    StableHlo.binary main_v0 main_v1 main_v2 (addf : (⟨S4x512x512x3, .f32⟩ : BufTy).Contents (Elt F) → (⟨S4x512x512x3, .f32⟩ : BufTy).Contents (Elt F) → (⟨S4x512x512x3, .f32⟩ : BufTy).Contents (Elt F)),
    StableHlo.nullary main_cst_3 (constant S_ .f32 0x3F000000#32),
    StableHlo.unary main_cst_3 main_v3 (broadcastInDim S4x512x512x3 ![] bcast_S_S4x512x512x3 : (⟨S_, .f32⟩ : BufTy).Contents (Elt F) → (⟨S4x512x512x3, .f32⟩ : BufTy).Contents (Elt F)),
    StableHlo.binary main_v2 main_v3 main_v4 (mulf : (⟨S4x512x512x3, .f32⟩ : BufTy).Contents (Elt F) → (⟨S4x512x512x3, .f32⟩ : BufTy).Contents (Elt F) → (⟨S4x512x512x3, .f32⟩ : BufTy).Contents (Elt F)),
    StableHlo.unary main_cst main_v5 (broadcastInDim S1x1x1x3 ![3] bcast_S3_S1x1x1x3_3 : (⟨S3, .f32⟩ : BufTy).Contents (Elt F) → (⟨S1x1x1x3, .f32⟩ : BufTy).Contents (Elt F)),
    StableHlo.unary main_v5 main_v6 (broadcastInDim S4x512x512x3 ![0, 1, 2, 3] bcast_S1x1x1x3_S4x512x512x3_0_1_2_3 : (⟨S1x1x1x3, .f32⟩ : BufTy).Contents (Elt F) → (⟨S4x512x512x3, .f32⟩ : BufTy).Contents (Elt F)),
    StableHlo.binary main_v4 main_v6 main_v7 (mulf : (⟨S4x512x512x3, .f32⟩ : BufTy).Contents (Elt F) → (⟨S4x512x512x3, .f32⟩ : BufTy).Contents (Elt F) → (⟨S4x512x512x3, .f32⟩ : BufTy).Contents (Elt F)),
    StableHlo.unary main_v7 main_v8 ((extractStridedSlice S4x512x512x1 ![0, 0, 0, 0] · slices_S4x512x512x3_S4x512x512x1_0_0_0_0) : (⟨S4x512x512x3, .f32⟩ : BufTy).Contents (Elt F) → (⟨S4x512x512x1, .f32⟩ : BufTy).Contents (Elt F)),
    StableHlo.reshape main_v8 main_v9 rfl shapeCasts_S4x512x512x1_S4x512x512,
    StableHlo.unary main_v7 main_v10 ((extractStridedSlice S4x512x512x1 ![0, 0, 0, 1] · slices_S4x512x512x3_S4x512x512x1_0_0_0_1) : (⟨S4x512x512x3, .f32⟩ : BufTy).Contents (Elt F) → (⟨S4x512x512x1, .f32⟩ : BufTy).Contents (Elt F)),
    StableHlo.reshape main_v10 main_v11 rfl shapeCasts_S4x512x512x1_S4x512x512,
    StableHlo.unary main_v7 main_v12 ((extractStridedSlice S4x512x512x1 ![0, 0, 0, 2] · slices_S4x512x512x3_S4x512x512x1_0_0_0_2) : (⟨S4x512x512x3, .f32⟩ : BufTy).Contents (Elt F) → (⟨S4x512x512x1, .f32⟩ : BufTy).Contents (Elt F)),
    StableHlo.reshape main_v12 main_v13 rfl shapeCasts_S4x512x512x1_S4x512x512,
    StableHlo.unary main_v9 main_v14 (Host.floor : (⟨S4x512x512, .f32⟩ : BufTy).Contents (Elt F) → (⟨S4x512x512, .f32⟩ : BufTy).Contents (Elt F)),
    StableHlo.unary main_v11 main_v15 (Host.floor : (⟨S4x512x512, .f32⟩ : BufTy).Contents (Elt F) → (⟨S4x512x512, .f32⟩ : BufTy).Contents (Elt F)),
    StableHlo.unary main_v13 main_v16 (Host.floor : (⟨S4x512x512, .f32⟩ : BufTy).Contents (Elt F) → (⟨S4x512x512, .f32⟩ : BufTy).Contents (Elt F)),
    StableHlo.binary main_v9 main_v14 main_v17 (subf : (⟨S4x512x512, .f32⟩ : BufTy).Contents (Elt F) → (⟨S4x512x512, .f32⟩ : BufTy).Contents (Elt F) → (⟨S4x512x512, .f32⟩ : BufTy).Contents (Elt F)),
    StableHlo.binary main_v11 main_v15 main_v18 (subf : (⟨S4x512x512, .f32⟩ : BufTy).Contents (Elt F) → (⟨S4x512x512, .f32⟩ : BufTy).Contents (Elt F) → (⟨S4x512x512, .f32⟩ : BufTy).Contents (Elt F)),
    StableHlo.binary main_v13 main_v16 main_v19 (subf : (⟨S4x512x512, .f32⟩ : BufTy).Contents (Elt F) → (⟨S4x512x512, .f32⟩ : BufTy).Contents (Elt F) → (⟨S4x512x512, .f32⟩ : BufTy).Contents (Elt F)),
    StableHlo.nullary main_c (constantI S_ 32 0#32),
    StableHlo.nullary main_c_4 (constantI S_ 32 127#32),
    StableHlo.unary main_c main_call1_v0 (sitofp .f32 : (⟨S_, .i32⟩ : BufTy).Contents (Elt F) → (⟨S_, .f32⟩ : BufTy).Contents (Elt F)),
    StableHlo.unary main_call1_v0 main_call1_v1 (broadcastInDim S4x512x512 ![] bcast_S_S4x512x512 : (⟨S_, .f32⟩ : BufTy).Contents (Elt F) → (⟨S4x512x512, .f32⟩ : BufTy).Contents (Elt F)),
    StableHlo.binary main_call1_v1 main_v14 main_call1_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_4 main_call1_v3 (sitofp .f32 : (⟨S_, .i32⟩ : BufTy).Contents (Elt F) → (⟨S_, .f32⟩ : BufTy).Contents (Elt F)),
    StableHlo.unary main_call1_v3 main_call1_v4 (broadcastInDim S4x512x512 ![] bcast_S_S4x512x512 : (⟨S_, .f32⟩ : BufTy).Contents (Elt F) → (⟨S4x512x512, .f32⟩ : BufTy).Contents (Elt F)),
    StableHlo.binary main_call1_v4 main_call1_v2 main_v20 (minimumf : (⟨S4x512x512, .f32⟩ : BufTy).Contents (Elt F) → (⟨S4x512x512, .f32⟩ : BufTy).Contents (Elt F) → (⟨S4x512x512, .f32⟩ : BufTy).Contents (Elt F)),
    StableHlo.unary main_v20 main_v21 (fptosi 32 : (⟨S4x512x512, .f32⟩ : BufTy).Contents (Elt F) → (⟨S4x512x512, .i32⟩ : BufTy).Contents (Elt F)),
    StableHlo.nullary main_cst_5 (constant S_ .f32 0x3F800000#32),
    StableHlo.unary main_cst_5 main_v22 (broadcastInDim S4x512x512 ![] bcast_S_S4x512x512 : (⟨S_, .f32⟩ : BufTy).Contents (Elt F) → (⟨S4x512x512, .f32⟩ : BufTy).Contents (Elt F)),
    StableHlo.binary main_v14 main_v22 main_v23 (addf : (⟨S4x512x512, .f32⟩ : BufTy).Contents (Elt F) → (⟨S4x512x512, .f32⟩ : BufTy).Contents (Elt F) → (⟨S4x512x512, .f32⟩ : BufTy).Contents (Elt F)),
    StableHlo.nullary main_c_6 (constantI S_ 32 0#32),
    StableHlo.nullary main_c_7 (constantI S_ 32 127#32),
    StableHlo.unary main_c_6 main_call2_v0 (sitofp .f32 : (⟨S_, .i32⟩ : BufTy).Contents (Elt F) → (⟨S_, .f32⟩ : BufTy).Contents (Elt F)),
    StableHlo.unary main_call2_v0 main_call2_v1 (broadcastInDim S4x512x512 ![] bcast_S_S4x512x512 : (⟨S_, .f32⟩ : BufTy).Contents (Elt F) → (⟨S4x512x512, .f32⟩ : BufTy).Contents (Elt F)),
    StableHlo.binary main_call2_v1 main_v23 main_call2_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_7 main_call2_v3 (sitofp .f32 : (⟨S_, .i32⟩ : BufTy).Contents (Elt F) → (⟨S_, .f32⟩ : BufTy).Contents (Elt F)),
    StableHlo.unary main_call2_v3 main_call2_v4 (broadcastInDim S4x512x512 ![] bcast_S_S4x512x512 : (⟨S_, .f32⟩ : BufTy).Contents (Elt F) → (⟨S4x512x512, .f32⟩ : BufTy).Contents (Elt F)),
    StableHlo.binary main_call2_v4 main_call2_v2 main_v24 (minimumf : (⟨S4x512x512, .f32⟩ : BufTy).Contents (Elt F) → (⟨S4x512x512, .f32⟩ : BufTy).Contents (Elt F) → (⟨S4x512x512, .f32⟩ : BufTy).Contents (Elt F)),
    StableHlo.unary main_v24 main_v25 (fptosi 32 : (⟨S4x512x512, .f32⟩ : BufTy).Contents (Elt F) → (⟨S4x512x512, .i32⟩ : BufTy).Contents (Elt F)),
    StableHlo.nullary main_c_8 (constantI S_ 32 0#32),
    StableHlo.nullary main_c_9 (constantI S_ 32 127#32),
    StableHlo.unary main_c_8 main_call3_v0 (sitofp .f32 : (⟨S_, .i32⟩ : BufTy).Contents (Elt F) → (⟨S_, .f32⟩ : BufTy).Contents (Elt F)),
    StableHlo.unary main_call3_v0 main_call3_v1 (broadcastInDim S4x512x512 ![] bcast_S_S4x512x512 : (⟨S_, .f32⟩ : BufTy).Contents (Elt F) → (⟨S4x512x512, .f32⟩ : BufTy).Contents (Elt F)),
    StableHlo.binary main_call3_v1 main_v15 main_call3_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_9 main_call3_v3 (sitofp .f32 : (⟨S_, .i32⟩ : BufTy).Contents (Elt F) → (⟨S_, .f32⟩ : BufTy).Contents (Elt F)),
    StableHlo.unary main_call3_v3 main_call3_v4 (broadcastInDim S4x512x512 ![] bcast_S_S4x512x512 : (⟨S_, .f32⟩ : BufTy).Contents (Elt F) → (⟨S4x512x512, .f32⟩ : BufTy).Contents (Elt F)),
    StableHlo.binary main_call3_v4 main_call3_v2 main_v26 (minimumf : (⟨S4x512x512, .f32⟩ : BufTy).Contents (Elt F) → (⟨S4x512x512, .f32⟩ : BufTy).Contents (Elt F) → (⟨S4x512x512, .f32⟩ : BufTy).Contents (Elt F)),
    StableHlo.unary main_v26 main_v27 (fptosi 32 : (⟨S4x512x512, .f32⟩ : BufTy).Contents (Elt F) → (⟨S4x512x512, .i32⟩ : BufTy).Contents (Elt F)),
    StableHlo.nullary main_cst_10 (constant S_ .f32 0x3F800000#32),
    StableHlo.unary main_cst_10 main_v28 (broadcastInDim S4x512x512 ![] bcast_S_S4x512x512 : (⟨S_, .f32⟩ : BufTy).Contents (Elt F) → (⟨S4x512x512, .f32⟩ : BufTy).Contents (Elt F)),
    StableHlo.binary main_v15 main_v28 main_v29 (addf : (⟨S4x512x512, .f32⟩ : BufTy).Contents (Elt F) → (⟨S4x512x512, .f32⟩ : BufTy).Contents (Elt F) → (⟨S4x512x512, .f32⟩ : BufTy).Contents (Elt F)),
    StableHlo.nullary main_c_11 (constantI S_ 32 0#32),
    StableHlo.nullary main_c_12 (constantI S_ 32 127#32),
    StableHlo.unary main_c_11 main_call4_v0 (sitofp .f32 : (⟨S_, .i32⟩ : BufTy).Contents (Elt F) → (⟨S_, .f32⟩ : BufTy).Contents (Elt F)),
    StableHlo.unary main_call4_v0 main_call4_v1 (broadcastInDim S4x512x512 ![] bcast_S_S4x512x512 : (⟨S_, .f32⟩ : BufTy).Contents (Elt F) → (⟨S4x512x512, .f32⟩ : BufTy).Contents (Elt F)),
    StableHlo.binary main_call4_v1 main_v29 main_call4_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_12 main_call4_v3 (sitofp .f32 : (⟨S_, .i32⟩ : BufTy).Contents (Elt F) → (⟨S_, .f32⟩ : BufTy).Contents (Elt F)),
    StableHlo.unary main_call4_v3 main_call4_v4 (broadcastInDim S4x512x512 ![] bcast_S_S4x512x512 : (⟨S_, .f32⟩ : BufTy).Contents (Elt F) → (⟨S4x512x512, .f32⟩ : BufTy).Contents (Elt F)),
    StableHlo.binary main_call4_v4 main_call4_v2 main_v30 (minimumf : (⟨S4x512x512, .f32⟩ : BufTy).Contents (Elt F) → (⟨S4x512x512, .f32⟩ : BufTy).Contents (Elt F) → (⟨S4x512x512, .f32⟩ : BufTy).Contents (Elt F)),
    StableHlo.unary main_v30 main_v31 (fptosi 32 : (⟨S4x512x512, .f32⟩ : BufTy).Contents (Elt F) → (⟨S4x512x512, .i32⟩ : BufTy).Contents (Elt F)),
    StableHlo.nullary main_c_13 (constantI S_ 32 0#32),
    StableHlo.nullary main_c_14 (constantI S_ 32 127#32),
    StableHlo.unary main_c_13 main_call5_v0 (sitofp .f32 : (⟨S_, .i32⟩ : BufTy).Contents (Elt F) → (⟨S_, .f32⟩ : BufTy).Contents (Elt F)),
    StableHlo.unary main_call5_v0 main_call5_v1 (broadcastInDim S4x512x512 ![] bcast_S_S4x512x512 : (⟨S_, .f32⟩ : BufTy).Contents (Elt F) → (⟨S4x512x512, .f32⟩ : BufTy).Contents (Elt F)),
    StableHlo.binary main_call5_v1 main_v16 main_call5_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_14 main_call5_v3 (sitofp .f32 : (⟨S_, .i32⟩ : BufTy).Contents (Elt F) → (⟨S_, .f32⟩ : BufTy).Contents (Elt F)),
    StableHlo.unary main_call5_v3 main_call5_v4 (broadcastInDim S4x512x512 ![] bcast_S_S4x512x512 : (⟨S_, .f32⟩ : BufTy).Contents (Elt F) → (⟨S4x512x512, .f32⟩ : BufTy).Contents (Elt F)),
    StableHlo.binary main_call5_v4 main_call5_v2 main_v32 (minimumf : (⟨S4x512x512, .f32⟩ : BufTy).Contents (Elt F) → (⟨S4x512x512, .f32⟩ : BufTy).Contents (Elt F) → (⟨S4x512x512, .f32⟩ : BufTy).Contents (Elt F)),
    StableHlo.unary main_v32 main_v33 (fptosi 32 : (⟨S4x512x512, .f32⟩ : BufTy).Contents (Elt F) → (⟨S4x512x512, .i32⟩ : BufTy).Contents (Elt F)),
    StableHlo.nullary main_cst_15 (constant S_ .f32 0x3F800000#32),
    StableHlo.unary main_cst_15 main_v34 (broadcastInDim S4x512x512 ![] bcast_S_S4x512x512 : (⟨S_, .f32⟩ : BufTy).Contents (Elt F) → (⟨S4x512x512, .f32⟩ : BufTy).Contents (Elt F)),
    StableHlo.binary main_v16 main_v34 main_v35 (addf : (⟨S4x512x512, .f32⟩ : BufTy).Contents (Elt F) → (⟨S4x512x512, .f32⟩ : BufTy).Contents (Elt F) → (⟨S4x512x512, .f32⟩ : BufTy).Contents (Elt F)),
    StableHlo.nullary main_c_16 (constantI S_ 32 0#32),
    StableHlo.nullary main_c_17 (constantI S_ 32 127#32),
    StableHlo.unary main_c_16 main_call6_v0 (sitofp .f32 : (⟨S_, .i32⟩ : BufTy).Contents (Elt F) → (⟨S_, .f32⟩ : BufTy).Contents (Elt F)),
    StableHlo.unary main_call6_v0 main_call6_v1 (broadcastInDim S4x512x512 ![] bcast_S_S4x512x512 : (⟨S_, .f32⟩ : BufTy).Contents (Elt F) → (⟨S4x512x512, .f32⟩ : BufTy).Contents (Elt F)),
    StableHlo.binary main_call6_v1 main_v35 main_call6_v2 (maximumf : (⟨S4x512x512, .f32⟩ : BufTy).Contents (Elt F) → (⟨S4x512x512, .f32⟩ : BufTy).Contents (Elt F) → (⟨S4x512x512, .f32⟩ : BufTy).Contents (Elt F)),
    StableHlo.unary main_c_17 main_call6_v3 (sitofp .f32 : (⟨S_, .i32⟩ : BufTy).Contents (Elt F) → (⟨S_, .f32⟩ : BufTy).Contents (Elt F)),
    StableHlo.unary main_call6_v3 main_call6_v4 (broadcastInDim S4x512x512 ![] bcast_S_S4x512x512 : (⟨S_, .f32⟩ : BufTy).Contents (Elt F) → (⟨S4x512x512, .f32⟩ : BufTy).Contents (Elt F)),
    StableHlo.binary main_call6_v4 main_call6_v2 main_v36 (minimumf : (⟨S4x512x512, .f32⟩ : BufTy).Contents (Elt F) → (⟨S4x512x512, .f32⟩ : BufTy).Contents (Elt F) → (⟨S4x512x512, .f32⟩ : BufTy).Contents (Elt F)),
    StableHlo.unary main_v36 main_v37 (fptosi 32 : (⟨S4x512x512, .f32⟩ : BufTy).Contents (Elt F) → (⟨S4x512x512, .i32⟩ : BufTy).Contents (Elt F)),
    StableHlo.reshape main_arg0 main_v38 rfl shapeCasts_S4x8x128x128x128_S4x8x2097152,
    StableHlo.unary main_v38 main_v39 ((transpose S4x2097152x8 [0, 2, 1] · transposes_S4x8x2097152_S4x2097152x8_0_2_1) : (⟨S4x8x2097152, .f32⟩ : BufTy).Contents (Elt F) → (⟨S4x2097152x8, .f32⟩ : BufTy).Contents (Elt F)),
    StableHlo.nullary main_c_18 (constantI S_ 32 128#32),
    StableHlo.unary main_c_18 main_v40 (broadcastInDim S4x512x512 ![] bcast_S_S4x512x512 : (⟨S_, .i32⟩ : BufTy).Contents (Elt F) → (⟨S4x512x512, .i32⟩ : BufTy).Contents (Elt F)),
    StableHlo.binary main_v33 main_v40 main_v41 (muli : (⟨S4x512x512, .i32⟩ : BufTy).Contents (Elt F) → (⟨S4x512x512, .i32⟩ : BufTy).Contents (Elt F) → (⟨S4x512x512, .i32⟩ : BufTy).Contents (Elt F)),
    StableHlo.binary main_v41 main_v27 main_v42 (addi : (⟨S4x512x512, .i32⟩ : BufTy).Contents (Elt F) → (⟨S4x512x512, .i32⟩ : BufTy).Contents (Elt F) → (⟨S4x512x512, .i32⟩ : BufTy).Contents (Elt F)),
    StableHlo.nullary main_c_19 (constantI S_ 32 128#32),
    StableHlo.unary main_c_19 main_v43 (broadcastInDim S4x512x512 ![] bcast_S_S4x512x512 : (⟨S_, .i32⟩ : BufTy).Contents (Elt F) → (⟨S4x512x512, .i32⟩ : BufTy).Contents (Elt F)),
    StableHlo.binary main_v42 main_v43 main_v44 (muli : (⟨S4x512x512, .i32⟩ : BufTy).Contents (Elt F) → (⟨S4x512x512, .i32⟩ : BufTy).Contents (Elt F) → (⟨S4x512x512, .i32⟩ : BufTy).Contents (Elt F)),
    StableHlo.binary main_v44 main_v21 main_v45 (addi : (⟨S4x512x512, .i32⟩ : BufTy).Contents (Elt F) → (⟨S4x512x512, .i32⟩ : BufTy).Contents (Elt F) → (⟨S4x512x512, .i32⟩ : BufTy).Contents (Elt F)),
    StableHlo.reshape main_v45 main_v46 rfl shapeCasts_S4x512x512_S4x262144x1,
    StableHlo.unary main_v46 main_v47 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call7_c ((constantI S_ 32 0#32) : (⟨S_, .i32⟩ : BufTy).Contents (Elt F)),
    StableHlo.unary main_call7_c main_call7_v0 (broadcastInDim S4x262144x8 ![] bcast_S_S4x262144x8 : (⟨S_, .i32⟩ : BufTy).Contents (Elt F) → (⟨S4x262144x8, .i32⟩ : BufTy).Contents (Elt F)),
    StableHlo.binary main_v47 main_call7_v0 main_call7_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call7_c_0 ((constantI S_ 32 2097152#32) : (⟨S_, .i32⟩ : BufTy).Contents (Elt F)),
    StableHlo.unary main_call7_c_0 main_call7_v2 (broadcastInDim S4x262144x8 ![] bcast_S_S4x262144x8 : (⟨S_, .i32⟩ : BufTy).Contents (Elt F) → (⟨S4x262144x8, .i32⟩ : BufTy).Contents (Elt F)),
    StableHlo.binary main_v47 main_call7_v2 main_call7_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call7_v1 main_call7_v3 main_v47 main_call7_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call7_v4 main_call7_v5 rfl shapeCasts_S4x262144x8_S4x262144x8x1,
    StableHlo.nullary main_call7_c_1 ((constantI S1 32 2097151#32) : (⟨S1, .i32⟩ : BufTy).Contents (Elt F)),
    StableHlo.nullary main_call7_c_2 ((constantI S_ 32 0#32) : (⟨S_, .i32⟩ : BufTy).Contents (Elt F)),
    StableHlo.unary main_call7_c_2 main_call7_v6 (broadcastInDim S4x262144x8x1 ![] bcast_S_S4x262144x8x1 : (⟨S_, .i32⟩ : BufTy).Contents (Elt F) → (⟨S4x262144x8x1, .i32⟩ : BufTy).Contents (Elt F)),
    StableHlo.binary main_call7_v5 main_call7_v6 main_call7_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call7_c_1 main_call7_v8 (broadcastInDim S1x1x1x1 ![3] bcast_S1_S1x1x1x1_3 : (⟨S1, .i32⟩ : BufTy).Contents (Elt F) → (⟨S1x1x1x1, .i32⟩ : BufTy).Contents (Elt F)),
    StableHlo.unary main_call7_v8 main_call7_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call7_v5 main_call7_v9 main_call7_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call7_v7 main_call7_v10 main_call7_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call7_c_3 ((constantI S_ 1 1#1) : (⟨S_, .i1⟩ : BufTy).Contents (Elt F)),
    StableHlo.binary main_call7_v11 main_call7_c_3 main_call7_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call7_v5 main_call7_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call7_cst ((constant S_ .f32 0x7FC00000#32) : (⟨S_, .f32⟩ : BufTy).Contents (Elt F)),
    StableHlo.unary main_call7_cst main_call7_v14 (broadcastInDim S4x262144x8 ![] bcast_S_S4x262144x8 : (⟨S_, .f32⟩ : BufTy).Contents (Elt F) → (⟨S4x262144x8, .f32⟩ : BufTy).Contents (Elt F)),
    StableHlo.ternary main_call7_v12 main_call7_v13 main_call7_v14 main_v48 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v48 main_v49 rfl shapeCasts_S4x262144x8_S4x512x512x8,
    StableHlo.unary main_v49 main_v50 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)),
    StableHlo.nullary main_c_20 (constantI S_ 32 128#32),
    StableHlo.unary main_c_20 main_v51 (broadcastInDim S4x512x512 ![] bcast_S_S4x512x512 : (⟨S_, .i32⟩ : BufTy).Contents (Elt F) → (⟨S4x512x512, .i32⟩ : BufTy).Contents (Elt F)),
    StableHlo.binary main_v37 main_v51 main_v52 (muli : (⟨S4x512x512, .i32⟩ : BufTy).Contents (Elt F) → (⟨S4x512x512, .i32⟩ : BufTy).Contents (Elt F) → (⟨S4x512x512, .i32⟩ : BufTy).Contents (Elt F)),
    StableHlo.binary main_v52 main_v27 main_v53 (addi : (⟨S4x512x512, .i32⟩ : BufTy).Contents (Elt F) → (⟨S4x512x512, .i32⟩ : BufTy).Contents (Elt F) → (⟨S4x512x512, .i32⟩ : BufTy).Contents (Elt F)),
    StableHlo.nullary main_c_21 (constantI S_ 32 128#32),
    StableHlo.unary main_c_21 main_v54 (broadcastInDim S4x512x512 ![] bcast_S_S4x512x512 : (⟨S_, .i32⟩ : BufTy).Contents (Elt F) → (⟨S4x512x512, .i32⟩ : BufTy).Contents (Elt F)),
    StableHlo.binary main_v53 main_v54 main_v55 (muli : (⟨S4x512x512, .i32⟩ : BufTy).Contents (Elt F) → (⟨S4x512x512, .i32⟩ : BufTy).Contents (Elt F) → (⟨S4x512x512, .i32⟩ : BufTy).Contents (Elt F)),
    StableHlo.binary main_v55 main_v21 main_v56 (addi : (⟨S4x512x512, .i32⟩ : BufTy).Contents (Elt F) → (⟨S4x512x512, .i32⟩ : BufTy).Contents (Elt F) → (⟨S4x512x512, .i32⟩ : BufTy).Contents (Elt F)),
    StableHlo.reshape main_v56 main_v57 rfl shapeCasts_S4x512x512_S4x262144x1,
    StableHlo.unary main_v57 main_v58 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call8_c ((constantI S_ 32 0#32) : (⟨S_, .i32⟩ : BufTy).Contents (Elt F)),
    StableHlo.unary main_call8_c main_call8_v0 (broadcastInDim S4x262144x8 ![] bcast_S_S4x262144x8 : (⟨S_, .i32⟩ : BufTy).Contents (Elt F) → (⟨S4x262144x8, .i32⟩ : BufTy).Contents (Elt F)),
    StableHlo.binary main_v58 main_call8_v0 main_call8_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call8_c_0 ((constantI S_ 32 2097152#32) : (⟨S_, .i32⟩ : BufTy).Contents (Elt F)),
    StableHlo.unary main_call8_c_0 main_call8_v2 (broadcastInDim S4x262144x8 ![] bcast_S_S4x262144x8 : (⟨S_, .i32⟩ : BufTy).Contents (Elt F) → (⟨S4x262144x8, .i32⟩ : BufTy).Contents (Elt F)),
    StableHlo.binary main_v58 main_call8_v2 main_call8_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call8_v1 main_call8_v3 main_v58 main_call8_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call8_v4 main_call8_v5 rfl shapeCasts_S4x262144x8_S4x262144x8x1,
    StableHlo.nullary main_call8_c_1 ((constantI S1 32 2097151#32) : (⟨S1, .i32⟩ : BufTy).Contents (Elt F)),
    StableHlo.nullary main_call8_c_2 ((constantI S_ 32 0#32) : (⟨S_, .i32⟩ : BufTy).Contents (Elt F)),
    StableHlo.unary main_call8_c_2 main_call8_v6 (broadcastInDim S4x262144x8x1 ![] bcast_S_S4x262144x8x1 : (⟨S_, .i32⟩ : BufTy).Contents (Elt F) → (⟨S4x262144x8x1, .i32⟩ : BufTy).Contents (Elt F)),
    StableHlo.binary main_call8_v5 main_call8_v6 main_call8_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call8_c_1 main_call8_v8 (broadcastInDim S1x1x1x1 ![3] bcast_S1_S1x1x1x1_3 : (⟨S1, .i32⟩ : BufTy).Contents (Elt F) → (⟨S1x1x1x1, .i32⟩ : BufTy).Contents (Elt F)),
    StableHlo.unary main_call8_v8 main_call8_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call8_v5 main_call8_v9 main_call8_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call8_v7 main_call8_v10 main_call8_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call8_c_3 ((constantI S_ 1 1#1) : (⟨S_, .i1⟩ : BufTy).Contents (Elt F)),
    StableHlo.binary main_call8_v11 main_call8_c_3 main_call8_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call8_v5 main_call8_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call8_cst ((constant S_ .f32 0x7FC00000#32) : (⟨S_, .f32⟩ : BufTy).Contents (Elt F)),
    StableHlo.unary main_call8_cst main_call8_v14 (broadcastInDim S4x262144x8 ![] bcast_S_S4x262144x8 : (⟨S_, .f32⟩ : BufTy).Contents (Elt F) → (⟨S4x262144x8, .f32⟩ : BufTy).Contents (Elt F)),
    StableHlo.ternary main_call8_v12 main_call8_v13 main_call8_v14 main_v59 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v59 main_v60 rfl shapeCasts_S4x262144x8_S4x512x512x8,
    StableHlo.unary main_v60 main_v61 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)),
    StableHlo.nullary main_c_22 (constantI S_ 32 128#32),
    StableHlo.unary main_c_22 main_v62 (broadcastInDim S4x512x512 ![] bcast_S_S4x512x512 : (⟨S_, .i32⟩ : BufTy).Contents (Elt F) → (⟨S4x512x512, .i32⟩ : BufTy).Contents (Elt F)),
    StableHlo.binary main_v33 main_v62 main_v63 (muli : (⟨S4x512x512, .i32⟩ : BufTy).Contents (Elt F) → (⟨S4x512x512, .i32⟩ : BufTy).Contents (Elt F) → (⟨S4x512x512, .i32⟩ : BufTy).Contents (Elt F)),
    StableHlo.binary main_v63 main_v31 main_v64 (addi : (⟨S4x512x512, .i32⟩ : BufTy).Contents (Elt F) → (⟨S4x512x512, .i32⟩ : BufTy).Contents (Elt F) → (⟨S4x512x512, .i32⟩ : BufTy).Contents (Elt F)),
    StableHlo.nullary main_c_23 (constantI S_ 32 128#32),
    StableHlo.unary main_c_23 main_v65 (broadcastInDim S4x512x512 ![] bcast_S_S4x512x512 : (⟨S_, .i32⟩ : BufTy).Contents (Elt F) → (⟨S4x512x512, .i32⟩ : BufTy).Contents (Elt F)),
    StableHlo.binary main_v64 main_v65 main_v66 (muli : (⟨S4x512x512, .i32⟩ : BufTy).Contents (Elt F) → (⟨S4x512x512, .i32⟩ : BufTy).Contents (Elt F) → (⟨S4x512x512, .i32⟩ : BufTy).Contents (Elt F)),
    StableHlo.binary main_v66 main_v21 main_v67 (addi : (⟨S4x512x512, .i32⟩ : BufTy).Contents (Elt F) → (⟨S4x512x512, .i32⟩ : BufTy).Contents (Elt F) → (⟨S4x512x512, .i32⟩ : BufTy).Contents (Elt F)),
    StableHlo.reshape main_v67 main_v68 rfl shapeCasts_S4x512x512_S4x262144x1,
    StableHlo.unary main_v68 main_v69 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call9_c ((constantI S_ 32 0#32) : (⟨S_, .i32⟩ : BufTy).Contents (Elt F)),
    StableHlo.unary main_call9_c main_call9_v0 (broadcastInDim S4x262144x8 ![] bcast_S_S4x262144x8 : (⟨S_, .i32⟩ : BufTy).Contents (Elt F) → (⟨S4x262144x8, .i32⟩ : BufTy).Contents (Elt F)),
    StableHlo.binary main_v69 main_call9_v0 main_call9_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call9_c_0 ((constantI S_ 32 2097152#32) : (⟨S_, .i32⟩ : BufTy).Contents (Elt F)),
    StableHlo.unary main_call9_c_0 main_call9_v2 (broadcastInDim S4x262144x8 ![] bcast_S_S4x262144x8 : (⟨S_, .i32⟩ : BufTy).Contents (Elt F) → (⟨S4x262144x8, .i32⟩ : BufTy).Contents (Elt F)),
    StableHlo.binary main_v69 main_call9_v2 main_call9_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call9_v1 main_call9_v3 main_v69 main_call9_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call9_v4 main_call9_v5 rfl shapeCasts_S4x262144x8_S4x262144x8x1,
    StableHlo.nullary main_call9_c_1 ((constantI S1 32 2097151#32) : (⟨S1, .i32⟩ : BufTy).Contents (Elt F)),
    StableHlo.nullary main_call9_c_2 ((constantI S_ 32 0#32) : (⟨S_, .i32⟩ : BufTy).Contents (Elt F)),
    StableHlo.unary main_call9_c_2 main_call9_v6 (broadcastInDim S4x262144x8x1 ![] bcast_S_S4x262144x8x1 : (⟨S_, .i32⟩ : BufTy).Contents (Elt F) → (⟨S4x262144x8x1, .i32⟩ : BufTy).Contents (Elt F)),
    StableHlo.binary main_call9_v5 main_call9_v6 main_call9_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call9_c_1 main_call9_v8 (broadcastInDim S1x1x1x1 ![3] bcast_S1_S1x1x1x1_3 : (⟨S1, .i32⟩ : BufTy).Contents (Elt F) → (⟨S1x1x1x1, .i32⟩ : BufTy).Contents (Elt F)),
    StableHlo.unary main_call9_v8 main_call9_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call9_v5 main_call9_v9 main_call9_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call9_v7 main_call9_v10 main_call9_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call9_c_3 ((constantI S_ 1 1#1) : (⟨S_, .i1⟩ : BufTy).Contents (Elt F)),
    StableHlo.binary main_call9_v11 main_call9_c_3 main_call9_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call9_v5 main_call9_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call9_cst ((constant S_ .f32 0x7FC00000#32) : (⟨S_, .f32⟩ : BufTy).Contents (Elt F)),
    StableHlo.unary main_call9_cst main_call9_v14 (broadcastInDim S4x262144x8 ![] bcast_S_S4x262144x8 : (⟨S_, .f32⟩ : BufTy).Contents (Elt F) → (⟨S4x262144x8, .f32⟩ : BufTy).Contents (Elt F)),
    StableHlo.ternary main_call9_v12 main_call9_v13 main_call9_v14 main_v70 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v70 main_v71 rfl shapeCasts_S4x262144x8_S4x512x512x8,
    StableHlo.unary main_v71 main_v72 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)),
    StableHlo.nullary main_c_24 (constantI S_ 32 128#32),
    StableHlo.unary main_c_24 main_v73 (broadcastInDim S4x512x512 ![] bcast_S_S4x512x512 : (⟨S_, .i32⟩ : BufTy).Contents (Elt F) → (⟨S4x512x512, .i32⟩ : BufTy).Contents (Elt F)),
    StableHlo.binary main_v37 main_v73 main_v74 (muli : (⟨S4x512x512, .i32⟩ : BufTy).Contents (Elt F) → (⟨S4x512x512, .i32⟩ : BufTy).Contents (Elt F) → (⟨S4x512x512, .i32⟩ : BufTy).Contents (Elt F)),
    StableHlo.binary main_v74 main_v31 main_v75 (addi : (⟨S4x512x512, .i32⟩ : BufTy).Contents (Elt F) → (⟨S4x512x512, .i32⟩ : BufTy).Contents (Elt F) → (⟨S4x512x512, .i32⟩ : BufTy).Contents (Elt F)),
    StableHlo.nullary main_c_25 (constantI S_ 32 128#32),
    StableHlo.unary main_c_25 main_v76 (broadcastInDim S4x512x512 ![] bcast_S_S4x512x512 : (⟨S_, .i32⟩ : BufTy).Contents (Elt F) → (⟨S4x512x512, .i32⟩ : BufTy).Contents (Elt F)),
    StableHlo.binary main_v75 main_v76 main_v77 (muli : (⟨S4x512x512, .i32⟩ : BufTy).Contents (Elt F) → (⟨S4x512x512, .i32⟩ : BufTy).Contents (Elt F) → (⟨S4x512x512, .i32⟩ : BufTy).Contents (Elt F)),
    StableHlo.binary main_v77 main_v21 main_v78 (addi : (⟨S4x512x512, .i32⟩ : BufTy).Contents (Elt F) → (⟨S4x512x512, .i32⟩ : BufTy).Contents (Elt F) → (⟨S4x512x512, .i32⟩ : BufTy).Contents (Elt F)),
    StableHlo.reshape main_v78 main_v79 rfl shapeCasts_S4x512x512_S4x262144x1,
    StableHlo.unary main_v79 main_v80 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call10_c ((constantI S_ 32 0#32) : (⟨S_, .i32⟩ : BufTy).Contents (Elt F)),
    StableHlo.unary main_call10_c main_call10_v0 (broadcastInDim S4x262144x8 ![] bcast_S_S4x262144x8 : (⟨S_, .i32⟩ : BufTy).Contents (Elt F) → (⟨S4x262144x8, .i32⟩ : BufTy).Contents (Elt F)),
    StableHlo.binary main_v80 main_call10_v0 main_call10_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call10_c_0 ((constantI S_ 32 2097152#32) : (⟨S_, .i32⟩ : BufTy).Contents (Elt F)),
    StableHlo.unary main_call10_c_0 main_call10_v2 (broadcastInDim S4x262144x8 ![] bcast_S_S4x262144x8 : (⟨S_, .i32⟩ : BufTy).Contents (Elt F) → (⟨S4x262144x8, .i32⟩ : BufTy).Contents (Elt F)),
    StableHlo.binary main_v80 main_call10_v2 main_call10_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call10_v1 main_call10_v3 main_v80 main_call10_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call10_v4 main_call10_v5 rfl shapeCasts_S4x262144x8_S4x262144x8x1,
    StableHlo.nullary main_call10_c_1 ((constantI S1 32 2097151#32) : (⟨S1, .i32⟩ : BufTy).Contents (Elt F)),
    StableHlo.nullary main_call10_c_2 ((constantI S_ 32 0#32) : (⟨S_, .i32⟩ : BufTy).Contents (Elt F)),
    StableHlo.unary main_call10_c_2 main_call10_v6 (broadcastInDim S4x262144x8x1 ![] bcast_S_S4x262144x8x1 : (⟨S_, .i32⟩ : BufTy).Contents (Elt F) → (⟨S4x262144x8x1, .i32⟩ : BufTy).Contents (Elt F)),
    StableHlo.binary main_call10_v5 main_call10_v6 main_call10_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call10_c_1 main_call10_v8 (broadcastInDim S1x1x1x1 ![3] bcast_S1_S1x1x1x1_3 : (⟨S1, .i32⟩ : BufTy).Contents (Elt F) → (⟨S1x1x1x1, .i32⟩ : BufTy).Contents (Elt F)),
    StableHlo.unary main_call10_v8 main_call10_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call10_v5 main_call10_v9 main_call10_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call10_v7 main_call10_v10 main_call10_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call10_c_3 ((constantI S_ 1 1#1) : (⟨S_, .i1⟩ : BufTy).Contents (Elt F)),
    StableHlo.binary main_call10_v11 main_call10_c_3 main_call10_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call10_v5 main_call10_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call10_cst ((constant S_ .f32 0x7FC00000#32) : (⟨S_, .f32⟩ : BufTy).Contents (Elt F)),
    StableHlo.unary main_call10_cst main_call10_v14 (broadcastInDim S4x262144x8 ![] bcast_S_S4x262144x8 : (⟨S_, .f32⟩ : BufTy).Contents (Elt F) → (⟨S4x262144x8, .f32⟩ : BufTy).Contents (Elt F)),
    StableHlo.ternary main_call10_v12 main_call10_v13 main_call10_v14 main_v81 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v81 main_v82 rfl shapeCasts_S4x262144x8_S4x512x512x8,
    StableHlo.unary main_v82 main_v83 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)),
    StableHlo.nullary main_c_26 (constantI S_ 32 128#32),
    StableHlo.unary main_c_26 main_v84 (broadcastInDim S4x512x512 ![] bcast_S_S4x512x512 : (⟨S_, .i32⟩ : BufTy).Contents (Elt F) → (⟨S4x512x512, .i32⟩ : BufTy).Contents (Elt F)),
    StableHlo.binary main_v33 main_v84 main_v85 (muli : (⟨S4x512x512, .i32⟩ : BufTy).Contents (Elt F) → (⟨S4x512x512, .i32⟩ : BufTy).Contents (Elt F) → (⟨S4x512x512, .i32⟩ : BufTy).Contents (Elt F)),
    StableHlo.binary main_v85 main_v27 main_v86 (addi : (⟨S4x512x512, .i32⟩ : BufTy).Contents (Elt F) → (⟨S4x512x512, .i32⟩ : BufTy).Contents (Elt F) → (⟨S4x512x512, .i32⟩ : BufTy).Contents (Elt F)),
    StableHlo.nullary main_c_27 (constantI S_ 32 128#32),
    StableHlo.unary main_c_27 main_v87 (broadcastInDim S4x512x512 ![] bcast_S_S4x512x512 : (⟨S_, .i32⟩ : BufTy).Contents (Elt F) → (⟨S4x512x512, .i32⟩ : BufTy).Contents (Elt F)),
    StableHlo.binary main_v86 main_v87 main_v88 (muli : (⟨S4x512x512, .i32⟩ : BufTy).Contents (Elt F) → (⟨S4x512x512, .i32⟩ : BufTy).Contents (Elt F) → (⟨S4x512x512, .i32⟩ : BufTy).Contents (Elt F)),
    StableHlo.binary main_v88 main_v25 main_v89 (addi : (⟨S4x512x512, .i32⟩ : BufTy).Contents (Elt F) → (⟨S4x512x512, .i32⟩ : BufTy).Contents (Elt F) → (⟨S4x512x512, .i32⟩ : BufTy).Contents (Elt F)),
    StableHlo.reshape main_v89 main_v90 rfl shapeCasts_S4x512x512_S4x262144x1,
    StableHlo.unary main_v90 main_v91 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call11_c ((constantI S_ 32 0#32) : (⟨S_, .i32⟩ : BufTy).Contents (Elt F)),
    StableHlo.unary main_call11_c main_call11_v0 (broadcastInDim S4x262144x8 ![] bcast_S_S4x262144x8 : (⟨S_, .i32⟩ : BufTy).Contents (Elt F) → (⟨S4x262144x8, .i32⟩ : BufTy).Contents (Elt F)),
    StableHlo.binary main_v91 main_call11_v0 main_call11_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call11_c_0 ((constantI S_ 32 2097152#32) : (⟨S_, .i32⟩ : BufTy).Contents (Elt F)),
    StableHlo.unary main_call11_c_0 main_call11_v2 (broadcastInDim S4x262144x8 ![] bcast_S_S4x262144x8 : (⟨S_, .i32⟩ : BufTy).Contents (Elt F) → (⟨S4x262144x8, .i32⟩ : BufTy).Contents (Elt F)),
    StableHlo.binary main_v91 main_call11_v2 main_call11_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call11_v1 main_call11_v3 main_v91 main_call11_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call11_v4 main_call11_v5 rfl shapeCasts_S4x262144x8_S4x262144x8x1,
    StableHlo.nullary main_call11_c_1 ((constantI S1 32 2097151#32) : (⟨S1, .i32⟩ : BufTy).Contents (Elt F)),
    StableHlo.nullary main_call11_c_2 ((constantI S_ 32 0#32) : (⟨S_, .i32⟩ : BufTy).Contents (Elt F)),
    StableHlo.unary main_call11_c_2 main_call11_v6 (broadcastInDim S4x262144x8x1 ![] bcast_S_S4x262144x8x1 : (⟨S_, .i32⟩ : BufTy).Contents (Elt F) → (⟨S4x262144x8x1, .i32⟩ : BufTy).Contents (Elt F)),
    StableHlo.binary main_call11_v5 main_call11_v6 main_call11_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call11_c_1 main_call11_v8 (broadcastInDim S1x1x1x1 ![3] bcast_S1_S1x1x1x1_3 : (⟨S1, .i32⟩ : BufTy).Contents (Elt F) → (⟨S1x1x1x1, .i32⟩ : BufTy).Contents (Elt F)),
    StableHlo.unary main_call11_v8 main_call11_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call11_v5 main_call11_v9 main_call11_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call11_v7 main_call11_v10 main_call11_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call11_c_3 ((constantI S_ 1 1#1) : (⟨S_, .i1⟩ : BufTy).Contents (Elt F)),
    StableHlo.binary main_call11_v11 main_call11_c_3 main_call11_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call11_v5 main_call11_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call11_cst ((constant S_ .f32 0x7FC00000#32) : (⟨S_, .f32⟩ : BufTy).Contents (Elt F)),
    StableHlo.unary main_call11_cst main_call11_v14 (broadcastInDim S4x262144x8 ![] bcast_S_S4x262144x8 : (⟨S_, .f32⟩ : BufTy).Contents (Elt F) → (⟨S4x262144x8, .f32⟩ : BufTy).Contents (Elt F)),
    StableHlo.ternary main_call11_v12 main_call11_v13 main_call11_v14 main_v92 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v92 main_v93 rfl shapeCasts_S4x262144x8_S4x512x512x8,
    StableHlo.unary main_v93 main_v94 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)),
    StableHlo.nullary main_c_28 (constantI S_ 32 128#32),
    StableHlo.unary main_c_28 main_v95 (broadcastInDim S4x512x512 ![] bcast_S_S4x512x512 : (⟨S_, .i32⟩ : BufTy).Contents (Elt F) → (⟨S4x512x512, .i32⟩ : BufTy).Contents (Elt F)),
    StableHlo.binary main_v37 main_v95 main_v96 (muli : (⟨S4x512x512, .i32⟩ : BufTy).Contents (Elt F) → (⟨S4x512x512, .i32⟩ : BufTy).Contents (Elt F) → (⟨S4x512x512, .i32⟩ : BufTy).Contents (Elt F)),
    StableHlo.binary main_v96 main_v27 main_v97 (addi : (⟨S4x512x512, .i32⟩ : BufTy).Contents (Elt F) → (⟨S4x512x512, .i32⟩ : BufTy).Contents (Elt F) → (⟨S4x512x512, .i32⟩ : BufTy).Contents (Elt F)),
    StableHlo.nullary main_c_29 (constantI S_ 32 128#32),
    StableHlo.unary main_c_29 main_v98 (broadcastInDim S4x512x512 ![] bcast_S_S4x512x512 : (⟨S_, .i32⟩ : BufTy).Contents (Elt F) → (⟨S4x512x512, .i32⟩ : BufTy).Contents (Elt F)),
    StableHlo.binary main_v97 main_v98 main_v99 (muli : (⟨S4x512x512, .i32⟩ : BufTy).Contents (Elt F) → (⟨S4x512x512, .i32⟩ : BufTy).Contents (Elt F) → (⟨S4x512x512, .i32⟩ : BufTy).Contents (Elt F)),
    StableHlo.binary main_v99 main_v25 main_v100 (addi : (⟨S4x512x512, .i32⟩ : BufTy).Contents (Elt F) → (⟨S4x512x512, .i32⟩ : BufTy).Contents (Elt F) → (⟨S4x512x512, .i32⟩ : BufTy).Contents (Elt F)),
    StableHlo.reshape main_v100 main_v101 rfl shapeCasts_S4x512x512_S4x262144x1,
    StableHlo.unary main_v101 main_v102 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call12_c ((constantI S_ 32 0#32) : (⟨S_, .i32⟩ : BufTy).Contents (Elt F)),
    StableHlo.unary main_call12_c main_call12_v0 (broadcastInDim S4x262144x8 ![] bcast_S_S4x262144x8 : (⟨S_, .i32⟩ : BufTy).Contents (Elt F) → (⟨S4x262144x8, .i32⟩ : BufTy).Contents (Elt F)),
    StableHlo.binary main_v102 main_call12_v0 main_call12_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call12_c_0 ((constantI S_ 32 2097152#32) : (⟨S_, .i32⟩ : BufTy).Contents (Elt F)),
    StableHlo.unary main_call12_c_0 main_call12_v2 (broadcastInDim S4x262144x8 ![] bcast_S_S4x262144x8 : (⟨S_, .i32⟩ : BufTy).Contents (Elt F) → (⟨S4x262144x8, .i32⟩ : BufTy).Contents (Elt F)),
    StableHlo.binary main_v102 main_call12_v2 main_call12_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call12_v1 main_call12_v3 main_v102 main_call12_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call12_v4 main_call12_v5 rfl shapeCasts_S4x262144x8_S4x262144x8x1,
    StableHlo.nullary main_call12_c_1 ((constantI S1 32 2097151#32) : (⟨S1, .i32⟩ : BufTy).Contents (Elt F)),
    StableHlo.nullary main_call12_c_2 ((constantI S_ 32 0#32) : (⟨S_, .i32⟩ : BufTy).Contents (Elt F)),
    StableHlo.unary main_call12_c_2 main_call12_v6 (broadcastInDim S4x262144x8x1 ![] bcast_S_S4x262144x8x1 : (⟨S_, .i32⟩ : BufTy).Contents (Elt F) → (⟨S4x262144x8x1, .i32⟩ : BufTy).Contents (Elt F)),
    StableHlo.binary main_call12_v5 main_call12_v6 main_call12_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call12_c_1 main_call12_v8 (broadcastInDim S1x1x1x1 ![3] bcast_S1_S1x1x1x1_3 : (⟨S1, .i32⟩ : BufTy).Contents (Elt F) → (⟨S1x1x1x1, .i32⟩ : BufTy).Contents (Elt F)),
    StableHlo.unary main_call12_v8 main_call12_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call12_v5 main_call12_v9 main_call12_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call12_v7 main_call12_v10 main_call12_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call12_c_3 ((constantI S_ 1 1#1) : (⟨S_, .i1⟩ : BufTy).Contents (Elt F)),
    StableHlo.binary main_call12_v11 main_call12_c_3 main_call12_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call12_v5 main_call12_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call12_cst ((constant S_ .f32 0x7FC00000#32) : (⟨S_, .f32⟩ : BufTy).Contents (Elt F)),
    StableHlo.unary main_call12_cst main_call12_v14 (broadcastInDim S4x262144x8 ![] bcast_S_S4x262144x8 : (⟨S_, .f32⟩ : BufTy).Contents (Elt F) → (⟨S4x262144x8, .f32⟩ : BufTy).Contents (Elt F)),
    StableHlo.ternary main_call12_v12 main_call12_v13 main_call12_v14 main_v103 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v103 main_v104 rfl shapeCasts_S4x262144x8_S4x512x512x8,
    StableHlo.unary main_v104 main_v105 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)),
    StableHlo.nullary main_c_30 (constantI S_ 32 128#32),
    StableHlo.unary main_c_30 main_v106 (broadcastInDim S4x512x512 ![] bcast_S_S4x512x512 : (⟨S_, .i32⟩ : BufTy).Contents (Elt F) → (⟨S4x512x512, .i32⟩ : BufTy).Contents (Elt F)),
    StableHlo.binary main_v33 main_v106 main_v107 (muli : (⟨S4x512x512, .i32⟩ : BufTy).Contents (Elt F) → (⟨S4x512x512, .i32⟩ : BufTy).Contents (Elt F) → (⟨S4x512x512, .i32⟩ : BufTy).Contents (Elt F)),
    StableHlo.binary main_v107 main_v31 main_v108 (addi : (⟨S4x512x512, .i32⟩ : BufTy).Contents (Elt F) → (⟨S4x512x512, .i32⟩ : BufTy).Contents (Elt F) → (⟨S4x512x512, .i32⟩ : BufTy).Contents (Elt F)),
    StableHlo.nullary main_c_31 (constantI S_ 32 128#32),
    StableHlo.unary main_c_31 main_v109 (broadcastInDim S4x512x512 ![] bcast_S_S4x512x512 : (⟨S_, .i32⟩ : BufTy).Contents (Elt F) → (⟨S4x512x512, .i32⟩ : BufTy).Contents (Elt F)),
    StableHlo.binary main_v108 main_v109 main_v110 (muli : (⟨S4x512x512, .i32⟩ : BufTy).Contents (Elt F) → (⟨S4x512x512, .i32⟩ : BufTy).Contents (Elt F) → (⟨S4x512x512, .i32⟩ : BufTy).Contents (Elt F)),
    StableHlo.binary main_v110 main_v25 main_v111 (addi : (⟨S4x512x512, .i32⟩ : BufTy).Contents (Elt F) → (⟨S4x512x512, .i32⟩ : BufTy).Contents (Elt F) → (⟨S4x512x512, .i32⟩ : BufTy).Contents (Elt F)),
    StableHlo.reshape main_v111 main_v112 rfl shapeCasts_S4x512x512_S4x262144x1,
    StableHlo.unary main_v112 main_v113 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call13_c ((constantI S_ 32 0#32) : (⟨S_, .i32⟩ : BufTy).Contents (Elt F)),
    StableHlo.unary main_call13_c main_call13_v0 (broadcastInDim S4x262144x8 ![] bcast_S_S4x262144x8 : (⟨S_, .i32⟩ : BufTy).Contents (Elt F) → (⟨S4x262144x8, .i32⟩ : BufTy).Contents (Elt F)),
    StableHlo.binary main_v113 main_call13_v0 main_call13_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call13_c_0 ((constantI S_ 32 2097152#32) : (⟨S_, .i32⟩ : BufTy).Contents (Elt F)),
    StableHlo.unary main_call13_c_0 main_call13_v2 (broadcastInDim S4x262144x8 ![] bcast_S_S4x262144x8 : (⟨S_, .i32⟩ : BufTy).Contents (Elt F) → (⟨S4x262144x8, .i32⟩ : BufTy).Contents (Elt F)),
    StableHlo.binary main_v113 main_call13_v2 main_call13_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call13_v1 main_call13_v3 main_v113 main_call13_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call13_v4 main_call13_v5 rfl shapeCasts_S4x262144x8_S4x262144x8x1,
    StableHlo.nullary main_call13_c_1 ((constantI S1 32 2097151#32) : (⟨S1, .i32⟩ : BufTy).Contents (Elt F)),
    StableHlo.nullary main_call13_c_2 ((constantI S_ 32 0#32) : (⟨S_, .i32⟩ : BufTy).Contents (Elt F)),
    StableHlo.unary main_call13_c_2 main_call13_v6 (broadcastInDim S4x262144x8x1 ![] bcast_S_S4x262144x8x1 : (⟨S_, .i32⟩ : BufTy).Contents (Elt F) → (⟨S4x262144x8x1, .i32⟩ : BufTy).Contents (Elt F)),
    StableHlo.binary main_call13_v5 main_call13_v6 main_call13_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call13_c_1 main_call13_v8 (broadcastInDim S1x1x1x1 ![3] bcast_S1_S1x1x1x1_3 : (⟨S1, .i32⟩ : BufTy).Contents (Elt F) → (⟨S1x1x1x1, .i32⟩ : BufTy).Contents (Elt F)),
    StableHlo.unary main_call13_v8 main_call13_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call13_v5 main_call13_v9 main_call13_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call13_v7 main_call13_v10 main_call13_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call13_c_3 ((constantI S_ 1 1#1) : (⟨S_, .i1⟩ : BufTy).Contents (Elt F)),
    StableHlo.binary main_call13_v11 main_call13_c_3 main_call13_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call13_v5 main_call13_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call13_cst ((constant S_ .f32 0x7FC00000#32) : (⟨S_, .f32⟩ : BufTy).Contents (Elt F)),
    StableHlo.unary main_call13_cst main_call13_v14 (broadcastInDim S4x262144x8 ![] bcast_S_S4x262144x8 : (⟨S_, .f32⟩ : BufTy).Contents (Elt F) → (⟨S4x262144x8, .f32⟩ : BufTy).Contents (Elt F)),
    StableHlo.ternary main_call13_v12 main_call13_v13 main_call13_v14 main_v114 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v114 main_v115 rfl shapeCasts_S4x262144x8_S4x512x512x8,
    StableHlo.unary main_v115 main_v116 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)),
    StableHlo.nullary main_c_32 (constantI S_ 32 128#32),
    StableHlo.unary main_c_32 main_v117 (broadcastInDim S4x512x512 ![] bcast_S_S4x512x512 : (⟨S_, .i32⟩ : BufTy).Contents (Elt F) → (⟨S4x512x512, .i32⟩ : BufTy).Contents (Elt F)),
    StableHlo.binary main_v37 main_v117 main_v118 (muli : (⟨S4x512x512, .i32⟩ : BufTy).Contents (Elt F) → (⟨S4x512x512, .i32⟩ : BufTy).Contents (Elt F) → (⟨S4x512x512, .i32⟩ : BufTy).Contents (Elt F)),
    StableHlo.binary main_v118 main_v31 main_v119 (addi : (⟨S4x512x512, .i32⟩ : BufTy).Contents (Elt F) → (⟨S4x512x512, .i32⟩ : BufTy).Contents (Elt F) → (⟨S4x512x512, .i32⟩ : BufTy).Contents (Elt F)),
    StableHlo.nullary main_c_33 (constantI S_ 32 128#32),
    StableHlo.unary main_c_33 main_v120 (broadcastInDim S4x512x512 ![] bcast_S_S4x512x512 : (⟨S_, .i32⟩ : BufTy).Contents (Elt F) → (⟨S4x512x512, .i32⟩ : BufTy).Contents (Elt F)),
    StableHlo.binary main_v119 main_v120 main_v121 (muli : (⟨S4x512x512, .i32⟩ : BufTy).Contents (Elt F) → (⟨S4x512x512, .i32⟩ : BufTy).Contents (Elt F) → (⟨S4x512x512, .i32⟩ : BufTy).Contents (Elt F)),
    StableHlo.binary main_v121 main_v25 main_v122 (addi : (⟨S4x512x512, .i32⟩ : BufTy).Contents (Elt F) → (⟨S4x512x512, .i32⟩ : BufTy).Contents (Elt F) → (⟨S4x512x512, .i32⟩ : BufTy).Contents (Elt F)),
    StableHlo.reshape main_v122 main_v123 rfl shapeCasts_S4x512x512_S4x262144x1,
    StableHlo.unary main_v123 main_v124 (broadcastInDim S4x262144x8 ![0, 1, 2] bcast_S4x262144x1_S4x262144x8_0_1_2 : (⟨S4x262144x1, .i32⟩ : BufTy).Contents (Elt F) → (⟨S4x262144x8, .i32⟩ : BufTy).Contents (Elt F)),
    StableHlo.nullary main_call14_c ((constantI S_ 32 0#32) : (⟨S_, .i32⟩ : BufTy).Contents (Elt F)),
    StableHlo.unary main_call14_c main_call14_v0 (broadcastInDim S4x262144x8 ![] bcast_S_S4x262144x8 : (⟨S_, .i32⟩ : BufTy).Contents (Elt F) → (⟨S4x262144x8, .i32⟩ : BufTy).Contents (Elt F)),
    StableHlo.binary main_v124 main_call14_v0 main_call14_v1 (cmpi .slt : (⟨S4x262144x8, .i32⟩ : BufTy).Contents (Elt F) → (⟨S4x262144x8, .i32⟩ : BufTy).Contents (Elt F) → (⟨S4x262144x8, .i1⟩ : BufTy).Contents (Elt F)),
    StableHlo.nullary main_call14_c_0 ((constantI S_ 32 2097152#32) : (⟨S_, .i32⟩ : BufTy).Contents (Elt F)),
    StableHlo.unary main_call14_c_0 main_call14_v2 (broadcastInDim S4x262144x8 ![] bcast_S_S4x262144x8 : (⟨S_, .i32⟩ : BufTy).Contents (Elt F) → (⟨S4x262144x8, .i32⟩ : BufTy).Contents (Elt F)),
    StableHlo.binary main_v124 main_call14_v2 main_call14_v3 (addi : (⟨S4x262144x8, .i32⟩ : BufTy).Contents (Elt F) → (⟨S4x262144x8, .i32⟩ : BufTy).Contents (Elt F) → (⟨S4x262144x8, .i32⟩ : BufTy).Contents (Elt F)),
    StableHlo.ternary main_call14_v1 main_call14_v3 main_v124 main_call14_v4 (select : (⟨S4x262144x8, .i1⟩ : BufTy).Contents (Elt F) → (⟨S4x262144x8, .i32⟩ : BufTy).Contents (Elt F) → (⟨S4x262144x8, .i32⟩ : BufTy).Contents (Elt F) → (⟨S4x262144x8, .i32⟩ : BufTy).Contents (Elt F)),
    StableHlo.reshape main_call14_v4 main_call14_v5 rfl shapeCasts_S4x262144x8_S4x262144x8x1,
    StableHlo.nullary main_call14_c_1 ((constantI S1 32 2097151#32) : (⟨S1, .i32⟩ : BufTy).Contents (Elt F)),
    StableHlo.nullary main_call14_c_2 ((constantI S_ 32 0#32) : (⟨S_, .i32⟩ : BufTy).Contents (Elt F)),
    StableHlo.unary main_call14_c_2 main_call14_v6 (broadcastInDim S4x262144x8x1 ![] bcast_S_S4x262144x8x1 : (⟨S_, .i32⟩ : BufTy).Contents (Elt F) → (⟨S4x262144x8x1, .i32⟩ : BufTy).Contents (Elt F)),
    StableHlo.binary main_call14_v5 main_call14_v6 main_call14_v7 (cmpi .sge : (⟨S4x262144x8x1, .i32⟩ : BufTy).Contents (Elt F) → (⟨S4x262144x8x1, .i32⟩ : BufTy).Contents (Elt F) → (⟨S4x262144x8x1, .i1⟩ : BufTy).Contents (Elt F)),
    StableHlo.unary main_call14_c_1 main_call14_v8 (broadcastInDim S1x1x1x1 ![3] bcast_S1_S1x1x1x1_3 : (⟨S1, .i32⟩ : BufTy).Contents (Elt F) → (⟨S1x1x1x1, .i32⟩ : BufTy).Contents (Elt F)),
    StableHlo.unary main_call14_v8 main_call14_v9 (broadcastInDim S4x262144x8x1 ![0, 1, 2, 3] bcast_S1x1x1x1_S4x262144x8x1_0_1_2_3 : (⟨S1x1x1x1, .i32⟩ : BufTy).Contents (Elt F) → (⟨S4x262144x8x1, .i32⟩ : BufTy).Contents (Elt F)),
    StableHlo.binary main_call14_v5 main_call14_v9 main_call14_v10 (cmpi .sle : (⟨S4x262144x8x1, .i32⟩ : BufTy).Contents (Elt F) → (⟨S4x262144x8x1, .i32⟩ : BufTy).Contents (Elt F) → (⟨S4x262144x8x1, .i1⟩ : BufTy).Contents (Elt F)),
    StableHlo.binary main_call14_v7 main_call14_v10 main_call14_v11 (andi : (⟨S4x262144x8x1, .i1⟩ : BufTy).Contents (Elt F) → (⟨S4x262144x8x1, .i1⟩ : BufTy).Contents (Elt F) → (⟨S4x262144x8x1, .i1⟩ : BufTy).Contents (Elt F)),
    StableHlo.nullary main_call14_c_3 ((constantI S_ 1 1#1) : (⟨S_, .i1⟩ : BufTy).Contents (Elt F)),
    StableHlo.binary main_call14_v11 main_call14_c_3 main_call14_v12 (fun x v => Host.reduce IntOp.andi x v reducesTo_S4x262144x8x1_S4x262144x8_d3 h_S_ : (⟨S4x262144x8x1, .i1⟩ : BufTy).Contents (Elt F) → (⟨S_, .i1⟩ : BufTy).Contents (Elt F) → (⟨S4x262144x8, .i1⟩ : BufTy).Contents (Elt F)),
    StableHlo.binary main_v39 main_call14_v5 main_call14_v13 (fun x i => Host.gather gather_S4x2097152x8_S4x262144x8x1_S4x262144x8_n_1_02_02_1_3_111 x i : (⟨S4x2097152x8, .f32⟩ : BufTy).Contents (Elt F) → (⟨S4x262144x8x1, .i32⟩ : BufTy).Contents (Elt F) → (⟨S4x262144x8, .f32⟩ : BufTy).Contents (Elt F)),
    StableHlo.nullary main_call14_cst ((constant S_ .f32 0x7FC00000#32) : (⟨S_, .f32⟩ : BufTy).Contents (Elt F)),
    StableHlo.unary main_call14_cst main_call14_v14 (broadcastInDim S4x262144x8 ![] bcast_S_S4x262144x8 : (⟨S_, .f32⟩ : BufTy).Contents (Elt F) → (⟨S4x262144x8, .f32⟩ : BufTy).Contents (Elt F)),
    StableHlo.ternary main_call14_v12 main_call14_v13 main_call14_v14 main_v125 (select : (⟨S4x262144x8, .i1⟩ : BufTy).Contents (Elt F) → (⟨S4x262144x8, .f32⟩ : BufTy).Contents (Elt F) → (⟨S4x262144x8, .f32⟩ : BufTy).Contents (Elt F) → (⟨S4x262144x8, .f32⟩ : BufTy).Contents (Elt F)),
    StableHlo.reshape main_v125 main_v126 rfl shapeCasts_S4x262144x8_S4x512x512x8,
    StableHlo.unary main_v126 main_v127 ((transpose S4x8x512x512 [0, 3, 1, 2] · transposes_S4x512x512x8_S4x8x512x512_0_3_1_2) : (⟨S4x512x512x8, .f32⟩ : BufTy).Contents (Elt F) → (⟨S4x8x512x512, .f32⟩ : BufTy).Contents (Elt F)) ]

set_option maxHeartbeats 8000000 in
set_option maxRecDepth 16384 in
/-- The one list is the program's stretches of operations laid end to end. -/
theorem opsFree_eq :
    List.flatten [hostOps0, callOps1, hostOps0_2, callOps3, hostOps0_4, callOps5, hostOps0_6, callOps7, hostOps0_8, callOps9, hostOps0_10, callOps11, hostOps0_12, callOps13, hostOps0_14, callOps15, hostOps0_16, callOps17, hostOps0_18, callOps19, hostOps0_20, callOps21, hostOps0_22, callOps23, hostOps0_24, callOps25, hostOps0_26, callOps27, hostOps0_28, callOps29, hostOps0_30]
      = (opsFree : List (HloOp τ sig (Elt F))) := by
  simp only [hostOps0, callOps1, hostOps0_2, callOps3, hostOps0_4, callOps5, hostOps0_6, callOps7, hostOps0_8, callOps9, hostOps0_10, callOps11, hostOps0_12, callOps13, hostOps0_14, callOps15, hostOps0_16, callOps17, hostOps0_18, callOps19, hostOps0_20, callOps21, hostOps0_22, callOps23, hostOps0_24, callOps25, hostOps0_26, callOps27, hostOps0_28, callOps29, hostOps0_30, opsFree, List.flatten_cons, List.flatten_nil, List.append_nil, List.cons_append, List.nil_append]

/-- The buffers' contents when the region is entered: the fold of `opsFree` over the launched memory. -/
theorem V_eq (c : Dev nD) (b : Ref sig .tc) :
    V m c b = StableHlo.after opsFree (fun b => m (c, b)) b := by
  dsimp only [V]
  rw [hostOps0_1_eq, hostOps0_3_eq, hostOps0_5_eq, hostOps0_7_eq, hostOps0_9_eq, hostOps0_11_eq, hostOps0_13_eq, hostOps0_15_eq, hostOps0_17_eq, hostOps0_19_eq, hostOps0_21_eq, hostOps0_23_eq, hostOps0_25_eq, hostOps0_27_eq, hostOps0_29_eq, opsFree_eq]

end Cert.KernelIdeal.Host

end
-- ==== Proof.Corner.lean ====
/-
  One corner of the interpolation as a function of the feature volume `x : [4, 8, 128, 128, 128]` and a map
  `lin : [4, 512, 512]` of flat voxel numbers: entry `(b, f, h, w)` is `x` flattened to `[4, 8, 2097152]` at
  `(b, f, lin (b, h, w))`. Both programs compute it with `take_along_axis`, which first adds the axis length to a negative
  index, masks the indices outside `[0, 2097151]`, gathers with the start index clamped into range, and puts a NaN where
  the mask is off. The kernel's host code does so channels-last — the volume transposed to `[4, 2097152, 8]`, the gather
  along axis 1, the result transposed back —, the reference channels-first, along axis 2. `cornerSpec` is the entry both
  arrangements leave.
-/
import proofs.«158492_j59906203845136_2_alg».proof.Proof.Gen.KernelIdeal
import proofs.«158492_j59906203845136_2_alg».proof.Proof.Gen.ReferenceIdeal
import Idealize.ShloMosaic.Lib.ValueIdx

noncomputable section

namespace Cert.Trilinear

open Idealize.ShloMosaic Idealize.ShloMosaic.ValueIdx

variable {F : FTy → Type} [FloatOps F]

/-- A negative index counts from the end of the axis of length 2097152. -/
def normIdx (l : BitVec 32) : BitVec 32 :=
  Scalar.select (IntOp.cmpi .slt l 0#32) (IntOp.addi l 2097152#32) l

/-- One bit: the normalised index lies in `[0, 2097151]`. -/
def inRange (l : BitVec 32) : BitVec 1 :=
  IntOp.andi (IntOp.cmpi .sge l 0#32) (IntOp.cmpi .sle l 2097151#32)

/-- The quiet NaN that fills a masked entry. -/
abbrev nan32 : F .f32 := FloatOps.ofBits .f32 0x7FC00000#32

section Kernel
open Cert.KernelIdeal Cert.KernelIdeal.Gen

/-- The corner as the kernel's host code computes it (channels-last gather, then back to channels-first). -/
def cornerK (x : (⟨S4x8x128x128x128, .f32⟩ : BufTy).Contents (Elt F)) (lin : (⟨S4x512x512, .i32⟩ : BufTy).Contents (Elt F)) :
    (⟨S4x8x512x512, .f32⟩ : BufTy).Contents (Elt F) :=
  let xt : (⟨S4x2097152x8, .f32⟩ : BufTy).Contents (Elt F) :=
    transpose S4x2097152x8 [0, 2, 1] (shapeCast _ x shapeCasts_S4x8x128x128x128_S4x8x2097152) transposes_S4x8x2097152_S4x2097152x8_0_2_1
  let idx : (⟨S4x262144x8, .i32⟩ : BufTy).Contents (Elt F) :=
    broadcastInDim S4x262144x8 ![0, 1, 2] bcast_S4x262144x1_S4x262144x8_0_1_2 (shapeCast _ lin shapeCasts_S4x512x512_S4x262144x1)
  let v4 : (⟨S4x262144x8, .i32⟩ : BufTy).Contents (Elt F) :=
    select (cmpi .slt idx (broadcastInDim S4x262144x8 ![] bcast_S_S4x262144x8 (constantI S_ 32 0#32)))
      (addi idx (broadcastInDim S4x262144x8 ![] bcast_S_S4x262144x8 (constantI S_ 32 2097152#32))) idx
  let v5 : (⟨S4x262144x8x1, .i32⟩ : BufTy).Contents (Elt F) := shapeCast _ v4 shapeCasts_S4x262144x8_S4x262144x8x1
  let v11 : (⟨S4x262144x8x1, .i1⟩ : BufTy).Contents (Elt F) :=
    andi (cmpi .sge v5 (broadcastInDim S4x262144x8x1 ![] bcast_S_S4x262144x8x1 (constantI S_ 32 0#32)))
      (cmpi .sle v5 (broadcastInDim S4x262144x8x1 ![0, 1, 2, 3] bcast_S1x1x1x1_S4x262144x8x1_0_1_2_3
        (broadcastInDim S1x1x1x1 ![3] bcast_S1_S1x1x1x1_3 (constantI S1 32 2097151#32))))
  let v12 : (⟨S4x262144x8, .i1⟩ : BufTy).Contents (Elt F) :=
    Host.reduce IntOp.andi v11 (constantI S_ 1 1#1) reducesTo_S4x262144x8x1_S4x262144x8_d3 h_S_
  let v13 : (⟨S4x262144x8, .f32⟩ : BufTy).Contents (Elt F) :=
    Host.gather gather_S4x2097152x8_S4x262144x8x1_S4x262144x8_n_1_02_02_1_3_111 xt v5
  let v15 : (⟨S4x262144x8, .f32⟩ : BufTy).Contents (Elt F) :=
    select v12 v13 (broadcastInDim S4x262144x8 ![] bcast_S_S4x262144x8 (constant (F := F) S_ .f32 0x7FC00000#32))
  transpose S4x8x512x512 [0, 3, 1, 2] (shapeCast _ v15 shapeCasts_S4x262144x8_S4x512x512x8) transposes_S4x512x512x8_S4x8x512x512_0_3_1_2

end Kernel

section Reference
open Cert.ReferenceIdeal Cert.ReferenceIdeal.Gen

/-- The corner as the reference computes it (channels-first gather along the flattened voxel axis). -/
def cornerR (x : (⟨S4x8x128x128x128, .f32⟩ : BufTy).Contents (Elt F)) (lin : (⟨S4x512x512, .i32⟩ : BufTy).Contents (Elt F)) :
    (⟨S4x8x512x512, .f32⟩ : BufTy).Contents (Elt F) :=
  let xf : (⟨S4x8x2097152, .f32⟩ : BufTy).Contents (Elt F) := shapeCast _ x shapeCasts_S4x8x128x128x128_S4x8x2097152
  let idx : (⟨S4x8x262144, .i32⟩ : BufTy).Contents (Elt F) :=
    broadcastInDim S4x8x262144 ![0, 1, 2] bcast_S4x1x262144_S4x8x262144_0_1_2 (shapeCast _ lin shapeCasts_S4x512x512_S4x1x262144)
  let v4 : (⟨S4x8x262144, .i32⟩ : BufTy).Contents (Elt F) :=
    select (cmpi .slt idx (broadcastInDim S4x8x262144 ![] bcast_S_S4x8x262144 (constantI S_ 32 0#32)))
      (addi idx (broadcastInDim S4x8x262144 ![] bcast_S_S4x8x262144 (constantI S_ 32 2097152#32))) idx
  let v5 : (⟨S4x8x262144x1, .i32⟩ : BufTy).Contents (Elt F) := shapeCast _ v4 shapeCasts_S4x8x262144_S4x8x262144x1
  let v11 : (⟨S4x8x262144x1, .i1⟩ : BufTy).Contents (Elt F) :=
    andi (cmpi .sge v5 (broadcastInDim S4x8x262144x1 ![] bcast_S_S4x8x262144x1 (constantI S_ 32 0#32)))
      (cmpi .sle v5 (broadcastInDim S4x8x262144x1 ![0, 1, 2, 3] bcast_S1x1x1x1_S4x8x262144x1_0_1_2_3
        (broadcastInDim S1x1x1x1 ![3] bcast_S1_S1x1x1x1_3 (constantI S1 32 2097151#32))))
  let v12 : (⟨S4x8x262144, .i1⟩ : BufTy).Contents (Elt F) :=
    Host.reduce IntOp.andi v11 (constantI S_ 1 1#1) reducesTo_S4x8x262144x1_S4x8x262144_d3 h_S_
  let v13 : (⟨S4x8x262144, .f32⟩ : BufTy).Contents (Elt F) :=
    Host.gather gather_S4x8x2097152_S4x8x262144x1_S4x8x262144_n_2_01_01_2_3_111 xf v5
  let v15 : (⟨S4x8x262144, .f32⟩ : BufTy).Contents (Elt F) :=
    select v12 v13 (broadcastInDim S4x8x262144 ![] bcast_S_S4x8x262144 (constant (F := F) S_ .f32 0x7FC00000#32))
  shapeCast _ v15 shapeCasts_S4x8x262144_S4x8x512x512

/-- The entry both arrangements leave at `(b, f, h, w)`: with `l` the normalised `lin (b, h, w)`, the flattened
    volume at `(b, f, l clamped into [0, 2097151])` where `l` is in range, and the NaN elsewhere. -/
def cornerSpec (x : (⟨S4x8x128x128x128, .f32⟩ : BufTy).Contents (Elt F)) (lin : (⟨S4x512x512, .i32⟩ : BufTy).Contents (Elt F))
    (i : S4x8x512x512.Idx) : F .f32 :=
  let l : BitVec 32 := normIdx (lin (ix3 (i 0) (i 2) (i 3)))
  Scalar.select (inRange l)
    ((shapeCast S4x8x2097152 x shapeCasts_S4x8x128x128x128_S4x8x2097152 : (⟨S4x8x2097152, .f32⟩ : BufTy).Contents (Elt F))
      (ix3 (i 0) (i 1) ⟨min l.toInt.toNat 2097151, by omega⟩))
    (nan32 (F := F))

end Reference

end Cert.Trilinear

end
-- ==== Proof.KernelHostA.lean ====
/-
  What the kernel program's host code has put in the window arrays when the region is entered, as terms of the two
  argument arrays: the feature volume `A0 : [4, 8, 128, 128, 128]` and the sample coordinates `A1 : [4, 512, 512, 3]`.
  First part: the three offset maps and the corners `000`, `001`, `010`.

  The host code clips the coordinates to `[-1, 1]`, scales them to voxel units, and takes floors: the three fractional
  offsets `x - ⌊x⌋`, `y - ⌊y⌋`, `z - ⌊z⌋` are the offset maps `u`, `v`, `w`. The floors and the floors plus one, clamped
  to `[0, 127]` and converted to integers, combine as `(z * 128 + y) * 128 + x` into eight maps of flat voxel numbers,
  one per corner of the cell, and each corner array is the gather of the volume along its map. The reference program
  performs the same clip, scale, floor, clamp and flat-number arithmetic, operation for operation, so each offset map
  of the kernel program is the reference's stage function, and each corner array is the channels-last gather `cornerK`
  of the volume along the reference's flat-number map. Every equation here holds by unfolding: both sides are the same
  tree of array operations over the launched arguments.
-/
import proofs.«158492_j59906203845136_2_alg».proof.Proof.KernelHostOps
import proofs.«158492_j59906203845136_2_alg».proof.Proof.Corner
import proofs.«158492_j59906203845136_2_alg».proof.Proof.RefReadPatched
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

-- a reduction over an axis is compared by its arguments, never by unfolding its fold over the whole index space
attribute [local irreducible] Host.reduce

set_option maxRecDepth 65536 in
set_option maxHeartbeats 16000000 in
/-- The offset map `u`: the first scaled coordinate minus its floor. -/
theorem V_u :
    (V m c main_v17 : S4x512x512.Idx → F .f32)
      = Cert.ReferenceIdeal.ReadP.val_main_v17 (F := F) (m ((c : Thread nD τ).loc main_arg1)) := by
  rw [V_eq]
  simp only [opsFree]
  after_results_simp
  rfl

set_option maxRecDepth 65536 in
set_option maxHeartbeats 16000000 in
/-- The offset map `v`: the second scaled coordinate minus its floor. -/
theorem V_v :
    (V m c main_v18 : S4x512x512.Idx → F .f32)
      = Cert.ReferenceIdeal.ReadP.val_main_v19 (F := F) (m ((c : Thread nD τ).loc main_arg1)) := by
  rw [V_eq]
  simp only [opsFree]
  after_results_simp
  rfl

set_option maxRecDepth 65536 in
set_option maxHeartbeats 16000000 in
/-- The offset map `w`: the third scaled coordinate minus its floor. -/
theorem V_w :
    (V m c main_v19 : S4x512x512.Idx → F .f32)
      = Cert.ReferenceIdeal.ReadP.val_main_v21 (F := F) (m ((c : Thread nD τ).loc main_arg1)) := by
  rw [V_eq]
  simp only [opsFree]
  after_results_simp
  rfl

set_option maxRecDepth 65536 in
set_option maxHeartbeats 16000000 in
/-- Corner `000`: the gather along `(z₀ * 128 + y₀) * 128 + x₀`, the three floors clamped to `[0, 127]`. -/
theorem V_c000 :
    (V m c main_v50 : S4x8x512x512.Idx → F .f32)
      = Cert.Trilinear.cornerK (F := F) (m ((c : Thread nD τ).loc main_arg0))
          (Cert.ReferenceIdeal.ReadP.val_main_v47 (F := F) (m ((c : Thread nD τ).loc main_arg1))) := by
  rw [V_eq]
  simp only [opsFree]
  after_results_simp
  rfl

set_option maxRecDepth 65536 in
set_option maxHeartbeats 16000000 in
/-- Corner `001`: the gather along `(z₁ * 128 + y₀) * 128 + x₀`, `z₁` the clamped floor plus one. -/
theorem V_c001 :
    (V m c main_v61 : S4x8x512x512.Idx → F .f32)
      = Cert.Trilinear.cornerK (F := F) (m ((c : Thread nD τ).loc main_arg0))
          (Cert.ReferenceIdeal.ReadP.val_main_v57 (F := F) (m ((c : Thread nD τ).loc main_arg1))) := by
  rw [V_eq]
  simp only [opsFree]
  after_results_simp
  rfl

set_option maxRecDepth 65536 in
set_option maxHeartbeats 16000000 in
/-- Corner `010`: the gather along `(z₀ * 128 + y₁) * 128 + x₀`, `y₁` the clamped floor plus one. -/
theorem V_c010 :
    (V m c main_v72 : S4x8x512x512.Idx → F .f32)
      = Cert.Trilinear.cornerK (F := F) (m ((c : Thread nD τ).loc main_arg0))
          (Cert.ReferenceIdeal.ReadP.val_main_v67 (F := F) (m ((c : Thread nD τ).loc main_arg1))) := by
  rw [V_eq]
  simp only [opsFree]
  after_results_simp
  rfl

end Cert.KernelIdeal.Host

end
-- ==== Proof.KernelHostB.lean ====
/-
  What the kernel program's host code has put in the window arrays when the region is entered, as terms of the two
  argument arrays: the feature volume `A0 : [4, 8, 128, 128, 128]` and the sample coordinates `A1 : [4, 512, 512, 3]`.
  Second part: the corners `011`, `100`, `101`, `110`, `111` (the digits: far side along `x`, along `y`, along `z`).

  Write `x₀`, `y₀`, `z₀` for the floors of the three scaled coordinates clamped to `[0, 127]` and converted to integers,
  and `x₁`, `y₁`, `z₁` for the floors plus one treated the same way. A corner of the cell picks one of the two values
  on each axis; its map of flat voxel numbers is `(z * 128 + y) * 128 + x` over the picked values, and its array is the
  gather of the volume, channels last, along that map, with a NaN where the number falls outside the volume. The
  reference program computes the same eight maps by the same clip, scale, floor, clamp and integer arithmetic, operation
  for operation, so each corner array is the channels-last gather `cornerK` of the launched volume along the reference's
  flat-number map for that corner. Every equation here holds by unfolding: both sides are the same tree of array
  operations over the launched arguments.
-/
import proofs.«158492_j59906203845136_2_alg».proof.Proof.KernelHostOps
import proofs.«158492_j59906203845136_2_alg».proof.Proof.Corner
import proofs.«158492_j59906203845136_2_alg».proof.Proof.RefReadPatched
import Idealize.ShloMosaic.Lib.StableHlo.Run

set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

-- a reduction over an axis is compared by its arguments, never by unfolding its fold over the whole index space
attribute [local irreducible] Host.reduce

set_option maxRecDepth 65536 in
set_option maxHeartbeats 16000000 in
/-- Corner `011`: the gather along `(z₁ * 128 + y₁) * 128 + x₀` (near side along `x`, far sides along `y` and `z`). -/
theorem V_c011 :
    (V m c main_v83 : S4x8x512x512.Idx → F .f32)
      = Cert.Trilinear.cornerK (F := F) (m ((c : Thread nD τ).loc main_arg0))
          (Cert.ReferenceIdeal.ReadP.val_main_v77 (F := F) (m ((c : Thread nD τ).loc main_arg1))) := by
  rw [V_eq]
  simp only [opsFree]
  after_results_simp
  rfl

set_option maxRecDepth 65536 in
set_option maxHeartbeats 16000000 in
/-- Corner `100`: the gather along `(z₀ * 128 + y₀) * 128 + x₁` (far side along `x`, near sides along `y` and `z`). -/
theorem V_c100 :
    (V m c main_v94 : S4x8x512x512.Idx → F .f32)
      = Cert.Trilinear.cornerK (F := F) (m ((c : Thread nD τ).loc main_arg0))
          (Cert.ReferenceIdeal.ReadP.val_main_v87 (F := F) (m ((c : Thread nD τ).loc main_arg1))) := by
  rw [V_eq]
  simp only [opsFree]
  after_results_simp
  rfl

set_option maxRecDepth 65536 in
set_option maxHeartbeats 16000000 in
/-- Corner `101`: the gather along `(z₁ * 128 + y₀) * 128 + x₁` (far sides along `x` and `z`, near side along `y`). -/
theorem V_c101 :
    (V m c main_v105 : S4x8x512x512.Idx → F .f32)
      = Cert.Trilinear.cornerK (F := F) (m ((c : Thread nD τ).loc main_arg0))
          (Cert.ReferenceIdeal.ReadP.val_main_v97 (F := F) (m ((c : Thread nD τ).loc main_arg1))) := by
  rw [V_eq]
  simp only [opsFree]
  after_results_simp
  rfl

set_option maxRecDepth 65536 in
set_option maxHeartbeats 16000000 in
/-- Corner `110`: the gather along `(z₀ * 128 + y₁) * 128 + x₁` (far sides along `x` and `y`, near side along `z`). -/
theorem V_c110 :
    (V m c main_v116 : S4x8x512x512.Idx → F .f32)
      = Cert.Trilinear.cornerK (F := F) (m ((c : Thread nD τ).loc main_arg0))
          (Cert.ReferenceIdeal.ReadP.val_main_v107 (F := F) (m ((c : Thread nD τ).loc main_arg1))) := by
  rw [V_eq]
  simp only [opsFree]
  after_results_simp
  rfl

set_option maxRecDepth 65536 in
set_option maxHeartbeats 16000000 in
/-- Corner `111`: the gather along `(z₁ * 128 + y₁) * 128 + x₁` (the far side along every axis). -/
theorem V_c111 :
    (V m c main_v127 : S4x8x512x512.Idx → F .f32)
      = Cert.Trilinear.cornerK (F := F) (m ((c : Thread nD τ).loc main_arg0))
          (Cert.ReferenceIdeal.ReadP.val_main_v117 (F := F) (m ((c : Thread nD τ).loc main_arg1))) := by
  rw [V_eq]
  simp only [opsFree]
  after_results_simp
  rfl

end Cert.KernelIdeal.Host

end
-- ==== Proof.CornerK.lean ====
/-
  The kernel-side corner read at an index. The host code works channels-last: the feature volume flattened to
  `[4, 8, 2097152]` and transposed to `[4, 2097152, 8]`, the voxel-number map flattened to `[4, 262144, 1]` and spread over
  the eight features. At the result index `(b, f, h, w)`, with `p = 512 h + w` the flat pixel number, every
  intermediate array is read at `(b, p, f)`: the normalised voxel number is `normIdx (lin (b, h, w))`, the mask its
  `inRange` bit (the conjunction over the unit axis has one term), the gathered value the transposed volume at
  `(b, m, f)` with `m` that number clamped into `[0, 2097151]`, which is the flattened volume at `(b, f, m)`.
-/
import proofs.«158492_j59906203845136_2_alg».proof.Proof.Corner
import Idealize.ShloMosaic.Lib.Pipeline.Value
import Idealize.ShloMosaic.Lib.ValueIdx
import Idealize.ShloMosaic.PureOps.Reduce

noncomputable section

namespace Cert.Trilinear

open Idealize.ShloMosaic Idealize.ShloMosaic.ValueIdx
open Cert.KernelIdeal Cert.KernelIdeal.Gen

variable {F : FTy → Type} [FloatOps F]

/-- The flat pixel number `512 h + w` of the pixel `(h, w)`. -/
def pix (h w : Fin 512) : Fin 262144 := ⟨h.val * 512 + w.val, by have := h.isLt; have := w.isLt; omega⟩

/-- The volume channels-last: flattened to `[4, 8, 2097152]`, then transposed to `[4, 2097152, 8]`. -/
def kXt (x : (⟨S4x8x128x128x128, .f32⟩ : BufTy).Contents (Elt F)) : (⟨S4x2097152x8, .f32⟩ : BufTy).Contents (Elt F) :=
  transpose S4x2097152x8 [0, 2, 1] (shapeCast _ x shapeCasts_S4x8x128x128x128_S4x8x2097152) transposes_S4x8x2097152_S4x2097152x8_0_2_1

/-- The voxel numbers spread over the features: `[4, 262144, 8]`. -/
def kIdx (lin : (⟨S4x512x512, .i32⟩ : BufTy).Contents (Elt F)) : (⟨S4x262144x8, .i32⟩ : BufTy).Contents (Elt F) :=
  broadcastInDim S4x262144x8 ![0, 1, 2] bcast_S4x262144x1_S4x262144x8_0_1_2 (shapeCast _ lin shapeCasts_S4x512x512_S4x262144x1)

/-- The normalised voxel numbers as start indices: `[4, 262144, 8, 1]`. -/
def kV5 (lin : (⟨S4x512x512, .i32⟩ : BufTy).Contents (Elt F)) : (⟨S4x262144x8x1, .i32⟩ : BufTy).Contents (Elt F) :=
  shapeCast _ (select (cmpi .slt (kIdx (F := F) lin) (broadcastInDim S4x262144x8 ![] bcast_S_S4x262144x8 (constantI S_ 32 0#32)))
      (addi (kIdx (F := F) lin) (broadcastInDim S4x262144x8 ![] bcast_S_S4x262144x8 (constantI S_ 32 2097152#32))) (kIdx (F := F) lin))
    shapeCasts_S4x262144x8_S4x262144x8x1

/-- The in-range bits of the start indices. -/
def kV11 (lin : (⟨S4x512x512, .i32⟩ : BufTy).Contents (Elt F)) : (⟨S4x262144x8x1, .i1⟩ : BufTy).Contents (Elt F) :=
  andi (cmpi .sge (kV5 (F := F) lin) (broadcastInDim S4x262144x8x1 ![] bcast_S_S4x262144x8x1 (constantI S_ 32 0#32)))
    (cmpi .sle (kV5 (F := F) lin) (broadcastInDim S4x262144x8x1 ![0, 1, 2, 3] bcast_S1x1x1x1_S4x262144x8x1_0_1_2_3
      (broadcastInDim S1x1x1x1 ![3] bcast_S1_S1x1x1x1_3 (constantI S1 32 2097151#32))))

/-- The masked gather, channels-last: `[4, 262144, 8]`. -/
def kV15 (x : (⟨S4x8x128x128x128, .f32⟩ : BufTy).Contents (Elt F)) (lin : (⟨S4x512x512, .i32⟩ : BufTy).Contents (Elt F)) :
    (⟨S4x262144x8, .f32⟩ : BufTy).Contents (Elt F) :=
  select (Host.reduce IntOp.andi (kV11 (F := F) lin) (constantI S_ 1 1#1) reducesTo_S4x262144x8x1_S4x262144x8_d3 h_S_)
    (Host.gather gather_S4x2097152x8_S4x262144x8x1_S4x262144x8_n_1_02_02_1_3_111 (kXt (F := F) x) (kV5 (F := F) lin))
    (broadcastInDim S4x262144x8 ![] bcast_S_S4x262144x8 (constant (F := F) S_ .f32 0x7FC00000#32))

/-- The kernel's corner is the masked gather reshaped to `[4, 512, 512, 8]` and transposed to channels-first. -/
theorem cornerK_eq (x : (⟨S4x8x128x128x128, .f32⟩ : BufTy).Contents (Elt F)) (lin : (⟨S4x512x512, .i32⟩ : BufTy).Contents (Elt F)) :
    cornerK (F := F) x lin = transpose S4x8x512x512 [0, 3, 1, 2] (shapeCast _ (kV15 (F := F) x lin) shapeCasts_S4x262144x8_S4x512x512x8)
      transposes_S4x512x512x8_S4x8x512x512_0_3_1_2 := rfl

/-- The spread voxel numbers at `(b, p, f)`: the map at `(b, h, w)`. -/
theorem kIdx_apply (lin : (⟨S4x512x512, .i32⟩ : BufTy).Contents (Elt F)) (b : Fin 4) (h w : Fin 512) (f : Fin 8) :
    kIdx (F := F) lin (ix3 b (pix h w) f) = lin (ix3 b h w) := by
  unfold kIdx
  refine (broadcastInDim_apply _ bcast_S4x262144x1_S4x262144x8_0_1_2 _ (ix3 b (pix h w) f) (ix3 b (pix h w) ⟨0, Nat.one_pos⟩)
    (fun a => match a with
      | ⟨0, _⟩ => rfl
      | ⟨1, _⟩ => rfl
      | ⟨2, _⟩ => rfl)).trans ?_
  refine shapeCast_apply lin shapeCasts_S4x512x512_S4x262144x1 _ (ix3 b h w) ?_
  rw [Shape.rowMajor_val_three, Shape.rowMajor_val_three]
  show (b.val * 512 + h.val) * 512 + w.val = (b.val * 262144 + (h.val * 512 + w.val)) * 1 + 0
  omega

/-- The start indices at `(b, p, f, 0)`: the normalised voxel number. -/
theorem kV5_apply (lin : (⟨S4x512x512, .i32⟩ : BufTy).Contents (Elt F)) (b : Fin 4) (h w : Fin 512) (f : Fin 8) (z : Fin 1) :
    kV5 (F := F) lin (ix4 b (pix h w) f z) = normIdx (lin (ix3 b h w)) := by
  unfold kV5
  refine (shapeCast_apply _ shapeCasts_S4x262144x8_S4x262144x8x1 (ix4 b (pix h w) f z) (ix3 b (pix h w) f) ?_).trans ?_
  · rw [Shape.rowMajor_val_three, Shape.rowMajor_val_four]
    have hz : z.val = 0 := by have := z.isLt; omega
    show (b.val * 262144 + (pix h w).val) * 8 + f.val = ((b.val * 262144 + (pix h w).val) * 8 + f.val) * 1 + z.val
    omega
  · show Scalar.select (IntOp.cmpi .slt (kIdx (F := F) lin (ix3 b (pix h w) f)) 0#32)
      (IntOp.addi (kIdx (F := F) lin (ix3 b (pix h w) f)) 2097152#32) (kIdx (F := F) lin (ix3 b (pix h w) f)) = _
    rw [kIdx_apply]
    rfl

/-- The in-range bit at `(b, p, f, 0)`. -/
theorem kV11_apply (lin : (⟨S4x512x512, .i32⟩ : BufTy).Contents (Elt F)) (b : Fin 4) (h w : Fin 512) (f : Fin 8) (z : Fin 1) :
    kV11 (F := F) lin (ix4 b (pix h w) f z) = inRange (normIdx (lin (ix3 b h w))) := by
  show IntOp.andi (IntOp.cmpi .sge (kV5 (F := F) lin (ix4 b (pix h w) f z)) 0#32)
    (IntOp.cmpi .sle (kV5 (F := F) lin (ix4 b (pix h w) f z)) 2097151#32) = _
  rw [kV5_apply]
  rfl

section Generic
variable {α : Type}

/-- A conjunction over the unit axis 3 of a `[4, 262144, 8, 1]` array of bits, from the bit `1`: the one term. -/
theorem reduce_unit_apply (m : IVec S4x262144x8x1 1) (b : Fin 4) (p : Fin 262144) (f : Fin 8) :
    Host.reduce IntOp.andi m (constantI S_ 1 1#1) reducesTo_S4x262144x8x1_S4x262144x8_d3 h_S_ (ix3 b p f)
      = m (ix4 b p f ⟨0, Nat.one_pos⟩) := by
  have hR : S4x262144x8x1.Reduces [3] S4x262144x8 := by decide
  rw [Host.reduce_eq_fold_single IntOp.andi m _ reducesTo_S4x262144x8x1_S4x262144x8_d3 hR h_S_]
  have hu : (Finset.univ : Finset (Fin (S4x262144x8x1.size 3))) = {⟨0, Nat.one_pos⟩} := rfl
  rw [hu, Finset.fold_singleton]
  have hl : hR.lift (ix3 b p f) ⟨0, Nat.one_pos⟩ = ix4 b p f ⟨0, Nat.one_pos⟩ := by
    funext c; refine Fin.ext ?_
    rw [hR.lift_val]
    match c with
    | ⟨0, _⟩ => rfl
    | ⟨1, _⟩ => rfl
    | ⟨2, _⟩ => rfl
    | ⟨3, _⟩ => rfl
  show IntOp.andi (m (hR.lift (ix3 b p f) ⟨0, Nat.one_pos⟩)) 1#1 = _
  rw [hl]
  generalize m (ix4 b p f ⟨0, Nat.one_pos⟩) = v
  revert v
  decide

/-- The gather along axis 1 with axes 0 and 2 batching, read at `(b, p, f)`: the operand at `(b, m, f)`, `m` the start
    index at `(b, p, f, 0)` read signed and clamped into `[0, 2097151]`. -/
theorem gather_apply (xt : S4x2097152x8.Idx → α) (v5 : IVec S4x262144x8x1 32) (b : Fin 4) (p : Fin 262144) (f : Fin 8) :
    Host.gather gather_S4x2097152x8_S4x262144x8x1_S4x262144x8_n_1_02_02_1_3_111 xt v5 (ix3 b p f)
      = xt (ix3 b ⟨min (v5 (ix4 b p f ⟨0, Nat.one_pos⟩)).toInt.toNat 2097151, by omega⟩ f) := by
  have hb0 : (⟨0, by decide⟩ : Fin 3) ∈ gather_S4x2097152x8_S4x262144x8x1_S4x262144x8_n_1_02_02_1_3_111.operandBatchingDims := by decide
  have hb2 : (⟨2, by decide⟩ : Fin 3) ∈ gather_S4x2097152x8_S4x262144x8x1_S4x262144x8_n_1_02_02_1_3_111.operandBatchingDims := by decide
  have hb1 : (⟨1, by decide⟩ : Fin 3) ∉ gather_S4x2097152x8_S4x262144x8x1_S4x262144x8_n_1_02_02_1_3_111.operandBatchingDims := by decide
  have hk0 : (⟨0, by decide⟩ : Fin 3) ∉ gather_S4x2097152x8_S4x262144x8x1_S4x262144x8_n_1_02_02_1_3_111.sKept := by decide
  have hk1 : (⟨1, by decide⟩ : Fin 3) ∉ gather_S4x2097152x8_S4x262144x8x1_S4x262144x8_n_1_02_02_1_3_111.sKept := by decide
  have hk2 : (⟨2, by decide⟩ : Fin 3) ∉ gather_S4x2097152x8_S4x262144x8x1_S4x262144x8_n_1_02_02_1_3_111.sKept := by decide
  have hm1 : (⟨1, by decide⟩ : Fin 3) ∈ gather_S4x2097152x8_S4x262144x8x1_S4x262144x8_n_1_02_02_1_3_111.startIndexMap := by decide
  have h0 : gather_S4x2097152x8_S4x262144x8x1_S4x262144x8_n_1_02_02_1_3_111.start (ix3 b p f) v5 ⟨0, by decide⟩
      + gather_S4x2097152x8_S4x262144x8x1_S4x262144x8_n_1_02_02_1_3_111.batchCoord (ix3 b p f) ⟨0, by decide⟩
      + gather_S4x2097152x8_S4x262144x8x1_S4x262144x8_n_1_02_02_1_3_111.offCoord (ix3 b p f) ⟨0, by decide⟩ = b.val := by
    rw [GatherDims.start_batching _ _ _ _ hb0, GatherDims.offCoord_eq_zero _ _ _ hk0, Nat.zero_add, Nat.add_zero]
    rfl
  have h2 : gather_S4x2097152x8_S4x262144x8x1_S4x262144x8_n_1_02_02_1_3_111.start (ix3 b p f) v5 ⟨2, by decide⟩
      + gather_S4x2097152x8_S4x262144x8x1_S4x262144x8_n_1_02_02_1_3_111.batchCoord (ix3 b p f) ⟨2, by decide⟩
      + gather_S4x2097152x8_S4x262144x8x1_S4x262144x8_n_1_02_02_1_3_111.offCoord (ix3 b p f) ⟨2, by decide⟩ = f.val := by
    rw [GatherDims.start_batching _ _ _ _ hb2, GatherDims.offCoord_eq_zero _ _ _ hk2, Nat.zero_add, Nat.add_zero]
    rfl
  have h1 : gather_S4x2097152x8_S4x262144x8x1_S4x262144x8_n_1_02_02_1_3_111.start (ix3 b p f) v5 ⟨1, by decide⟩
      + gather_S4x2097152x8_S4x262144x8x1_S4x262144x8_n_1_02_02_1_3_111.batchCoord (ix3 b p f) ⟨1, by decide⟩
      + gather_S4x2097152x8_S4x262144x8x1_S4x262144x8_n_1_02_02_1_3_111.offCoord (ix3 b p f) ⟨1, by decide⟩
        = min (v5 (ix4 b p f ⟨0, Nat.one_pos⟩)).toInt.toNat 2097151 := by
    rw [GatherDims.batchCoord_eq_zero _ _ _ hb1, GatherDims.offCoord_eq_zero _ _ _ hk1, Nat.add_zero]
    unfold GatherDims.start
    rw [dif_pos hm1]
    have hsi : gather_S4x2097152x8_S4x262144x8x1_S4x262144x8_n_1_02_02_1_3_111.siIdx (ix3 b p f)
        ⟨List.idxOf (⟨1, by decide⟩ : Fin 3) gather_S4x2097152x8_S4x262144x8x1_S4x262144x8_n_1_02_02_1_3_111.startIndexMap,
          List.idxOf_lt_length_iff.2 hm1⟩ = ix4 b p f ⟨0, Nat.one_pos⟩ := by
      funext c; refine Fin.ext ?_
      match c with
      | ⟨0, _⟩ => rfl
      | ⟨1, _⟩ => rfl
      | ⟨2, _⟩ => rfl
      | ⟨3, _⟩ => rfl
    rw [hsi]
    rfl
  unfold Host.gather
  congr 1
  funext a
  refine Fin.ext ?_
  show gather_S4x2097152x8_S4x262144x8x1_S4x262144x8_n_1_02_02_1_3_111.start (ix3 b p f) v5 a
    + gather_S4x2097152x8_S4x262144x8x1_S4x262144x8_n_1_02_02_1_3_111.batchCoord (ix3 b p f) a
    + gather_S4x2097152x8_S4x262144x8x1_S4x262144x8_n_1_02_02_1_3_111.offCoord (ix3 b p f) a = _
  match a with
  | ⟨0, _⟩ => exact h0
  | ⟨1, _⟩ => exact h1
  | ⟨2, _⟩ => exact h2

end Generic

/-- The channels-last volume at `(b, m, f)`: the flattened volume at `(b, f, m)`. -/
theorem kXt_apply (x : (⟨S4x8x128x128x128, .f32⟩ : BufTy).Contents (Elt F)) (b : Fin 4) (m : Fin 2097152) (f : Fin 8) :
    kXt (F := F) x (ix3 b m f)
      = (shapeCast S4x8x2097152 x shapeCasts_S4x8x128x128x128_S4x8x2097152 : (⟨S4x8x2097152, .f32⟩ : BufTy).Contents (Elt F)) (ix3 b f m) := by
  unfold kXt
  exact transpose_apply [0, 2, 1] _ transposes_S4x8x2097152_S4x2097152x8_0_2_1 (ix3 b m f) (ix3 b f m)
    (fun a => match a with
      | ⟨0, _⟩ => rfl
      | ⟨1, _⟩ => rfl
      | ⟨2, _⟩ => rfl)

/-- The masked gather at `(b, p, f)`. -/
theorem kV15_apply (x : (⟨S4x8x128x128x128, .f32⟩ : BufTy).Contents (Elt F)) (lin : (⟨S4x512x512, .i32⟩ : BufTy).Contents (Elt F))
    (b : Fin 4) (h w : Fin 512) (f : Fin 8) :
    kV15 (F := F) x lin (ix3 b (pix h w) f) = Scalar.select (inRange (normIdx (lin (ix3 b h w))))
      ((shapeCast S4x8x2097152 x shapeCasts_S4x8x128x128x128_S4x8x2097152 : (⟨S4x8x2097152, .f32⟩ : BufTy).Contents (Elt F))
        (ix3 b f ⟨min (normIdx (lin (ix3 b h w))).toInt.toNat 2097151, by omega⟩))
      (nan32 (F := F)) := by
  show Scalar.select
    (Host.reduce IntOp.andi (kV11 (F := F) lin) (constantI S_ 1 1#1) reducesTo_S4x262144x8x1_S4x262144x8_d3 h_S_ (ix3 b (pix h w) f))
    (Host.gather gather_S4x2097152x8_S4x262144x8x1_S4x262144x8_n_1_02_02_1_3_111 (kXt (F := F) x) (kV5 (F := F) lin) (ix3 b (pix h w) f))
    (nan32 (F := F)) = _
  rw [reduce_unit_apply, kV11_apply, gather_apply, kXt_apply]
  simp only [kV5_apply]

/-- THE KERNEL'S CORNER AT AN INDEX is the common entry `cornerSpec`. -/
theorem cornerK_apply (x : (⟨Cert.KernelIdeal.S4x8x128x128x128, .f32⟩ : BufTy).Contents (Elt F))
    (lin : (⟨Cert.KernelIdeal.S4x512x512, .i32⟩ : BufTy).Contents (Elt F)) (i : Cert.KernelIdeal.S4x8x512x512.Idx) :
    cornerK (F := F) x lin i = cornerSpec (F := F) x lin i := by
  obtain ⟨b, f, h, w, rfl⟩ : ∃ b f h w, i = ix4 b f h w := ⟨i 0, i 1, i 2, i 3, eq_ix4 i⟩
  rw [cornerK_eq]
  refine (transpose_apply [0, 3, 1, 2] _ transposes_S4x512x512x8_S4x8x512x512_0_3_1_2 (ix4 b f h w) (ix4 b h w f)
    (fun a => match a with
      | ⟨0, _⟩ => rfl
      | ⟨1, _⟩ => rfl
      | ⟨2, _⟩ => rfl
      | ⟨3, _⟩ => rfl)).trans ?_
  refine (shapeCast_apply _ shapeCasts_S4x262144x8_S4x512x512x8 (ix4 b h w f) (ix3 b (pix h w) f) ?_).trans ?_
  · rw [Shape.rowMajor_val_three, Shape.rowMajor_val_four]
    show (b.val * 262144 + (h.val * 512 + w.val)) * 8 + f.val = ((b.val * 512 + h.val) * 512 + w.val) * 8 + f.val
    omega
  · rw [kV15_apply]
    rfl

end Cert.Trilinear

end
-- ==== Proof.CornerR.lean ====
/-
  The reference's corner read at an index. The reference gathers channels-first: the volume flattened to
  `[4, 8, 2097152]`, the map of flat voxel numbers flattened to `[4, 1, 262144]` and spread over the eight features,
  a negative number moved up by the axis length, the numbers outside `[0, 2097151]` masked, the gather along axis 2 with
  axes 0 and 1 batching, a NaN where the mask is off, and the result unflattened to `[4, 8, 512, 512]`. Read at
  `(b, f, h, w)` every step reads ONE entry of its operand: the unflattening reads flat position `p = 512 h + w`, the
  spread map reads `lin (b, h, w)` whatever `f` is, the mask's conjunction over a unit axis is its one term, and the
  gather reads the flattened volume at `(b, f, ·)` at the normalised number clamped into the axis. That entry is
  `cornerSpec`.
-/
import proofs.«158492_j59906203845136_2_alg».proof.Proof.Corner
import Idealize.ShloMosaic.Lib.Pipeline.Value
import Idealize.ShloMosaic.Lib.ValueIdx
import Idealize.ShloMosaic.PureOps.Reduce

noncomputable section

namespace Cert.Trilinear

open Idealize.ShloMosaic Idealize.ShloMosaic.ValueIdx
open Cert.ReferenceIdeal Cert.ReferenceIdeal.Gen

variable {F : FTy → Type} [FloatOps F]

/-- The gather's dimension numbers: axes 0 and 1 batching on both sides, axis 2 collapsed and indexed. -/
local notation "gd" => gather_S4x8x2097152_S4x8x262144x1_S4x8x262144_n_2_01_01_2_3_111

/-! ## The two operations that do not read one operand entry by definition -/

/-- A conjunction over an index set of one element, started from the bit 1, is its one term. -/
theorem fold_and_unit (n : Nat) (hn : n = 1) (g : Fin n → BitVec 1) :
    (Finset.univ : Finset (Fin n)).fold IntOp.andi 1#1 g = g ⟨0, by omega⟩ := by
  subst hn
  rw [Finset.univ_unique, Finset.fold_singleton]
  show IntOp.andi (g 0) 1#1 = g 0
  generalize g 0 = c
  rcases BitVec.eq_zero_or_eq_one c with rfl | rfl <;> rfl

/-- The mask's conjunction over the unit axis 3, read at `(b, f, p)`: the mask at `(b, f, p, 0)`. -/
theorem reduce_and_unit_apply (v : S4x8x262144x1.Idx → BitVec 1) (b : Fin 4) (f : Fin 8) (p : Fin 262144) :
    Host.reduce IntOp.andi v (constantI S_ 1 1#1) reducesTo_S4x8x262144x1_S4x8x262144_d3 h_S_ (ix3 b f p)
      = v (ix4 b f p 0) := by
  have hR : S4x8x262144x1.Reduces [3] S4x8x262144 := by decide
  rw [Host.reduce_eq_fold_single IntOp.andi v _ reducesTo_S4x8x262144x1_S4x8x262144_d3 hR h_S_]
  refine (fold_and_unit _ rfl _).trans ?_
  refine congrArg v ?_
  funext a
  apply Fin.ext
  match a with
  | ⟨0, _⟩ => rfl
  | ⟨1, _⟩ => rfl
  | ⟨2, _⟩ => rfl
  | ⟨3, _⟩ => rfl

/-- The gather read at `(b, f, p)`: the operand at `(b, f, ·)` — the batching axes carry the result's own
    coordinates — at the start index `(b, f, p, 0)` read signed and clamped into `[0, 2097151]`. -/
theorem gather_flat_apply {α : Type} (xf : S4x8x2097152.Idx → α) (v5 : S4x8x262144x1.Idx → BitVec 32)
    (b : Fin 4) (f : Fin 8) (p : Fin 262144) (l : BitVec 32) (hl : v5 (ix4 b f p 0) = l) :
    Host.gather gd xf v5 (ix3 b f p) = xf (ix3 b f ⟨min l.toInt.toNat 2097151, by omega⟩) := by
  subst hl
  unfold Host.gather
  refine congrArg xf ?_
  funext a
  refine Fin.ext ?_
  match a with
  | ⟨0, _⟩ =>
    show GatherDims.start gd (ix3 b f p) v5 0 + GatherDims.batchCoord gd (ix3 b f p) 0
      + GatherDims.offCoord gd (ix3 b f p) 0 = b.val
    rw [GatherDims.start_batching gd _ _ _ (by decide),
      GatherDims.offCoord_eq_zero gd _ _ (fun h => ((GatherDims.mem_sKept gd _).mp h).2 (by decide))]
    show 0 + GatherDims.batchCoord gd (ix3 b f p) 0 + 0 = b.val
    rw [Nat.zero_add, Nat.add_zero]
    rfl
  | ⟨1, _⟩ =>
    show GatherDims.start gd (ix3 b f p) v5 1 + GatherDims.batchCoord gd (ix3 b f p) 1
      + GatherDims.offCoord gd (ix3 b f p) 1 = f.val
    rw [GatherDims.start_batching gd _ _ _ (by decide),
      GatherDims.offCoord_eq_zero gd _ _ (fun h => ((GatherDims.mem_sKept gd _).mp h).2 (by decide))]
    show 0 + GatherDims.batchCoord gd (ix3 b f p) 1 + 0 = f.val
    rw [Nat.zero_add, Nat.add_zero]
    rfl
  | ⟨2, _⟩ =>
    show GatherDims.start gd (ix3 b f p) v5 2 + GatherDims.batchCoord gd (ix3 b f p) 2
      + GatherDims.offCoord gd (ix3 b f p) 2 = min (v5 (ix4 b f p 0)).toInt.toNat 2097151
    rw [GatherDims.batchCoord_eq_zero gd _ _ (by decide),
      GatherDims.offCoord_eq_zero gd _ _ (fun h => ((GatherDims.mem_sKept gd _).mp h).1 (by decide))]
    simp only [Nat.add_zero]
    unfold GatherDims.start
    rw [dif_pos (show (2 : Fin 3) ∈ GatherDims.startIndexMap gd by decide)]
    have hsi : GatherDims.siIdx gd (ix3 b f p) ⟨List.idxOf (2 : Fin 3) (GatherDims.startIndexMap gd),
        List.idxOf_lt_length_iff.2 (by decide)⟩ = ix4 b f p 0 := by
      funext c
      refine Fin.ext ?_
      match c with
      | ⟨0, _⟩ => rfl
      | ⟨1, _⟩ => rfl
      | ⟨2, _⟩ => rfl
      | ⟨3, _⟩ => rfl
    rw [hsi]
    rfl

/-! ## The steps that read one operand entry -/

/-- The map of flat voxel numbers, flattened and spread over the features. -/
def refIdx (lin : S4x512x512.Idx → BitVec 32) : S4x8x262144.Idx → BitVec 32 :=
  broadcastInDim S4x8x262144 ![0, 1, 2] bcast_S4x1x262144_S4x8x262144_0_1_2 (shapeCast _ lin shapeCasts_S4x512x512_S4x1x262144)

/-- Read at `(b, f, p)` with `p = 512 h + w` it is `lin (b, h, w)`, whatever the feature `f`. -/
theorem refIdx_apply (lin : S4x512x512.Idx → BitVec 32) (b : Fin 4) (f : Fin 8) (h w : Fin 512) (p : Fin 262144)
    (hp : p.val = h.val * 512 + w.val) : refIdx lin (ix3 b f p) = lin (ix3 b h w) := by
  unfold refIdx
  refine (broadcastInDim_apply _ bcast_S4x1x262144_S4x8x262144_0_1_2 _ (ix3 b f p) (ix3 b (0 : Fin 1) p)
    (fun a => match a with
      | ⟨0, _⟩ => rfl
      | ⟨1, _⟩ => rfl
      | ⟨2, _⟩ => rfl)).trans ?_
  exact shapeCast_apply lin shapeCasts_S4x512x512_S4x1x262144 (ix3 b (0 : Fin 1) p) (ix3 b h w) (by
    rw [Shape.rowMajor_val_three, Shape.rowMajor_val_three]
    show (b.val * 512 + h.val) * 512 + w.val = (b.val * 1 + 0) * 262144 + p.val
    omega)

/-- The normalised numbers as the gather's start indices `[4, 8, 262144, 1]`. -/
def refStart (lin : S4x512x512.Idx → BitVec 32) : S4x8x262144x1.Idx → BitVec 32 :=
  shapeCast _
    (select (cmpi .slt (refIdx lin) (broadcastInDim S4x8x262144 ![] bcast_S_S4x8x262144 (constantI S_ 32 0#32)))
      (addi (refIdx lin) (broadcastInDim S4x8x262144 ![] bcast_S_S4x8x262144 (constantI S_ 32 2097152#32))) (refIdx lin))
    shapeCasts_S4x8x262144_S4x8x262144x1

/-- Read at `(b, f, p, 0)` with `p = 512 h + w` they are the normalised `lin (b, h, w)`. -/
theorem refStart_apply (lin : S4x512x512.Idx → BitVec 32) (b : Fin 4) (f : Fin 8) (h w : Fin 512) (p : Fin 262144)
    (hp : p.val = h.val * 512 + w.val) : refStart lin (ix4 b f p (0 : Fin 1)) = normIdx (lin (ix3 b h w)) := by
  unfold refStart
  refine (shapeCast_apply _ shapeCasts_S4x8x262144_S4x8x262144x1 (ix4 b f p (0 : Fin 1)) (ix3 b f p) (by
    rw [Shape.rowMajor_val_three, Shape.rowMajor_val_four]
    show (b.val * 8 + f.val) * 262144 + p.val = ((b.val * 8 + f.val) * 262144 + p.val) * 1 + 0
    omega)).trans ?_
  show Scalar.select (IntOp.cmpi .slt (refIdx lin (ix3 b f p)) 0#32) (IntOp.addi (refIdx lin (ix3 b f p)) 2097152#32)
    (refIdx lin (ix3 b f p)) = _
  rw [refIdx_apply lin b f h w p hp]
  rfl

/-- The mask over the start indices: at least 0 and at most 2097151. -/
def refMask (v5 : S4x8x262144x1.Idx → BitVec 32) : S4x8x262144x1.Idx → BitVec 1 :=
  andi (cmpi .sge v5 (broadcastInDim S4x8x262144x1 ![] bcast_S_S4x8x262144x1 (constantI S_ 32 0#32)))
    (cmpi .sle v5 (broadcastInDim S4x8x262144x1 ![0, 1, 2, 3] bcast_S1x1x1x1_S4x8x262144x1_0_1_2_3
      (broadcastInDim S1x1x1x1 ![3] bcast_S1_S1x1x1x1_3 (constantI S1 32 2097151#32))))

/-- Read at an index it is `inRange` of the start index there. -/
theorem refMask_apply (v5 : S4x8x262144x1.Idx → BitVec 32) (j : S4x8x262144x1.Idx) : refMask v5 j = inRange (v5 j) := rfl

/-! ## The corner -/

/-- The reference's corner is the reshape of: the gather where the mask holds, the NaN elsewhere. -/
theorem cornerR_eq (x : (⟨S4x8x128x128x128, .f32⟩ : BufTy).Contents (Elt F)) (lin : (⟨S4x512x512, .i32⟩ : BufTy).Contents (Elt F)) :
    cornerR (F := F) x lin = shapeCast S4x8x512x512
      (select (Host.reduce IntOp.andi (refMask (refStart lin)) (constantI S_ 1 1#1) reducesTo_S4x8x262144x1_S4x8x262144_d3 h_S_)
        (Host.gather gd (shapeCast S4x8x2097152 x shapeCasts_S4x8x128x128x128_S4x8x2097152) (refStart lin))
        (broadcastInDim S4x8x262144 ![] bcast_S_S4x8x262144 (constant (F := F) S_ .f32 0x7FC00000#32)))
      shapeCasts_S4x8x262144_S4x8x512x512 := rfl

/-- THE REFERENCE'S CORNER READ AT AN INDEX. -/
theorem cornerR_apply (x : (⟨S4x8x128x128x128, .f32⟩ : BufTy).Contents (Elt F)) (lin : (⟨S4x512x512, .i32⟩ : BufTy).Contents (Elt F))
    (i : S4x8x512x512.Idx) : cornerR (F := F) x lin i = cornerSpec (F := F) x lin i := by
  obtain ⟨b, f, h, w, rfl⟩ : ∃ b f h w, i = ix4 b f h w := ⟨i 0, i 1, i 2, i 3, eq_ix4 i⟩
  have hp : h.val * 512 + w.val < 262144 := by have := h.isLt; have := w.isLt; omega
  rw [cornerR_eq]
  refine (shapeCast_apply _ shapeCasts_S4x8x262144_S4x8x512x512 (ix4 b f h w) (ix3 b f ⟨h.val * 512 + w.val, hp⟩) (by
    rw [Shape.rowMajor_val_three, Shape.rowMajor_val_four]
    show (b.val * 8 + f.val) * 262144 + (h.val * 512 + w.val) = ((b.val * 8 + f.val) * 512 + h.val) * 512 + w.val
    omega)).trans ?_
  have hl : refStart lin (ix4 b f ⟨h.val * 512 + w.val, hp⟩ (0 : Fin 1)) = normIdx (lin (ix3 b h w)) :=
    refStart_apply lin b f h w _ rfl
  rw [select_apply, reduce_and_unit_apply, gather_flat_apply _ _ b f _ _ hl, refMask_apply, hl]
  rfl

end Cert.Trilinear

end
-- ==== Proof.RefBlend.lean ====
/-
  The reference's result, read at an output index `(b, f, h, w)`, is the trilinear blend of its eight corner arrays at
  that index by its three offset maps at `(b, h, w)`.

  The reference forms each corner's weight once per `(b, h, w)`, in an array of shape `[4, 1, 512, 512]`: a product of
  one factor per axis, the offset `u`, `v`, `w` on the far side and `1 - u`, `1 - v`, `1 - w` on the near side, the three
  offset maps having been given a feature axis of length one. It then spreads the weight over the eight features,
  multiplies weight times corner, and adds the eight products from left to right. Read at one index, the spreading
  and the unit feature axis disappear: the weight at `(b, f, h, w)` is the product of the factors at `(b, h, w)`,
  whatever `f` is. What is left differs from `blend` only in the order of each product's two factors, weight times
  corner against corner times weight, and multiplication of extended reals is commutative. No finiteness is used.
-/
import proofs.«158492_j59906203845136_2_alg».proof.Proof.RefReadPatched
import proofs.«158492_j59906203845136_2_alg».proof.Proof.Blend
import Idealize.ShloMosaic.PureOps.Ideal
import Idealize.ShloMosaic.Lib.ValueIdx

noncomputable section

namespace Cert.ReferenceIdeal.Blend

open Idealize.ShloMosaic Idealize.ShloMosaic.ValueIdx Cert.ReferenceIdeal Cert.ReferenceIdeal.ReadP Cert.Trilinear

variable {F : FTy → Type} [FloatOps F]
variable (x1 : (⟨S4x512x512x3, .f32⟩ : BufTy).Contents (Elt F)) (b : Fin 4) (f : Fin 8) (h w : Fin 512)

/-! ## Where the layout operations read

Spreading a `[4, 1, 512, 512]` array over the feature axis reads it, at `(b, f, h, w)`, at `(b, 0, h, w)`: the feature
coordinate is forgotten. The reference does this once per corner. -/

theorem idx130 : idx_main_v130 (ix4 b f h w) = ix4 b (0 : Fin 1) h w := by
  funext a; match a with | ⟨0, _⟩ => rfl | ⟨1, _⟩ => rfl | ⟨2, _⟩ => rfl | ⟨3, _⟩ => rfl
theorem idx138 : idx_main_v138 (ix4 b f h w) = ix4 b (0 : Fin 1) h w := by
  funext a; match a with | ⟨0, _⟩ => rfl | ⟨1, _⟩ => rfl | ⟨2, _⟩ => rfl | ⟨3, _⟩ => rfl
theorem idx147 : idx_main_v147 (ix4 b f h w) = ix4 b (0 : Fin 1) h w := by
  funext a; match a with | ⟨0, _⟩ => rfl | ⟨1, _⟩ => rfl | ⟨2, _⟩ => rfl | ⟨3, _⟩ => rfl
theorem idx154 : idx_main_v154 (ix4 b f h w) = ix4 b (0 : Fin 1) h w := by
  funext a; match a with | ⟨0, _⟩ => rfl | ⟨1, _⟩ => rfl | ⟨2, _⟩ => rfl | ⟨3, _⟩ => rfl
theorem idx163 : idx_main_v163 (ix4 b f h w) = ix4 b (0 : Fin 1) h w := by
  funext a; match a with | ⟨0, _⟩ => rfl | ⟨1, _⟩ => rfl | ⟨2, _⟩ => rfl | ⟨3, _⟩ => rfl
theorem idx170 : idx_main_v170 (ix4 b f h w) = ix4 b (0 : Fin 1) h w := by
  funext a; match a with | ⟨0, _⟩ => rfl | ⟨1, _⟩ => rfl | ⟨2, _⟩ => rfl | ⟨3, _⟩ => rfl
theorem idx177 : idx_main_v177 (ix4 b f h w) = ix4 b (0 : Fin 1) h w := by
  funext a; match a with | ⟨0, _⟩ => rfl | ⟨1, _⟩ => rfl | ⟨2, _⟩ => rfl | ⟨3, _⟩ => rfl
theorem idx182 : idx_main_v182 (ix4 b f h w) = ix4 b (0 : Fin 1) h w := by
  funext a; match a with | ⟨0, _⟩ => rfl | ⟨1, _⟩ => rfl | ⟨2, _⟩ => rfl | ⟨3, _⟩ => rfl

/-! Giving an offset map `[4, 512, 512]` a feature axis of length one reads it, at `(b, 0, h, w)`, at `(b, h, w)`. -/

theorem idx18 : idx_main_v18 (ix4 b (0 : Fin 1) h w) = ix3 b h w := by
  funext a; match a with | ⟨0, _⟩ => rfl | ⟨1, _⟩ => rfl | ⟨2, _⟩ => rfl
theorem idx20 : idx_main_v20 (ix4 b (0 : Fin 1) h w) = ix3 b h w := by
  funext a; match a with | ⟨0, _⟩ => rfl | ⟨1, _⟩ => rfl | ⟨2, _⟩ => rfl
theorem idx22 : idx_main_v22 (ix4 b (0 : Fin 1) h w) = ix3 b h w := by
  funext a; match a with | ⟨0, _⟩ => rfl | ⟨1, _⟩ => rfl | ⟨2, _⟩ => rfl

/-- The offset along the first axis, with its unit feature axis, at `(b, 0, h, w)`. -/
theorem u4_read : val_main_v18 (F := F) x1 (ix4 b (0 : Fin 1) h w) = val_main_v17 x1 (ix3 b h w) := by
  rw [val_main_v18_apply, idx18]
/-- The offset along the second axis, likewise. -/
theorem v4_read : val_main_v20 (F := F) x1 (ix4 b (0 : Fin 1) h w) = val_main_v19 x1 (ix3 b h w) := by
  rw [val_main_v20_apply, idx20]
/-- The offset along the third axis, likewise. -/
theorem w4_read : val_main_v22 (F := F) x1 (ix4 b (0 : Fin 1) h w) = val_main_v21 x1 (ix3 b h w) := by
  rw [val_main_v22_apply, idx22]

/-! ## The constant one

Each `1 -` of the reference has its own array filled with the float one; every entry of each is `one32`. -/

theorem one122 (j : S4x1x512x512.Idx) : val_main_v122 (F := F) j = one32 := (val_main_v122_apply j).trans rfl
theorem one124 (j : S4x1x512x512.Idx) : val_main_v124 (F := F) j = one32 := (val_main_v124_apply j).trans rfl
theorem one127 (j : S4x1x512x512.Idx) : val_main_v127 (F := F) j = one32 := (val_main_v127_apply j).trans rfl
theorem one132 (j : S4x1x512x512.Idx) : val_main_v132 (F := F) j = one32 := (val_main_v132_apply j).trans rfl
theorem one134 (j : S4x1x512x512.Idx) : val_main_v134 (F := F) j = one32 := (val_main_v134_apply j).trans rfl
theorem one141 (j : S4x1x512x512.Idx) : val_main_v141 (F := F) j = one32 := (val_main_v141_apply j).trans rfl
theorem one144 (j : S4x1x512x512.Idx) : val_main_v144 (F := F) j = one32 := (val_main_v144_apply j).trans rfl
theorem one150 (j : S4x1x512x512.Idx) : val_main_v150 (F := F) j = one32 := (val_main_v150_apply j).trans rfl
theorem one157 (j : S4x1x512x512.Idx) : val_main_v157 (F := F) j = one32 := (val_main_v157_apply j).trans rfl
theorem one160 (j : S4x1x512x512.Idx) : val_main_v160 (F := F) j = one32 := (val_main_v160_apply j).trans rfl
theorem one166 (j : S4x1x512x512.Idx) : val_main_v166 (F := F) j = one32 := (val_main_v166_apply j).trans rfl
theorem one174 (j : S4x1x512x512.Idx) : val_main_v174 (F := F) j = one32 := (val_main_v174_apply j).trans rfl

/-! ## The eight weights at an output index

Named by the side of each axis the corner lies on (`0` near, `1` far), in the order of the axes. -/

/-- The weight of the corner on the sides near, near, near. -/
theorem w000 : val_main_v130 (F := F) x1 (ix4 b f h w)
    = FloatOps.mulf (FloatOps.mulf (FloatOps.subf one32 (val_main_v17 x1 (ix3 b h w))) (FloatOps.subf one32 (val_main_v19 x1 (ix3 b h w)))) (FloatOps.subf one32 (val_main_v21 x1 (ix3 b h w))) := by
  rw [val_main_v130_apply, idx130, val_main_v129_apply, val_main_v126_apply, val_main_v123_apply, val_main_v125_apply, val_main_v128_apply, one122, one124, one127, u4_read, v4_read, w4_read]
/-- The weight of the corner on the sides near, near, far. -/
theorem w001 : val_main_v138 (F := F) x1 (ix4 b f h w)
    = FloatOps.mulf (FloatOps.mulf (FloatOps.subf one32 (val_main_v17 x1 (ix3 b h w))) (FloatOps.subf one32 (val_main_v19 x1 (ix3 b h w)))) (val_main_v21 x1 (ix3 b h w)) := by
  rw [val_main_v138_apply, idx138, val_main_v137_apply, val_main_v136_apply, val_main_v133_apply, val_main_v135_apply, one132, one134, u4_read, v4_read, w4_read]
/-- The weight of the corner on the sides near, far, near. -/
theorem w010 : val_main_v147 (F := F) x1 (ix4 b f h w)
    = FloatOps.mulf (FloatOps.mulf (FloatOps.subf one32 (val_main_v17 x1 (ix3 b h w))) (val_main_v19 x1 (ix3 b h w))) (FloatOps.subf one32 (val_main_v21 x1 (ix3 b h w))) := by
  rw [val_main_v147_apply, idx147, val_main_v146_apply, val_main_v143_apply, val_main_v142_apply, val_main_v145_apply, one141, one144, u4_read, v4_read, w4_read]
/-- The weight of the corner on the sides near, far, far. -/
theorem w011 : val_main_v154 (F := F) x1 (ix4 b f h w)
    = FloatOps.mulf (FloatOps.mulf (FloatOps.subf one32 (val_main_v17 x1 (ix3 b h w))) (val_main_v19 x1 (ix3 b h w))) (val_main_v21 x1 (ix3 b h w)) := by
  rw [val_main_v154_apply, idx154, val_main_v153_apply, val_main_v152_apply, val_main_v151_apply, one150, u4_read, v4_read, w4_read]
/-- The weight of the corner on the sides far, near, near. -/
theorem w100 : val_main_v163 (F := F) x1 (ix4 b f h w)
    = FloatOps.mulf (FloatOps.mulf (val_main_v17 x1 (ix3 b h w)) (FloatOps.subf one32 (val_main_v19 x1 (ix3 b h w)))) (FloatOps.subf one32 (val_main_v21 x1 (ix3 b h w))) := by
  rw [val_main_v163_apply, idx163, val_main_v162_apply, val_main_v159_apply, val_main_v158_apply, val_main_v161_apply, one157, one160, u4_read, v4_read, w4_read]
/-- The weight of the corner on the sides far, near, far. -/
theorem w101 : val_main_v170 (F := F) x1 (ix4 b f h w)
    = FloatOps.mulf (FloatOps.mulf (val_main_v17 x1 (ix3 b h w)) (FloatOps.subf one32 (val_main_v19 x1 (ix3 b h w)))) (val_main_v21 x1 (ix3 b h w)) := by
  rw [val_main_v170_apply, idx170, val_main_v169_apply, val_main_v168_apply, val_main_v167_apply, one166, u4_read, v4_read, w4_read]
/-- The weight of the corner on the sides far, far, near. -/
theorem w110 : val_main_v177 (F := F) x1 (ix4 b f h w)
    = FloatOps.mulf (FloatOps.mulf (val_main_v17 x1 (ix3 b h w)) (val_main_v19 x1 (ix3 b h w))) (FloatOps.subf one32 (val_main_v21 x1 (ix3 b h w))) := by
  rw [val_main_v177_apply, idx177, val_main_v176_apply, val_main_v173_apply, val_main_v175_apply, one174, u4_read, v4_read, w4_read]
/-- The weight of the corner on the sides far, far, far. -/
theorem w111 : val_main_v182 (F := F) x1 (ix4 b f h w)
    = FloatOps.mulf (FloatOps.mulf (val_main_v17 x1 (ix3 b h w)) (val_main_v19 x1 (ix3 b h w))) (val_main_v21 x1 (ix3 b h w)) := by
  rw [val_main_v182_apply, idx182, val_main_v181_apply, val_main_v180_apply, u4_read, v4_read, w4_read]

/-! ## The blend -/

/-- Multiplication of extended reals is commutative. -/
theorem mulf_comm (p q : Ideal .f32) : FloatOps.mulf p q = FloatOps.mulf q p := mul_comm p q

/-- The sum of weight times corner, taken left to right, is the blend: the two factors of each of the eight
    products change places. A statement about eleven extended reals. -/
theorem sum_eq_blend (c0 c1 c2 c3 c4 c5 c6 c7 u v w : Ideal .f32) :
    FloatOps.addf (FloatOps.addf (FloatOps.addf (FloatOps.addf (FloatOps.addf (FloatOps.addf (FloatOps.addf
      (FloatOps.mulf (FloatOps.mulf (FloatOps.mulf (FloatOps.subf one32 u) (FloatOps.subf one32 v)) (FloatOps.subf one32 w)) c0)
      (FloatOps.mulf (FloatOps.mulf (FloatOps.mulf (FloatOps.subf one32 u) (FloatOps.subf one32 v)) w) c1))
      (FloatOps.mulf (FloatOps.mulf (FloatOps.mulf (FloatOps.subf one32 u) v) (FloatOps.subf one32 w)) c2))
      (FloatOps.mulf (FloatOps.mulf (FloatOps.mulf (FloatOps.subf one32 u) v) w) c3))
      (FloatOps.mulf (FloatOps.mulf (FloatOps.mulf u (FloatOps.subf one32 v)) (FloatOps.subf one32 w)) c4))
      (FloatOps.mulf (FloatOps.mulf (FloatOps.mulf u (FloatOps.subf one32 v)) w) c5))
      (FloatOps.mulf (FloatOps.mulf (FloatOps.mulf u v) (FloatOps.subf one32 w)) c6))
      (FloatOps.mulf (FloatOps.mulf (FloatOps.mulf u v) w) c7)
      = blend c0 c1 c2 c3 c4 c5 c6 c7 u v w := by
  rw [blend, mulf_comm _ c0, mulf_comm _ c1, mulf_comm _ c2, mulf_comm _ c3, mulf_comm _ c4, mulf_comm _ c5,
    mulf_comm _ c6, mulf_comm _ c7]

/-- The reference's result at an index is the blend of its eight corner arrays at that index by its three offset
    maps at the index without its feature coordinate. -/
theorem ref_apply (x0 : (⟨Cert.ReferenceIdeal.S4x8x128x128x128, .f32⟩ : BufTy).Contents (Elt Ideal))
    (x1 : (⟨Cert.ReferenceIdeal.S4x512x512x3, .f32⟩ : BufTy).Contents (Elt Ideal)) (i : Cert.ReferenceIdeal.S4x8x512x512.Idx) :
    Cert.ReferenceIdeal.ReadP.val_main_v184 (F := Ideal) x0 x1 i
      = Cert.Trilinear.blend (F := Ideal) (ReadP.val_main_v51 x0 x1 i) (ReadP.val_main_v61 x0 x1 i) (ReadP.val_main_v71 x0 x1 i)
          (ReadP.val_main_v81 x0 x1 i) (ReadP.val_main_v91 x0 x1 i) (ReadP.val_main_v101 x0 x1 i) (ReadP.val_main_v111 x0 x1 i)
          (ReadP.val_main_v121 x0 x1 i)
          (ReadP.val_main_v17 x1 (Cert.Trilinear.drop3 i)) (ReadP.val_main_v19 x1 (Cert.Trilinear.drop3 i))
          (ReadP.val_main_v21 x1 (Cert.Trilinear.drop3 i)) := by
  obtain ⟨b, f, h, w, rfl⟩ : ∃ b f h w, i = ix4 b f h w := ⟨i 0, i 1, i 2, i 3, eq_ix4 i⟩
  have hd : drop3 (ix4 b f h w) = ix3 b h w := rfl
  -- the seven sums and the eight products, each read at the index; then the eight weights; then the eleven
  -- extended reals that are left enter only through the sum of products
  rw [hd, val_main_v184_apply, val_main_v179_apply, val_main_v172_apply, val_main_v165_apply, val_main_v156_apply, val_main_v149_apply, val_main_v140_apply,
    val_main_v131_apply, val_main_v139_apply, val_main_v148_apply, val_main_v155_apply, val_main_v164_apply, val_main_v171_apply, val_main_v178_apply, val_main_v183_apply,
    w000, w001, w010, w011, w100, w101, w110, w111, sum_eq_blend]

end Cert.ReferenceIdeal.Blend

end
-- ==== Proof.RefCorner.lean ====
/-
  Each of the reference's eight corner arrays is the channels-first corner gather `cornerR` of the feature volume at that
  corner's map of flat voxel numbers: the reference's stages from the flat-index map to the gathered, re-laid array are,
  operation for operation, the chain `cornerR` names.
-/
import proofs.«158492_j59906203845136_2_alg».proof.Proof.RefReadPatched
import proofs.«158492_j59906203845136_2_alg».proof.Proof.Corner

noncomputable section

namespace Cert.ReferenceIdeal.Corners

open Cert.ReferenceIdeal Cert.ReferenceIdeal.ReadP Cert.Trilinear Idealize.ShloMosaic

variable {F : FTy → Type} [FloatOps F]
variable (x0 : (⟨S4x8x128x128x128, .f32⟩ : BufTy).Contents (Elt F)) (x1 : (⟨S4x512x512x3, .f32⟩ : BufTy).Contents (Elt F))

/-- Corner 000: voxel `(z0, y0, x0)`. -/
theorem c000 : val_main_v51 (F := F) x0 x1 = cornerR (F := F) x0 (val_main_v47 (F := F) x1) := rfl
/-- Corner 001: voxel `(z1, y0, x0)`. -/
theorem c001 : val_main_v61 (F := F) x0 x1 = cornerR (F := F) x0 (val_main_v57 (F := F) x1) := rfl
/-- Corner 010: voxel `(z0, y1, x0)`. -/
theorem c010 : val_main_v71 (F := F) x0 x1 = cornerR (F := F) x0 (val_main_v67 (F := F) x1) := rfl
/-- Corner 011: voxel `(z1, y1, x0)`. -/
theorem c011 : val_main_v81 (F := F) x0 x1 = cornerR (F := F) x0 (val_main_v77 (F := F) x1) := rfl
/-- Corner 100: voxel `(z0, y0, x1)`. -/
theorem c100 : val_main_v91 (F := F) x0 x1 = cornerR (F := F) x0 (val_main_v87 (F := F) x1) := rfl
/-- Corner 101: voxel `(z1, y0, x1)`. -/
theorem c101 : val_main_v101 (F := F) x0 x1 = cornerR (F := F) x0 (val_main_v97 (F := F) x1) := rfl
/-- Corner 110: voxel `(z0, y1, x1)`. -/
theorem c110 : val_main_v111 (F := F) x0 x1 = cornerR (F := F) x0 (val_main_v107 (F := F) x1) := rfl
/-- Corner 111: voxel `(z1, y1, x1)`. -/
theorem c111 : val_main_v121 (F := F) x0 x1 = cornerR (F := F) x0 (val_main_v117 (F := F) x1) := rfl

end Cert.ReferenceIdeal.Corners

end
-- ==== Proof.Bridge.lean ====
/-
  The two programs compute one function. At every output index `(b, f, h, w)` the kernel's array is the blend of its eight
  window arrays by its three offset maps; the host code before the launch fills those windows with the reference's own
  offset maps and with channels-last gathers at the reference's own flat-index maps; a channels-last gather and a
  channels-first gather of one volume at one index map leave the same entry; and the reference's result at that index is
  the same blend with each product written the other way round, which on the extended reals is the same number.
-/
import proofs.«158492_j59906203845136_2_alg».proof.Proof.KernelArray
import proofs.«158492_j59906203845136_2_alg».proof.Proof.KernelHostA
import proofs.«158492_j59906203845136_2_alg».proof.Proof.KernelHostB
import proofs.«158492_j59906203845136_2_alg».proof.Proof.CornerK
import proofs.«158492_j59906203845136_2_alg».proof.Proof.CornerR
import proofs.«158492_j59906203845136_2_alg».proof.Proof.RefBlend
import proofs.«158492_j59906203845136_2_alg».proof.Proof.RefCorner

noncomputable section

namespace Cert.Proof.Bridge

open Idealize.ShloMosaic Idealize.ShloMosaic.TcCoe Idealize.SL.Sem Cert.Trilinear
open Cert.KernelIdeal Cert.KernelIdeal.Gen

/-- The kernel's result array, as the blend of the window arrays the launch finds, is the reference's result term of the
    same two argument arrays. -/
theorem result_eq (m : (ℓ : Loc nD τ sig) → Buf (Elt Ideal) ℓ) (c : Dev nD) :
    blendArr (F := Ideal) (V m c main_v50) (V m c main_v61) (V m c main_v72) (V m c main_v83) (V m c main_v94) (V m c main_v105)
        (V m c main_v116) (V m c main_v127) (V m c main_v17) (V m c main_v18) (V m c main_v19)
      = Cert.ReferenceIdeal.ReadP.val_main_v184 (F := Ideal) (m ((c : Thread nD τ).loc main_arg0)) (m ((c : Thread nD τ).loc main_arg1)) := by
  rw [Cert.KernelIdeal.Host.V_u m c, Cert.KernelIdeal.Host.V_v m c, Cert.KernelIdeal.Host.V_w m c,
    Cert.KernelIdeal.Host.V_c000 m c, Cert.KernelIdeal.Host.V_c001 m c, Cert.KernelIdeal.Host.V_c010 m c, Cert.KernelIdeal.Host.V_c011 m c,
    Cert.KernelIdeal.Host.V_c100 m c, Cert.KernelIdeal.Host.V_c101 m c, Cert.KernelIdeal.Host.V_c110 m c, Cert.KernelIdeal.Host.V_c111 m c]
  funext i
  rw [Cert.ReferenceIdeal.Blend.ref_apply]
  simp only [blendArr, cornerK_apply, Cert.ReferenceIdeal.Corners.c000, Cert.ReferenceIdeal.Corners.c001, Cert.ReferenceIdeal.Corners.c010,
    Cert.ReferenceIdeal.Corners.c011, Cert.ReferenceIdeal.Corners.c100, Cert.ReferenceIdeal.Corners.c101, Cert.ReferenceIdeal.Corners.c110,
    Cert.ReferenceIdeal.Corners.c111, cornerR_apply]

end Cert.Proof.Bridge

end
-- ==== Proof.RefRun.lean ====
/-
  The reference's run. Its @main is a straight line of 436 host operations (the clips and the eight `take_along_axis` calls
  written out in place), listed here with every operation's function typed at the very types of the buffers it reads and
  writes, so that reading a buffer back through the line never passes through a change of type. Every weakly fair execution
  runs the line to its end; what the result buffer then holds is the operations' composed function of the two argument
  arrays, which is the last of the stage functions `ReadP.val_main_v184`, and the arguments are as they were.
-/
import proofs.«158492_j59906203845136_2_alg».proof.Proof.Gen.ReferenceIdeal
import Idealize.ShloMosaic.Lib.StableHlo.Run
import proofs.«158492_j59906203845136_2_alg».proof.Proof.RefReadPatched

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 400000000 in
/-- @main's operations, in program order. -/
abbrev ops : List (HloOp τ sig (Elt F)) :=
  [ nullary main_cst (constant S3 .f32 0x42FE0000#32),
    nullary main_cst_0 (constant S_ .f32 0xBF800000#32),
    nullary main_cst_1 (constant S_ .f32 0x3F800000#32),
    unary main_cst_0 main_call0_v0 (id : (⟨S_, .f32⟩ : BufTy).Contents (Elt F) → (⟨S_, .f32⟩ : BufTy).Contents (Elt F)),
    unary main_call0_v0 main_call0_v1 ((broadcastInDim S4x512x512x3 ![] bcast_S_S4x512x512x3) : (⟨S_, .f32⟩ : BufTy).Contents (Elt F) → (⟨S4x512x512x3, .f32⟩ : BufTy).Contents (Elt F)),
    binary main_call0_v1 main_arg1 main_call0_v2 (maximumf : (⟨S4x512x512x3, .f32⟩ : BufTy).Contents (Elt F) → (⟨S4x512x512x3, .f32⟩ : BufTy).Contents (Elt F) → (⟨S4x512x512x3, .f32⟩ : BufTy).Contents (Elt F)),
    unary main_cst_1 main_call0_v3 (id : (⟨S_, .f32⟩ : BufTy).Contents (Elt F) → (⟨S_, .f32⟩ : BufTy).Contents (Elt F)),
    unary main_call0_v3 main_call0_v4 ((broadcastInDim S4x512x512x3 ![] bcast_S_S4x512x512x3) : (⟨S_, .f32⟩ : BufTy).Contents (Elt F) → (⟨S4x512x512x3, .f32⟩ : BufTy).Contents (Elt F)),
    binary main_call0_v4 main_call0_v2 main_v0 (minimumf : (⟨S4x512x512x3, .f32⟩ : BufTy).Contents (Elt F) → (⟨S4x512x512x3, .f32⟩ : BufTy).Contents (Elt F) → (⟨S4x512x512x3, .f32⟩ : BufTy).Contents (Elt F)),
    nullary main_cst_2 (constant S_ .f32 0x3F800000#32),
    unary main_cst_2 main_v1 (broadcastInDim S4x512x512x3 ![] bcast_S_S4x512x512x3 : (⟨S_, .f32⟩ : BufTy).Contents (Elt F) → (⟨S4x512x512x3, .f32⟩ : BufTy).Contents (Elt F)),
    binary main_v0 main_v1 main_v2 (addf : (⟨S4x512x512x3, .f32⟩ : BufTy).Contents (Elt F) → (⟨S4x512x512x3, .f32⟩ : BufTy).Contents (Elt F) → (⟨S4x512x512x3, .f32⟩ : BufTy).Contents (Elt F)),
    nullary main_cst_3 (constant S_ .f32 0x3F000000#32),
    unary main_cst_3 main_v3 (broadcastInDim S4x512x512x3 ![] bcast_S_S4x512x512x3 : (⟨S_, .f32⟩ : BufTy).Contents (Elt F) → (⟨S4x512x512x3, .f32⟩ : BufTy).Contents (Elt F)),
    binary main_v2 main_v3 main_v4 (mulf : (⟨S4x512x512x3, .f32⟩ : BufTy).Contents (Elt F) → (⟨S4x512x512x3, .f32⟩ : BufTy).Contents (Elt F) → (⟨S4x512x512x3, .f32⟩ : BufTy).Contents (Elt F)),
    unary main_cst main_v5 (broadcastInDim S1x1x1x3 ![3] bcast_S3_S1x1x1x3_3 : (⟨S3, .f32⟩ : BufTy).Contents (Elt F) → (⟨S1x1x1x3, .f32⟩ : BufTy).Contents (Elt F)),
    unary main_v5 main_v6 (broadcastInDim S4x512x512x3 ![0, 1, 2, 3] bcast_S1x1x1x3_S4x512x512x3_0_1_2_3 : (⟨S1x1x1x3, .f32⟩ : BufTy).Contents (Elt F) → (⟨S4x512x512x3, .f32⟩ : BufTy).Contents (Elt F)),
    binary main_v4 main_v6 main_v7 (mulf : (⟨S4x512x512x3, .f32⟩ : BufTy).Contents (Elt F) → (⟨S4x512x512x3, .f32⟩ : BufTy).Contents (Elt F) → (⟨S4x512x512x3, .f32⟩ : BufTy).Contents (Elt F)),
    unary main_v7 main_v8 ((extractStridedSlice S4x512x512x1 ![0, 0, 0, 0] · slices_S4x512x512x3_S4x512x512x1_0_0_0_0) : (⟨S4x512x512x3, .f32⟩ : BufTy).Contents (Elt F) → (⟨S4x512x512x1, .f32⟩ : BufTy).Contents (Elt F)),
    reshape main_v8 main_v9 rfl shapeCasts_S4x512x512x1_S4x512x512,
    unary main_v7 main_v10 ((extractStridedSlice S4x512x512x1 ![0, 0, 0, 1] · slices_S4x512x512x3_S4x512x512x1_0_0_0_1) : (⟨S4x512x512x3, .f32⟩ : BufTy).Contents (Elt F) → (⟨S4x512x512x1, .f32⟩ : BufTy).Contents (Elt F)),
    reshape main_v10 main_v11 rfl shapeCasts_S4x512x512x1_S4x512x512,
    unary main_v7 main_v12 ((extractStridedSlice S4x512x512x1 ![0, 0, 0, 2] · slices_S4x512x512x3_S4x512x512x1_0_0_0_2) : (⟨S4x512x512x3, .f32⟩ : BufTy).Contents (Elt F) → (⟨S4x512x512x1, .f32⟩ : BufTy).Contents (Elt F)),
    reshape main_v12 main_v13 rfl shapeCasts_S4x512x512x1_S4x512x512,
    unary main_v9 main_v14 (Host.floor : (⟨S4x512x512, .f32⟩ : BufTy).Contents (Elt F) → (⟨S4x512x512, .f32⟩ : BufTy).Contents (Elt F)),
    unary main_v11 main_v15 (Host.floor : (⟨S4x512x512, .f32⟩ : BufTy).Contents (Elt F) → (⟨S4x512x512, .f32⟩ : BufTy).Contents (Elt F)),
    unary main_v13 main_v16 (Host.floor : (⟨S4x512x512, .f32⟩ : BufTy).Contents (Elt F) → (⟨S4x512x512, .f32⟩ : BufTy).Contents (Elt F)),
    binary main_v9 main_v14 main_v17 (subf : (⟨S4x512x512, .f32⟩ : BufTy).Contents (Elt F) → (⟨S4x512x512, .f32⟩ : BufTy).Contents (Elt F) → (⟨S4x512x512, .f32⟩ : BufTy).Contents (Elt F)),
    unary main_v17 main_v18 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    binary main_v11 main_v15 main_v19 (subf : (⟨S4x512x512, .f32⟩ : BufTy).Contents (Elt F) → (⟨S4x512x512, .f32⟩ : BufTy).Contents (Elt F) → (⟨S4x512x512, .f32⟩ : BufTy).Contents (Elt F)),
    unary main_v19 main_v20 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    binary main_v13 main_v16 main_v21 (subf : (⟨S4x512x512, .f32⟩ : BufTy).Contents (Elt F) → (⟨S4x512x512, .f32⟩ : BufTy).Contents (Elt F) → (⟨S4x512x512, .f32⟩ : BufTy).Contents (Elt F)),
    unary main_v21 main_v22 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    nullary main_c (constantI S_ 32 0#32),
    nullary main_c_4 (constantI S_ 32 127#32),
    unary main_c main_call1_v0 ((sitofp .f32) : (⟨S_, .i32⟩ : BufTy).Contents (Elt F) → (⟨S_, .f32⟩ : BufTy).Contents (Elt F)),
    unary main_call1_v0 main_call1_v1 ((broadcastInDim S4x512x512 ![] bcast_S_S4x512x512) : (⟨S_, .f32⟩ : BufTy).Contents (Elt F) → (⟨S4x512x512, .f32⟩ : BufTy).Contents (Elt F)),
    binary main_call1_v1 main_v14 main_call1_v2 (maximumf : (⟨S4x512x512, .f32⟩ : BufTy).Contents (Elt F) → (⟨S4x512x512, .f32⟩ : BufTy).Contents (Elt F) → (⟨S4x512x512, .f32⟩ : BufTy).Contents (Elt F)),
    unary main_c_4 main_call1_v3 ((sitofp .f32) : (⟨S_, .i32⟩ : BufTy).Contents (Elt F) → (⟨S_, .f32⟩ : BufTy).Contents (Elt F)),
    unary main_call1_v3 main_call1_v4 ((broadcastInDim S4x512x512 ![] bcast_S_S4x512x512) : (⟨S_, .f32⟩ : BufTy).Contents (Elt F) → (⟨S4x512x512, .f32⟩ : BufTy).Contents (Elt F)),
    binary main_call1_v4 main_call1_v2 main_v23 (minimumf : (⟨S4x512x512, .f32⟩ : BufTy).Contents (Elt F) → (⟨S4x512x512, .f32⟩ : BufTy).Contents (Elt F) → (⟨S4x512x512, .f32⟩ : BufTy).Contents (Elt F)),
    unary main_v23 main_v24 (fptosi 32 : (⟨S4x512x512, .f32⟩ : BufTy).Contents (Elt F) → (⟨S4x512x512, .i32⟩ : BufTy).Contents (Elt F)),
    nullary main_cst_5 (constant S_ .f32 0x3F800000#32),
    unary main_cst_5 main_v25 (broadcastInDim S4x512x512 ![] bcast_S_S4x512x512 : (⟨S_, .f32⟩ : BufTy).Contents (Elt F) → (⟨S4x512x512, .f32⟩ : BufTy).Contents (Elt F)),
    binary main_v14 main_v25 main_v26 (addf : (⟨S4x512x512, .f32⟩ : BufTy).Contents (Elt F) → (⟨S4x512x512, .f32⟩ : BufTy).Contents (Elt F) → (⟨S4x512x512, .f32⟩ : BufTy).Contents (Elt F)),
    nullary main_c_6 (constantI S_ 32 0#32),
    nullary main_c_7 (constantI S_ 32 127#32),
    unary main_c_6 main_call2_v0 ((sitofp .f32) : (⟨S_, .i32⟩ : BufTy).Contents (Elt F) → (⟨S_, .f32⟩ : BufTy).Contents (Elt F)),
    unary main_call2_v0 main_call2_v1 ((broadcastInDim S4x512x512 ![] bcast_S_S4x512x512) : (⟨S_, .f32⟩ : BufTy).Contents (Elt F) → (⟨S4x512x512, .f32⟩ : BufTy).Contents (Elt F)),
    binary main_call2_v1 main_v26 main_call2_v2 (maximumf : (⟨S4x512x512, .f32⟩ : BufTy).Contents (Elt F) → (⟨S4x512x512, .f32⟩ : BufTy).Contents (Elt F) → (⟨S4x512x512, .f32⟩ : BufTy).Contents (Elt F)),
    unary main_c_7 main_call2_v3 ((sitofp .f32) : (⟨S_, .i32⟩ : BufTy).Contents (Elt F) → (⟨S_, .f32⟩ : BufTy).Contents (Elt F)),
    unary main_call2_v3 main_call2_v4 ((broadcastInDim S4x512x512 ![] bcast_S_S4x512x512) : (⟨S_, .f32⟩ : BufTy).Contents (Elt F) → (⟨S4x512x512, .f32⟩ : BufTy).Contents (Elt F)),
    binary main_call2_v4 main_call2_v2 main_v27 (minimumf : (⟨S4x512x512, .f32⟩ : BufTy).Contents (Elt F) → (⟨S4x512x512, .f32⟩ : BufTy).Contents (Elt F) → (⟨S4x512x512, .f32⟩ : BufTy).Contents (Elt F)),
    unary main_v27 main_v28 (fptosi 32 : (⟨S4x512x512, .f32⟩ : BufTy).Contents (Elt F) → (⟨S4x512x512, .i32⟩ : BufTy).Contents (Elt F)),
    nullary main_c_8 (constantI S_ 32 0#32),
    nullary main_c_9 (constantI S_ 32 127#32),
    unary main_c_8 main_call3_v0 ((sitofp .f32) : (⟨S_, .i32⟩ : BufTy).Contents (Elt F) → (⟨S_, .f32⟩ : BufTy).Contents (Elt F)),
    unary main_call3_v0 main_call3_v1 ((broadcastInDim S4x512x512 ![] bcast_S_S4x512x512) : (⟨S_, .f32⟩ : BufTy).Contents (Elt F) → (⟨S4x512x512, .f32⟩ : BufTy).Contents (Elt F)),
    binary main_call3_v1 main_v15 main_call3_v2 (maximumf : (⟨S4x512x512, .f32⟩ : BufTy).Contents (Elt F) → (⟨S4x512x512, .f32⟩ : BufTy).Contents (Elt F) → (⟨S4x512x512, .f32⟩ : BufTy).Contents (Elt F)),
    unary main_c_9 main_call3_v3 ((sitofp .f32) : (⟨S_, .i32⟩ : BufTy).Contents (Elt F) → (⟨S_, .f32⟩ : BufTy).Contents (Elt F)),
    unary main_call3_v3 main_call3_v4 ((broadcastInDim S4x512x512 ![] bcast_S_S4x512x512) : (⟨S_, .f32⟩ : BufTy).Contents (Elt F) → (⟨S4x512x512, .f32⟩ : BufTy).Contents (Elt F)),
    binary main_call3_v4 main_call3_v2 main_v29 (minimumf : (⟨S4x512x512, .f32⟩ : BufTy).Contents (Elt F) → (⟨S4x512x512, .f32⟩ : BufTy).Contents (Elt F) → (⟨S4x512x512, .f32⟩ : BufTy).Contents (Elt F)),
    unary main_v29 main_v30 (fptosi 32 : (⟨S4x512x512, .f32⟩ : BufTy).Contents (Elt F) → (⟨S4x512x512, .i32⟩ : BufTy).Contents (Elt F)),
    nullary main_cst_10 (constant S_ .f32 0x3F800000#32),
    unary main_cst_10 main_v31 (broadcastInDim S4x512x512 ![] bcast_S_S4x512x512 : (⟨S_, .f32⟩ : BufTy).Contents (Elt F) → (⟨S4x512x512, .f32⟩ : BufTy).Contents (Elt F)),
    binary main_v15 main_v31 main_v32 (addf : (⟨S4x512x512, .f32⟩ : BufTy).Contents (Elt F) → (⟨S4x512x512, .f32⟩ : BufTy).Contents (Elt F) → (⟨S4x512x512, .f32⟩ : BufTy).Contents (Elt F)),
    nullary main_c_11 (constantI S_ 32 0#32),
    nullary main_c_12 (constantI S_ 32 127#32),
    unary main_c_11 main_call4_v0 ((sitofp .f32) : (⟨S_, .i32⟩ : BufTy).Contents (Elt F) → (⟨S_, .f32⟩ : BufTy).Contents (Elt F)),
    unary main_call4_v0 main_call4_v1 ((broadcastInDim S4x512x512 ![] bcast_S_S4x512x512) : (⟨S_, .f32⟩ : BufTy).Contents (Elt F) → (⟨S4x512x512, .f32⟩ : BufTy).Contents (Elt F)),
    binary main_call4_v1 main_v32 main_call4_v2 (maximumf : (⟨S4x512x512, .f32⟩ : BufTy).Contents (Elt F) → (⟨S4x512x512, .f32⟩ : BufTy).Contents (Elt F) → (⟨S4x512x512, .f32⟩ : BufTy).Contents (Elt F)),
    unary main_c_12 main_call4_v3 ((sitofp .f32) : (⟨S_, .i32⟩ : BufTy).Contents (Elt F) → (⟨S_, .f32⟩ : BufTy).Contents (Elt F)),
    unary main_call4_v3 main_call4_v4 ((broadcastInDim S4x512x512 ![] bcast_S_S4x512x512) : (⟨S_, .f32⟩ : BufTy).Contents (Elt F) → (⟨S4x512x512, .f32⟩ : BufTy).Contents (Elt F)),
    binary main_call4_v4 main_call4_v2 main_v33 (minimumf : (⟨S4x512x512, .f32⟩ : BufTy).Contents (Elt F) → (⟨S4x512x512, .f32⟩ : BufTy).Contents (Elt F) → (⟨S4x512x512, .f32⟩ : BufTy).Contents (Elt F)),
    unary main_v33 main_v34 (fptosi 32 : (⟨S4x512x512, .f32⟩ : BufTy).Contents (Elt F) → (⟨S4x512x512, .i32⟩ : BufTy).Contents (Elt F)),
    nullary main_c_13 (constantI S_ 32 0#32),
    nullary main_c_14 (constantI S_ 32 127#32),
    unary main_c_13 main_call5_v0 ((sitofp .f32) : (⟨S_, .i32⟩ : BufTy).Contents (Elt F) → (⟨S_, .f32⟩ : BufTy).Contents (Elt F)),
    unary main_call5_v0 main_call5_v1 ((broadcastInDim S4x512x512 ![] bcast_S_S4x512x512) : (⟨S_, .f32⟩ : BufTy).Contents (Elt F) → (⟨S4x512x512, .f32⟩ : BufTy).Contents (Elt F)),
    binary main_call5_v1 main_v16 main_call5_v2 (maximumf : (⟨S4x512x512, .f32⟩ : BufTy).Contents (Elt F) → (⟨S4x512x512, .f32⟩ : BufTy).Contents (Elt F) → (⟨S4x512x512, .f32⟩ : BufTy).Contents (Elt F)),
    unary main_c_14 main_call5_v3 ((sitofp .f32) : (⟨S_, .i32⟩ : BufTy).Contents (Elt F) → (⟨S_, .f32⟩ : BufTy).Contents (Elt F)),
    unary main_call5_v3 main_call5_v4 ((broadcastInDim S4x512x512 ![] bcast_S_S4x512x512) : (⟨S_, .f32⟩ : BufTy).Contents (Elt F) → (⟨S4x512x512, .f32⟩ : BufTy).Contents (Elt F)),
    binary main_call5_v4 main_call5_v2 main_v35 (minimumf : (⟨S4x512x512, .f32⟩ : BufTy).Contents (Elt F) → (⟨S4x512x512, .f32⟩ : BufTy).Contents (Elt F) → (⟨S4x512x512, .f32⟩ : BufTy).Contents (Elt F)),
    unary main_v35 main_v36 (fptosi 32 : (⟨S4x512x512, .f32⟩ : BufTy).Contents (Elt F) → (⟨S4x512x512, .i32⟩ : BufTy).Contents (Elt F)),
    nullary main_cst_15 (constant S_ .f32 0x3F800000#32),
    unary main_cst_15 main_v37 (broadcastInDim S4x512x512 ![] bcast_S_S4x512x512 : (⟨S_, .f32⟩ : BufTy).Contents (Elt F) → (⟨S4x512x512, .f32⟩ : BufTy).Contents (Elt F)),
    binary main_v16 main_v37 main_v38 (addf : (⟨S4x512x512, .f32⟩ : BufTy).Contents (Elt F) → (⟨S4x512x512, .f32⟩ : BufTy).Contents (Elt F) → (⟨S4x512x512, .f32⟩ : BufTy).Contents (Elt F)),
    nullary main_c_16 (constantI S_ 32 0#32),
    nullary main_c_17 (constantI S_ 32 127#32),
    unary main_c_16 main_call6_v0 ((sitofp .f32) : (⟨S_, .i32⟩ : BufTy).Contents (Elt F) → (⟨S_, .f32⟩ : BufTy).Contents (Elt F)),
    unary main_call6_v0 main_call6_v1 ((broadcastInDim S4x512x512 ![] bcast_S_S4x512x512) : (⟨S_, .f32⟩ : BufTy).Contents (Elt F) → (⟨S4x512x512, .f32⟩ : BufTy).Contents (Elt F)),
    binary main_call6_v1 main_v38 main_call6_v2 (maximumf : (⟨S4x512x512, .f32⟩ : BufTy).Contents (Elt F) → (⟨S4x512x512, .f32⟩ : BufTy).Contents (Elt F) → (⟨S4x512x512, .f32⟩ : BufTy).Contents (Elt F)),
    unary main_c_17 main_call6_v3 ((sitofp .f32) : (⟨S_, .i32⟩ : BufTy).Contents (Elt F) → (⟨S_, .f32⟩ : BufTy).Contents (Elt F)),
    unary main_call6_v3 main_call6_v4 ((broadcastInDim S4x512x512 ![] bcast_S_S4x512x512) : (⟨S_, .f32⟩ : BufTy).Contents (Elt F) → (⟨S4x512x512, .f32⟩ : BufTy).Contents (Elt F)),
    binary main_call6_v4 main_call6_v2 main_v39 (minimumf : (⟨S4x512x512, .f32⟩ : BufTy).Contents (Elt F) → (⟨S4x512x512, .f32⟩ : BufTy).Contents (Elt F) → (⟨S4x512x512, .f32⟩ : BufTy).Contents (Elt F)),
    unary main_v39 main_v40 (fptosi 32 : (⟨S4x512x512, .f32⟩ : BufTy).Contents (Elt F) → (⟨S4x512x512, .i32⟩ : BufTy).Contents (Elt F)),
    reshape main_arg0 main_v41 rfl shapeCasts_S4x8x128x128x128_S4x8x2097152,
    nullary main_c_18 (constantI S_ 32 128#32),
    unary main_c_18 main_v42 (broadcastInDim S4x512x512 ![] bcast_S_S4x512x512 : (⟨S_, .i32⟩ : BufTy).Contents (Elt F) → (⟨S4x512x512, .i32⟩ : BufTy).Contents (Elt F)),
    binary main_v36 main_v42 main_v43 (muli : (⟨S4x512x512, .i32⟩ : BufTy).Contents (Elt F) → (⟨S4x512x512, .i32⟩ : BufTy).Contents (Elt F) → (⟨S4x512x512, .i32⟩ : BufTy).Contents (Elt F)),
    binary main_v43 main_v30 main_v44 (addi : (⟨S4x512x512, .i32⟩ : BufTy).Contents (Elt F) → (⟨S4x512x512, .i32⟩ : BufTy).Contents (Elt F) → (⟨S4x512x512, .i32⟩ : BufTy).Contents (Elt F)),
    nullary main_c_19 (constantI S_ 32 128#32),
    unary main_c_19 main_v45 (broadcastInDim S4x512x512 ![] bcast_S_S4x512x512 : (⟨S_, .i32⟩ : BufTy).Contents (Elt F) → (⟨S4x512x512, .i32⟩ : BufTy).Contents (Elt F)),
    binary main_v44 main_v45 main_v46 (muli : (⟨S4x512x512, .i32⟩ : BufTy).Contents (Elt F) → (⟨S4x512x512, .i32⟩ : BufTy).Contents (Elt F) → (⟨S4x512x512, .i32⟩ : BufTy).Contents (Elt F)),
    binary main_v46 main_v24 main_v47 (addi : (⟨S4x512x512, .i32⟩ : BufTy).Contents (Elt F) → (⟨S4x512x512, .i32⟩ : BufTy).Contents (Elt F) → (⟨S4x512x512, .i32⟩ : BufTy).Contents (Elt F)),
    reshape main_v47 main_v48 rfl shapeCasts_S4x512x512_S4x1x262144,
    unary main_v48 main_v49 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call7_c (constantI S_ 32 0#32),
    unary main_call7_c main_call7_v0 ((broadcastInDim S4x8x262144 ![] bcast_S_S4x8x262144) : (⟨S_, .i32⟩ : BufTy).Contents (Elt F) → (⟨S4x8x262144, .i32⟩ : BufTy).Contents (Elt F)),
    binary main_v49 main_call7_v0 main_call7_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call7_c_0 (constantI S_ 32 2097152#32),
    unary main_call7_c_0 main_call7_v2 ((broadcastInDim S4x8x262144 ![] bcast_S_S4x8x262144) : (⟨S_, .i32⟩ : BufTy).Contents (Elt F) → (⟨S4x8x262144, .i32⟩ : BufTy).Contents (Elt F)),
    binary main_v49 main_call7_v2 main_call7_v3 (addi : (⟨S4x8x262144, .i32⟩ : BufTy).Contents (Elt F) → (⟨S4x8x262144, .i32⟩ : BufTy).Contents (Elt F) → (⟨S4x8x262144, .i32⟩ : BufTy).Contents (Elt F)),
    ternary main_call7_v1 main_call7_v3 main_v49 main_call7_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call7_v4 main_call7_v5 rfl shapeCasts_S4x8x262144_S4x8x262144x1,
    nullary main_call7_c_1 (constantI S1 32 2097151#32),
    nullary main_call7_c_2 (constantI S_ 32 0#32),
    unary main_call7_c_2 main_call7_v6 ((broadcastInDim S4x8x262144x1 ![] bcast_S_S4x8x262144x1) : (⟨S_, .i32⟩ : BufTy).Contents (Elt F) → (⟨S4x8x262144x1, .i32⟩ : BufTy).Contents (Elt F)),
    binary main_call7_v5 main_call7_v6 main_call7_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call7_c_1 main_call7_v8 ((broadcastInDim S1x1x1x1 ![3] bcast_S1_S1x1x1x1_3) : (⟨S1, .i32⟩ : BufTy).Contents (Elt F) → (⟨S1x1x1x1, .i32⟩ : BufTy).Contents (Elt F)),
    unary main_call7_v8 main_call7_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call7_v5 main_call7_v9 main_call7_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call7_v7 main_call7_v10 main_call7_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call7_c_3 (constantI S_ 1 1#1),
    binary main_call7_v11 main_call7_c_3 main_call7_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call7_v5 main_call7_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call7_cst (constant S_ .f32 0x7FC00000#32),
    unary main_call7_cst main_call7_v14 ((broadcastInDim S4x8x262144 ![] bcast_S_S4x8x262144) : (⟨S_, .f32⟩ : BufTy).Contents (Elt F) → (⟨S4x8x262144, .f32⟩ : BufTy).Contents (Elt F)),
    ternary main_call7_v12 main_call7_v13 main_call7_v14 main_v50 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v50 main_v51 rfl shapeCasts_S4x8x262144_S4x8x512x512,
    nullary main_c_20 (constantI S_ 32 128#32),
    unary main_c_20 main_v52 (broadcastInDim S4x512x512 ![] bcast_S_S4x512x512 : (⟨S_, .i32⟩ : BufTy).Contents (Elt F) → (⟨S4x512x512, .i32⟩ : BufTy).Contents (Elt F)),
    binary main_v40 main_v52 main_v53 (muli : (⟨S4x512x512, .i32⟩ : BufTy).Contents (Elt F) → (⟨S4x512x512, .i32⟩ : BufTy).Contents (Elt F) → (⟨S4x512x512, .i32⟩ : BufTy).Contents (Elt F)),
    binary main_v53 main_v30 main_v54 (addi : (⟨S4x512x512, .i32⟩ : BufTy).Contents (Elt F) → (⟨S4x512x512, .i32⟩ : BufTy).Contents (Elt F) → (⟨S4x512x512, .i32⟩ : BufTy).Contents (Elt F)),
    nullary main_c_21 (constantI S_ 32 128#32),
    unary main_c_21 main_v55 (broadcastInDim S4x512x512 ![] bcast_S_S4x512x512 : (⟨S_, .i32⟩ : BufTy).Contents (Elt F) → (⟨S4x512x512, .i32⟩ : BufTy).Contents (Elt F)),
    binary main_v54 main_v55 main_v56 (muli : (⟨S4x512x512, .i32⟩ : BufTy).Contents (Elt F) → (⟨S4x512x512, .i32⟩ : BufTy).Contents (Elt F) → (⟨S4x512x512, .i32⟩ : BufTy).Contents (Elt F)),
    binary main_v56 main_v24 main_v57 (addi : (⟨S4x512x512, .i32⟩ : BufTy).Contents (Elt F) → (⟨S4x512x512, .i32⟩ : BufTy).Contents (Elt F) → (⟨S4x512x512, .i32⟩ : BufTy).Contents (Elt F)),
    reshape main_v57 main_v58 rfl shapeCasts_S4x512x512_S4x1x262144,
    unary main_v58 main_v59 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call8_c (constantI S_ 32 0#32),
    unary main_call8_c main_call8_v0 ((broadcastInDim S4x8x262144 ![] bcast_S_S4x8x262144) : (⟨S_, .i32⟩ : BufTy).Contents (Elt F) → (⟨S4x8x262144, .i32⟩ : BufTy).Contents (Elt F)),
    binary main_v59 main_call8_v0 main_call8_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call8_c_0 (constantI S_ 32 2097152#32),
    unary main_call8_c_0 main_call8_v2 ((broadcastInDim S4x8x262144 ![] bcast_S_S4x8x262144) : (⟨S_, .i32⟩ : BufTy).Contents (Elt F) → (⟨S4x8x262144, .i32⟩ : BufTy).Contents (Elt F)),
    binary main_v59 main_call8_v2 main_call8_v3 (addi : (⟨S4x8x262144, .i32⟩ : BufTy).Contents (Elt F) → (⟨S4x8x262144, .i32⟩ : BufTy).Contents (Elt F) → (⟨S4x8x262144, .i32⟩ : BufTy).Contents (Elt F)),
    ternary main_call8_v1 main_call8_v3 main_v59 main_call8_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call8_v4 main_call8_v5 rfl shapeCasts_S4x8x262144_S4x8x262144x1,
    nullary main_call8_c_1 (constantI S1 32 2097151#32),
    nullary main_call8_c_2 (constantI S_ 32 0#32),
    unary main_call8_c_2 main_call8_v6 ((broadcastInDim S4x8x262144x1 ![] bcast_S_S4x8x262144x1) : (⟨S_, .i32⟩ : BufTy).Contents (Elt F) → (⟨S4x8x262144x1, .i32⟩ : BufTy).Contents (Elt F)),
    binary main_call8_v5 main_call8_v6 main_call8_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call8_c_1 main_call8_v8 ((broadcastInDim S1x1x1x1 ![3] bcast_S1_S1x1x1x1_3) : (⟨S1, .i32⟩ : BufTy).Contents (Elt F) → (⟨S1x1x1x1, .i32⟩ : BufTy).Contents (Elt F)),
    unary main_call8_v8 main_call8_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call8_v5 main_call8_v9 main_call8_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call8_v7 main_call8_v10 main_call8_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call8_c_3 (constantI S_ 1 1#1),
    binary main_call8_v11 main_call8_c_3 main_call8_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call8_v5 main_call8_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call8_cst (constant S_ .f32 0x7FC00000#32),
    unary main_call8_cst main_call8_v14 ((broadcastInDim S4x8x262144 ![] bcast_S_S4x8x262144) : (⟨S_, .f32⟩ : BufTy).Contents (Elt F) → (⟨S4x8x262144, .f32⟩ : BufTy).Contents (Elt F)),
    ternary main_call8_v12 main_call8_v13 main_call8_v14 main_v60 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v60 main_v61 rfl shapeCasts_S4x8x262144_S4x8x512x512,
    nullary main_c_22 (constantI S_ 32 128#32),
    unary main_c_22 main_v62 (broadcastInDim S4x512x512 ![] bcast_S_S4x512x512 : (⟨S_, .i32⟩ : BufTy).Contents (Elt F) → (⟨S4x512x512, .i32⟩ : BufTy).Contents (Elt F)),
    binary main_v36 main_v62 main_v63 (muli : (⟨S4x512x512, .i32⟩ : BufTy).Contents (Elt F) → (⟨S4x512x512, .i32⟩ : BufTy).Contents (Elt F) → (⟨S4x512x512, .i32⟩ : BufTy).Contents (Elt F)),
    binary main_v63 main_v34 main_v64 (addi : (⟨S4x512x512, .i32⟩ : BufTy).Contents (Elt F) → (⟨S4x512x512, .i32⟩ : BufTy).Contents (Elt F) → (⟨S4x512x512, .i32⟩ : BufTy).Contents (Elt F)),
    nullary main_c_23 (constantI S_ 32 128#32),
    unary main_c_23 main_v65 (broadcastInDim S4x512x512 ![] bcast_S_S4x512x512 : (⟨S_, .i32⟩ : BufTy).Contents (Elt F) → (⟨S4x512x512, .i32⟩ : BufTy).Contents (Elt F)),
    binary main_v64 main_v65 main_v66 (muli : (⟨S4x512x512, .i32⟩ : BufTy).Contents (Elt F) → (⟨S4x512x512, .i32⟩ : BufTy).Contents (Elt F) → (⟨S4x512x512, .i32⟩ : BufTy).Contents (Elt F)),
    binary main_v66 main_v24 main_v67 (addi : (⟨S4x512x512, .i32⟩ : BufTy).Contents (Elt F) → (⟨S4x512x512, .i32⟩ : BufTy).Contents (Elt F) → (⟨S4x512x512, .i32⟩ : BufTy).Contents (Elt F)),
    reshape main_v67 main_v68 rfl shapeCasts_S4x512x512_S4x1x262144,
    unary main_v68 main_v69 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call9_c (constantI S_ 32 0#32),
    unary main_call9_c main_call9_v0 ((broadcastInDim S4x8x262144 ![] bcast_S_S4x8x262144) : (⟨S_, .i32⟩ : BufTy).Contents (Elt F) → (⟨S4x8x262144, .i32⟩ : BufTy).Contents (Elt F)),
    binary main_v69 main_call9_v0 main_call9_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call9_c_0 (constantI S_ 32 2097152#32),
    unary main_call9_c_0 main_call9_v2 ((broadcastInDim S4x8x262144 ![] bcast_S_S4x8x262144) : (⟨S_, .i32⟩ : BufTy).Contents (Elt F) → (⟨S4x8x262144, .i32⟩ : BufTy).Contents (Elt F)),
    binary main_v69 main_call9_v2 main_call9_v3 (addi : (⟨S4x8x262144, .i32⟩ : BufTy).Contents (Elt F) → (⟨S4x8x262144, .i32⟩ : BufTy).Contents (Elt F) → (⟨S4x8x262144, .i32⟩ : BufTy).Contents (Elt F)),
    ternary main_call9_v1 main_call9_v3 main_v69 main_call9_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call9_v4 main_call9_v5 rfl shapeCasts_S4x8x262144_S4x8x262144x1,
    nullary main_call9_c_1 (constantI S1 32 2097151#32),
    nullary main_call9_c_2 (constantI S_ 32 0#32),
    unary main_call9_c_2 main_call9_v6 ((broadcastInDim S4x8x262144x1 ![] bcast_S_S4x8x262144x1) : (⟨S_, .i32⟩ : BufTy).Contents (Elt F) → (⟨S4x8x262144x1, .i32⟩ : BufTy).Contents (Elt F)),
    binary main_call9_v5 main_call9_v6 main_call9_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call9_c_1 main_call9_v8 ((broadcastInDim S1x1x1x1 ![3] bcast_S1_S1x1x1x1_3) : (⟨S1, .i32⟩ : BufTy).Contents (Elt F) → (⟨S1x1x1x1, .i32⟩ : BufTy).Contents (Elt F)),
    unary main_call9_v8 main_call9_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call9_v5 main_call9_v9 main_call9_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call9_v7 main_call9_v10 main_call9_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call9_c_3 (constantI S_ 1 1#1),
    binary main_call9_v11 main_call9_c_3 main_call9_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call9_v5 main_call9_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call9_cst (constant S_ .f32 0x7FC00000#32),
    unary main_call9_cst main_call9_v14 ((broadcastInDim S4x8x262144 ![] bcast_S_S4x8x262144) : (⟨S_, .f32⟩ : BufTy).Contents (Elt F) → (⟨S4x8x262144, .f32⟩ : BufTy).Contents (Elt F)),
    ternary main_call9_v12 main_call9_v13 main_call9_v14 main_v70 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v70 main_v71 rfl shapeCasts_S4x8x262144_S4x8x512x512,
    nullary main_c_24 (constantI S_ 32 128#32),
    unary main_c_24 main_v72 (broadcastInDim S4x512x512 ![] bcast_S_S4x512x512 : (⟨S_, .i32⟩ : BufTy).Contents (Elt F) → (⟨S4x512x512, .i32⟩ : BufTy).Contents (Elt F)),
    binary main_v40 main_v72 main_v73 (muli : (⟨S4x512x512, .i32⟩ : BufTy).Contents (Elt F) → (⟨S4x512x512, .i32⟩ : BufTy).Contents (Elt F) → (⟨S4x512x512, .i32⟩ : BufTy).Contents (Elt F)),
    binary main_v73 main_v34 main_v74 (addi : (⟨S4x512x512, .i32⟩ : BufTy).Contents (Elt F) → (⟨S4x512x512, .i32⟩ : BufTy).Contents (Elt F) → (⟨S4x512x512, .i32⟩ : BufTy).Contents (Elt F)),
    nullary main_c_25 (constantI S_ 32 128#32),
    unary main_c_25 main_v75 (broadcastInDim S4x512x512 ![] bcast_S_S4x512x512 : (⟨S_, .i32⟩ : BufTy).Contents (Elt F) → (⟨S4x512x512, .i32⟩ : BufTy).Contents (Elt F)),
    binary main_v74 main_v75 main_v76 (muli : (⟨S4x512x512, .i32⟩ : BufTy).Contents (Elt F) → (⟨S4x512x512, .i32⟩ : BufTy).Contents (Elt F) → (⟨S4x512x512, .i32⟩ : BufTy).Contents (Elt F)),
    binary main_v76 main_v24 main_v77 (addi : (⟨S4x512x512, .i32⟩ : BufTy).Contents (Elt F) → (⟨S4x512x512, .i32⟩ : BufTy).Contents (Elt F) → (⟨S4x512x512, .i32⟩ : BufTy).Contents (Elt F)),
    reshape main_v77 main_v78 rfl shapeCasts_S4x512x512_S4x1x262144,
    unary main_v78 main_v79 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call10_c (constantI S_ 32 0#32),
    unary main_call10_c main_call10_v0 ((broadcastInDim S4x8x262144 ![] bcast_S_S4x8x262144) : (⟨S_, .i32⟩ : BufTy).Contents (Elt F) → (⟨S4x8x262144, .i32⟩ : BufTy).Contents (Elt F)),
    binary main_v79 main_call10_v0 main_call10_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call10_c_0 (constantI S_ 32 2097152#32),
    unary main_call10_c_0 main_call10_v2 ((broadcastInDim S4x8x262144 ![] bcast_S_S4x8x262144) : (⟨S_, .i32⟩ : BufTy).Contents (Elt F) → (⟨S4x8x262144, .i32⟩ : BufTy).Contents (Elt F)),
    binary main_v79 main_call10_v2 main_call10_v3 (addi : (⟨S4x8x262144, .i32⟩ : BufTy).Contents (Elt F) → (⟨S4x8x262144, .i32⟩ : BufTy).Contents (Elt F) → (⟨S4x8x262144, .i32⟩ : BufTy).Contents (Elt F)),
    ternary main_call10_v1 main_call10_v3 main_v79 main_call10_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call10_v4 main_call10_v5 rfl shapeCasts_S4x8x262144_S4x8x262144x1,
    nullary main_call10_c_1 (constantI S1 32 2097151#32),
    nullary main_call10_c_2 (constantI S_ 32 0#32),
    unary main_call10_c_2 main_call10_v6 ((broadcastInDim S4x8x262144x1 ![] bcast_S_S4x8x262144x1) : (⟨S_, .i32⟩ : BufTy).Contents (Elt F) → (⟨S4x8x262144x1, .i32⟩ : BufTy).Contents (Elt F)),
    binary main_call10_v5 main_call10_v6 main_call10_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call10_c_1 main_call10_v8 ((broadcastInDim S1x1x1x1 ![3] bcast_S1_S1x1x1x1_3) : (⟨S1, .i32⟩ : BufTy).Contents (Elt F) → (⟨S1x1x1x1, .i32⟩ : BufTy).Contents (Elt F)),
    unary main_call10_v8 main_call10_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call10_v5 main_call10_v9 main_call10_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call10_v7 main_call10_v10 main_call10_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call10_c_3 (constantI S_ 1 1#1),
    binary main_call10_v11 main_call10_c_3 main_call10_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call10_v5 main_call10_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call10_cst (constant S_ .f32 0x7FC00000#32),
    unary main_call10_cst main_call10_v14 ((broadcastInDim S4x8x262144 ![] bcast_S_S4x8x262144) : (⟨S_, .f32⟩ : BufTy).Contents (Elt F) → (⟨S4x8x262144, .f32⟩ : BufTy).Contents (Elt F)),
    ternary main_call10_v12 main_call10_v13 main_call10_v14 main_v80 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v80 main_v81 rfl shapeCasts_S4x8x262144_S4x8x512x512,
    nullary main_c_26 (constantI S_ 32 128#32),
    unary main_c_26 main_v82 (broadcastInDim S4x512x512 ![] bcast_S_S4x512x512 : (⟨S_, .i32⟩ : BufTy).Contents (Elt F) → (⟨S4x512x512, .i32⟩ : BufTy).Contents (Elt F)),
    binary main_v36 main_v82 main_v83 (muli : (⟨S4x512x512, .i32⟩ : BufTy).Contents (Elt F) → (⟨S4x512x512, .i32⟩ : BufTy).Contents (Elt F) → (⟨S4x512x512, .i32⟩ : BufTy).Contents (Elt F)),
    binary main_v83 main_v30 main_v84 (addi : (⟨S4x512x512, .i32⟩ : BufTy).Contents (Elt F) → (⟨S4x512x512, .i32⟩ : BufTy).Contents (Elt F) → (⟨S4x512x512, .i32⟩ : BufTy).Contents (Elt F)),
    nullary main_c_27 (constantI S_ 32 128#32),
    unary main_c_27 main_v85 (broadcastInDim S4x512x512 ![] bcast_S_S4x512x512 : (⟨S_, .i32⟩ : BufTy).Contents (Elt F) → (⟨S4x512x512, .i32⟩ : BufTy).Contents (Elt F)),
    binary main_v84 main_v85 main_v86 (muli : (⟨S4x512x512, .i32⟩ : BufTy).Contents (Elt F) → (⟨S4x512x512, .i32⟩ : BufTy).Contents (Elt F) → (⟨S4x512x512, .i32⟩ : BufTy).Contents (Elt F)),
    binary main_v86 main_v28 main_v87 (addi : (⟨S4x512x512, .i32⟩ : BufTy).Contents (Elt F) → (⟨S4x512x512, .i32⟩ : BufTy).Contents (Elt F) → (⟨S4x512x512, .i32⟩ : BufTy).Contents (Elt F)),
    reshape main_v87 main_v88 rfl shapeCasts_S4x512x512_S4x1x262144,
    unary main_v88 main_v89 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call11_c (constantI S_ 32 0#32),
    unary main_call11_c main_call11_v0 ((broadcastInDim S4x8x262144 ![] bcast_S_S4x8x262144) : (⟨S_, .i32⟩ : BufTy).Contents (Elt F) → (⟨S4x8x262144, .i32⟩ : BufTy).Contents (Elt F)),
    binary main_v89 main_call11_v0 main_call11_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call11_c_0 (constantI S_ 32 2097152#32),
    unary main_call11_c_0 main_call11_v2 ((broadcastInDim S4x8x262144 ![] bcast_S_S4x8x262144) : (⟨S_, .i32⟩ : BufTy).Contents (Elt F) → (⟨S4x8x262144, .i32⟩ : BufTy).Contents (Elt F)),
    binary main_v89 main_call11_v2 main_call11_v3 (addi : (⟨S4x8x262144, .i32⟩ : BufTy).Contents (Elt F) → (⟨S4x8x262144, .i32⟩ : BufTy).Contents (Elt F) → (⟨S4x8x262144, .i32⟩ : BufTy).Contents (Elt F)),
    ternary main_call11_v1 main_call11_v3 main_v89 main_call11_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call11_v4 main_call11_v5 rfl shapeCasts_S4x8x262144_S4x8x262144x1,
    nullary main_call11_c_1 (constantI S1 32 2097151#32),
    nullary main_call11_c_2 (constantI S_ 32 0#32),
    unary main_call11_c_2 main_call11_v6 ((broadcastInDim S4x8x262144x1 ![] bcast_S_S4x8x262144x1) : (⟨S_, .i32⟩ : BufTy).Contents (Elt F) → (⟨S4x8x262144x1, .i32⟩ : BufTy).Contents (Elt F)),
    binary main_call11_v5 main_call11_v6 main_call11_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call11_c_1 main_call11_v8 ((broadcastInDim S1x1x1x1 ![3] bcast_S1_S1x1x1x1_3) : (⟨S1, .i32⟩ : BufTy).Contents (Elt F) → (⟨S1x1x1x1, .i32⟩ : BufTy).Contents (Elt F)),
    unary main_call11_v8 main_call11_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call11_v5 main_call11_v9 main_call11_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call11_v7 main_call11_v10 main_call11_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call11_c_3 (constantI S_ 1 1#1),
    binary main_call11_v11 main_call11_c_3 main_call11_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call11_v5 main_call11_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call11_cst (constant S_ .f32 0x7FC00000#32),
    unary main_call11_cst main_call11_v14 ((broadcastInDim S4x8x262144 ![] bcast_S_S4x8x262144) : (⟨S_, .f32⟩ : BufTy).Contents (Elt F) → (⟨S4x8x262144, .f32⟩ : BufTy).Contents (Elt F)),
    ternary main_call11_v12 main_call11_v13 main_call11_v14 main_v90 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v90 main_v91 rfl shapeCasts_S4x8x262144_S4x8x512x512,
    nullary main_c_28 (constantI S_ 32 128#32),
    unary main_c_28 main_v92 (broadcastInDim S4x512x512 ![] bcast_S_S4x512x512 : (⟨S_, .i32⟩ : BufTy).Contents (Elt F) → (⟨S4x512x512, .i32⟩ : BufTy).Contents (Elt F)),
    binary main_v40 main_v92 main_v93 (muli : (⟨S4x512x512, .i32⟩ : BufTy).Contents (Elt F) → (⟨S4x512x512, .i32⟩ : BufTy).Contents (Elt F) → (⟨S4x512x512, .i32⟩ : BufTy).Contents (Elt F)),
    binary main_v93 main_v30 main_v94 (addi : (⟨S4x512x512, .i32⟩ : BufTy).Contents (Elt F) → (⟨S4x512x512, .i32⟩ : BufTy).Contents (Elt F) → (⟨S4x512x512, .i32⟩ : BufTy).Contents (Elt F)),
    nullary main_c_29 (constantI S_ 32 128#32),
    unary main_c_29 main_v95 (broadcastInDim S4x512x512 ![] bcast_S_S4x512x512 : (⟨S_, .i32⟩ : BufTy).Contents (Elt F) → (⟨S4x512x512, .i32⟩ : BufTy).Contents (Elt F)),
    binary main_v94 main_v95 main_v96 (muli : (⟨S4x512x512, .i32⟩ : BufTy).Contents (Elt F) → (⟨S4x512x512, .i32⟩ : BufTy).Contents (Elt F) → (⟨S4x512x512, .i32⟩ : BufTy).Contents (Elt F)),
    binary main_v96 main_v28 main_v97 (addi : (⟨S4x512x512, .i32⟩ : BufTy).Contents (Elt F) → (⟨S4x512x512, .i32⟩ : BufTy).Contents (Elt F) → (⟨S4x512x512, .i32⟩ : BufTy).Contents (Elt F)),
    reshape main_v97 main_v98 rfl shapeCasts_S4x512x512_S4x1x262144,
    unary main_v98 main_v99 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call12_c (constantI S_ 32 0#32),
    unary main_call12_c main_call12_v0 ((broadcastInDim S4x8x262144 ![] bcast_S_S4x8x262144) : (⟨S_, .i32⟩ : BufTy).Contents (Elt F) → (⟨S4x8x262144, .i32⟩ : BufTy).Contents (Elt F)),
    binary main_v99 main_call12_v0 main_call12_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call12_c_0 (constantI S_ 32 2097152#32),
    unary main_call12_c_0 main_call12_v2 ((broadcastInDim S4x8x262144 ![] bcast_S_S4x8x262144) : (⟨S_, .i32⟩ : BufTy).Contents (Elt F) → (⟨S4x8x262144, .i32⟩ : BufTy).Contents (Elt F)),
    binary main_v99 main_call12_v2 main_call12_v3 (addi : (⟨S4x8x262144, .i32⟩ : BufTy).Contents (Elt F) → (⟨S4x8x262144, .i32⟩ : BufTy).Contents (Elt F) → (⟨S4x8x262144, .i32⟩ : BufTy).Contents (Elt F)),
    ternary main_call12_v1 main_call12_v3 main_v99 main_call12_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call12_v4 main_call12_v5 rfl shapeCasts_S4x8x262144_S4x8x262144x1,
    nullary main_call12_c_1 (constantI S1 32 2097151#32),
    nullary main_call12_c_2 (constantI S_ 32 0#32),
    unary main_call12_c_2 main_call12_v6 ((broadcastInDim S4x8x262144x1 ![] bcast_S_S4x8x262144x1) : (⟨S_, .i32⟩ : BufTy).Contents (Elt F) → (⟨S4x8x262144x1, .i32⟩ : BufTy).Contents (Elt F)),
    binary main_call12_v5 main_call12_v6 main_call12_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call12_c_1 main_call12_v8 ((broadcastInDim S1x1x1x1 ![3] bcast_S1_S1x1x1x1_3) : (⟨S1, .i32⟩ : BufTy).Contents (Elt F) → (⟨S1x1x1x1, .i32⟩ : BufTy).Contents (Elt F)),
    unary main_call12_v8 main_call12_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call12_v5 main_call12_v9 main_call12_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call12_v7 main_call12_v10 main_call12_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call12_c_3 (constantI S_ 1 1#1),
    binary main_call12_v11 main_call12_c_3 main_call12_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call12_v5 main_call12_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call12_cst (constant S_ .f32 0x7FC00000#32),
    unary main_call12_cst main_call12_v14 ((broadcastInDim S4x8x262144 ![] bcast_S_S4x8x262144) : (⟨S_, .f32⟩ : BufTy).Contents (Elt F) → (⟨S4x8x262144, .f32⟩ : BufTy).Contents (Elt F)),
    ternary main_call12_v12 main_call12_v13 main_call12_v14 main_v100 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v100 main_v101 rfl shapeCasts_S4x8x262144_S4x8x512x512,
    nullary main_c_30 (constantI S_ 32 128#32),
    unary main_c_30 main_v102 (broadcastInDim S4x512x512 ![] bcast_S_S4x512x512 : (⟨S_, .i32⟩ : BufTy).Contents (Elt F) → (⟨S4x512x512, .i32⟩ : BufTy).Contents (Elt F)),
    binary main_v36 main_v102 main_v103 (muli : (⟨S4x512x512, .i32⟩ : BufTy).Contents (Elt F) → (⟨S4x512x512, .i32⟩ : BufTy).Contents (Elt F) → (⟨S4x512x512, .i32⟩ : BufTy).Contents (Elt F)),
    binary main_v103 main_v34 main_v104 (addi : (⟨S4x512x512, .i32⟩ : BufTy).Contents (Elt F) → (⟨S4x512x512, .i32⟩ : BufTy).Contents (Elt F) → (⟨S4x512x512, .i32⟩ : BufTy).Contents (Elt F)),
    nullary main_c_31 (constantI S_ 32 128#32),
    unary main_c_31 main_v105 (broadcastInDim S4x512x512 ![] bcast_S_S4x512x512 : (⟨S_, .i32⟩ : BufTy).Contents (Elt F) → (⟨S4x512x512, .i32⟩ : BufTy).Contents (Elt F)),
    binary main_v104 main_v105 main_v106 (muli : (⟨S4x512x512, .i32⟩ : BufTy).Contents (Elt F) → (⟨S4x512x512, .i32⟩ : BufTy).Contents (Elt F) → (⟨S4x512x512, .i32⟩ : BufTy).Contents (Elt F)),
    binary main_v106 main_v28 main_v107 (addi : (⟨S4x512x512, .i32⟩ : BufTy).Contents (Elt F) → (⟨S4x512x512, .i32⟩ : BufTy).Contents (Elt F) → (⟨S4x512x512, .i32⟩ : BufTy).Contents (Elt F)),
    reshape main_v107 main_v108 rfl shapeCasts_S4x512x512_S4x1x262144,
    unary main_v108 main_v109 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call13_c (constantI S_ 32 0#32),
    unary main_call13_c main_call13_v0 ((broadcastInDim S4x8x262144 ![] bcast_S_S4x8x262144) : (⟨S_, .i32⟩ : BufTy).Contents (Elt F) → (⟨S4x8x262144, .i32⟩ : BufTy).Contents (Elt F)),
    binary main_v109 main_call13_v0 main_call13_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call13_c_0 (constantI S_ 32 2097152#32),
    unary main_call13_c_0 main_call13_v2 ((broadcastInDim S4x8x262144 ![] bcast_S_S4x8x262144) : (⟨S_, .i32⟩ : BufTy).Contents (Elt F) → (⟨S4x8x262144, .i32⟩ : BufTy).Contents (Elt F)),
    binary main_v109 main_call13_v2 main_call13_v3 (addi : (⟨S4x8x262144, .i32⟩ : BufTy).Contents (Elt F) → (⟨S4x8x262144, .i32⟩ : BufTy).Contents (Elt F) → (⟨S4x8x262144, .i32⟩ : BufTy).Contents (Elt F)),
    ternary main_call13_v1 main_call13_v3 main_v109 main_call13_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call13_v4 main_call13_v5 rfl shapeCasts_S4x8x262144_S4x8x262144x1,
    nullary main_call13_c_1 (constantI S1 32 2097151#32),
    nullary main_call13_c_2 (constantI S_ 32 0#32),
    unary main_call13_c_2 main_call13_v6 ((broadcastInDim S4x8x262144x1 ![] bcast_S_S4x8x262144x1) : (⟨S_, .i32⟩ : BufTy).Contents (Elt F) → (⟨S4x8x262144x1, .i32⟩ : BufTy).Contents (Elt F)),
    binary main_call13_v5 main_call13_v6 main_call13_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call13_c_1 main_call13_v8 ((broadcastInDim S1x1x1x1 ![3] bcast_S1_S1x1x1x1_3) : (⟨S1, .i32⟩ : BufTy).Contents (Elt F) → (⟨S1x1x1x1, .i32⟩ : BufTy).Contents (Elt F)),
    unary main_call13_v8 main_call13_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call13_v5 main_call13_v9 main_call13_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call13_v7 main_call13_v10 main_call13_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call13_c_3 (constantI S_ 1 1#1),
    binary main_call13_v11 main_call13_c_3 main_call13_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call13_v5 main_call13_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call13_cst (constant S_ .f32 0x7FC00000#32),
    unary main_call13_cst main_call13_v14 ((broadcastInDim S4x8x262144 ![] bcast_S_S4x8x262144) : (⟨S_, .f32⟩ : BufTy).Contents (Elt F) → (⟨S4x8x262144, .f32⟩ : BufTy).Contents (Elt F)),
    ternary main_call13_v12 main_call13_v13 main_call13_v14 main_v110 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v110 main_v111 rfl shapeCasts_S4x8x262144_S4x8x512x512,
    nullary main_c_32 (constantI S_ 32 128#32),
    unary main_c_32 main_v112 (broadcastInDim S4x512x512 ![] bcast_S_S4x512x512 : (⟨S_, .i32⟩ : BufTy).Contents (Elt F) → (⟨S4x512x512, .i32⟩ : BufTy).Contents (Elt F)),
    binary main_v40 main_v112 main_v113 (muli : (⟨S4x512x512, .i32⟩ : BufTy).Contents (Elt F) → (⟨S4x512x512, .i32⟩ : BufTy).Contents (Elt F) → (⟨S4x512x512, .i32⟩ : BufTy).Contents (Elt F)),
    binary main_v113 main_v34 main_v114 (addi : (⟨S4x512x512, .i32⟩ : BufTy).Contents (Elt F) → (⟨S4x512x512, .i32⟩ : BufTy).Contents (Elt F) → (⟨S4x512x512, .i32⟩ : BufTy).Contents (Elt F)),
    nullary main_c_33 (constantI S_ 32 128#32),
    unary main_c_33 main_v115 (broadcastInDim S4x512x512 ![] bcast_S_S4x512x512 : (⟨S_, .i32⟩ : BufTy).Contents (Elt F) → (⟨S4x512x512, .i32⟩ : BufTy).Contents (Elt F)),
    binary main_v114 main_v115 main_v116 (muli : (⟨S4x512x512, .i32⟩ : BufTy).Contents (Elt F) → (⟨S4x512x512, .i32⟩ : BufTy).Contents (Elt F) → (⟨S4x512x512, .i32⟩ : BufTy).Contents (Elt F)),
    binary main_v116 main_v28 main_v117 (addi : (⟨S4x512x512, .i32⟩ : BufTy).Contents (Elt F) → (⟨S4x512x512, .i32⟩ : BufTy).Contents (Elt F) → (⟨S4x512x512, .i32⟩ : BufTy).Contents (Elt F)),
    reshape main_v117 main_v118 rfl shapeCasts_S4x512x512_S4x1x262144,
    unary main_v118 main_v119 (broadcastInDim S4x8x262144 ![0, 1, 2] bcast_S4x1x262144_S4x8x262144_0_1_2 : (⟨S4x1x262144, .i32⟩ : BufTy).Contents (Elt F) → (⟨S4x8x262144, .i32⟩ : BufTy).Contents (Elt F)),
    nullary main_call14_c (constantI S_ 32 0#32),
    unary main_call14_c main_call14_v0 ((broadcastInDim S4x8x262144 ![] bcast_S_S4x8x262144) : (⟨S_, .i32⟩ : BufTy).Contents (Elt F) → (⟨S4x8x262144, .i32⟩ : BufTy).Contents (Elt F)),
    binary main_v119 main_call14_v0 main_call14_v1 ((cmpi .slt) : (⟨S4x8x262144, .i32⟩ : BufTy).Contents (Elt F) → (⟨S4x8x262144, .i32⟩ : BufTy).Contents (Elt F) → (⟨S4x8x262144, .i1⟩ : BufTy).Contents (Elt F)),
    nullary main_call14_c_0 (constantI S_ 32 2097152#32),
    unary main_call14_c_0 main_call14_v2 ((broadcastInDim S4x8x262144 ![] bcast_S_S4x8x262144) : (⟨S_, .i32⟩ : BufTy).Contents (Elt F) → (⟨S4x8x262144, .i32⟩ : BufTy).Contents (Elt F)),
    binary main_v119 main_call14_v2 main_call14_v3 (addi : (⟨S4x8x262144, .i32⟩ : BufTy).Contents (Elt F) → (⟨S4x8x262144, .i32⟩ : BufTy).Contents (Elt F) → (⟨S4x8x262144, .i32⟩ : BufTy).Contents (Elt F)),
    ternary main_call14_v1 main_call14_v3 main_v119 main_call14_v4 (select : (⟨S4x8x262144, .i1⟩ : BufTy).Contents (Elt F) → (⟨S4x8x262144, .i32⟩ : BufTy).Contents (Elt F) → (⟨S4x8x262144, .i32⟩ : BufTy).Contents (Elt F) → (⟨S4x8x262144, .i32⟩ : BufTy).Contents (Elt F)),
    reshape main_call14_v4 main_call14_v5 rfl shapeCasts_S4x8x262144_S4x8x262144x1,
    nullary main_call14_c_1 (constantI S1 32 2097151#32),
    nullary main_call14_c_2 (constantI S_ 32 0#32),
    unary main_call14_c_2 main_call14_v6 ((broadcastInDim S4x8x262144x1 ![] bcast_S_S4x8x262144x1) : (⟨S_, .i32⟩ : BufTy).Contents (Elt F) → (⟨S4x8x262144x1, .i32⟩ : BufTy).Contents (Elt F)),
    binary main_call14_v5 main_call14_v6 main_call14_v7 ((cmpi .sge) : (⟨S4x8x262144x1, .i32⟩ : BufTy).Contents (Elt F) → (⟨S4x8x262144x1, .i32⟩ : BufTy).Contents (Elt F) → (⟨S4x8x262144x1, .i1⟩ : BufTy).Contents (Elt F)),
    unary main_call14_c_1 main_call14_v8 ((broadcastInDim S1x1x1x1 ![3] bcast_S1_S1x1x1x1_3) : (⟨S1, .i32⟩ : BufTy).Contents (Elt F) → (⟨S1x1x1x1, .i32⟩ : BufTy).Contents (Elt F)),
    unary main_call14_v8 main_call14_v9 ((broadcastInDim S4x8x262144x1 ![0, 1, 2, 3] bcast_S1x1x1x1_S4x8x262144x1_0_1_2_3) : (⟨S1x1x1x1, .i32⟩ : BufTy).Contents (Elt F) → (⟨S4x8x262144x1, .i32⟩ : BufTy).Contents (Elt F)),
    binary main_call14_v5 main_call14_v9 main_call14_v10 ((cmpi .sle) : (⟨S4x8x262144x1, .i32⟩ : BufTy).Contents (Elt F) → (⟨S4x8x262144x1, .i32⟩ : BufTy).Contents (Elt F) → (⟨S4x8x262144x1, .i1⟩ : BufTy).Contents (Elt F)),
    binary main_call14_v7 main_call14_v10 main_call14_v11 (andi : (⟨S4x8x262144x1, .i1⟩ : BufTy).Contents (Elt F) → (⟨S4x8x262144x1, .i1⟩ : BufTy).Contents (Elt F) → (⟨S4x8x262144x1, .i1⟩ : BufTy).Contents (Elt F)),
    nullary main_call14_c_3 (constantI S_ 1 1#1),
    binary main_call14_v11 main_call14_c_3 main_call14_v12 ((fun x v => Host.reduce IntOp.andi x v reducesTo_S4x8x262144x1_S4x8x262144_d3 h_S_) : (⟨S4x8x262144x1, .i1⟩ : BufTy).Contents (Elt F) → (⟨S_, .i1⟩ : BufTy).Contents (Elt F) → (⟨S4x8x262144, .i1⟩ : BufTy).Contents (Elt F)),
    binary main_v41 main_call14_v5 main_call14_v13 ((fun x i => Host.gather gather_S4x8x2097152_S4x8x262144x1_S4x8x262144_n_2_01_01_2_3_111 x i) : (⟨S4x8x2097152, .f32⟩ : BufTy).Contents (Elt F) → (⟨S4x8x262144x1, .i32⟩ : BufTy).Contents (Elt F) → (⟨S4x8x262144, .f32⟩ : BufTy).Contents (Elt F)),
    nullary main_call14_cst (constant S_ .f32 0x7FC00000#32),
    unary main_call14_cst main_call14_v14 ((broadcastInDim S4x8x262144 ![] bcast_S_S4x8x262144) : (⟨S_, .f32⟩ : BufTy).Contents (Elt F) → (⟨S4x8x262144, .f32⟩ : BufTy).Contents (Elt F)),
    ternary main_call14_v12 main_call14_v13 main_call14_v14 main_v120 (select : (⟨S4x8x262144, .i1⟩ : BufTy).Contents (Elt F) → (⟨S4x8x262144, .f32⟩ : BufTy).Contents (Elt F) → (⟨S4x8x262144, .f32⟩ : BufTy).Contents (Elt F) → (⟨S4x8x262144, .f32⟩ : BufTy).Contents (Elt F)),
    reshape main_v120 main_v121 rfl shapeCasts_S4x8x262144_S4x8x512x512,
    nullary main_cst_34 (constant S_ .f32 0x3F800000#32),
    unary main_cst_34 main_v122 (broadcastInDim S4x1x512x512 ![] bcast_S_S4x1x512x512 : (⟨S_, .f32⟩ : BufTy).Contents (Elt F) → (⟨S4x1x512x512, .f32⟩ : BufTy).Contents (Elt F)),
    binary main_v122 main_v18 main_v123 (subf : (⟨S4x1x512x512, .f32⟩ : BufTy).Contents (Elt F) → (⟨S4x1x512x512, .f32⟩ : BufTy).Contents (Elt F) → (⟨S4x1x512x512, .f32⟩ : BufTy).Contents (Elt F)),
    nullary main_cst_35 (constant S_ .f32 0x3F800000#32),
    unary main_cst_35 main_v124 (broadcastInDim S4x1x512x512 ![] bcast_S_S4x1x512x512 : (⟨S_, .f32⟩ : BufTy).Contents (Elt F) → (⟨S4x1x512x512, .f32⟩ : BufTy).Contents (Elt F)),
    binary main_v124 main_v20 main_v125 (subf : (⟨S4x1x512x512, .f32⟩ : BufTy).Contents (Elt F) → (⟨S4x1x512x512, .f32⟩ : BufTy).Contents (Elt F) → (⟨S4x1x512x512, .f32⟩ : BufTy).Contents (Elt F)),
    binary main_v123 main_v125 main_v126 (mulf : (⟨S4x1x512x512, .f32⟩ : BufTy).Contents (Elt F) → (⟨S4x1x512x512, .f32⟩ : BufTy).Contents (Elt F) → (⟨S4x1x512x512, .f32⟩ : BufTy).Contents (Elt F)),
    nullary main_cst_36 (constant S_ .f32 0x3F800000#32),
    unary main_cst_36 main_v127 (broadcastInDim S4x1x512x512 ![] bcast_S_S4x1x512x512 : (⟨S_, .f32⟩ : BufTy).Contents (Elt F) → (⟨S4x1x512x512, .f32⟩ : BufTy).Contents (Elt F)),
    binary main_v127 main_v22 main_v128 (subf : (⟨S4x1x512x512, .f32⟩ : BufTy).Contents (Elt F) → (⟨S4x1x512x512, .f32⟩ : BufTy).Contents (Elt F) → (⟨S4x1x512x512, .f32⟩ : BufTy).Contents (Elt F)),
    binary main_v126 main_v128 main_v129 (mulf : (⟨S4x1x512x512, .f32⟩ : BufTy).Contents (Elt F) → (⟨S4x1x512x512, .f32⟩ : BufTy).Contents (Elt F) → (⟨S4x1x512x512, .f32⟩ : BufTy).Contents (Elt F)),
    unary main_v129 main_v130 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v130 main_v51 main_v131 (mulf : (⟨S4x8x512x512, .f32⟩ : BufTy).Contents (Elt F) → (⟨S4x8x512x512, .f32⟩ : BufTy).Contents (Elt F) → (⟨S4x8x512x512, .f32⟩ : BufTy).Contents (Elt F)),
    nullary main_cst_37 (constant S_ .f32 0x3F800000#32),
    unary main_cst_37 main_v132 (broadcastInDim S4x1x512x512 ![] bcast_S_S4x1x512x512 : (⟨S_, .f32⟩ : BufTy).Contents (Elt F) → (⟨S4x1x512x512, .f32⟩ : BufTy).Contents (Elt F)),
    binary main_v132 main_v18 main_v133 (subf : (⟨S4x1x512x512, .f32⟩ : BufTy).Contents (Elt F) → (⟨S4x1x512x512, .f32⟩ : BufTy).Contents (Elt F) → (⟨S4x1x512x512, .f32⟩ : BufTy).Contents (Elt F)),
    nullary main_cst_38 (constant S_ .f32 0x3F800000#32),
    unary main_cst_38 main_v134 (broadcastInDim S4x1x512x512 ![] bcast_S_S4x1x512x512 : (⟨S_, .f32⟩ : BufTy).Contents (Elt F) → (⟨S4x1x512x512, .f32⟩ : BufTy).Contents (Elt F)),
    binary main_v134 main_v20 main_v135 (subf : (⟨S4x1x512x512, .f32⟩ : BufTy).Contents (Elt F) → (⟨S4x1x512x512, .f32⟩ : BufTy).Contents (Elt F) → (⟨S4x1x512x512, .f32⟩ : BufTy).Contents (Elt F)),
    binary main_v133 main_v135 main_v136 (mulf : (⟨S4x1x512x512, .f32⟩ : BufTy).Contents (Elt F) → (⟨S4x1x512x512, .f32⟩ : BufTy).Contents (Elt F) → (⟨S4x1x512x512, .f32⟩ : BufTy).Contents (Elt F)),
    binary main_v136 main_v22 main_v137 (mulf : (⟨S4x1x512x512, .f32⟩ : BufTy).Contents (Elt F) → (⟨S4x1x512x512, .f32⟩ : BufTy).Contents (Elt F) → (⟨S4x1x512x512, .f32⟩ : BufTy).Contents (Elt F)),
    unary main_v137 main_v138 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v138 main_v61 main_v139 (mulf : (⟨S4x8x512x512, .f32⟩ : BufTy).Contents (Elt F) → (⟨S4x8x512x512, .f32⟩ : BufTy).Contents (Elt F) → (⟨S4x8x512x512, .f32⟩ : BufTy).Contents (Elt F)),
    binary main_v131 main_v139 main_v140 (addf : (⟨S4x8x512x512, .f32⟩ : BufTy).Contents (Elt F) → (⟨S4x8x512x512, .f32⟩ : BufTy).Contents (Elt F) → (⟨S4x8x512x512, .f32⟩ : BufTy).Contents (Elt F)),
    nullary main_cst_39 (constant S_ .f32 0x3F800000#32),
    unary main_cst_39 main_v141 (broadcastInDim S4x1x512x512 ![] bcast_S_S4x1x512x512 : (⟨S_, .f32⟩ : BufTy).Contents (Elt F) → (⟨S4x1x512x512, .f32⟩ : BufTy).Contents (Elt F)),
    binary main_v141 main_v18 main_v142 (subf : (⟨S4x1x512x512, .f32⟩ : BufTy).Contents (Elt F) → (⟨S4x1x512x512, .f32⟩ : BufTy).Contents (Elt F) → (⟨S4x1x512x512, .f32⟩ : BufTy).Contents (Elt F)),
    binary main_v142 main_v20 main_v143 (mulf : (⟨S4x1x512x512, .f32⟩ : BufTy).Contents (Elt F) → (⟨S4x1x512x512, .f32⟩ : BufTy).Contents (Elt F) → (⟨S4x1x512x512, .f32⟩ : BufTy).Contents (Elt F)),
    nullary main_cst_40 (constant S_ .f32 0x3F800000#32),
    unary main_cst_40 main_v144 (broadcastInDim S4x1x512x512 ![] bcast_S_S4x1x512x512 : (⟨S_, .f32⟩ : BufTy).Contents (Elt F) → (⟨S4x1x512x512, .f32⟩ : BufTy).Contents (Elt F)),
    binary main_v144 main_v22 main_v145 (subf : (⟨S4x1x512x512, .f32⟩ : BufTy).Contents (Elt F) → (⟨S4x1x512x512, .f32⟩ : BufTy).Contents (Elt F) → (⟨S4x1x512x512, .f32⟩ : BufTy).Contents (Elt F)),
    binary main_v143 main_v145 main_v146 (mulf : (⟨S4x1x512x512, .f32⟩ : BufTy).Contents (Elt F) → (⟨S4x1x512x512, .f32⟩ : BufTy).Contents (Elt F) → (⟨S4x1x512x512, .f32⟩ : BufTy).Contents (Elt F)),
    unary main_v146 main_v147 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v147 main_v71 main_v148 (mulf : (⟨S4x8x512x512, .f32⟩ : BufTy).Contents (Elt F) → (⟨S4x8x512x512, .f32⟩ : BufTy).Contents (Elt F) → (⟨S4x8x512x512, .f32⟩ : BufTy).Contents (Elt F)),
    binary main_v140 main_v148 main_v149 (addf : (⟨S4x8x512x512, .f32⟩ : BufTy).Contents (Elt F) → (⟨S4x8x512x512, .f32⟩ : BufTy).Contents (Elt F) → (⟨S4x8x512x512, .f32⟩ : BufTy).Contents (Elt F)),
    nullary main_cst_41 (constant S_ .f32 0x3F800000#32),
    unary main_cst_41 main_v150 (broadcastInDim S4x1x512x512 ![] bcast_S_S4x1x512x512 : (⟨S_, .f32⟩ : BufTy).Contents (Elt F) → (⟨S4x1x512x512, .f32⟩ : BufTy).Contents (Elt F)),
    binary main_v150 main_v18 main_v151 (subf : (⟨S4x1x512x512, .f32⟩ : BufTy).Contents (Elt F) → (⟨S4x1x512x512, .f32⟩ : BufTy).Contents (Elt F) → (⟨S4x1x512x512, .f32⟩ : BufTy).Contents (Elt F)),
    binary main_v151 main_v20 main_v152 (mulf : (⟨S4x1x512x512, .f32⟩ : BufTy).Contents (Elt F) → (⟨S4x1x512x512, .f32⟩ : BufTy).Contents (Elt F) → (⟨S4x1x512x512, .f32⟩ : BufTy).Contents (Elt F)),
    binary main_v152 main_v22 main_v153 (mulf : (⟨S4x1x512x512, .f32⟩ : BufTy).Contents (Elt F) → (⟨S4x1x512x512, .f32⟩ : BufTy).Contents (Elt F) → (⟨S4x1x512x512, .f32⟩ : BufTy).Contents (Elt F)),
    unary main_v153 main_v154 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v154 main_v81 main_v155 (mulf : (⟨S4x8x512x512, .f32⟩ : BufTy).Contents (Elt F) → (⟨S4x8x512x512, .f32⟩ : BufTy).Contents (Elt F) → (⟨S4x8x512x512, .f32⟩ : BufTy).Contents (Elt F)),
    binary main_v149 main_v155 main_v156 (addf : (⟨S4x8x512x512, .f32⟩ : BufTy).Contents (Elt F) → (⟨S4x8x512x512, .f32⟩ : BufTy).Contents (Elt F) → (⟨S4x8x512x512, .f32⟩ : BufTy).Contents (Elt F)),
    nullary main_cst_42 (constant S_ .f32 0x3F800000#32),
    unary main_cst_42 main_v157 (broadcastInDim S4x1x512x512 ![] bcast_S_S4x1x512x512 : (⟨S_, .f32⟩ : BufTy).Contents (Elt F) → (⟨S4x1x512x512, .f32⟩ : BufTy).Contents (Elt F)),
    binary main_v157 main_v20 main_v158 (subf : (⟨S4x1x512x512, .f32⟩ : BufTy).Contents (Elt F) → (⟨S4x1x512x512, .f32⟩ : BufTy).Contents (Elt F) → (⟨S4x1x512x512, .f32⟩ : BufTy).Contents (Elt F)),
    binary main_v18 main_v158 main_v159 (mulf : (⟨S4x1x512x512, .f32⟩ : BufTy).Contents (Elt F) → (⟨S4x1x512x512, .f32⟩ : BufTy).Contents (Elt F) → (⟨S4x1x512x512, .f32⟩ : BufTy).Contents (Elt F)),
    nullary main_cst_43 (constant S_ .f32 0x3F800000#32),
    unary main_cst_43 main_v160 (broadcastInDim S4x1x512x512 ![] bcast_S_S4x1x512x512 : (⟨S_, .f32⟩ : BufTy).Contents (Elt F) → (⟨S4x1x512x512, .f32⟩ : BufTy).Contents (Elt F)),
    binary main_v160 main_v22 main_v161 (subf : (⟨S4x1x512x512, .f32⟩ : BufTy).Contents (Elt F) → (⟨S4x1x512x512, .f32⟩ : BufTy).Contents (Elt F) → (⟨S4x1x512x512, .f32⟩ : BufTy).Contents (Elt F)),
    binary main_v159 main_v161 main_v162 (mulf : (⟨S4x1x512x512, .f32⟩ : BufTy).Contents (Elt F) → (⟨S4x1x512x512, .f32⟩ : BufTy).Contents (Elt F) → (⟨S4x1x512x512, .f32⟩ : BufTy).Contents (Elt F)),
    unary main_v162 main_v163 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v163 main_v91 main_v164 (mulf : (⟨S4x8x512x512, .f32⟩ : BufTy).Contents (Elt F) → (⟨S4x8x512x512, .f32⟩ : BufTy).Contents (Elt F) → (⟨S4x8x512x512, .f32⟩ : BufTy).Contents (Elt F)),
    binary main_v156 main_v164 main_v165 (addf : (⟨S4x8x512x512, .f32⟩ : BufTy).Contents (Elt F) → (⟨S4x8x512x512, .f32⟩ : BufTy).Contents (Elt F) → (⟨S4x8x512x512, .f32⟩ : BufTy).Contents (Elt F)),
    nullary main_cst_44 (constant S_ .f32 0x3F800000#32),
    unary main_cst_44 main_v166 (broadcastInDim S4x1x512x512 ![] bcast_S_S4x1x512x512 : (⟨S_, .f32⟩ : BufTy).Contents (Elt F) → (⟨S4x1x512x512, .f32⟩ : BufTy).Contents (Elt F)),
    binary main_v166 main_v20 main_v167 (subf : (⟨S4x1x512x512, .f32⟩ : BufTy).Contents (Elt F) → (⟨S4x1x512x512, .f32⟩ : BufTy).Contents (Elt F) → (⟨S4x1x512x512, .f32⟩ : BufTy).Contents (Elt F)),
    binary main_v18 main_v167 main_v168 (mulf : (⟨S4x1x512x512, .f32⟩ : BufTy).Contents (Elt F) → (⟨S4x1x512x512, .f32⟩ : BufTy).Contents (Elt F) → (⟨S4x1x512x512, .f32⟩ : BufTy).Contents (Elt F)),
    binary main_v168 main_v22 main_v169 (mulf : (⟨S4x1x512x512, .f32⟩ : BufTy).Contents (Elt F) → (⟨S4x1x512x512, .f32⟩ : BufTy).Contents (Elt F) → (⟨S4x1x512x512, .f32⟩ : BufTy).Contents (Elt F)),
    unary main_v169 main_v170 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v170 main_v101 main_v171 (mulf : (⟨S4x8x512x512, .f32⟩ : BufTy).Contents (Elt F) → (⟨S4x8x512x512, .f32⟩ : BufTy).Contents (Elt F) → (⟨S4x8x512x512, .f32⟩ : BufTy).Contents (Elt F)),
    binary main_v165 main_v171 main_v172 (addf : (⟨S4x8x512x512, .f32⟩ : BufTy).Contents (Elt F) → (⟨S4x8x512x512, .f32⟩ : BufTy).Contents (Elt F) → (⟨S4x8x512x512, .f32⟩ : BufTy).Contents (Elt F)),
    binary main_v18 main_v20 main_v173 (mulf : (⟨S4x1x512x512, .f32⟩ : BufTy).Contents (Elt F) → (⟨S4x1x512x512, .f32⟩ : BufTy).Contents (Elt F) → (⟨S4x1x512x512, .f32⟩ : BufTy).Contents (Elt F)),
    nullary main_cst_45 (constant S_ .f32 0x3F800000#32),
    unary main_cst_45 main_v174 (broadcastInDim S4x1x512x512 ![] bcast_S_S4x1x512x512 : (⟨S_, .f32⟩ : BufTy).Contents (Elt F) → (⟨S4x1x512x512, .f32⟩ : BufTy).Contents (Elt F)),
    binary main_v174 main_v22 main_v175 (subf : (⟨S4x1x512x512, .f32⟩ : BufTy).Contents (Elt F) → (⟨S4x1x512x512, .f32⟩ : BufTy).Contents (Elt F) → (⟨S4x1x512x512, .f32⟩ : BufTy).Contents (Elt F)),
    binary main_v173 main_v175 main_v176 (mulf : (⟨S4x1x512x512, .f32⟩ : BufTy).Contents (Elt F) → (⟨S4x1x512x512, .f32⟩ : BufTy).Contents (Elt F) → (⟨S4x1x512x512, .f32⟩ : BufTy).Contents (Elt F)),
    unary main_v176 main_v177 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v177 main_v111 main_v178 (mulf : (⟨S4x8x512x512, .f32⟩ : BufTy).Contents (Elt F) → (⟨S4x8x512x512, .f32⟩ : BufTy).Contents (Elt F) → (⟨S4x8x512x512, .f32⟩ : BufTy).Contents (Elt F)),
    binary main_v172 main_v178 main_v179 (addf : (⟨S4x8x512x512, .f32⟩ : BufTy).Contents (Elt F) → (⟨S4x8x512x512, .f32⟩ : BufTy).Contents (Elt F) → (⟨S4x8x512x512, .f32⟩ : BufTy).Contents (Elt F)),
    binary main_v18 main_v20 main_v180 (mulf : (⟨S4x1x512x512, .f32⟩ : BufTy).Contents (Elt F) → (⟨S4x1x512x512, .f32⟩ : BufTy).Contents (Elt F) → (⟨S4x1x512x512, .f32⟩ : BufTy).Contents (Elt F)),
    binary main_v180 main_v22 main_v181 (mulf : (⟨S4x1x512x512, .f32⟩ : BufTy).Contents (Elt F) → (⟨S4x1x512x512, .f32⟩ : BufTy).Contents (Elt F) → (⟨S4x1x512x512, .f32⟩ : BufTy).Contents (Elt F)),
    unary main_v181 main_v182 (broadcastInDim S4x8x512x512 ![0, 1, 2, 3] bcast_S4x1x512x512_S4x8x512x512_0_1_2_3 : (⟨S4x1x512x512, .f32⟩ : BufTy).Contents (Elt F) → (⟨S4x8x512x512, .f32⟩ : BufTy).Contents (Elt F)),
    binary main_v182 main_v121 main_v183 (mulf : (⟨S4x8x512x512, .f32⟩ : BufTy).Contents (Elt F) → (⟨S4x8x512x512, .f32⟩ : BufTy).Contents (Elt F) → (⟨S4x8x512x512, .f32⟩ : BufTy).Contents (Elt F)),
    binary main_v179 main_v183 main_v184 (addf : (⟨S4x8x512x512, .f32⟩ : BufTy).Contents (Elt F) → (⟨S4x8x512x512, .f32⟩ : BufTy).Contents (Elt F) → (⟨S4x8x512x512, .f32⟩ : BufTy).Contents (Elt F)) ]

set_option maxRecDepth 65536 in
set_option maxHeartbeats 400000000 in
attribute [local irreducible] Host.reduce in
/-- @main is that line of operations: each printed operation, whose function is typed at the value's type and carried to
    the buffer's type, against the same function typed at the buffer's type — the two types are equal by computation, so the
    carrying is the identity. (The mask reduction is kept folded while the two are compared.) -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
/-- Every operation touches TensorCore buffers only. -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., unary_bufs_sub .., unary_bufs_sub .., binary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., unary_bufs_sub .., binary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., unary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., binary_bufs_sub .., unary_bufs_sub .., binary_bufs_sub .., binary_bufs_sub ..⟩

set_option maxRecDepth 65536 in
set_option maxHeartbeats 400000000 in
/-- After the line, the result buffer holds the last stage function of the two argument arrays. -/
theorem result_eq (m : (ℓ : Loc nD τ sig) → Buf (Elt F) ℓ) (c : Dev nD) :
    StableHlo.after (ops (F := F)) (fun b => m (c, b)) (Proc.devRef .tc main_v184)
      = Cert.ReferenceIdeal.ReadP.val_main_v184 (F := F) (m ((c.tc : Thread nD τ).loc main_arg0)) (m ((c.tc : Thread nD τ).loc main_arg1)) := by
  after_results_simp
  rfl

set_option maxRecDepth 65536 in
set_option maxHeartbeats 400000000 in
/-- On every device, from any memory with zero counters: every weakly fair execution of @main terminates with the result
    at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v184)
          = Cert.ReferenceIdeal.ReadP.val_main_v184 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v184).trans (result_eq m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.ValueP

end
-- ==== Proof.lean ====
/-
  The certificate of a trilinear interpolation: a feature volume `[4, 8, 128, 128, 128]` sampled at a grid of points
  `[4, 512, 512, 3]`. Both programs clip and scale the grid to voxel coordinates, take the floor and the fractional offsets
  `u, v, w`, clamp the eight neighbouring voxel numbers, gather the eight corner feature maps and blend them with the
  trilinear weights. The kernel gathers channels-last in its host code and leaves only the blend to the launched body, which
  works on blocks of 64 rows of one batch entry and multiplies corner by weight; the reference gathers channels-first and
  multiplies weight by corner. On the extended reals the two results are equal index by index, by commutativity of the
  product alone (`Bridge.result_eq`); no finiteness of the inputs is used. The three frames are the generated runs, and
  the kernel's idealization rewrote nothing.
-/
import proofs.«158492_j59906203845136_2_alg».proof.Defs
import proofs.«158492_j59906203845136_2_alg».proof.Proof.Gen.Kernel
import proofs.«158492_j59906203845136_2_alg».proof.Proof.Gen.Kernel.Skeleton
import proofs.«158492_j59906203845136_2_alg».proof.Proof.Gen.Kernel.Launch
import proofs.«158492_j59906203845136_2_alg».proof.Proof.Gen.Kernel.Points
import proofs.«158492_j59906203845136_2_alg».proof.Proof.Gen.Kernel.Frame
import proofs.«158492_j59906203845136_2_alg».proof.Proof.Gen.KernelIdeal
import proofs.«158492_j59906203845136_2_alg».proof.Proof.Gen.KernelIdeal.Skeleton
import proofs.«158492_j59906203845136_2_alg».proof.Proof.Gen.KernelIdeal.Launch
import proofs.«158492_j59906203845136_2_alg».proof.Proof.Gen.KernelIdeal.Points
import proofs.«158492_j59906203845136_2_alg».proof.Proof.Gen.KernelIdeal.Frame
import proofs.«158492_j59906203845136_2_alg».proof.Proof.Gen.ReferenceIdeal
import proofs.«158492_j59906203845136_2_alg».proof.Proof.Gen.Pre_finite_inputs
import proofs.«158492_j59906203845136_2_alg».proof.Proof.Gen.KernelIdeal.Value
import proofs.«158492_j59906203845136_2_alg».proof.Proof.Bridge
import proofs.«158492_j59906203845136_2_alg».proof.Proof.RefRun
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result dropped: it terminates and leaves its arguments as they were. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the two arguments both programs end with the blend of the eight gathered corners by the
    trilinear weights: the kernel's run names its result array as that blend of the window arrays, the reference's run names
    its result as its operations' term, and the two are one function of the arguments (`Bridge.result_eq`). -/
theorem algebraic : Cert.algebraic_KernelIdeal_ReferenceIdeal := by
  intro m ρ m' ρ' _ hagree
  refine ⟨_, Cert.KernelIdeal.Arr.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact (Cert.Proof.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
